-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128x10 .f32) (main_arg19 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x10 .f32 := Host.absf main_arg18
  let main_cst_30 : FVec F S_ .f32 := constant S_ .f32 0x7F800000#32
  let main_v80 : FVec F S128x10 .f32 := broadcastInDim S128x10 ![] bcast_S_S128x10 main_cst_30
  let main_v81 : IVec S128x10 1 := cmpf .olt main_v79 main_v80
  let main_c_31 : IVec S_ 1 := constantI S_ 1 1#1
  let main_v82 : IVec S_ 1 := (fun x v => Host.reduce IntOp.andi x v reducesTo_S128x10_S_d0_1 h_S_) main_v81 main_c_31
  let main_v83 : IVec S_ 1 := andi main_v78 main_v82
  let main_v84 : FVec F S10 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128x10 .f32) (main_arg19 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x10 .f32) (main_arg19 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x10 .f32) (main_arg19 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x10 .f32) (main_arg19 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2x128 : Shape := ⟨2, ![2, 128]⟩
abbrev S5000x128 : Shape := ⟨2, ![5000, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1x10 : Shape := ⟨2, ![1, 10]⟩
abbrev S1024x10 : Shape := ⟨2, ![1024, 10]⟩

abbrev nBuf : Space → Nat
  | .hbm => 156
  | .vmem => 58
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128x10, .f32⟩
  | 19 => ⟨S10, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128, .f32⟩
  | 38 => ⟨S50000x128, .f32⟩
  | 39 => ⟨S2x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S128, .f32⟩
  | 56 => ⟨S128, .f32⟩
  | 57 => ⟨S128, .f32⟩
  | 58 => ⟨S128, .f32⟩
  | 59 => ⟨S1x128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128, .f32⟩
  | 76 => ⟨S50000x128, .f32⟩
  | 77 => ⟨S2x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S_, .f32⟩
  | 91 => ⟨S128, .f32⟩
  | 92 => ⟨S128, .f32⟩
  | 93 => ⟨S128, .f32⟩
  | 94 => ⟨S128, .f32⟩
  | 95 => ⟨S128, .f32⟩
  | 96 => ⟨S128, .f32⟩
  | 97 => ⟨S1x128, .f32⟩
  | 98 => ⟨S1x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x128, .f32⟩
  | 114 => ⟨S50000x128, .f32⟩
  | 115 => ⟨S2x128, .f32⟩
  | 116 => ⟨S1x128, .f32⟩
  | 117 => ⟨S128, .f32⟩
  | 118 => ⟨S1x128, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S1x128, .f32⟩
  | 8 => ⟨S1x128, .f32⟩
  | 9 => ⟨S50000x128, .f32⟩
  | 10 => ⟨S_, .f32⟩
  | 11 => ⟨S1024x128, .f32⟩
  | 12 => ⟨S50000x1, .i32⟩
  | 13 => ⟨S1024x128, .f32⟩
  | 14 => ⟨S_, .f32⟩
  | 15 => ⟨S50000, .f32⟩
  | 16 => ⟨S_, .f32⟩
  | 17 => ⟨S1024, .f32⟩
  | 18 => ⟨S50000x1, .i32⟩
  | 19 => ⟨S1024, .f32⟩
  | 20 => ⟨S_, .f32⟩
  | 21 => ⟨S1024, .f32⟩
  | 22 => ⟨S1024, .f32⟩
  | 23 => ⟨S1024x1, .f32⟩
  | 24 => ⟨S1024x128, .f32⟩
  | 25 => ⟨S1024x128, .f32⟩
  | 26 => ⟨S1x10, .f32⟩
  | 27 => ⟨S1024x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S2x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S2x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S2x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1024x128, .f32⟩
  | .local _ .vmem, ⟨55, _⟩ => ⟨S128x10, .f32⟩
  | .local _ .vmem, ⟨56, _⟩ => ⟨S1x10, .f32⟩
  | .local _ .vmem, ⟨57, _⟩ => ⟨S1024x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15_0 : Ref sig .tc := ⟨.hbm, 38, rfl⟩
abbrev main_v15_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_v35 : Ref sig .tc := ⟨.hbm, 63, rfl⟩
abbrev main_v36 : Ref sig .tc := ⟨.hbm, 64, rfl⟩
abbrev main_c_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_10 : Ref sig .tc := ⟨.hbm, 100, rfl⟩
abbrev main_v66 : Ref sig .tc := ⟨.hbm, 101, rfl⟩
abbrev main_v67 : Ref sig .tc := ⟨.hbm, 102, rfl⟩
abbrev main_c_11 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77_0 : Ref sig .tc := ⟨.hbm, 114, rfl⟩
abbrev main_v77_1 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_17 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_19 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc4_stg6_0 : Ref sig .tc := ⟨.vmem, 45, rfl⟩
abbrev cc4_scratch0 : Ref sig .tc := ⟨.vmem, 46, rfl⟩
abbrev cc4_scratch1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg3_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40
abbrev cc4_sem6_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem1_0 : DmaSem sig := 49
abbrev cc6_sem2_0 : DmaSem sig := 50
abbrev cc6_sem3_0 : DmaSem sig := 51

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v36 : BitVec 1 := Scalar.cmpi .eq arg0 c9_i32
  let v37 : BitVec 32 := Scalar.extui v36
  let c0_i32_23 : BitVec 32 := 0#32
  let v38 : BitVec 1 := Scalar.cmpi .ne v37 c0_i32_23
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v36 : BitVec 1 := Scalar.cmpi .eq arg0 c9_i32
  let v37 : BitVec 32 := Scalar.extui v36
  let c0_i32_23 : BitVec 32 := 0#32
  let v38 : BitVec 1 := Scalar.cmpi .ne v37 c0_i32_23
  v38

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  shapeCasts_S1x128_S128 : S1x128.ShapeCasts S128
  slices_S2x128_S1x128_1_0 : S2x128.Slices ![1, 0] S1x128
  bcast_S_S128 : S_.BroadcastsInDim S128 (![] : Fin 0 → Fin S128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S10_S1x10 : S10.ShapeCasts S1x10
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x10_S1024x10_1_0_0_1_n_n_wf : DotDims.WF S1024x128 S128x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2x128.size a ≤ S2x128.size a
  hwx4_6 : ∀ i : grid4.Coords, EltTy.bits .f32 = 32 ∨ (Rect.block (s := S2x128) S2x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S1024x128.size a
  hwx6_0 : ∀ i : grid6.Coords, EltTy.bits .f32 = 32 ∨ (Rect.block (s := S1024x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x10.size a ≤ S1024x10.size a
  hwx6_3 : ∀ i : grid6.Coords, EltTy.bits .f32 = 32 ∨ (Rect.block (s := S1024x10) S1024x10.size (cc6_transform_3 i) (hinb6_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v46_1) S2x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v46_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v77_1) S2x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v77_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v108) S1024x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v110) S1024x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 239
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128x10, .f32⟩
  | 19 => ⟨S10, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S1024x128, .f32⟩
  | 93 => ⟨S50000x1, .i32⟩
  | 94 => ⟨S1024x128, .f32⟩
  | 95 => ⟨S_, .f32⟩
  | 96 => ⟨S50000, .f32⟩
  | 97 => ⟨S_, .f32⟩
  | 98 => ⟨S1024, .f32⟩
  | 99 => ⟨S50000x1, .i32⟩
  | 100 => ⟨S1024, .f32⟩
  | 101 => ⟨S_, .f32⟩
  | 102 => ⟨S1024, .f32⟩
  | 103 => ⟨S1024, .f32⟩
  | 104 => ⟨S1024x1, .f32⟩
  | 105 => ⟨S1024x128, .f32⟩
  | 106 => ⟨S1024x128, .f32⟩
  | 107 => ⟨S1024x10, .f32⟩
  | 108 => ⟨S1x10, .f32⟩
  | 109 => ⟨S1024x10, .f32⟩
  | 110 => ⟨S1024x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_call1_cst : Ref sig .tc := ⟨.hbm, 87, rfl⟩
abbrev main_call1_v0 : Ref sig .tc := ⟨.hbm, 88, rfl⟩
abbrev main_v39 : Ref sig .tc := ⟨.hbm, 89, rfl⟩
abbrev main_c_5 : Ref sig .tc := ⟨.hbm, 90, rfl⟩
abbrev main_v40 : Ref sig .tc := ⟨.hbm, 91, rfl⟩
abbrev main_v41 : Ref sig .tc := ⟨.hbm, 92, rfl⟩
abbrev main_c_6 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_7 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_8 : Ref sig .tc := ⟨.hbm, 109, rfl⟩
abbrev main_v56 : Ref sig .tc := ⟨.hbm, 110, rfl⟩
abbrev main_cst_9 : Ref sig .tc := ⟨.hbm, 111, rfl⟩
abbrev main_v57 : Ref sig .tc := ⟨.hbm, 112, rfl⟩
abbrev main_v58 : Ref sig .tc := ⟨.hbm, 113, rfl⟩
abbrev main_c_10 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_11 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call3_cst : Ref sig .tc := ⟨.hbm, 153, rfl⟩
abbrev main_call3_v0 : Ref sig .tc := ⟨.hbm, 154, rfl⟩
abbrev main_v75 : Ref sig .tc := ⟨.hbm, 155, rfl⟩
abbrev main_c_12 : Ref sig .tc := ⟨.hbm, 156, rfl⟩
abbrev main_v76 : Ref sig .tc := ⟨.hbm, 157, rfl⟩
abbrev main_v77 : Ref sig .tc := ⟨.hbm, 158, rfl⟩
abbrev main_c_13 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_cst_14 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_15 : Ref sig .tc := ⟨.hbm, 175, rfl⟩
abbrev main_v92 : Ref sig .tc := ⟨.hbm, 176, rfl⟩
abbrev main_cst_16 : Ref sig .tc := ⟨.hbm, 177, rfl⟩
abbrev main_v93 : Ref sig .tc := ⟨.hbm, 178, rfl⟩
abbrev main_v94 : Ref sig .tc := ⟨.hbm, 179, rfl⟩
abbrev main_c_17 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_cst_18 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_cst_19 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_cst_20 : Ref sig .tc := ⟨.hbm, 223, rfl⟩
abbrev main_v114 : Ref sig .tc := ⟨.hbm, 224, rfl⟩
abbrev main_cst_21 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_cst_22 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x128_S128x10_S1024x10_1_0_0_1_n_n_wf : DotDims.WF S1024x128 S128x10 S1024x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

class Facts : Prop extends Facts₀ where

variable [Facts]
-- ==== Proof.LibBatchNormAlgebra.lean ====
/-
  Batch normalisation on the extended reals, for finite data, and sums taken tile by tile.

  A column of a batch-normalised layer is a family of reals `x i` over a finite index type with `N` elements.
  Written `S = ∑ x i` and `Q = ∑ (x i)²`, the mean is `μ = S / N` and the (biased) variance has two textbook forms,
  the one by moments `Q / N - μ²` and the centred one `(∑ (x i - μ)²) / N`. They are the same real number, and it is
  nonnegative, so that adding a positive `ε` gives a positive number whose reciprocal square root is again a real.
  Hence the normalised value in its folded affine form `x · (γ · r) + (β - μ · (γ · r))` — the scale and the shift
  computed once per column — and in its centred form `(x - μ) · r · γ + β` agree, and both are finite.

  The statements are over `EReal` for coerced reals, with the quotient and the reciprocal square root of the ideal
  float instance (`Ideal.div`, `Ideal.rsqrt`), so that they rewrite terms as a printed program spells them.

  A second part is about sums: a sum over `T * R` rows is the sum over the `T` tiles of the sums inside each tile,
  and an accumulator that starts from `z` and adds one tile's sum per step ends at `z` plus the whole sum.
-/
import Mathlib.Data.EReal.Inv
import Mathlib.Algebra.BigOperators.Fin
import Mathlib.Tactic
import Idealize.ShloMosaic.PureOps.Ideal

noncomputable section

namespace BatchNormAlgebra

open Idealize.ShloMosaic

variable {ι : Type*} [Fintype ι]

/-! ## The real numbers a column determines -/

/-- The mean `(∑ x i) / N`. -/
def mean (x : ι → ℝ) (N : ℝ) : ℝ := (∑ i, x i) / N

/-- The variance by moments, `(∑ (x i)²) / N - μ²`. -/
def varMoments (x : ι → ℝ) (N : ℝ) : ℝ := (∑ i, x i * x i) / N - mean x N * mean x N

/-- The centred variance, `(∑ (x i - μ)²) / N`. -/
def varCentred (x : ι → ℝ) (N : ℝ) : ℝ := (∑ i, (x i - mean x N) * (x i - mean x N)) / N

/-- The two forms of the variance are one number when `N` is the number of terms: expanding the square,
    `∑ (x i - μ)² = Q - 2 μ S + N μ² = Q - S² / N`. -/
theorem varMoments_eq_varCentred (x : ι → ℝ) {N : ℝ} (hN : N ≠ 0) (hcard : (Fintype.card ι : ℝ) = N) :
    varMoments x N = varCentred x N := by
  unfold varMoments varCentred
  have hsq : ∀ i, (x i - mean x N) * (x i - mean x N)
      = x i * x i - 2 * mean x N * x i + mean x N * mean x N := fun i => by ring
  simp only [hsq]
  rw [Finset.sum_add_distrib, Finset.sum_sub_distrib, ← Finset.mul_sum, Finset.sum_const, Finset.card_univ,
    nsmul_eq_mul, hcard]
  unfold mean
  field_simp
  ring

/-- A centred variance over a positive count is nonnegative: a sum of squares. -/
theorem varCentred_nonneg (x : ι → ℝ) {N : ℝ} (hN : 0 < N) : 0 ≤ varCentred x N :=
  div_nonneg (Finset.sum_nonneg fun i _ => mul_self_nonneg _) hN.le

/-! ## Coercions -/

/-- The coercion of a finite sum of reals is the sum of the coercions. -/
theorem coe_sum {κ : Type*} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real, at the ideal instance, is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- The quotient of a finite sum of coerced reals by a nonzero real is the coerced mean. -/
theorem div_sum_coe (x : ι → ℝ) {N : ℝ} (hN : N ≠ 0) :
    Ideal.div (∑ i, (x i : EReal)) (N : EReal) = ((mean x N : ℝ) : EReal) := by
  rw [Ideal.div_coe hN, ← coe_sum, ← EReal.coe_mul, mean]
  congr 1
  ring

/-- The variance by moments, spelt on the extended reals, is the coerced real. -/
theorem moments_coe (x : ι → ℝ) {N : ℝ} (hN : N ≠ 0) :
    Ideal.div (∑ i, (x i : EReal) * (x i : EReal)) (N : EReal)
        - ((mean x N : ℝ) : EReal) * ((mean x N : ℝ) : EReal)
      = ((varMoments x N : ℝ) : EReal) := by
  have hQ : ∑ i, (x i : EReal) * (x i : EReal) = ((∑ i, x i * x i : ℝ) : EReal) := by
    rw [coe_sum]
    exact Finset.sum_congr rfl fun i _ => (EReal.coe_mul _ _).symm
  rw [hQ, Ideal.div_coe hN, ← EReal.coe_mul, ← EReal.coe_mul, ← EReal.coe_sub, varMoments]
  congr 1
  ring

/-- The centred variance, spelt on the extended reals, is the coerced real. -/
theorem centred_coe (x : ι → ℝ) {N : ℝ} (hN : N ≠ 0) :
    Ideal.div (∑ i, ((x i : EReal) - ((mean x N : ℝ) : EReal)) * ((x i : EReal) - ((mean x N : ℝ) : EReal)))
        (N : EReal)
      = ((varCentred x N : ℝ) : EReal) := by
  have hC : ∑ i, ((x i : EReal) - ((mean x N : ℝ) : EReal)) * ((x i : EReal) - ((mean x N : ℝ) : EReal))
      = ((∑ i, (x i - mean x N) * (x i - mean x N) : ℝ) : EReal) := by
    rw [coe_sum]
    exact Finset.sum_congr rfl fun i _ => by rw [← EReal.coe_sub, ← EReal.coe_mul]
  rw [hC, Ideal.div_coe hN, ← EReal.coe_mul, varCentred]
  congr 1
  ring

/-! ## The normalised value -/

/-- The centred form of the normalised value is a real. -/
theorem centred_form_coe (x : ι → ℝ) {N ε : ℝ} (γ β : ℝ) (hN : 0 < N) (hε : 0 < ε) (j : ι) :
    ((x j : EReal) - ((mean x N : ℝ) : EReal)) * Ideal.rsqrt (((varCentred x N : ℝ) : EReal) + (ε : EReal))
        * (γ : EReal) + (β : EReal)
      = (((x j - mean x N) * (Real.sqrt (varCentred x N + ε))⁻¹ * γ + β : ℝ) : EReal) := by
  have hpos : 0 < varCentred x N + ε := add_pos_of_nonneg_of_pos (varCentred_nonneg x hN) hε
  rw [← EReal.coe_add, rsqrt_coe_pos hpos, ← EReal.coe_sub, ← EReal.coe_mul, ← EReal.coe_mul, ← EReal.coe_add]

/-- The folded affine form `x · (γ · r) + (β - μ · (γ · r))`, with the variance by moments inside `r`, is the centred
    form `(x - μ) · r · γ + β` with the centred variance inside `r`. -/
theorem folded_eq_centred (x : ι → ℝ) {N ε : ℝ} (γ β : ℝ) (hN : 0 < N) (hcard : (Fintype.card ι : ℝ) = N)
    (hε : 0 < ε) (j : ι) :
    (x j : EReal) * ((γ : EReal) * Ideal.rsqrt (((varMoments x N : ℝ) : EReal) + (ε : EReal)))
        + ((β : EReal) - ((mean x N : ℝ) : EReal)
            * ((γ : EReal) * Ideal.rsqrt (((varMoments x N : ℝ) : EReal) + (ε : EReal))))
      = ((x j : EReal) - ((mean x N : ℝ) : EReal)) * Ideal.rsqrt (((varCentred x N : ℝ) : EReal) + (ε : EReal))
          * (γ : EReal) + (β : EReal) := by
  have hpos : 0 < varCentred x N + ε := add_pos_of_nonneg_of_pos (varCentred_nonneg x hN) hε
  rw [varMoments_eq_varCentred x hN.ne' hcard, ← EReal.coe_add, rsqrt_coe_pos hpos]
  simp only [← EReal.coe_mul, ← EReal.coe_sub, ← EReal.coe_add]
  congr 1
  ring

/-- The positive part of a real, taken on the extended reals against the coerced zero, is the coerced positive part. -/
theorem max_coe_zero (a : ℝ) : max (a : EReal) ((0 : ℝ) : EReal) = ((max a 0 : ℝ) : EReal) :=
  (EReal.coe_strictMono.monotone.map_max (a := a) (b := 0)).symm

/-! ## Sums tile by tile -/

/-- A sum over `T * R` rows is the sum over the `T` tiles of the sums over the `R` rows of each tile; row `r` of
    tile `t` is row `r + R * t`. -/
theorem sum_tiles {M : Type*} [AddCommMonoid M] (T R : ℕ) (f : Fin (T * R) → M) :
    ∑ i, f i = ∑ t : Fin T, ∑ r : Fin R, f (finProdFinEquiv (t, r)) := by
  rw [← Fintype.sum_prod_type', ← Equiv.sum_comp finProdFinEquiv f]

/-- The row of `finProdFinEquiv (t, r)`. -/
theorem tile_row_val (T R : ℕ) (t : Fin T) (r : Fin R) :
    (finProdFinEquiv (t, r) : Fin (T * R)).val = r.val + R * t.val := rfl

/-- An accumulator that starts at `z` and adds `a t` at step `t`. -/
def accum {M : Type*} [AddCommMonoid M] (z : M) (a : ℕ → M) : ℕ → M
  | 0 => z
  | n + 1 => accum z a n + a n

/-- After `n` steps the accumulator holds its start plus the sum of what the steps added. -/
theorem accum_eq {M : Type*} [AddCommMonoid M] (z : M) (a : ℕ → M) (n : ℕ) :
    accum z a n = z + ∑ t ∈ Finset.range n, a t := by
  induction n with
  | zero => simp [accum]
  | succ n ih => rw [accum, ih, Finset.sum_range_succ, add_assoc]

end BatchNormAlgebra

end
-- ==== Proof.LibRowLayout.lean ====
/-
  Row vectors on the host, read at an index given by coordinates.

  A per-column quantity of an `[R, C]` array — a column's sum, its mean, a scale — lives in a `[C]` vector. The host
  lifts it to `[1, C]` and repeats that one row over the `R` rows (two `broadcast_in_dim`s), and it spreads a
  rank-zero constant over any shape. Each of these, read at `(p, c)`, is the vector at `c` (or the constant), and the
  host's sum of an `[R, C]` array over its rows, read at column `c`, is the initial value plus the sum over `p` of the
  array at `(p, c)`; a kernel's lane-wise sum of an `[R, C]` block over its rows reads the same sum, with no
  initial value.
-/
import Idealize.ShloMosaic.Lib.ValueIdx
import Idealize.ShloMosaic.Lib.Pipeline.Value
import Idealize.ShloMosaic.PureOps.Ideal.Laws

noncomputable section

namespace RowLayout

open Idealize.ShloMosaic Idealize.ShloMosaic.ValueIdx

variable {α : Type}

/-- A `[b]` vector lifted to `[1, b]` along the last axis reads, at `(u, c)`, the vector at `c`. -/
theorem liftRow_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- A `[1, b]` row repeated over `a` rows reads, at `(p, c)`, the row at `c`. -/
theorem repeatRow_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

/-- A rank-zero value spread over any shape reads that value everywhere. -/
theorem spread_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply (![] : Fin 0 → Fin t.rank) h x j ix0 fun ax => ax.elim0

/-- The host's sum of an `[R, C]` array over its rows, read at column `c`: the initial value plus the sum over the rows. -/
theorem hostColSum_apply {R C : ℕ} {φ : FTy} (x : FVec Ideal ⟨2, ![R, C]⟩ φ) (z : (⟨0, ![]⟩ : Shape).Idx → Ideal φ)
    (h' : (⟨2, ![R, C]⟩ : Shape).ReducesTo [0] ⟨1, ![C]⟩) (hu : 0 < (⟨0, ![]⟩ : Shape).numel) (c : Fin C) :
    Host.reduceAdd (F := Ideal) x z h' hu (ix1 c) = z ix0 + ∑ p : Fin R, x (ix2 p c) := by
  have h : (⟨2, ![R, C]⟩ : Shape).Reduces [0] ⟨1, ![C]⟩ := by
    obtain ⟨h1, h2⟩ := h'
    exact ⟨h1, Nat.one_pos, h2⟩
  have hz : z (Shape.Idx.first hu) = z ix0 := congrArg z (funext fun a => a.elim0)
  show Ideal.hostReduceAdd h' x (z (Shape.Idx.first hu)) (ix1 c) = _
  rw [Ideal.hostReduceAdd_single h' h, hz]
  refine congrArg (z ix0 + ·) ?_
  show ∑ p : Fin R, x (h.lift (ix1 c) p) = ∑ p : Fin R, x (ix2 p c)
  refine Finset.sum_congr rfl fun p _ => congrArg x (funext fun ax => Fin.ext ?_)
  match ax with
  | ⟨0, _⟩ => rfl
  | ⟨1, _⟩ => rfl

/-- A lane-wise sum (`vector.multi_reduction <add>`) of an `[R, C]` block over its rows, read at column `c`: the sum over
    the rows. -/
theorem laneColSum_apply {R C : ℕ} {φ : FTy} (src : FVec Ideal ⟨2, ![R, C]⟩ φ) (acc : BitVec φ.bits)
    (h : (⟨2, ![R, C]⟩ : Shape).Reduces [0] ⟨1, ![C]⟩) (hφ : FKind.Formats φ) (hacc : acc = FKind.add.neutral φ hφ)
    (c : Fin C) :
    multiReduction .add [0] ⟨1, ![C]⟩ src acc h hφ hacc (ix1 c) = ∑ p : Fin R, src (ix2 p c) := by
  refine (Ideal.multiReduction_add_single src acc h hφ hacc (ix1 c)).trans ?_
  show ∑ p : Fin R, src (h.lift (ix1 c) p) = ∑ p : Fin R, src (ix2 p c)
  refine Finset.sum_congr rfl fun p _ => congrArg src (funext fun ax => Fin.ext ?_)
  match ax with
  | ⟨0, _⟩ => rfl
  | ⟨1, _⟩ => rfl

end RowLayout

end
-- ==== Proof.Consts.lean ====
/-
  The float constants the two programs spell in their batch normalisation, as the extended reals their
  patterns denote at the ideal instance: the row count `50000`, by which the column sums are divided, and the
  stabiliser `ε` added to the variance, the dyadic rational `10995116 / 2^40` (the float nearest to `1e-5`),
  which is positive. Stated once here, so that no other module unfolds a bit pattern.
-/
import Idealize.ShloMosaic.PureOps.Ideal

noncomputable section

namespace Cert.Consts

open Idealize.ShloMosaic

/-- The stabiliser added to the variance, as a real number. -/
def eps : ℝ := 10995116 / 2 ^ 40

theorem eps_pos : 0 < eps := by unfold eps; positivity

/-- `5.0e4` denotes the real `50000`. -/
theorem ofBits_50000 : Ideal.ofBits .f32 0x47435000#32 = ((50000 : ℝ) : EReal) := by
  simp [Ideal.ofBits, Ideal.ieee, -EReal.coe_mul]; norm_num

/-- `9.99999974e-6` denotes `eps`. -/
theorem ofBits_eps : Ideal.ofBits .f32 0x3727C5AC#32 = ((eps : ℝ) : EReal) := by
  unfold eps
  simp [Ideal.ofBits, Ideal.ieee, -EReal.coe_mul]; norm_num

end Cert.Consts

end
-- ==== Proof.RefNorm.lean ====
/-
  The reference's batch normalisation, as pure functions of the array it normalises, read at an index.

  For an `[50000, 128]` array `x` the reference computes per column `q` the mean `μ_q = (∑_p x[p,q]) / 50000`, the
  centred variance `v_q = (∑_p (x[p,q] - μ_q)²) / (50000 - ddof)` with `ddof = 0` (kept only where that divisor is
  positive, which it is), and returns `(x[p,q] - μ_q) · rsqrt (v_q + ε) · γ_q + β_q`. The definitions below are the
  operations the printed program applies, in its order and with its constants; the theorems say that on finite data
  each is the coerced real number of `BatchNormAlgebra`: the mean, the centred variance, and the normalised value.
-/
import proofs.«140440_j51049981280319_1_alg».proof.ReferenceIdeal
import proofs.«140440_j51049981280319_1_alg».proof.Proof.LibBatchNormAlgebra
import proofs.«140440_j51049981280319_1_alg».proof.Proof.LibRowLayout
import proofs.«140440_j51049981280319_1_alg».proof.Proof.Consts

noncomputable section

namespace Cert.ReferenceIdeal.Norm

open Idealize.ShloMosaic Idealize.ShloMosaic.ValueIdx
open Cert.ReferenceIdeal Cert.ReferenceIdeal.Facts₀

variable [Cert.ReferenceIdeal.Facts]

/-! ## The operations, as the program spells them -/

/-- The rank-zero zero a host sum starts from. -/
def zero0 : FVec Ideal S_ .f32 := constant (F := Ideal) S_ .f32 0x00000000#32
/-- The rank-zero row count. -/
def count0 : FVec Ideal S_ .f32 := constant (F := Ideal) S_ .f32 0x47435000#32
/-- The rank-zero stabiliser. -/
def eps0 : FVec Ideal S_ .f32 := constant (F := Ideal) S_ .f32 0x3727C5AC#32

/-- A `[128]` vector as one row, repeated over the 50000 rows. -/
def overRows (v : FVec Ideal S128 .f32) : FVec Ideal S50000x128 .f32 :=
  broadcastInDim S50000x128 ![0, 1] bcast_S1x128_S50000x128_0_1 (broadcastInDim S1x128 ![1] bcast_S128_S1x128_1 v)

/-- The column sums. -/
def colSum (x : FVec Ideal S50000x128 .f32) : FVec Ideal S128 .f32 :=
  Host.reduceAdd (F := Ideal) x zero0 reducesTo_S50000x128_S128_d0 h_S_

/-- The column means, as `jnp.mean` prints: the sums divided by the spread count. -/
def mean (x : FVec Ideal S50000x128 .f32) : FVec Ideal S128 .f32 :=
  Host.divf (F := Ideal) (colSum x) (broadcastInDim S128 ![] bcast_S_S128 count0)

/-- The array minus its column means, as `jnp.var` prints it: the sums lifted to a row, divided by the spread
    count, repeated over the rows and subtracted. -/
def centred (x : FVec Ideal S50000x128 .f32) : FVec Ideal S50000x128 .f32 :=
  subf x (broadcastInDim S50000x128 ![0, 1] bcast_S1x128_S50000x128_0_1
    (Host.divf (F := Ideal) (broadcastInDim S1x128 ![1] bcast_S128_S1x128_1 (colSum x))
      (broadcastInDim S1x128 ![] bcast_S_S1x128 count0)))

/-- The divisor of the variance: the count minus the degrees of freedom given up. -/
def divisor (ddof : IVec S_ 32) : FVec Ideal S_ .f32 := subf count0 (sitofp .f32 ddof)

/-- The column variances, as `jnp.var` prints: the sums of the squared centred values over the divisor, kept where
    the divisor is positive. -/
def variance (x : FVec Ideal S50000x128 .f32) (ddof : IVec S_ 32) : FVec Ideal S128 .f32 :=
  select (broadcastInDim S128 ![] bcast_S_S128 (cmpf .ogt (divisor ddof) zero0))
    (Host.divf (F := Ideal)
      (Host.reduceAdd (F := Ideal) (mulf (centred x) (centred x)) zero0 reducesTo_S50000x128_S128_d0 h_S_)
      (broadcastInDim S128 ![] bcast_S_S128 (divisor ddof)))
    (broadcastInDim S128 ![] bcast_S_S128 (id (constant (F := Ideal) S_ .f32 0x7FC00000#32)))

/-- The normalised array: centred, scaled by the reciprocal standard deviation, then by `γ`, shifted by `β`. -/
def normalised (x : FVec Ideal S50000x128 .f32) (ddof : IVec S_ 32) (γ β : FVec Ideal S128 .f32) :
    FVec Ideal S50000x128 .f32 :=
  addf (mulf (mulf (subf x (overRows (mean x)))
      (overRows (Host.rsqrt (F := Ideal) (addf (variance x ddof) (broadcastInDim S128 ![] bcast_S_S128 eps0)))))
    (overRows γ)) (overRows β)

/-! ## Read at an index -/

theorem zero0_apply : zero0 ix0 = 0 := Ideal.ofBits_zero_f32
theorem count0_apply : count0 ix0 = ((50000 : ℝ) : EReal) := Cert.Consts.ofBits_50000
theorem eps0_apply : eps0 ix0 = ((Cert.Consts.eps : ℝ) : EReal) := Cert.Consts.ofBits_eps

/-- A vector repeated over the rows reads, at `(p, q)`, the vector at `q`. -/
theorem overRows_apply (v : FVec Ideal S128 .f32) (p : Fin 50000) (q : Fin 128) :
    overRows v (ix2 p q) = v (ix1 q) := by
  unfold overRows
  rw [RowLayout.repeatRow_apply, RowLayout.liftRow_apply]

/-- A column's sum is the sum over the rows. -/
theorem colSum_apply (x : FVec Ideal S50000x128 .f32) (q : Fin 128) :
    colSum x (ix1 q) = ∑ p : Fin 50000, x (ix2 p q) := by
  unfold colSum
  rw [RowLayout.hostColSum_apply, zero0_apply, zero_add]

/-- With no degree of freedom given up the divisor is the count, `50000`. -/
theorem divisor_zero_apply : divisor (constantI S_ 32 0#32) ix0 = ((50000 : ℝ) : EReal) := by
  show count0 ix0 - ((((0#32 : BitVec 32).toInt : ℝ)) : EReal) = _
  rw [count0_apply]
  simp

section Finite

variable (x : FVec Ideal S50000x128 .f32) (X : Fin 50000 → Fin 128 → ℝ)
  (hx : ∀ p q, x (ix2 p q) = ((X p q : ℝ) : EReal))

include hx

/-- On finite data a column's mean is the coerced real mean. -/
theorem mean_apply (q : Fin 128) :
    mean x (ix1 q) = ((BatchNormAlgebra.mean (fun p => X p q) 50000 : ℝ) : EReal) := by
  show Ideal.div (colSum x (ix1 q)) (broadcastInDim S128 ![] bcast_S_S128 count0 (ix1 q)) = _
  rw [colSum_apply, RowLayout.spread_apply, count0_apply]
  simp only [hx]
  exact BatchNormAlgebra.div_sum_coe (fun p => X p q) (by norm_num)

/-- On finite data the centred array at `(p, q)` is the coerced real `X p q - μ_q`. -/
theorem centred_apply (p : Fin 50000) (q : Fin 128) :
    centred x (ix2 p q) = (X p q : EReal) - ((BatchNormAlgebra.mean (fun p => X p q) 50000 : ℝ) : EReal) := by
  show x (ix2 p q) - broadcastInDim S50000x128 ![0, 1] bcast_S1x128_S50000x128_0_1
    (Host.divf (F := Ideal) (broadcastInDim S1x128 ![1] bcast_S128_S1x128_1 (colSum x))
      (broadcastInDim S1x128 ![] bcast_S_S1x128 count0)) (ix2 p q) = _
  rw [RowLayout.repeatRow_apply, hx]
  show _ - Ideal.div (broadcastInDim S1x128 ![1] bcast_S128_S1x128_1 (colSum x) (ix2 (0 : Fin 1) q))
    (broadcastInDim S1x128 ![] bcast_S_S1x128 count0 (ix2 (0 : Fin 1) q)) = _
  rw [RowLayout.liftRow_apply, colSum_apply, RowLayout.spread_apply, count0_apply]
  simp only [hx]
  rw [BatchNormAlgebra.div_sum_coe (fun p => X p q) (by norm_num)]

/-- On finite data, with no degree of freedom given up, a column's variance is the coerced centred variance. -/
theorem variance_apply (q : Fin 128) :
    variance x (constantI S_ 32 0#32) (ix1 q)
      = ((BatchNormAlgebra.varCentred (fun p => X p q) 50000 : ℝ) : EReal) := by
  unfold variance
  rw [select_apply, RowLayout.spread_apply, cmpf_apply, divisor_zero_apply, zero0_apply]
  have hpos : FloatOps.cmpf (F := Ideal) (φ := .f32) .ogt ((50000 : ℝ) : EReal) 0 = 1#1 := by
    rw [Ideal.cmpf_def]
    simp [Ideal.cmp]
  rw [hpos, select_one]
  show Ideal.div (Host.reduceAdd (F := Ideal) (mulf (centred x) (centred x)) zero0 reducesTo_S50000x128_S128_d0 h_S_ (ix1 q))
    (broadcastInDim S128 ![] bcast_S_S128 (divisor (constantI S_ 32 0#32)) (ix1 q)) = _
  rw [RowLayout.hostColSum_apply, zero0_apply, zero_add, RowLayout.spread_apply, divisor_zero_apply]
  simp only [mulf_apply, centred_apply x X hx]
  exact BatchNormAlgebra.centred_coe (fun p => X p q) (by norm_num)

/-- On finite data the normalised value at `(p, q)` is a real: `(X p q - μ_q) · (√(v_q + ε))⁻¹ · Γ_q + B_q`. -/
theorem normalised_apply (γ β : FVec Ideal S128 .f32) (Γ B : Fin 128 → ℝ)
    (hγ : ∀ q, γ (ix1 q) = ((Γ q : ℝ) : EReal)) (hβ : ∀ q, β (ix1 q) = ((B q : ℝ) : EReal))
    (p : Fin 50000) (q : Fin 128) :
    normalised x (constantI S_ 32 0#32) γ β (ix2 p q)
      = (((X p q - BatchNormAlgebra.mean (fun p => X p q) 50000)
            * (Real.sqrt (BatchNormAlgebra.varCentred (fun p => X p q) 50000 + Cert.Consts.eps))⁻¹ * Γ q + B q : ℝ)
          : EReal) := by
  unfold normalised
  simp only [addf_apply, mulf_apply, subf_apply, overRows_apply]
  show (x (ix2 p q) - mean x (ix1 q))
      * Ideal.rsqrt (variance x (constantI S_ 32 0#32) (ix1 q) + broadcastInDim S128 ![] bcast_S_S128 eps0 (ix1 q))
      * γ (ix1 q) + β (ix1 q) = _
  rw [hx, mean_apply x X hx, variance_apply x X hx, RowLayout.spread_apply, eps0_apply, hγ, hβ]
  exact BatchNormAlgebra.centred_form_coe (fun p => X p q) (Γ q) (B q) (by norm_num) Cert.Consts.eps_pos p

end Finite

end Cert.ReferenceIdeal.Norm

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.LibFiniteArrays.lean ====
/-
  Arrays of finite numbers stay finite.

  An array over the extended reals is called real-valued when every entry is the coercion of a real number. A finite sum
  of products of real-valued families is real-valued (so a matrix product of real-valued arrays is), a gather of a
  real-valued array is, an accumulating scatter of real-valued updates into a real-valued array is, and so are entrywise
  sums, differences, products and the positive part. These are what carries finiteness of the inputs through a network's
  layers, where the algebraic laws that join two forms of a normalisation need it.
-/
import Idealize.ShloMosaic.PureOps.Ideal.Laws
import Mathlib.Data.EReal.Inv

noncomputable section

namespace FiniteArrays

open Idealize.ShloMosaic

/-- Every entry is the coercion of a real number. -/
def IsReal {ι : Type*} (f : ι → EReal) : Prop := ∀ i, ∃ r : ℝ, f i = (r : EReal)

/-- A real-valued array is the coercion of an array of reals. -/
theorem IsReal.exists_fun {ι : Type*} {f : ι → EReal} (h : IsReal f) : ∃ g : ι → ℝ, ∀ i, f i = ((g i : ℝ) : EReal) :=
  ⟨fun i => (h i).choose, fun i => (h i).choose_spec⟩

theorem isReal_of_fun {ι : Type*} {f : ι → EReal} (g : ι → ℝ) (h : ∀ i, f i = ((g i : ℝ) : EReal)) : IsReal f :=
  fun i => ⟨g i, h i⟩

/-- The coercion of a finite sum of reals is the sum of the coercions. -/
theorem coe_finset_sum {κ : Type*} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real-valued terms is a real. -/
theorem sum_isReal {κ : Type*} (s : Finset κ) (a : κ → EReal) (ha : IsReal a) : ∃ r : ℝ, ∑ k ∈ s, a k = (r : EReal) := by
  obtain ⟨A, hA⟩ := ha.exists_fun
  exact ⟨∑ k ∈ s, A k, by rw [coe_finset_sum]; exact Finset.sum_congr rfl fun k _ => hA k⟩

/-- A finite sum of products of two families of coerced reals is the coerced sum of the real products. -/
theorem sum_mul_coe {κ : Type*} [Fintype κ] (a b : κ → EReal) (A B : κ → ℝ)
    (ha : ∀ k, a k = ((A k : ℝ) : EReal)) (hb : ∀ k, b k = ((B k : ℝ) : EReal)) :
    ∑ k, a k * b k = ((∑ k, A k * B k : ℝ) : EReal) := by
  rw [coe_finset_sum]
  exact Finset.sum_congr rfl fun k _ => by rw [ha, hb, EReal.coe_mul]

theorem IsReal.add {ι : Type*} {f g : ι → EReal} (hf : IsReal f) (hg : IsReal g) : IsReal fun i => f i + g i := fun i => by
  obtain ⟨a, ha⟩ := hf i; obtain ⟨b, hb⟩ := hg i
  exact ⟨a + b, by show f i + g i = _; rw [ha, hb, EReal.coe_add]⟩

theorem IsReal.sub {ι : Type*} {f g : ι → EReal} (hf : IsReal f) (hg : IsReal g) : IsReal fun i => f i - g i := fun i => by
  obtain ⟨a, ha⟩ := hf i; obtain ⟨b, hb⟩ := hg i
  exact ⟨a - b, by show f i - g i = _; rw [ha, hb, EReal.coe_sub]⟩

theorem IsReal.mul {ι : Type*} {f g : ι → EReal} (hf : IsReal f) (hg : IsReal g) : IsReal fun i => f i * g i := fun i => by
  obtain ⟨a, ha⟩ := hf i; obtain ⟨b, hb⟩ := hg i
  exact ⟨a * b, by show f i * g i = _; rw [ha, hb, EReal.coe_mul]⟩

theorem IsReal.max_zero {ι : Type*} {f : ι → EReal} (hf : IsReal f) : IsReal fun i => max (f i) 0 := fun i => by
  obtain ⟨a, ha⟩ := hf i
  exact ⟨max a 0, by show max (f i) 0 = _; rw [ha, ← EReal.coe_zero]; exact (EReal.coe_strictMono.monotone.map_max (a := a) (b := 0)).symm⟩

/-- A gather of a real-valued array is real-valued: each entry is an entry of the operand. -/
theorem isReal_gather {s si t : Shape} {w : Nat} (d : GatherDims s si t) (x : s.Idx → EReal) (idx : IVec si w)
    (hx : IsReal x) : IsReal (Host.gather d x idx) := fun j => hx _

/-- An accumulating scatter of real-valued updates into a real-valued array is real-valued: each entry is the operand's
    plus a finite sum of updates. -/
theorem isReal_scatterAdd {s si su : Shape} {φ : FTy} {w : Nat} (d : ScatterDims s si su) (x : FVec Ideal s φ)
    (idx : IVec si w) (upd : FVec Ideal su φ) (hx : IsReal x) (hu : IsReal upd) :
    IsReal (Host.scatterAdd (F := Ideal) d x idx upd) := fun i => by
  obtain ⟨a, ha⟩ := hx i
  obtain ⟨b, hb⟩ := sum_isReal (Finset.univ.filter fun j => d.resultIdx? j idx = some i) upd hu
  refine ⟨a + b, ?_⟩
  show x i + ∑ j ∈ Finset.univ.filter (fun j => d.resultIdx? j idx = some i), upd j = _
  rw [ha, hb, EReal.coe_add]

end FiniteArrays

end
-- ==== Proof.RefLinear.lean ====
/-
  The reference's linear map of a layer and its positive part, read at an index.

  `lin[p, q] = ∑_k h[p, k] · w_root[k, q] + ∑_k agg[p, k] · w_rel[k, q] + b[q]` for the layer's input `h` and the
  neighbourhood sums `agg`, both `[50000, 128]`; on real-valued data it is the coerced real of the same formula. The
  positive part is the maximum with a spread zero.
-/
import proofs.«140440_j51049981280319_1_alg».proof.ReferenceIdeal
import proofs.«140440_j51049981280319_1_alg».proof.Proof.RefNorm
import proofs.«140440_j51049981280319_1_alg».proof.Proof.LibDotNN
import proofs.«140440_j51049981280319_1_alg».proof.Proof.LibFiniteArrays

noncomputable section

namespace Cert.ReferenceIdeal.Linear

open Idealize.ShloMosaic Idealize.ShloMosaic.ValueIdx
open Cert.ReferenceIdeal Cert.ReferenceIdeal.Facts₀

variable [Cert.ReferenceIdeal.Facts]

/-- The linear map, as the program spells it. -/
def linear (h agg : FVec Ideal S50000x128 .f32) (wr wl : FVec Ideal S128x128 .f32) (b : FVec Ideal S128 .f32) :
    FVec Ideal S50000x128 .f32 :=
  addf (addf (Host.dotGeneral (F := Ideal) dot_S50000x128_S128x128_S50000x128_1_0_0_1_n_n none h wr)
      (Host.dotGeneral (F := Ideal) dot_S50000x128_S128x128_S50000x128_1_0_0_1_n_n none agg wl))
    (Norm.overRows b)

/-- The positive part, as the program spells it. -/
def relu (x : FVec Ideal S50000x128 .f32) : FVec Ideal S50000x128 .f32 :=
  maximumf x (broadcastInDim S50000x128 ![] bcast_S_S50000x128 Norm.zero0)

theorem linear_apply (h agg : FVec Ideal S50000x128 .f32) (wr wl : FVec Ideal S128x128 .f32) (b : FVec Ideal S128 .f32)
    (p : Fin 50000) (q : Fin 128) :
    linear h agg wr wl b (ix2 p q)
      = (∑ k : Fin 128, h (ix2 p k) * wr (ix2 k q)) + (∑ k : Fin 128, agg (ix2 p k) * wl (ix2 k q)) + b (ix1 q) := by
  unfold linear
  rw [addf_apply, addf_apply, Norm.overRows_apply, Cert.LibDotNN.dotGeneral_apply dot_S50000x128_S128x128_S50000x128_1_0_0_1_n_n rfl,
    Cert.LibDotNN.dotGeneral_apply dot_S50000x128_S128x128_S50000x128_1_0_0_1_n_n rfl]

theorem relu_apply (x : FVec Ideal S50000x128 .f32) (i : S50000x128.Idx) : relu x i = max (x i) 0 := by
  unfold relu
  rw [maximumf_apply, RowLayout.spread_apply, Norm.zero0_apply]

/-- On real-valued data the linear map is the coerced real of the same formula. -/
theorem linear_coe (h agg : FVec Ideal S50000x128 .f32) (wr wl : FVec Ideal S128x128 .f32) (b : FVec Ideal S128 .f32)
    (H A : Fin 50000 → Fin 128 → ℝ) (WR WL : Fin 128 → Fin 128 → ℝ) (Bv : Fin 128 → ℝ)
    (hh : ∀ p k, h (ix2 p k) = ((H p k : ℝ) : EReal)) (ha : ∀ p k, agg (ix2 p k) = ((A p k : ℝ) : EReal))
    (hwr : ∀ k q, wr (ix2 k q) = ((WR k q : ℝ) : EReal)) (hwl : ∀ k q, wl (ix2 k q) = ((WL k q : ℝ) : EReal))
    (hb : ∀ q, b (ix1 q) = ((Bv q : ℝ) : EReal)) (p : Fin 50000) (q : Fin 128) :
    linear h agg wr wl b (ix2 p q)
      = (((∑ k : Fin 128, H p k * WR k q) + (∑ k : Fin 128, A p k * WL k q) + Bv q : ℝ) : EReal) := by
  rw [linear_apply, FiniteArrays.sum_mul_coe _ _ (fun k => H p k) (fun k => WR k q) (fun k => hh p k) (fun k => hwr k q),
    FiniteArrays.sum_mul_coe _ _ (fun k => A p k) (fun k => WL k q) (fun k => ha p k) (fun k => hwl k q), hb,
    ← EReal.coe_add, ← EReal.coe_add]

end Cert.ReferenceIdeal.Linear

end
-- ==== Proof.KerNorm.lean ====
/-
  The kernel's batch normalisation, as pure functions, read at an index.

  The kernel's first region of a layer leaves, beside the linear map's output `x` (`[50000, 128]`), a `[2, 128]` array of
  column statistics: row 0 the sums `S_q = ∑_p x[p,q]`, row 1 the sums of squares `Q_q = ∑_p x[p,q]²`. The host then forms,
  per column, `μ_q = S_q / 50000`, the variance by moments `Q_q / 50000 - μ_q²`, the scale `γ_q · rsqrt (variance + ε)`
  and the shift `β_q - μ_q · scale_q`, and the second region computes `x[p,q] · scale_q + shift_q` tile by tile
  (followed, in the first two layers, by the positive part). The definitions below are those operations as the printed
  program spells them; the theorems read them at an index, and on finite data identify the folded value with the
  centred form `(x[p,q] - μ_q) · (√(v_q + ε))⁻¹ · γ_q + β_q` of `BatchNormAlgebra`, `v_q` the centred variance — the
  number the reference computes.
-/
import proofs.«140440_j51049981280319_1_alg».proof.KernelIdeal
import proofs.«140440_j51049981280319_1_alg».proof.Proof.Gen.KernelIdeal.Skeleton
import proofs.«140440_j51049981280319_1_alg».proof.Proof.LibBatchNormAlgebra
import proofs.«140440_j51049981280319_1_alg».proof.Proof.LibRowLayout
import proofs.«140440_j51049981280319_1_alg».proof.Proof.Consts
import Idealize.ShloMosaic.Lib.ValueLayout

noncomputable section

namespace Cert.KernelIdeal.Norm

open Idealize.ShloMosaic Idealize.ShloMosaic.ValueIdx
open Cert.KernelIdeal Cert.KernelIdeal.Facts₀

variable [Cert.KernelIdeal.Facts]

/-! ## The host's operations between the two regions, as the program spells them -/

/-- The rank-zero row count. -/
def count0 : FVec Ideal S_ .f32 := constant (F := Ideal) S_ .f32 0x47435000#32
/-- The rank-zero stabiliser. -/
def eps0 : FVec Ideal S_ .f32 := constant (F := Ideal) S_ .f32 0x3727C5AC#32

/-- Row 0 of the statistics, the column sums, as a vector. -/
def sums (st : FVec Ideal S2x128 .f32) : FVec Ideal S128 .f32 :=
  shapeCast S128 (extractStridedSlice S1x128 ![0, 0] st slices_S2x128_S1x128_0_0) shapeCasts_S1x128_S128
/-- Row 1 of the statistics, the column sums of squares, as a vector. -/
def sumsq (st : FVec Ideal S2x128 .f32) : FVec Ideal S128 .f32 :=
  shapeCast S128 (extractStridedSlice S1x128 ![1, 0] st slices_S2x128_S1x128_1_0) shapeCasts_S1x128_S128

/-- The column means. -/
def mean (s : FVec Ideal S128 .f32) : FVec Ideal S128 .f32 :=
  Host.divf (F := Ideal) s (broadcastInDim S128 ![] bcast_S_S128 count0)

/-- The scale `γ · rsqrt (Q / N - μ² + ε)`. -/
def scale (s q γ : FVec Ideal S128 .f32) : FVec Ideal S128 .f32 :=
  mulf γ (Host.rsqrt (F := Ideal)
    (addf (subf (Host.divf (F := Ideal) q (broadcastInDim S128 ![] bcast_S_S128 count0)) (mulf (mean s) (mean s)))
      (broadcastInDim S128 ![] bcast_S_S128 eps0)))

/-- The shift `β - μ · scale`. -/
def shift (s q γ β : FVec Ideal S128 .f32) : FVec Ideal S128 .f32 :=
  subf β (mulf (mean s) (scale s q γ))

/-- A vector as the one-row array the second region's window stages. -/
def asRow (v : FVec Ideal S128 .f32) : FVec Ideal S1x128 .f32 := shapeCast S1x128 v shapeCasts_S128_S1x128

/-! ## Read at an index -/

theorem count0_apply : count0 ix0 = ((50000 : ℝ) : EReal) := Cert.Consts.ofBits_50000
theorem eps0_apply : eps0 ix0 = ((Cert.Consts.eps : ℝ) : EReal) := Cert.Consts.ofBits_eps

theorem sums_apply (st : FVec Ideal S2x128 .f32) (c : Fin 128) : sums st (ix1 c) = st (ix2 (0 : Fin 2) c) := by
  unfold sums
  rw [shapeCast_1a_a_apply, slice2_axis0_apply 0 st slices_S2x128_S1x128_0_0 (0 : Fin 1) c (0 : Fin 2) rfl]

theorem sumsq_apply (st : FVec Ideal S2x128 .f32) (c : Fin 128) : sumsq st (ix1 c) = st (ix2 (1 : Fin 2) c) := by
  unfold sumsq
  rw [shapeCast_1a_a_apply, slice2_axis0_apply 1 st slices_S2x128_S1x128_1_0 (0 : Fin 1) c (1 : Fin 2) rfl]

theorem asRow_apply (v : FVec Ideal S128 .f32) (u : Fin 1) (c : Fin 128) : asRow v (ix2 u c) = v (ix1 c) := by
  unfold asRow
  rw [shapeCast_a_1a_apply]

section Finite

variable (s q γ β : FVec Ideal S128 .f32) (X : Fin 50000 → Fin 128 → ℝ) (Γ B : Fin 128 → ℝ)
  (hs : ∀ c, s (ix1 c) = ∑ p : Fin 50000, ((X p c : ℝ) : EReal))
  (hq : ∀ c, q (ix1 c) = ∑ p : Fin 50000, ((X p c : ℝ) : EReal) * ((X p c : ℝ) : EReal))
  (hγ : ∀ c, γ (ix1 c) = ((Γ c : ℝ) : EReal)) (hβ : ∀ c, β (ix1 c) = ((B c : ℝ) : EReal))

include hs in
/-- On finite data a column's mean is the coerced real mean. -/
theorem mean_apply (c : Fin 128) :
    mean s (ix1 c) = ((BatchNormAlgebra.mean (fun p => X p c) 50000 : ℝ) : EReal) := by
  show Ideal.div (s (ix1 c)) (broadcastInDim S128 ![] bcast_S_S128 count0 (ix1 c)) = _
  rw [hs, RowLayout.spread_apply, count0_apply]
  exact BatchNormAlgebra.div_sum_coe (fun p => X p c) (by norm_num)

include hs hq hγ in
/-- On finite data the scale is `γ` times the reciprocal root of the variance by moments plus `ε`. -/
theorem scale_apply (c : Fin 128) :
    scale s q γ (ix1 c)
      = ((Γ c : ℝ) : EReal) * Ideal.rsqrt (((BatchNormAlgebra.varMoments (fun p => X p c) 50000 : ℝ) : EReal)
          + ((Cert.Consts.eps : ℝ) : EReal)) := by
  show γ (ix1 c) * Ideal.rsqrt ((Ideal.div (q (ix1 c)) (broadcastInDim S128 ![] bcast_S_S128 count0 (ix1 c))
      - mean s (ix1 c) * mean s (ix1 c)) + broadcastInDim S128 ![] bcast_S_S128 eps0 (ix1 c)) = _
  rw [hγ, hq, mean_apply s X hs, RowLayout.spread_apply, RowLayout.spread_apply, count0_apply, eps0_apply,
    BatchNormAlgebra.moments_coe (fun p => X p c) (by norm_num)]

include hs hq hγ hβ in
/-- On finite data the shift is `β - μ · scale`. -/
theorem shift_apply (c : Fin 128) :
    shift s q γ β (ix1 c)
      = ((B c : ℝ) : EReal) - ((BatchNormAlgebra.mean (fun p => X p c) 50000 : ℝ) : EReal)
          * (((Γ c : ℝ) : EReal) * Ideal.rsqrt (((BatchNormAlgebra.varMoments (fun p => X p c) 50000 : ℝ) : EReal)
              + ((Cert.Consts.eps : ℝ) : EReal))) := by
  show β (ix1 c) - mean s (ix1 c) * scale s q γ (ix1 c) = _
  rw [hβ, mean_apply s X hs, scale_apply s q γ X Γ hs hq hγ]

include hs hq hγ hβ in
/-- On finite data the folded value `x · scale + shift` at `(p, c)` is the centred form, a real. -/
theorem folded_apply (p : Fin 50000) (c : Fin 128) :
    ((X p c : ℝ) : EReal) * scale s q γ (ix1 c) + shift s q γ β (ix1 c)
      = (((X p c - BatchNormAlgebra.mean (fun p => X p c) 50000)
            * (Real.sqrt (BatchNormAlgebra.varCentred (fun p => X p c) 50000 + Cert.Consts.eps))⁻¹ * Γ c + B c : ℝ)
          : EReal) := by
  rw [scale_apply s q γ X Γ hs hq hγ, shift_apply s q γ β X Γ B hs hq hγ hβ,
    BatchNormAlgebra.folded_eq_centred (fun p => X p c) (Γ c) (B c) (by norm_num) (by simp) Cert.Consts.eps_pos p,
    BatchNormAlgebra.centred_form_coe (fun p => X p c) (Γ c) (B c) (by norm_num) Cert.Consts.eps_pos p]

end Finite

/-! ## The second region's arithmetic on one tile -/

/-- The payload of a normalising region with the positive part, at row `r` and column `c` of a tile: the tile's entry
    times the scale row plus the shift row, or zero if that is negative. -/
theorem k1_pay1_apply (blk : Vec Ideal S5000x128 .f32) (sc sh : Vec Ideal S1x128 .f32) (r : Fin 5000) (c : Fin 128) :
    Gen.k1_pay1 (F := Ideal) blk sc sh (ix2 r c)
      = max (blk (ix2 r c) * sc (ix2 (0 : Fin 1) c) + sh (ix2 (0 : Fin 1) c)) 0 := by
  unfold Gen.k1_pay1
  simp only [shapeCast_self]
  show max (blk (ix2 r c) * broadcastTo S5000x128 sc broadcasts_S1x128_S5000x128 (ix2 r c)
      + broadcastTo S5000x128 sh broadcasts_S1x128_S5000x128 (ix2 r c)) (Ideal.ofBits .f32 0x00000000#32) = _
  rw [broadcastTo_1b_ab_apply, broadcastTo_1b_ab_apply, Ideal.ofBits_zero_f32]

/-- The same for the second layer's normalising region. -/
theorem k3_pay1_apply (blk : Vec Ideal S5000x128 .f32) (sc sh : Vec Ideal S1x128 .f32) (r : Fin 5000) (c : Fin 128) :
    Gen.k3_pay1 (F := Ideal) blk sc sh (ix2 r c)
      = max (blk (ix2 r c) * sc (ix2 (0 : Fin 1) c) + sh (ix2 (0 : Fin 1) c)) 0 := by
  unfold Gen.k3_pay1
  simp only [shapeCast_self]
  show max (blk (ix2 r c) * broadcastTo S5000x128 sc broadcasts_S1x128_S5000x128 (ix2 r c)
      + broadcastTo S5000x128 sh broadcasts_S1x128_S5000x128 (ix2 r c)) (Ideal.ofBits .f32 0x00000000#32) = _
  rw [broadcastTo_1b_ab_apply, broadcastTo_1b_ab_apply, Ideal.ofBits_zero_f32]

/-- The last layer's normalising region has no positive part: the tile's entry times the scale row plus the shift row. -/
theorem k5_pay1_apply (blk : Vec Ideal S5000x128 .f32) (sc sh : Vec Ideal S1x128 .f32) (r : Fin 5000) (c : Fin 128) :
    Gen.k5_pay1 (F := Ideal) blk sc sh (ix2 r c)
      = blk (ix2 r c) * sc (ix2 (0 : Fin 1) c) + sh (ix2 (0 : Fin 1) c) := by
  unfold Gen.k5_pay1
  simp only [shapeCast_self]
  show blk (ix2 r c) * broadcastTo S5000x128 sc broadcasts_S1x128_S5000x128 (ix2 r c)
      + broadcastTo S5000x128 sh broadcasts_S1x128_S5000x128 (ix2 r c) = _
  rw [broadcastTo_1b_ab_apply, broadcastTo_1b_ab_apply]

end Cert.KernelIdeal.Norm

end
-- ==== Proof.Layer.lean ====
/-
  One layer of the network is one function in the two programs, on finite data.

  Both programs apply to the layer's input `h` and to the neighbourhood sums `agg` the same linear map
  `lin = h · w_root + agg · w_rel + b` and then normalise each column of `lin` over the 50000 rows. The reference
  centres the column, divides by the root of the centred variance plus `ε`, and applies `γ` and `β`. The kernel takes
  the column's sum `S` and sum of squares `Q` from its first region, forms the variance by moments, folds `γ`, `β`
  and the mean into one scale and one shift per column, and its second region computes `lin · scale + shift`. When
  `h`, `agg`, the weights, `b`, `γ` and `β` are real-valued, so is `lin`; the two variances are then the same
  nonnegative real, the reciprocal root of variance plus `ε` is a real, and the two values agree entry by entry, with or
  without the positive part that follows in the first two layers. The value is again real, which is what the next layer
  needs of its input.
-/
import proofs.«140440_j51049981280319_1_alg».proof.Proof.RefLinear
import proofs.«140440_j51049981280319_1_alg».proof.Proof.KerNorm

noncomputable section

namespace Cert.Layer

open Idealize.ShloMosaic Idealize.ShloMosaic.ValueIdx

variable [Cert.KernelIdeal.Facts] [Cert.ReferenceIdeal.Facts]

section

variable (h agg : FVec Ideal Cert.ReferenceIdeal.S50000x128 .f32) (wr wl : FVec Ideal Cert.ReferenceIdeal.S128x128 .f32)
  (b γ β : FVec Ideal Cert.ReferenceIdeal.S128 .f32)
  (H A : Fin 50000 → Fin 128 → ℝ) (WR WL : Fin 128 → Fin 128 → ℝ) (Bv Γ Bt : Fin 128 → ℝ)
  (hh : ∀ p k, h (ix2 p k) = ((H p k : ℝ) : EReal)) (ha : ∀ p k, agg (ix2 p k) = ((A p k : ℝ) : EReal))
  (hwr : ∀ k q, wr (ix2 k q) = ((WR k q : ℝ) : EReal)) (hwl : ∀ k q, wl (ix2 k q) = ((WL k q : ℝ) : EReal))
  (hb : ∀ q, b (ix1 q) = ((Bv q : ℝ) : EReal))
  (hγ : ∀ q, γ (ix1 q) = ((Γ q : ℝ) : EReal)) (hβ : ∀ q, β (ix1 q) = ((Bt q : ℝ) : EReal))
  -- the two rows of statistics the kernel's first region leaves: the column sums of `lin` and of `lin²`
  (s q : FVec Ideal Cert.KernelIdeal.S128 .f32)
  (hs : ∀ c, s (ix1 c) = ∑ p : Fin 50000, Cert.ReferenceIdeal.Linear.linear h agg wr wl b (ix2 p c))
  (hq : ∀ c, q (ix1 c) = ∑ p : Fin 50000, Cert.ReferenceIdeal.Linear.linear h agg wr wl b (ix2 p c)
      * Cert.ReferenceIdeal.Linear.linear h agg wr wl b (ix2 p c))

/-- The linear map's real values. -/
def linReal (H A : Fin 50000 → Fin 128 → ℝ) (WR WL : Fin 128 → Fin 128 → ℝ) (Bv : Fin 128 → ℝ) (p : Fin 50000)
    (c : Fin 128) : ℝ :=
  (∑ k : Fin 128, H p k * WR k c) + (∑ k : Fin 128, A p k * WL k c) + Bv c

/-- The normalised real value of the layer at `(p, c)`, before any positive part. -/
def normReal (H A : Fin 50000 → Fin 128 → ℝ) (WR WL : Fin 128 → Fin 128 → ℝ) (Bv Γ Bt : Fin 128 → ℝ) (p : Fin 50000)
    (c : Fin 128) : ℝ :=
  (linReal H A WR WL Bv p c - BatchNormAlgebra.mean (fun p => linReal H A WR WL Bv p c) 50000)
    * (Real.sqrt (BatchNormAlgebra.varCentred (fun p => linReal H A WR WL Bv p c) 50000 + Cert.Consts.eps))⁻¹ * Γ c
    + Bt c

include hh ha hwr hwl hb in
theorem lin_coe (p : Fin 50000) (c : Fin 128) :
    Cert.ReferenceIdeal.Linear.linear h agg wr wl b (ix2 p c) = ((linReal H A WR WL Bv p c : ℝ) : EReal) :=
  Cert.ReferenceIdeal.Linear.linear_coe h agg wr wl b H A WR WL Bv hh ha hwr hwl hb p c

include hh ha hwr hwl hb hγ hβ in
/-- The reference's normalised value of the layer is the real `normReal`. -/
theorem reference_value (p : Fin 50000) (c : Fin 128) :
    Cert.ReferenceIdeal.Norm.normalised (Cert.ReferenceIdeal.Linear.linear h agg wr wl b)
        (constantI Cert.ReferenceIdeal.S_ 32 0#32) γ β (ix2 p c)
      = ((normReal H A WR WL Bv Γ Bt p c : ℝ) : EReal) :=
  Cert.ReferenceIdeal.Norm.normalised_apply _ (linReal H A WR WL Bv)
    (lin_coe h agg wr wl b H A WR WL Bv hh ha hwr hwl hb) γ β Γ Bt hγ hβ p c

include hh ha hwr hwl hb hγ hβ hs hq in
/-- The kernel's folded value of the layer is the same real. -/
theorem kernel_value (p : Fin 50000) (c : Fin 128) :
    Cert.ReferenceIdeal.Linear.linear h agg wr wl b (ix2 p c) * Cert.KernelIdeal.Norm.scale s q γ (ix1 c)
        + Cert.KernelIdeal.Norm.shift s q γ β (ix1 c)
      = ((normReal H A WR WL Bv Γ Bt p c : ℝ) : EReal) := by
  have hl := lin_coe h agg wr wl b H A WR WL Bv hh ha hwr hwl hb
  rw [hl]
  exact Cert.KernelIdeal.Norm.folded_apply s q γ β (linReal H A WR WL Bv) Γ Bt
    (fun c => (hs c).trans (Finset.sum_congr rfl fun p _ => hl p c))
    (fun c => (hq c).trans (Finset.sum_congr rfl fun p _ => by rw [hl p c])) hγ hβ p c

include hh ha hwr hwl hb hγ hβ hs hq in
/-- The layer without a positive part (the last one): the kernel's value is the reference's. -/
theorem layer_eq (p : Fin 50000) (c : Fin 128) :
    Cert.ReferenceIdeal.Linear.linear h agg wr wl b (ix2 p c) * Cert.KernelIdeal.Norm.scale s q γ (ix1 c)
        + Cert.KernelIdeal.Norm.shift s q γ β (ix1 c)
      = Cert.ReferenceIdeal.Norm.normalised (Cert.ReferenceIdeal.Linear.linear h agg wr wl b)
          (constantI Cert.ReferenceIdeal.S_ 32 0#32) γ β (ix2 p c) :=
  (kernel_value h agg wr wl b γ β H A WR WL Bv Γ Bt hh ha hwr hwl hb hγ hβ s q hs hq p c).trans
    (reference_value h agg wr wl b γ β H A WR WL Bv Γ Bt hh ha hwr hwl hb hγ hβ p c).symm

include hh ha hwr hwl hb hγ hβ hs hq in
/-- The layer with the positive part (the first two): the kernel's value is the reference's, and it is the real
    `max (normReal …) 0`. -/
theorem layer_relu_eq (p : Fin 50000) (c : Fin 128) :
    max (Cert.ReferenceIdeal.Linear.linear h agg wr wl b (ix2 p c) * Cert.KernelIdeal.Norm.scale s q γ (ix1 c)
        + Cert.KernelIdeal.Norm.shift s q γ β (ix1 c)) 0
      = Cert.ReferenceIdeal.Linear.relu (Cert.ReferenceIdeal.Norm.normalised
          (Cert.ReferenceIdeal.Linear.linear h agg wr wl b) (constantI Cert.ReferenceIdeal.S_ 32 0#32) γ β) (ix2 p c)
      ∧ Cert.ReferenceIdeal.Linear.relu (Cert.ReferenceIdeal.Norm.normalised
          (Cert.ReferenceIdeal.Linear.linear h agg wr wl b) (constantI Cert.ReferenceIdeal.S_ 32 0#32) γ β) (ix2 p c)
        = ((max (normReal H A WR WL Bv Γ Bt p c) 0 : ℝ) : EReal) := by
  rw [Cert.ReferenceIdeal.Linear.relu_apply,
    layer_eq h agg wr wl b γ β H A WR WL Bv Γ Bt hh ha hwr hwl hb hγ hβ s q hs hq p c]
  refine ⟨rfl, ?_⟩
  rw [reference_value h agg wr wl b γ β H A WR WL Bv Γ Bt hh ha hwr hwl hb hγ hβ p c, ← EReal.coe_zero]
  exact BatchNormAlgebra.max_coe_zero _

end

end Cert.Layer

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.Classifier.lean ====
/-
  The classifier: the kernel's last region and the reference's last three operations are one function.

  Both compute, for the pooled `[1024, 128]` array `P`, the `[128, 10]` weights `W` and the `[10]` bias `b`,
  `out[g, j] = ∑_k P[g, k] · W[k, j] + b[j]`: the kernel with one matrix product into a zero accumulator on values whose
  change of format is the identity here, plus the bias staged as one row and repeated over the rows; the reference
  with a `dot_general` and the bias lifted to a row and repeated. No finiteness is needed: the two are the same sums.
-/
import proofs.«140440_j51049981280319_1_alg».proof.KernelIdeal
import proofs.«140440_j51049981280319_1_alg».proof.ReferenceIdeal
import proofs.«140440_j51049981280319_1_alg».proof.Proof.Gen.KernelIdeal.Skeleton
import proofs.«140440_j51049981280319_1_alg».proof.Proof.LibRowLayout
import proofs.«140440_j51049981280319_1_alg».proof.Proof.LibMatmulNN
import proofs.«140440_j51049981280319_1_alg».proof.Proof.LibDotNN
import Idealize.ShloMosaic.Lib.ValueLayout

noncomputable section

namespace Cert.Classifier

open Idealize.ShloMosaic Idealize.ShloMosaic.ValueIdx

variable [Cert.KernelIdeal.Facts] [Cert.ReferenceIdeal.Facts]

/-- The reference's classifier, as the program spells it. -/
def reference (pooled : FVec Ideal Cert.ReferenceIdeal.S1024x128 .f32) (w : FVec Ideal Cert.ReferenceIdeal.S128x10 .f32)
    (b : FVec Ideal Cert.ReferenceIdeal.S10 .f32) : FVec Ideal Cert.ReferenceIdeal.S1024x10 .f32 :=
  addf (Host.dotGeneral (F := Ideal) Cert.ReferenceIdeal.dot_S1024x128_S128x10_S1024x10_1_0_0_1_n_n none pooled w)
    (broadcastInDim Cert.ReferenceIdeal.S1024x10 ![0, 1] Cert.ReferenceIdeal.Facts₀.bcast_S1x10_S1024x10_0_1
      (broadcastInDim Cert.ReferenceIdeal.S1x10 ![1] Cert.ReferenceIdeal.Facts₀.bcast_S10_S1x10_1 b))

theorem reference_apply (pooled : FVec Ideal Cert.ReferenceIdeal.S1024x128 .f32)
    (w : FVec Ideal Cert.ReferenceIdeal.S128x10 .f32) (b : FVec Ideal Cert.ReferenceIdeal.S10 .f32) (g : Fin 1024) (j : Fin 10) :
    reference pooled w b (ix2 g j) = (∑ k : Fin 128, pooled (ix2 g k) * w (ix2 k j)) + b (ix1 j) := by
  unfold reference
  rw [addf_apply, RowLayout.repeatRow_apply, RowLayout.liftRow_apply,
    Cert.LibDotNN.dotGeneral_apply Cert.ReferenceIdeal.dot_S1024x128_S128x10_S1024x10_1_0_0_1_n_n rfl]

/-- The kernel's classifier payload at an entry. -/
theorem k6_pay1_apply (pooled : Vec Ideal Cert.KernelIdeal.S1024x128 .f32) (w : Vec Ideal Cert.KernelIdeal.S128x10 .f32)
    (brow : Vec Ideal Cert.KernelIdeal.S1x10 .f32) (g : Fin 1024) (j : Fin 10) :
    Cert.KernelIdeal.Gen.k6_pay1 (F := Ideal) pooled w brow (ix2 g j)
      = (∑ k : Fin 128, pooled (ix2 g k) * w (ix2 k j)) + brow (ix2 (0 : Fin 1) j) := by
  unfold Cert.KernelIdeal.Gen.k6_pay1
  simp only [shapeCast_self, addf_apply, matmul]
  rw [Cert.LibMatmulNN.matmul_zero_apply Cert.KernelIdeal.dot_S1024x128_S128x10_S1024x10_1_0_0_1_n_n rfl,
    broadcastTo_1b_ab_apply]
  rfl

/-- With the bias staged as the kernel's host stages it (the vector cast to one row), the kernel's payload is the
    reference's classifier. -/
theorem kernel_eq_reference (pooled : FVec Ideal Cert.ReferenceIdeal.S1024x128 .f32)
    (w : FVec Ideal Cert.ReferenceIdeal.S128x10 .f32) (b : FVec Ideal Cert.ReferenceIdeal.S10 .f32) :
    Cert.KernelIdeal.Gen.k6_pay1 (F := Ideal) pooled w
        (shapeCast Cert.KernelIdeal.S1x10 b Cert.KernelIdeal.Facts₀.shapeCasts_S10_S1x10)
      = reference pooled w b := by
  funext i
  obtain ⟨g, j, rfl⟩ : ∃ (g : Fin 1024) (j : Fin 10), i = ix2 g j := ⟨i 0, i 1, eq_ix2 i⟩
  rw [k6_pay1_apply, reference_apply, shapeCast_a_1a_apply]

end Cert.Classifier

end
-- ==== Proof.Network.lean ====
/-
  The whole network is one function in the two programs, on finite inputs.

  Both programs run three layers and then pool and classify. A layer takes the node features `h` (`[50000, 128]`),
  gathers `h`'s rows at the edges' sources (negative indices wrapped) and adds them up at the edges' destinations
  (`agg`), applies the linear map `h · w_root + agg · w_rel + b` and normalises each column over the rows; the first
  two layers end with the positive part. The pooling adds the rows of the last layer's output up per graph and divides
  by the number of rows of each graph (at least one); the classifier is a last linear map.

  The gathers, scatters, pooling and classifier are the same operations in both programs. The programs differ in how a
  layer normalises: the reference centres and divides by the root of the centred variance plus `ε`; the kernel's
  regions leave `lin · scale + shift` with `scale` and `shift` formed on the host from the column sums and sums of
  squares of `lin`. `Cert.Layer` shows the two equal where `h` and the parameters are real-valued, and real-valued
  again; a gather and an accumulating scatter keep arrays real-valued; so the three layers agree one after the other,
  and the rest is the same function of equal arrays.
-/
import proofs.«140440_j51049981280319_1_alg».proof.Proof.Layer
import proofs.«140440_j51049981280319_1_alg».proof.Proof.Classifier

noncomputable section

namespace Cert.Network

open Idealize.ShloMosaic Idealize.ShloMosaic.ValueIdx FiniteArrays
open Cert.ReferenceIdeal Cert.ReferenceIdeal.Facts₀

variable [Cert.KernelIdeal.Facts] [Cert.ReferenceIdeal.Facts]

/-! ## The host operations the two programs share -/

/-- Row 0 of the edge list, the sources. -/
def edgeRow0 (ei : IVec S2x800000 32) : IVec S800000 32 :=
  shapeCast S800000 (extractStridedSlice S1x800000 ![0, 0] ei slices_S2x800000_S1x800000_0_0) shapeCasts_S1x800000_S800000
/-- Row 1 of the edge list, the destinations. -/
def edgeRow1 (ei : IVec S2x800000 32) : IVec S800000 32 :=
  shapeCast S800000 (extractStridedSlice S1x800000 ![1, 0] ei slices_S2x800000_S1x800000_1_0) shapeCasts_S1x800000_S800000

/-- The sources, a negative one wrapped by the number of nodes, as a column of start indices. -/
def srcCol (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32))) (edgeRow0 ei))
/-- The destinations as a column of scatter indices. -/
def dstCol (ei : IVec S2x800000 32) : IVec S800000x1 32 :=
  broadcastInDim S800000x1 ![0] bcast_S800000_S800000x1_0 (edgeRow1 ei)

/-- The neighbourhood sums: `h`'s rows gathered at the sources, added up at the destinations over a zero array. -/
def aggregate (ei : IVec S2x800000 32) (h : FVec Ideal S50000x128 .f32) : FVec Ideal S50000x128 .f32 :=
  Host.scatterAdd (F := Ideal) scatter_S50000x128_S800000x1_S800000x128_1_0_0_1
    (broadcastInDim S50000x128 ![] bcast_S_S50000x128 Norm.zero0) (dstCol ei)
    (Host.gather gather_S50000x128_S800000x1_S800000x128_1_0_n_n_0_1_1128 h (srcCol ei))

/-- The rank-zero one. -/
def one0 : FVec Ideal S_ .f32 := constant (F := Ideal) S_ .f32 0x3F800000#32

/-- The mean pooling: per graph, the sum of its nodes' rows over the number of its nodes (at least one). -/
def pool (batch : IVec S50000 32) (h : FVec Ideal S50000x128 .f32) : FVec Ideal S1024x128 .f32 :=
  Host.divf (F := Ideal)
    (Host.scatterAdd (F := Ideal) scatter_S1024x128_S50000x1_S50000x128_1_0_0_1
      (broadcastInDim S1024x128 ![] bcast_S_S1024x128 Norm.zero0)
      (broadcastInDim S50000x1 ![0] bcast_S50000_S50000x1_0 batch) h)
    (broadcastInDim S1024x128 ![0, 1] bcast_S1024x1_S1024x128_0_1
      (broadcastInDim S1024x1 ![0] bcast_S1024_S1024x1_0
        (maximumf
          (Host.scatterAdd (F := Ideal) scatter_S1024_S50000x1_S50000_n_0_0_1
            (broadcastInDim S1024 ![] bcast_S_S1024 Norm.zero0)
            (broadcastInDim S50000x1 ![0] bcast_S50000_S50000x1_0 batch)
            (broadcastInDim S50000 ![] bcast_S_S50000 one0))
          (broadcastInDim S1024 ![] bcast_S_S1024 one0))))

/-- A spread zero is real-valued. -/
theorem isReal_spread_zero {t : Shape} (h : S_.BroadcastsInDim t (![] : Fin 0 → Fin t.rank)) :
    IsReal (broadcastInDim t (![] : Fin 0 → Fin t.rank) h Norm.zero0) := fun i =>
  ⟨0, by rw [RowLayout.spread_apply, Norm.zero0_apply, EReal.coe_zero]⟩

/-- The neighbourhood sums of a real-valued array are real-valued. -/
theorem aggregate_isReal (ei : IVec S2x800000 32) (h : FVec Ideal S50000x128 .f32) (hh : IsReal h) :
    IsReal (aggregate ei h) :=
  isReal_scatterAdd _ _ _ _ (isReal_spread_zero _) (isReal_gather _ _ _ hh)

/-! ## A layer's parameters -/

/-- The two weight matrices, the bias, and the normalisation's scale and shift parameters. -/
structure Params where
  wr : FVec Ideal S128x128 .f32
  wl : FVec Ideal S128x128 .f32
  b : FVec Ideal S128 .f32
  γ : FVec Ideal S128 .f32
  β : FVec Ideal S128 .f32

/-- All of them real-valued. -/
def Params.Real (θ : Params) : Prop := IsReal θ.wr ∧ IsReal θ.wl ∧ IsReal θ.b ∧ IsReal θ.γ ∧ IsReal θ.β

/-! ## A layer in each program -/

/-- The layer's linear map. -/
def lin (ei : IVec S2x800000 32) (h : FVec Ideal S50000x128 .f32) (θ : Params) : FVec Ideal S50000x128 .f32 :=
  Linear.linear h (aggregate ei h) θ.wr θ.wl θ.b

/-- The reference's layer before any positive part. -/
def refNorm (ei : IVec S2x800000 32) (h : FVec Ideal S50000x128 .f32) (θ : Params) : FVec Ideal S50000x128 .f32 :=
  Norm.normalised (lin ei h θ) (constantI S_ 32 0#32) θ.γ θ.β

/-- The column sums of an array, the first row of statistics the kernel's first region leaves. -/
def colSums (y : FVec Ideal S50000x128 .f32) : FVec Ideal Cert.KernelIdeal.S128 .f32 :=
  fun j => ∑ p : Fin 50000, y (ix2 p (j 0 : Fin 128))
/-- The column sums of squares, the second row. -/
def colSumSq (y : FVec Ideal S50000x128 .f32) : FVec Ideal Cert.KernelIdeal.S128 .f32 :=
  fun j => ∑ p : Fin 50000, y (ix2 p (j 0 : Fin 128)) * y (ix2 p (j 0 : Fin 128))

/-- The kernel's layer before any positive part: what its second region leaves, from the first region's output
    `lin` and statistics and the host's scale and shift. -/
def kerNorm (ei : IVec S2x800000 32) (h : FVec Ideal S50000x128 .f32) (θ : Params) : FVec Ideal S50000x128 .f32 :=
  fun i => lin ei h θ i
      * Cert.KernelIdeal.Norm.scale (colSums (lin ei h θ)) (colSumSq (lin ei h θ)) θ.γ (ix1 (i 1 : Fin 128))
    + Cert.KernelIdeal.Norm.shift (colSums (lin ei h θ)) (colSumSq (lin ei h θ)) θ.γ θ.β (ix1 (i 1 : Fin 128))

/-- The positive part, entry by entry. -/
def positive (y : FVec Ideal S50000x128 .f32) : FVec Ideal S50000x128 .f32 := fun i => max (y i) 0

theorem relu_eq_positive (y : FVec Ideal S50000x128 .f32) : Linear.relu y = positive y :=
  funext fun i => Linear.relu_apply y i

/-- On real-valued data the kernel's layer is the reference's, and it is real-valued. -/
theorem kerNorm_eq (ei : IVec S2x800000 32) (h : FVec Ideal S50000x128 .f32) (θ : Params) (hh : IsReal h)
    (hθ : θ.Real) : kerNorm ei h θ = refNorm ei h θ ∧ IsReal (refNorm ei h θ) := by
  obtain ⟨H, hH⟩ := hh.exists_fun
  obtain ⟨A, hA⟩ := (aggregate_isReal ei h hh).exists_fun
  obtain ⟨hwr, hwl, hb, hγ, hβ⟩ := hθ
  obtain ⟨WR, hWR⟩ := hwr.exists_fun
  obtain ⟨WL, hWL⟩ := hwl.exists_fun
  obtain ⟨Bv, hBv⟩ := hb.exists_fun
  obtain ⟨Γ, hΓ⟩ := hγ.exists_fun
  obtain ⟨Bt, hBt⟩ := hβ.exists_fun
  refine ⟨funext fun i => ?_, fun i => ?_⟩
  · obtain ⟨p, c, rfl⟩ : ∃ (p : Fin 50000) (c : Fin 128), i = ix2 p c := ⟨i 0, i 1, eq_ix2 i⟩
    exact Cert.Layer.layer_eq h (aggregate ei h) θ.wr θ.wl θ.b θ.γ θ.β (fun p k => H (ix2 p k)) (fun p k => A (ix2 p k))
      (fun k q => WR (ix2 k q)) (fun k q => WL (ix2 k q)) (fun q => Bv (ix1 q)) (fun q => Γ (ix1 q)) (fun q => Bt (ix1 q))
      (fun p k => hH _) (fun p k => hA _) (fun k q => hWR _) (fun k q => hWL _) (fun q => hBv _) (fun q => hΓ _)
      (fun q => hBt _) (colSums (lin ei h θ)) (colSumSq (lin ei h θ)) (fun _ => rfl) (fun _ => rfl) p c
  · obtain ⟨p, c, rfl⟩ : ∃ (p : Fin 50000) (c : Fin 128), i = ix2 p c := ⟨i 0, i 1, eq_ix2 i⟩
    exact ⟨_, Cert.Layer.reference_value h (aggregate ei h) θ.wr θ.wl θ.b θ.γ θ.β (fun p k => H (ix2 p k))
      (fun p k => A (ix2 p k)) (fun k q => WR (ix2 k q)) (fun k q => WL (ix2 k q)) (fun q => Bv (ix1 q))
      (fun q => Γ (ix1 q)) (fun q => Bt (ix1 q)) (fun p k => hH _) (fun p k => hA _) (fun k q => hWR _)
      (fun k q => hWL _) (fun q => hBv _) (fun q => hΓ _) (fun q => hBt _) p c⟩

/-- The positive part of a real-valued array is real-valued. -/
theorem positive_isReal (y : FVec Ideal S50000x128 .f32) (hy : IsReal y) : IsReal (positive y) := hy.max_zero

/-! ## The networks -/

/-- The reference's network. -/
def refNet (x : FVec Ideal S50000x128 .f32) (ei : IVec S2x800000 32) (batch : IVec S50000 32) (θ₁ θ₂ θ₃ : Params)
    (wc : FVec Ideal S128x10 .f32) (bc : FVec Ideal S10 .f32) : FVec Ideal S1024x10 .f32 :=
  Cert.Classifier.reference
    (pool batch (refNorm ei (Linear.relu (refNorm ei (Linear.relu (refNorm ei x θ₁)) θ₂)) θ₃)) wc bc

/-- The kernel's network: each layer's two regions with the host between them, the pooling, the classifier region. -/
def kerNet (x : FVec Ideal S50000x128 .f32) (ei : IVec S2x800000 32) (batch : IVec S50000 32) (θ₁ θ₂ θ₃ : Params)
    (wc : FVec Ideal S128x10 .f32) (bc : FVec Ideal S10 .f32) : FVec Ideal S1024x10 .f32 :=
  Cert.KernelIdeal.Gen.k6_pay1 (F := Ideal)
    (pool batch (kerNorm ei (positive (kerNorm ei (positive (kerNorm ei x θ₁)) θ₂)) θ₃)) wc
    (shapeCast Cert.KernelIdeal.S1x10 bc Cert.KernelIdeal.Facts₀.shapeCasts_S10_S1x10)

/-- On real-valued features and parameters the two networks are one function. -/
theorem kerNet_eq_refNet (x : FVec Ideal S50000x128 .f32) (ei : IVec S2x800000 32) (batch : IVec S50000 32)
    (θ₁ θ₂ θ₃ : Params) (wc : FVec Ideal S128x10 .f32) (bc : FVec Ideal S10 .f32)
    (hx : IsReal x) (h₁ : θ₁.Real) (h₂ : θ₂.Real) (h₃ : θ₃.Real) :
    kerNet x ei batch θ₁ θ₂ θ₃ wc bc = refNet x ei batch θ₁ θ₂ θ₃ wc bc := by
  obtain ⟨e₁, r₁⟩ := kerNorm_eq ei x θ₁ hx h₁
  have r₁' := positive_isReal _ r₁
  obtain ⟨e₂, r₂⟩ := kerNorm_eq ei (positive (refNorm ei x θ₁)) θ₂ r₁' h₂
  have r₂' := positive_isReal _ r₂
  obtain ⟨e₃, _⟩ := kerNorm_eq ei (positive (refNorm ei (positive (refNorm ei x θ₁)) θ₂)) θ₃ r₂' h₃
  unfold kerNet refNet
  rw [e₁, e₂, e₃, Cert.Classifier.kernel_eq_reference, relu_eq_positive, relu_eq_positive]

end Cert.Network

end
-- ==== Proof.PreFinite.lean ====
/-
  The precondition says that every float input is real-valued.

  The printed predicate is the conjunction, over the eighteen float inputs, of "every entry's absolute value is below
  `+∞`", each taken as an `and` over all the entries. An extended real whose absolute value `max a (-a)` is below `⊤` is
  neither `⊤` nor `⊥`: it is a real number. So where the predicate is all ones, each float input is real-valued (the
  two integer inputs are not mentioned).
-/
import proofs.«140440_j51049981280319_1_alg».proof.Pre_finite_inputs
import proofs.«140440_j51049981280319_1_alg».proof.Proof.LibFiniteArrays
import proofs.«140440_j51049981280319_1_alg».proof.Proof.LibRowLayout
import Idealize.ShloMosaic.Lib.ReduceAll
import Idealize.ShloMosaic.Lib.Affine

noncomputable section

namespace Cert.PreFinite

open Idealize.ShloMosaic Idealize.ShloMosaic.ValueIdx FiniteArrays
open Cert.Pre_finite_inputs Cert.Pre_finite_inputs.Facts

variable [Cert.Pre_finite_inputs.Facts]

/-- The rank-zero shape has one index. -/
instance : Subsingleton S_.Idx := ⟨fun _ _ => funext fun d => d.elim0⟩

/-- The pattern of `+∞`. -/
theorem ofBits_inf : Ideal.ofBits .f32 0x7F800000#32 = ⊤ := by
  simp [Ideal.ofBits, Ideal.ieee]

/-- An extended real whose absolute value is below `⊤` is a real. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One conjunct of the predicate: where "all entries' absolute values are below `+∞`" is true, the array is
    real-valued. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf (F := Ideal) x) (broadcastInDim s ![] hb (constant (F := Ideal) S_ .f32 0x7F800000#32)))
        (constantI S_ 1 1#1) hr hu ix0 = 1#1) :
    IsReal x := fun i => by
  have hi := Host.reduce_andi_all
    (cmpf .olt (Host.absf (F := Ideal) x) (broadcastInDim s ![] hb (constant (F := Ideal) S_ .f32 0x7F800000#32)))
    (constantI S_ 1 1#1) hr hu ix0 e i
  have htop : broadcastInDim s ![] hb (constant (F := Ideal) S_ .f32 0x7F800000#32) i = ⊤ := by
    rw [RowLayout.spread_apply, constant_apply, ofBits_inf]
  rw [cmpf_apply, htop] at hi
  exact real_of_abs_lt_top (x i) hi

/-- Where the printed predicate is all ones, every float input is real-valued. -/
theorem inputs_real (a0 : FVec Ideal S50000x128 .f32) (a1 : IVec S2x800000 32) (a2 : IVec S50000 32)
    (a3 a4 : FVec Ideal S128x128 .f32) (a5 : FVec Ideal S128 .f32) (a6 a7 : FVec Ideal S128x128 .f32)
    (a8 : FVec Ideal S128 .f32) (a9 a10 : FVec Ideal S128x128 .f32) (a11 a12 a13 a14 a15 a16 a17 : FVec Ideal S128 .f32)
    (a18 : FVec Ideal S128x10 .f32) (a19 : FVec Ideal S10 .f32)
    (h : Cert.Pre_finite_inputs.fn (F := Ideal) a0 a1 a2 a3 a4 a5 a6 a7 a8 a9 a10 a11 a12 a13 a14 a15 a16 a17 a18 a19
      = fun _ => 1#1) :
    IsReal a0 ∧ IsReal a3 ∧ IsReal a4 ∧ IsReal a5 ∧ IsReal a6 ∧ IsReal a7 ∧ IsReal a8 ∧ IsReal a9 ∧ IsReal a10
      ∧ IsReal a11 ∧ IsReal a12 ∧ IsReal a13 ∧ IsReal a14 ∧ IsReal a15 ∧ IsReal a16 ∧ IsReal a17 ∧ IsReal a18
      ∧ IsReal a19 := by
  have h0 := congrFun h ix0
  simp only [Cert.Pre_finite_inputs.fn, fn_part1, fn_part2, fn_part3, fn_part4, fn_part5, andi, IntOp.andi_eq_one] at h0
  obtain ⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩, e19⟩ := h0
  exact ⟨isReal_of_all a0 _ _ _ e0, isReal_of_all a3 _ _ _ e3, isReal_of_all a4 _ _ _ e4, isReal_of_all a5 _ _ _ e5,
    isReal_of_all a6 _ _ _ e6, isReal_of_all a7 _ _ _ e7, isReal_of_all a8 _ _ _ e8, isReal_of_all a9 _ _ _ e9,
    isReal_of_all a10 _ _ _ e10, isReal_of_all a11 _ _ _ e11, isReal_of_all a12 _ _ _ e12, isReal_of_all a13 _ _ _ e13,
    isReal_of_all a14 _ _ _ e14, isReal_of_all a15 _ _ _ e15, isReal_of_all a16 _ _ _ e16, isReal_of_all a17 _ _ _ e17,
    isReal_of_all a18 _ _ _ e18, isReal_of_all a19 _ _ _ e19⟩

end Cert.PreFinite

end
-- ==== Proof.Reduction.lean ====
/-
  The value claim follows from the two runs.

  Suppose every weakly fair execution of the idealized kernel, from a memory where the precondition holds, ends with its
  result array at `Cert.Network.kerNet` of the launch contents of its arguments — what its seven regions and the host
  operations between them compute — and every execution of the idealized reference ends with its result at
  `Cert.Network.refNet` of its arguments, both leaving the arguments as launched. Then the two programs, run from
  memories that agree on the arguments, end with equal results: the precondition makes every float input real-valued
  (`Cert.PreFinite`), and on real-valued inputs the two networks are one function (`Cert.Network`).
-/
import proofs.«140440_j51049981280319_1_alg».proof.Defs
import proofs.«140440_j51049981280319_1_alg».proof.Proof.Network
import proofs.«140440_j51049981280319_1_alg».proof.Proof.PreFinite

noncomputable section

namespace Cert.Reduction

open Idealize.ShloMosaic Idealize.SL.Sem

variable [hKernelIdeal : Cert.KernelIdeal.Facts] [hReferenceIdeal : Cert.ReferenceIdeal.Facts]
  [hPre_finite_inputs : Cert.Pre_finite_inputs.Facts]

/-- The location of a kernel buffer on core `c`'s TensorCore. -/
abbrev kloc (c : Dev Cert.KernelIdeal.nD) (b : Ref Cert.KernelIdeal.sig .tc) :
    Loc Cert.KernelIdeal.nD Cert.KernelIdeal.τ Cert.KernelIdeal.sig :=
  (c.tc : Thread Cert.KernelIdeal.nD Cert.KernelIdeal.τ).loc b

/-- The location of a reference buffer on core `c`'s TensorCore. -/
abbrev rloc (c : Dev Cert.ReferenceIdeal.nD) (b : Ref Cert.ReferenceIdeal.sig .tc) :
    Loc Cert.ReferenceIdeal.nD Cert.ReferenceIdeal.τ Cert.ReferenceIdeal.sig :=
  (c.tc : Thread Cert.ReferenceIdeal.nD Cert.ReferenceIdeal.τ).loc b

/-- The kernel's network at the launch contents of its arguments on core `c`. -/
def kerOut (m : (ℓ : Loc Cert.KernelIdeal.nD Cert.KernelIdeal.τ Cert.KernelIdeal.sig) → Buf (Elt Ideal) ℓ)
    (c : Dev Cert.KernelIdeal.nD) : FVec Ideal Cert.ReferenceIdeal.S1024x10 .f32 :=
  Cert.Network.kerNet (m (kloc c Cert.KernelIdeal.main_arg0)) (m (kloc c Cert.KernelIdeal.main_arg1))
    (m (kloc c Cert.KernelIdeal.main_arg2))
    ⟨m (kloc c Cert.KernelIdeal.main_arg3), m (kloc c Cert.KernelIdeal.main_arg4), m (kloc c Cert.KernelIdeal.main_arg5),
      m (kloc c Cert.KernelIdeal.main_arg12), m (kloc c Cert.KernelIdeal.main_arg13)⟩
    ⟨m (kloc c Cert.KernelIdeal.main_arg6), m (kloc c Cert.KernelIdeal.main_arg7), m (kloc c Cert.KernelIdeal.main_arg8),
      m (kloc c Cert.KernelIdeal.main_arg14), m (kloc c Cert.KernelIdeal.main_arg15)⟩
    ⟨m (kloc c Cert.KernelIdeal.main_arg9), m (kloc c Cert.KernelIdeal.main_arg10), m (kloc c Cert.KernelIdeal.main_arg11),
      m (kloc c Cert.KernelIdeal.main_arg16), m (kloc c Cert.KernelIdeal.main_arg17)⟩
    (m (kloc c Cert.KernelIdeal.main_arg18)) (m (kloc c Cert.KernelIdeal.main_arg19))

/-- The reference's network at the launch contents of its arguments on core `c`. -/
def refOut (m : (ℓ : Loc Cert.ReferenceIdeal.nD Cert.ReferenceIdeal.τ Cert.ReferenceIdeal.sig) → Buf (Elt Ideal) ℓ)
    (c : Dev Cert.ReferenceIdeal.nD) : FVec Ideal Cert.ReferenceIdeal.S1024x10 .f32 :=
  Cert.Network.refNet (m (rloc c Cert.ReferenceIdeal.main_arg0)) (m (rloc c Cert.ReferenceIdeal.main_arg1))
    (m (rloc c Cert.ReferenceIdeal.main_arg2))
    ⟨m (rloc c Cert.ReferenceIdeal.main_arg3), m (rloc c Cert.ReferenceIdeal.main_arg4),
      m (rloc c Cert.ReferenceIdeal.main_arg5), m (rloc c Cert.ReferenceIdeal.main_arg12),
      m (rloc c Cert.ReferenceIdeal.main_arg13)⟩
    ⟨m (rloc c Cert.ReferenceIdeal.main_arg6), m (rloc c Cert.ReferenceIdeal.main_arg7),
      m (rloc c Cert.ReferenceIdeal.main_arg8), m (rloc c Cert.ReferenceIdeal.main_arg14),
      m (rloc c Cert.ReferenceIdeal.main_arg15)⟩
    ⟨m (rloc c Cert.ReferenceIdeal.main_arg9), m (rloc c Cert.ReferenceIdeal.main_arg10),
      m (rloc c Cert.ReferenceIdeal.main_arg11), m (rloc c Cert.ReferenceIdeal.main_arg16),
      m (rloc c Cert.ReferenceIdeal.main_arg17)⟩
    (m (rloc c Cert.ReferenceIdeal.main_arg18)) (m (rloc c Cert.ReferenceIdeal.main_arg19))

/-- From memories that agree on the arguments and satisfy the precondition, the two networks give one array. -/
theorem refOut_eq_kerOut
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' (rloc c Cert.ReferenceIdeal.main_arg0) = m (kloc c Cert.KernelIdeal.main_arg0))
    (e1 : m' (rloc c Cert.ReferenceIdeal.main_arg1) = m (kloc c Cert.KernelIdeal.main_arg1))
    (e2 : m' (rloc c Cert.ReferenceIdeal.main_arg2) = m (kloc c Cert.KernelIdeal.main_arg2))
    (e3 : m' (rloc c Cert.ReferenceIdeal.main_arg3) = m (kloc c Cert.KernelIdeal.main_arg3))
    (e4 : m' (rloc c Cert.ReferenceIdeal.main_arg4) = m (kloc c Cert.KernelIdeal.main_arg4))
    (e5 : m' (rloc c Cert.ReferenceIdeal.main_arg5) = m (kloc c Cert.KernelIdeal.main_arg5))
    (e6 : m' (rloc c Cert.ReferenceIdeal.main_arg6) = m (kloc c Cert.KernelIdeal.main_arg6))
    (e7 : m' (rloc c Cert.ReferenceIdeal.main_arg7) = m (kloc c Cert.KernelIdeal.main_arg7))
    (e8 : m' (rloc c Cert.ReferenceIdeal.main_arg8) = m (kloc c Cert.KernelIdeal.main_arg8))
    (e9 : m' (rloc c Cert.ReferenceIdeal.main_arg9) = m (kloc c Cert.KernelIdeal.main_arg9))
    (e10 : m' (rloc c Cert.ReferenceIdeal.main_arg10) = m (kloc c Cert.KernelIdeal.main_arg10))
    (e11 : m' (rloc c Cert.ReferenceIdeal.main_arg11) = m (kloc c Cert.KernelIdeal.main_arg11))
    (e12 : m' (rloc c Cert.ReferenceIdeal.main_arg12) = m (kloc c Cert.KernelIdeal.main_arg12))
    (e13 : m' (rloc c Cert.ReferenceIdeal.main_arg13) = m (kloc c Cert.KernelIdeal.main_arg13))
    (e14 : m' (rloc c Cert.ReferenceIdeal.main_arg14) = m (kloc c Cert.KernelIdeal.main_arg14))
    (e15 : m' (rloc c Cert.ReferenceIdeal.main_arg15) = m (kloc c Cert.KernelIdeal.main_arg15))
    (e16 : m' (rloc c Cert.ReferenceIdeal.main_arg16) = m (kloc c Cert.KernelIdeal.main_arg16))
    (e17 : m' (rloc c Cert.ReferenceIdeal.main_arg17) = m (kloc c Cert.KernelIdeal.main_arg17))
    (e18 : m' (rloc c Cert.ReferenceIdeal.main_arg18) = m (kloc c Cert.KernelIdeal.main_arg18))
    (e19 : m' (rloc c Cert.ReferenceIdeal.main_arg19) = m (kloc c Cert.KernelIdeal.main_arg19)) :
    refOut m' c = kerOut m c := by
  obtain ⟨r0, r3, r4, r5, r6, r7, r8, r9, r10, r11, r12, r13, r14, r15, r16, r17, r18, r19⟩ :=
    Cert.PreFinite.inputs_real _ _ _ _ _ _ _ _ _ _ _ _ _ _ _ _ _ _ _ _ (hpre c)
  unfold refOut kerOut
  rw [e0, e1, e2, e3, e4, e5, e6, e7, e8, e9, e10, e11, e12, e13, e14, e15, e16, e17, e18, e19]
  exact (Cert.Network.kerNet_eq_refNet _ _ _ _ _ _ _ _ r0 ⟨r3, r4, r5, r12, r13⟩ ⟨r6, r7, r8, r14, r15⟩
    ⟨r9, r10, r11, r16, r17⟩).symm

/-- Every weakly fair execution of the idealized kernel, from a memory where the precondition holds, terminates with the
    result array at the kernel's network of the launch arguments and the arguments as launched. -/
def KernelRuns : Prop :=
  ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem (kloc c Cert.KernelIdeal.main_v110) = kerOut m c
          ∧ r.2.mem (kloc c Cert.KernelIdeal.main_arg0) = m (kloc c Cert.KernelIdeal.main_arg0)
          ∧ r.2.mem (kloc c Cert.KernelIdeal.main_arg1) = m (kloc c Cert.KernelIdeal.main_arg1)
          ∧ r.2.mem (kloc c Cert.KernelIdeal.main_arg2) = m (kloc c Cert.KernelIdeal.main_arg2)
          ∧ r.2.mem (kloc c Cert.KernelIdeal.main_arg3) = m (kloc c Cert.KernelIdeal.main_arg3)
          ∧ r.2.mem (kloc c Cert.KernelIdeal.main_arg4) = m (kloc c Cert.KernelIdeal.main_arg4)
          ∧ r.2.mem (kloc c Cert.KernelIdeal.main_arg5) = m (kloc c Cert.KernelIdeal.main_arg5)
          ∧ r.2.mem (kloc c Cert.KernelIdeal.main_arg6) = m (kloc c Cert.KernelIdeal.main_arg6)
          ∧ r.2.mem (kloc c Cert.KernelIdeal.main_arg7) = m (kloc c Cert.KernelIdeal.main_arg7)
          ∧ r.2.mem (kloc c Cert.KernelIdeal.main_arg8) = m (kloc c Cert.KernelIdeal.main_arg8)
          ∧ r.2.mem (kloc c Cert.KernelIdeal.main_arg9) = m (kloc c Cert.KernelIdeal.main_arg9)
          ∧ r.2.mem (kloc c Cert.KernelIdeal.main_arg10) = m (kloc c Cert.KernelIdeal.main_arg10)
          ∧ r.2.mem (kloc c Cert.KernelIdeal.main_arg11) = m (kloc c Cert.KernelIdeal.main_arg11)
          ∧ r.2.mem (kloc c Cert.KernelIdeal.main_arg12) = m (kloc c Cert.KernelIdeal.main_arg12)
          ∧ r.2.mem (kloc c Cert.KernelIdeal.main_arg13) = m (kloc c Cert.KernelIdeal.main_arg13)
          ∧ r.2.mem (kloc c Cert.KernelIdeal.main_arg14) = m (kloc c Cert.KernelIdeal.main_arg14)
          ∧ r.2.mem (kloc c Cert.KernelIdeal.main_arg15) = m (kloc c Cert.KernelIdeal.main_arg15)
          ∧ r.2.mem (kloc c Cert.KernelIdeal.main_arg16) = m (kloc c Cert.KernelIdeal.main_arg16)
          ∧ r.2.mem (kloc c Cert.KernelIdeal.main_arg17) = m (kloc c Cert.KernelIdeal.main_arg17)
          ∧ r.2.mem (kloc c Cert.KernelIdeal.main_arg18) = m (kloc c Cert.KernelIdeal.main_arg18)
          ∧ r.2.mem (kloc c Cert.KernelIdeal.main_arg19) = m (kloc c Cert.KernelIdeal.main_arg19))

/-- Every weakly fair execution of the idealized reference terminates with the result array at the reference's network of
    the launch arguments and the arguments as launched. -/
def ReferenceRuns : Prop :=
  ∀ (m' : (ℓ : Loc Cert.ReferenceIdeal.nD Cert.ReferenceIdeal.τ Cert.ReferenceIdeal.sig) → Buf (Elt Ideal) ℓ)
        (g' : Dev Cert.ReferenceIdeal.nD → PrngReg),
      θ_run (Cert.ReferenceIdeal.defs (F := Ideal))
        (onTc (τ := Cert.ReferenceIdeal.τ) (Cert.ReferenceIdeal.main (F := Ideal)))
        ⟨m', fun _ => 0, g'⟩ (fun r => ∀ c : Dev Cert.ReferenceIdeal.nD,
          r.2.mem (rloc c Cert.ReferenceIdeal.main_v126) = refOut m' c
          ∧ r.2.mem (rloc c Cert.ReferenceIdeal.main_arg0) = m' (rloc c Cert.ReferenceIdeal.main_arg0)
          ∧ r.2.mem (rloc c Cert.ReferenceIdeal.main_arg1) = m' (rloc c Cert.ReferenceIdeal.main_arg1)
          ∧ r.2.mem (rloc c Cert.ReferenceIdeal.main_arg2) = m' (rloc c Cert.ReferenceIdeal.main_arg2)
          ∧ r.2.mem (rloc c Cert.ReferenceIdeal.main_arg3) = m' (rloc c Cert.ReferenceIdeal.main_arg3)
          ∧ r.2.mem (rloc c Cert.ReferenceIdeal.main_arg4) = m' (rloc c Cert.ReferenceIdeal.main_arg4)
          ∧ r.2.mem (rloc c Cert.ReferenceIdeal.main_arg5) = m' (rloc c Cert.ReferenceIdeal.main_arg5)
          ∧ r.2.mem (rloc c Cert.ReferenceIdeal.main_arg6) = m' (rloc c Cert.ReferenceIdeal.main_arg6)
          ∧ r.2.mem (rloc c Cert.ReferenceIdeal.main_arg7) = m' (rloc c Cert.ReferenceIdeal.main_arg7)
          ∧ r.2.mem (rloc c Cert.ReferenceIdeal.main_arg8) = m' (rloc c Cert.ReferenceIdeal.main_arg8)
          ∧ r.2.mem (rloc c Cert.ReferenceIdeal.main_arg9) = m' (rloc c Cert.ReferenceIdeal.main_arg9)
          ∧ r.2.mem (rloc c Cert.ReferenceIdeal.main_arg10) = m' (rloc c Cert.ReferenceIdeal.main_arg10)
          ∧ r.2.mem (rloc c Cert.ReferenceIdeal.main_arg11) = m' (rloc c Cert.ReferenceIdeal.main_arg11)
          ∧ r.2.mem (rloc c Cert.ReferenceIdeal.main_arg12) = m' (rloc c Cert.ReferenceIdeal.main_arg12)
          ∧ r.2.mem (rloc c Cert.ReferenceIdeal.main_arg13) = m' (rloc c Cert.ReferenceIdeal.main_arg13)
          ∧ r.2.mem (rloc c Cert.ReferenceIdeal.main_arg14) = m' (rloc c Cert.ReferenceIdeal.main_arg14)
          ∧ r.2.mem (rloc c Cert.ReferenceIdeal.main_arg15) = m' (rloc c Cert.ReferenceIdeal.main_arg15)
          ∧ r.2.mem (rloc c Cert.ReferenceIdeal.main_arg16) = m' (rloc c Cert.ReferenceIdeal.main_arg16)
          ∧ r.2.mem (rloc c Cert.ReferenceIdeal.main_arg17) = m' (rloc c Cert.ReferenceIdeal.main_arg17)
          ∧ r.2.mem (rloc c Cert.ReferenceIdeal.main_arg18) = m' (rloc c Cert.ReferenceIdeal.main_arg18)
          ∧ r.2.mem (rloc c Cert.ReferenceIdeal.main_arg19) = m' (rloc c Cert.ReferenceIdeal.main_arg19))

/-- THE REDUCTION. A run of the idealized kernel ending at `kerOut` and a run of the idealized reference ending at
    `refOut`, each with its arguments as launched, give the value claim. -/
theorem algebraic_of_runs (runK : KernelRuns) (runR : ReferenceRuns) :
    Cert.algebraic_KernelIdeal_ReferenceIdeal := by
  intro m g m' g' hpre hagree
  refine ⟨fun c => kerOut m c, runK m g hpre, ?_⟩
  refine (θ_run (Cert.ReferenceIdeal.defs (F := Ideal)) _ _).mono (fun r h c => ?_) (runR m' g')
  obtain ⟨hv, hrest⟩ := h c
  obtain ⟨e0, e1, e2, e3, e4, e5, e6, e7, e8, e9, e10, e11, e12, e13, e14, e15, e16, e17, e18, e19⟩ := hagree c
  exact ⟨hv.trans (refOut_eq_kerOut m m' hpre c e0 e1 e2 e3 e4 e5 e6 e7 e8 e9 e10 e11 e12 e13 e14 e15 e16 e17 e18 e19),
    hrest⟩

end Cert.Reduction

end
-- ==== Proof.KerLinear.lean ====
/-
  The kernel's linear map and its column statistics on one tile, read at an index.

  A tile is 5000 rows of the layer's input `h` and of the neighbourhood sums `agg`. The first region of a layer computes
  on it `lin[r, c] = ∑_k h[r, k] · w_root[k, c] + ∑_k agg[r, k] · w_rel[k, c] + b[c]` (the two products on values whose
  change of format is the identity here), stores it, and adds the tile's column sums of `lin` and of `lin²` to two
  rows it carries from tile to tile.
-/
import proofs.«140440_j51049981280319_1_alg».proof.KernelIdeal
import proofs.«140440_j51049981280319_1_alg».proof.Proof.Gen.KernelIdeal.Skeleton
import proofs.«140440_j51049981280319_1_alg».proof.Proof.LibRowLayout
import proofs.«140440_j51049981280319_1_alg».proof.Proof.LibMatmulNN
import Idealize.ShloMosaic.Lib.ValueLayout

noncomputable section

namespace Cert.KernelIdeal.Linear

open Idealize.ShloMosaic Idealize.ShloMosaic.ValueIdx
open Cert.KernelIdeal Cert.KernelIdeal.Facts₀

variable [Cert.KernelIdeal.Facts]

/-- The linear map on a tile at `(r, c)`. -/
theorem k0_pay4_apply (hb ab : Vec Ideal S5000x128 .f32) (wr wl : Vec Ideal S128x128 .f32) (bias : Vec Ideal S1x128 .f32)
    (r : Fin 5000) (c : Fin 128) :
    Gen.k0_pay4 (F := Ideal) hb ab wr wl bias (ix2 r c)
      = (∑ k : Fin 128, hb (ix2 r k) * wr (ix2 k c)) + (∑ k : Fin 128, ab (ix2 r k) * wl (ix2 k c))
          + bias (ix2 (0 : Fin 1) c) := by
  unfold Gen.k0_pay4
  simp only [shapeCast_self, addf_apply, matmul]
  rw [Cert.LibMatmulNN.matmul_zero_apply dot_S5000x128_S128x128_S5000x128_1_0_0_1_n_n rfl,
    Cert.LibMatmulNN.matmul_zero_apply dot_S5000x128_S128x128_S5000x128_1_0_0_1_n_n rfl, broadcastTo_1b_ab_apply]
  rfl

/-- The carried row of sums after a tile: what it held plus the tile's column sums of the linear map. -/
theorem k0_pay5_apply (hb ab : Vec Ideal S5000x128 .f32) (wr wl : Vec Ideal S128x128 .f32) (bias : Vec Ideal S1x128 .f32)
    (acc : Vec Ideal S1x128 .f32) (c : Fin 128) :
    Gen.k0_pay5 (F := Ideal) hb ab wr wl bias acc (ix2 (0 : Fin 1) c)
      = acc (ix2 (0 : Fin 1) c) + ∑ r : Fin 5000, Gen.k0_pay4 (F := Ideal) hb ab wr wl bias (ix2 r c) := by
  unfold Gen.k0_pay5
  simp only [shapeCast_self]
  show acc (ix2 (0 : Fin 1) c) + shapeCast S1x128 (multiReduction .add [0] S128 (Gen.k0_pay4 (F := Ideal) hb ab wr wl bias)
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

/-- The carried row of sums of squares after a tile: what it held plus the tile's column sums of the squared linear map. -/
theorem k0_pay6_apply (hb ab : Vec Ideal S5000x128 .f32) (wr wl : Vec Ideal S128x128 .f32) (bias : Vec Ideal S1x128 .f32)
    (acc : Vec Ideal S1x128 .f32) (c : Fin 128) :
    Gen.k0_pay6 (F := Ideal) hb ab wr wl bias acc (ix2 (0 : Fin 1) c)
      = acc (ix2 (0 : Fin 1) c) + ∑ r : Fin 5000, Gen.k0_pay4 (F := Ideal) hb ab wr wl bias (ix2 r c)
          * Gen.k0_pay4 (F := Ideal) hb ab wr wl bias (ix2 r c) := by
  unfold Gen.k0_pay6
  show acc (ix2 (0 : Fin 1) c) + shapeCast S1x128 (multiReduction .add [0] S128
      (mulf (Gen.k0_pay4 (F := Ideal) hb ab wr wl bias) (Gen.k0_pay4 (F := Ideal) hb ab wr wl bias))
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

end Cert.KernelIdeal.Linear

end
-- ==== Proof.Tiles.lean ====
/-
  The first region's statistics are the column sums over all the rows.

  The 50000 rows are visited as ten tiles of 5000; row `r` of tile `t` is row `r + 5000 · t` of the array. The two carried
  rows start at zero at the first tile and each tile adds its own column sums (`Cert.KernelIdeal.Linear`), so after the
  last tile they hold, per column, the sum over the tiles of the tiles' sums: the sum over all rows.
-/
import proofs.«140440_j51049981280319_1_alg».proof.Proof.LibBatchNormAlgebra
import Idealize.ShloMosaic.Lib.ValueIdx

noncomputable section

namespace Cert.Tiles

open Idealize.ShloMosaic Idealize.ShloMosaic.ValueIdx

/-- Row `r` of tile `t`, as a row of the whole array. -/
def row (t : Fin 10) (r : Fin 5000) : Fin 50000 := ⟨r.val + 5000 * t.val, by have := r.isLt; have := t.isLt; omega⟩

/-- The sum over the ten tiles of a tile's column sum is the column sum over all 50000 rows. -/
theorem sum_tiles_col {M : Type*} [AddCommMonoid M] (y : (⟨2, ![50000, 128]⟩ : Shape).Idx → M) (c : Fin 128) :
    ∑ t : Fin 10, ∑ r : Fin 5000, y (ix2 (row t r) c) = ∑ p : Fin 50000, y (ix2 p c) :=
  (BatchNormAlgebra.sum_tiles 10 5000 (fun i : Fin (10 * 5000) => y (ix2 (n0 := 50000) i c))).symm

/-- An accumulator that starts at zero and adds one tile's column sum per tile holds, after the ten tiles, the column
    sum over all rows. -/
theorem accum_tiles_col {M : Type*} [AddCommMonoid M] (y : (⟨2, ![50000, 128]⟩ : Shape).Idx → M) (c : Fin 128) :
    BatchNormAlgebra.accum (0 : M)
        (fun t => if h : t < 10 then ∑ r : Fin 5000, y (ix2 (row ⟨t, h⟩ r) c) else 0) 10
      = ∑ p : Fin 50000, y (ix2 p c) := by
  rw [BatchNormAlgebra.accum_eq, zero_add, ← sum_tiles_col y c, Finset.sum_range]
  exact Finset.sum_congr rfl fun t _ => by rw [dif_pos t.isLt]

end Cert.Tiles

end
-- ==== Proof.KRunFold.lean ====
/-
  The contents of the TensorCore's buffers at every boundary of @main: a fold through its seven stretches of host
  operations and its seven kernel regions.

  A stretch of host operations takes contents `W` to `StableHlo.after ops W`; it changes only the buffers its operations
  write. A region takes `W` to `W` with each of its windows' arrays at what the pipeline leaves there — an input
  window's array as it was, an output window's at its folded write-backs — and changes no other buffer. So a buffer
  that no stretch writes and that is no region's output array holds at the end what it held at launch: the arguments.
  What a region's kernel does is taken here as given data per region (`Half`): its proof data at any entry contents,
  the body obligation, and how the invariant starts from and returns to the class's.
-/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import proofs.«140440_j51049981280319_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents of the TensorCore's buffers on every core, read at references. -/
abbrev Contents : Type :=
  (c : Dev nD) → (b : Ref sig .tc) → Buf (Elt F) ((c : Thread nD τ).loc b)

/-- What a region's kernel contributes: the pipeline's proof data at any entry contents `V` — arrays read off `V`,
    full shares, nothing owed —, the body obligation at every point, and the invariant's ends against the class's
    (the scoped rest and the generator register). -/
structure Half (cfg : Cfg sig Λ₀) where
  dat : Contents (F := F) → (c : Dev nD) → Dat τ (Elt F) Unit ℕ (UR sig nD τ) ℕ cfg c
  A_eq : ∀ V c w, (dat V c).A w = V c (Pipeline.arrRef cfg.spec w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA (U := UR sig nD τ) (Val := Elt F) cfg.spec c : sProp 𝕄) ⊢ (dat V c).Φ 0
  hout : ∀ V c, (dat V c).Φ (Fin.last cfg.N) ⊢ (Pipeline.ΦA (U := UR sig nD τ) (Val := Elt F) cfg.spec c : sProp 𝕄)

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-! ## The fold -/

/-- At launch. -/
abbrev W0 : Dev nD → Valuation τ sig (Elt F) := fun c b => (s₀ m ρ).mem ((c : Dev nD), b)
/-- After the first stretch: region 0's entry. -/
abbrev W1 : Dev nD → Valuation τ sig (Elt F) := fun c => StableHlo.after hostOps0 (W0 m ρ c)
abbrev V1 : Contents (F := F) := fun c b => W1 m ρ c b
/-- At region 0's exit. -/
def W2 (c : Dev nD) : Valuation τ sig (Elt F) :=
  Pipeline.withArrays spec0 c (W1 m ρ c) fun w => (H0.dat (V1 m ρ) c).arrAt w cfg0.N
abbrev V2 : Contents (F := F) := fun c b => W2 H0 m ρ c b
abbrev W3 : Dev nD → Valuation τ sig (Elt F) := fun c => StableHlo.after hostOps1 (W2 H0 m ρ c)
abbrev V3 : Contents (F := F) := fun c b => W3 H0 m ρ c b
def W4 (c : Dev nD) : Valuation τ sig (Elt F) :=
  Pipeline.withArrays spec1 c (W3 H0 m ρ c) fun w => (H1.dat (V3 H0 m ρ) c).arrAt w cfg1.N
abbrev V4 : Contents (F := F) := fun c b => W4 H0 H1 m ρ c b
abbrev W5 : Dev nD → Valuation τ sig (Elt F) := fun c => StableHlo.after hostOps2 (W4 H0 H1 m ρ c)
abbrev V5 : Contents (F := F) := fun c b => W5 H0 H1 m ρ c b
def W6 (c : Dev nD) : Valuation τ sig (Elt F) :=
  Pipeline.withArrays spec2 c (W5 H0 H1 m ρ c) fun w => (H2.dat (V5 H0 H1 m ρ) c).arrAt w cfg2.N
abbrev V6 : Contents (F := F) := fun c b => W6 H0 H1 H2 m ρ c b
abbrev W7 : Dev nD → Valuation τ sig (Elt F) := fun c => StableHlo.after hostOps3 (W6 H0 H1 H2 m ρ c)
abbrev V7 : Contents (F := F) := fun c b => W7 H0 H1 H2 m ρ c b
def W8 (c : Dev nD) : Valuation τ sig (Elt F) :=
  Pipeline.withArrays spec3 c (W7 H0 H1 H2 m ρ c) fun w => (H3.dat (V7 H0 H1 H2 m ρ) c).arrAt w cfg3.N
abbrev V8 : Contents (F := F) := fun c b => W8 H0 H1 H2 H3 m ρ c b
abbrev W9 : Dev nD → Valuation τ sig (Elt F) := fun c => StableHlo.after hostOps4 (W8 H0 H1 H2 H3 m ρ c)
abbrev V9 : Contents (F := F) := fun c b => W9 H0 H1 H2 H3 m ρ c b
def W10 (c : Dev nD) : Valuation τ sig (Elt F) :=
  Pipeline.withArrays spec4 c (W9 H0 H1 H2 H3 m ρ c) fun w => (H4.dat (V9 H0 H1 H2 H3 m ρ) c).arrAt w cfg4.N
abbrev V10 : Contents (F := F) := fun c b => W10 H0 H1 H2 H3 H4 m ρ c b
abbrev W11 : Dev nD → Valuation τ sig (Elt F) := fun c => StableHlo.after hostOps5 (W10 H0 H1 H2 H3 H4 m ρ c)
abbrev V11 : Contents (F := F) := fun c b => W11 H0 H1 H2 H3 H4 m ρ c b
def W12 (c : Dev nD) : Valuation τ sig (Elt F) :=
  Pipeline.withArrays spec5 c (W11 H0 H1 H2 H3 H4 m ρ c) fun w => (H5.dat (V11 H0 H1 H2 H3 H4 m ρ) c).arrAt w cfg5.N
abbrev V12 : Contents (F := F) := fun c b => W12 H0 H1 H2 H3 H4 H5 m ρ c b
abbrev W13 : Dev nD → Valuation τ sig (Elt F) := fun c => StableHlo.after hostOps6 (W12 H0 H1 H2 H3 H4 H5 m ρ c)
abbrev V13 : Contents (F := F) := fun c b => W13 H0 H1 H2 H3 H4 H5 m ρ c b
def W14 (c : Dev nD) : Valuation τ sig (Elt F) :=
  Pipeline.withArrays spec6 c (W13 H0 H1 H2 H3 H4 H5 m ρ c) fun w => (H6.dat (V13 H0 H1 H2 H3 H4 H5 m ρ) c).arrAt w cfg6.N
abbrev V14 : Contents (F := F) := fun c b => W14 H0 H1 H2 H3 H4 H5 H6 m ρ c b

end Cert.Kernel.Hand

end
-- ==== Proof.KRunKept.lean ====
/-
  What a region leaves unchanged, and what no step changes.

  At a region's exit every window's array holds what the pipeline leaves there and every other buffer what it held at
  entry. An input window's array is never written back, so whatever the kernel does, a region changes only its output
  windows' arrays: one statement for any region. A stretch of host operations changes only the buffers its operations
  write. Chaining the fourteen steps, a buffer outside all of those holds at the end what memory held at launch.
-/
import proofs.«140440_j51049981280319_1_alg».proof.Proof.KRunFold

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- ANY REGION changes no buffer but its output windows' arrays: at the exit contents (the entry contents `W` with each
    window's array at what the pipeline leaves) a buffer that is no output window's array holds what it held in `W` —
    if it is an input window's array because that array is never written back and was read off `W`, otherwise because
    the region does not touch it. -/
theorem region_keeps {cfg : Cfg sig Λ₀} (hinj : Function.Injective (Pipeline.arrRef cfg.spec)) (H : Half (F := F) cfg)
    (Vin : Contents (F := F)) (c : Dev nD) (W : Valuation τ sig (Elt F))
    (hV : ∀ b : Ref sig .tc, Vin c b = W (Proc.devRef .tc b)) (b : Ref sig .tc)
    (hb : ∀ w, (cfg.win w).isOut = true → Pipeline.arrRef cfg.spec w ≠ b) :
    Pipeline.withArrays cfg.spec c W (fun w => (H.dat Vin c).arrAt w cfg.N) (Proc.devRef .tc b)
      = W (Proc.devRef .tc b) := by
  by_cases h : ∃ w, Pipeline.arrRef cfg.spec w = b
  · obtain ⟨w, rfl⟩ := h
    rw [Pipeline.withArrays_arr cfg.spec hinj]
    have hin : (cfg.win w).isOut = false := by
      cases hw : (cfg.win w).isOut with
      | false => rfl
      | true => exact absurd rfl (hb w hw)
    exact ((H.dat Vin c).arrAt_in w hin _).trans ((H.A_eq Vin c w).trans (hV _))
  · exact Pipeline.withArrays_of_ne cfg.spec c _ _ b fun w e => h ⟨w, e⟩

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- A buffer that no stretch of host operations writes and that is no region's output array holds at the last boundary
    what memory held at launch: the seven regions by `region_keeps`, the seven stretches by what they write. -/
theorem kept (c : Dev nD) (b : Ref sig .tc)
    (n0 : b ∉ hostOps0_W) (o0 : ∀ w, (cfg0.win w).isOut = true → Pipeline.arrRef cfg0.spec w ≠ b)
    (n1 : b ∉ hostOps1_W) (o1 : ∀ w, (cfg1.win w).isOut = true → Pipeline.arrRef cfg1.spec w ≠ b)
    (n2 : b ∉ hostOps2_W) (o2 : ∀ w, (cfg2.win w).isOut = true → Pipeline.arrRef cfg2.spec w ≠ b)
    (n3 : b ∉ hostOps3_W) (o3 : ∀ w, (cfg3.win w).isOut = true → Pipeline.arrRef cfg3.spec w ≠ b)
    (n4 : b ∉ hostOps4_W) (o4 : ∀ w, (cfg4.win w).isOut = true → Pipeline.arrRef cfg4.spec w ≠ b)
    (n5 : b ∉ hostOps5_W) (o5 : ∀ w, (cfg5.win w).isOut = true → Pipeline.arrRef cfg5.spec w ≠ b)
    (n6 : b ∉ hostOps6_W) (o6 : ∀ w, (cfg6.win w).isOut = true → Pipeline.arrRef cfg6.spec w ≠ b) :
    W14 H0 H1 H2 H3 H4 H5 H6 m ρ c (Proc.devRef .tc b) = m ((c : Thread nD τ).loc b) :=
  (region_keeps launch6.win.arr_inj H6 _ c (W13 H0 H1 H2 H3 H4 H5 m ρ c) (fun _ => rfl) b o6).trans <|
  (StableHlo.after_of_writes_sub hostOps6 _ hostOps6_writes n6).trans <|
  (region_keeps launch5.win.arr_inj H5 _ c (W11 H0 H1 H2 H3 H4 m ρ c) (fun _ => rfl) b o5).trans <|
  (StableHlo.after_of_writes_sub hostOps5 _ hostOps5_writes n5).trans <|
  (region_keeps launch4.win.arr_inj H4 _ c (W9 H0 H1 H2 H3 m ρ c) (fun _ => rfl) b o4).trans <|
  (StableHlo.after_of_writes_sub hostOps4 _ hostOps4_writes n4).trans <|
  (region_keeps launch3.win.arr_inj H3 _ c (W7 H0 H1 H2 m ρ c) (fun _ => rfl) b o3).trans <|
  (StableHlo.after_of_writes_sub hostOps3 _ hostOps3_writes n3).trans <|
  (region_keeps launch2.win.arr_inj H2 _ c (W5 H0 H1 m ρ c) (fun _ => rfl) b o2).trans <|
  (StableHlo.after_of_writes_sub hostOps2 _ hostOps2_writes n2).trans <|
  (region_keeps launch1.win.arr_inj H1 _ c (W3 H0 m ρ c) (fun _ => rfl) b o1).trans <|
  (StableHlo.after_of_writes_sub hostOps1 _ hostOps1_writes n1).trans <|
  (region_keeps launch0.win.arr_inj H0 _ c (W1 m ρ c) (fun _ => rfl) b o0).trans <|
  (StableHlo.after_of_writes_sub hostOps0 _ hostOps0_writes n0)

end Cert.Kernel.Hand

end
-- ==== Proof.KRunSegs.lean ====
/-
  @main's regions as segments of the run.

  Every pipeline's proof data is taken at its region's entry contents. Between segments a core holds every unscoped buffer
  whole at the boundary's contents, its generator register at some state, and owes nothing. A region is entered by
  splitting its windows' arrays out of the unscoped buffers, hands the generator register and the scoped rest to the
  kernel's invariant and takes them back, and is left by putting the arrays back at the exit contents.
-/
import proofs.«140440_j51049981280319_1_alg».proof.Proof.KRunKept

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- No pipeline has a prefetched table. -/
abbrev adm : (p : Fin 7) → (pcfgs (F := F) p).Adm := fun p => (cfgs p).toPCfg_adm

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 H0 m ρ) c
  | ⟨2, _⟩ => fun c => H2.dat (V5 H0 H1 m ρ) c
  | ⟨3, _⟩ => fun c => H3.dat (V7 H0 H1 H2 m ρ) c
  | ⟨4, _⟩ => fun c => H4.dat (V9 H0 H1 H2 H3 m ρ) c
  | ⟨5, _⟩ => fun c => H5.dat (V11 H0 H1 H2 H3 H4 m ρ) c
  | ⟨6, _⟩ => fun c => H6.dat (V13 H0 H1 H2 H3 H4 H5 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a segment's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 :=
  iprop(StableHlo.held (c : Thread nD τ) (Pipeline.ucRefs τ sig) (W14 H0 H1 H2 H3 H4 H5 H6 m ρ c) ∗ ∃ r, prngReg c r)

set_option backward.isDefEq.respectTransparency.types false in
/-- Region 0 over the segment states: entered from every unscoped buffer at `W1`, left at `W2`. -/
def reg0 : Pipeline.RegionSeg (pcfgs (F := F)) adm (pdats H0 H1 H2 H3 H4 H5 H6 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed_zero (V1 m ρ) c t
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H0 H1 H2 H3 H4 H5 H6 m ρ) launch0.win launch0.arr_whole c
      ((pdats H0 H1 H2 H3 H4 H5 H6 m ρ 0 c).share_full fun w => H0.q_full (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 0 c).owed 0 = 0 from H0.owed_zero (V1 m ρ) c 0]
      icases HO with ⟨%W, HO⟩; iexists W; isplitr
      · ipureintro
        exact fun _ _ => Or.inl (by
          rw [show (pdats H0 H1 H2 H3 H4 H5 H6 m ρ 0 c).recorded 0 = Set.univ from H0.recorded_univ (V1 m ρ) c 0]; exact Set.mem_univ _)
      iexact HO
    isplitl [Hp]; · iexact Hp
    iexact Hrest
  hin c := by
    refine BIBase.Entails.trans ?_ (H0.hin (V1 m ρ) c)
    unfold Pipeline.ΦA
    iintro ⟨Hp, -, Hr⟩
    isplitl [Hr]; · iexact Hr
    iexact Hp
  hout c := by
    rw [Pipeline.ownSems0_none]
    refine BIBase.Entails.trans (H0.hout (V1 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 0 c).arrAt w cfg0.N = V2 H0 m ρ c (Pipeline.arrRef spec0 w) := fun w => by
      show (H0.dat (V1 m ρ) c).arrAt w cfg0.N = W2 H0 m ρ c (Proc.devRef .tc (Pipeline.arrRef spec0 w))
      unfold W2; exact (Pipeline.withArrays_arr spec0 launch0.win.arr_inj c (W1 m ρ c) (fun w => (H0.dat (V1 m ρ) c).arrAt w cfg0.N) w).symm
    have hrest : ∀ b, b ∉ Finset.univ.image (Pipeline.arrRef spec0) → V2 H0 m ρ c b = V1 m ρ c b := fun b hb => by
      show W2 H0 m ρ c (Proc.devRef .tc b) = _
      unfold W2; exact Pipeline.withArrays_of_ne spec0 c _ _ b fun w e => hb (Finset.mem_image.mpr ⟨w, Finset.mem_univ _, e⟩)
    have hjoin := Pipeline.unscopedBufs_of_arrays (p := 0) (pcfgs (F := F)) adm (Ix := Unit) (Name := ℕ) (U := UR sig nD τ) (Lvl := ℕ)
      launch0.win launch0.arr_whole c (pdats H0 H1 H2 H3 H4 H5 H6 m ρ) ((pdats H0 H1 H2 H3 H4 H5 H6 m ρ 0 c).share_full fun w => H0.q_full (V1 m ρ) c w)
      (V1 m ρ c) (V2 H0 m ρ c) ((pdats H0 H1 H2 H3 H4 H5 H6 m ρ 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 0 c).owed (Fin.last _) = 0 from H0.owed_zero (V1 m ρ) c _]
    icases HO with ⟨%W, -, HO⟩; iexists W; iexact HO

set_option backward.isDefEq.respectTransparency.types false in
/-- Region 1 over the segment states: entered from every unscoped buffer at `W3`, left at `W4`. -/
def reg1 : Pipeline.RegionSeg (pcfgs (F := F)) adm (pdats H0 H1 H2 H3 H4 H5 H6 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (V3 H0 m ρ) c).loose
  hwaits := Pipeline.hwaits_of_owed_zero _ _ _ _ L lv 1 fun c t => H1.owed_zero (V3 H0 m ρ) c t
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H0 m ρ c)
  hentry c := by
    rw [Pipeline.ownSems0_none]
    have hsplit := Pipeline.arrays_of_unscopedBufs (p := 1) (pcfgs (F := F)) adm (pdats H0 H1 H2 H3 H4 H5 H6 m ρ) launch1.win launch1.arr_whole c
      ((pdats H0 H1 H2 H3 H4 H5 H6 m ρ 1 c).share_full fun w => H1.q_full (V3 H0 m ρ) c w) (V3 H0 m ρ c) fun w => H1.A_eq (V3 H0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 1 c).owed 0 = 0 from H1.owed_zero (V3 H0 m ρ) c 0]
      icases HO with ⟨%W, HO⟩; iexists W; isplitr
      · ipureintro
        exact fun _ _ => Or.inl (by
          rw [show (pdats H0 H1 H2 H3 H4 H5 H6 m ρ 1 c).recorded 0 = Set.univ from H1.recorded_univ (V3 H0 m ρ) c 0]; exact Set.mem_univ _)
      iexact HO
    isplitl [Hp]; · iexact Hp
    iexact Hrest
  hin c := by
    refine BIBase.Entails.trans ?_ (H1.hin (V3 H0 m ρ) c)
    unfold Pipeline.ΦA
    iintro ⟨Hp, -, Hr⟩
    isplitl [Hr]; · iexact Hr
    iexact Hp
  hout c := by
    rw [Pipeline.ownSems0_none]
    refine BIBase.Entails.trans (H1.hout (V3 H0 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 1 c).arrAt w cfg1.N = V4 H0 H1 m ρ c (Pipeline.arrRef spec1 w) := fun w => by
      show (H1.dat (V3 H0 m ρ) c).arrAt w cfg1.N = W4 H0 H1 m ρ c (Proc.devRef .tc (Pipeline.arrRef spec1 w))
      unfold W4; exact (Pipeline.withArrays_arr spec1 launch1.win.arr_inj c (W3 H0 m ρ c) (fun w => (H1.dat (V3 H0 m ρ) c).arrAt w cfg1.N) w).symm
    have hrest : ∀ b, b ∉ Finset.univ.image (Pipeline.arrRef spec1) → V4 H0 H1 m ρ c b = V3 H0 m ρ c b := fun b hb => by
      show W4 H0 H1 m ρ c (Proc.devRef .tc b) = _
      unfold W4; exact Pipeline.withArrays_of_ne spec1 c _ _ b fun w e => hb (Finset.mem_image.mpr ⟨w, Finset.mem_univ _, e⟩)
    have hjoin := Pipeline.unscopedBufs_of_arrays (p := 1) (pcfgs (F := F)) adm (Ix := Unit) (Name := ℕ) (U := UR sig nD τ) (Lvl := ℕ)
      launch1.win launch1.arr_whole c (pdats H0 H1 H2 H3 H4 H5 H6 m ρ) ((pdats H0 H1 H2 H3 H4 H5 H6 m ρ 1 c).share_full fun w => H1.q_full (V3 H0 m ρ) c w)
      (V3 H0 m ρ c) (V4 H0 H1 m ρ c) ((pdats H0 H1 H2 H3 H4 H5 H6 m ρ 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 1 c).owed (Fin.last _) = 0 from H1.owed_zero (V3 H0 m ρ) c _]
    icases HO with ⟨%W, -, HO⟩; iexists W; iexact HO

set_option backward.isDefEq.respectTransparency.types false in
/-- Region 2 over the segment states: entered from every unscoped buffer at `W5`, left at `W6`. -/
def reg2 : Pipeline.RegionSeg (pcfgs (F := F)) adm (pdats H0 H1 H2 H3 H4 H5 H6 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (V5 H0 H1 m ρ) c).loose
  hwaits := Pipeline.hwaits_of_owed_zero _ _ _ _ L lv 2 fun c t => H2.owed_zero (V5 H0 H1 m ρ) c t
  pre c := iprop(StableHlo.held (c : Thread nD τ) (Pipeline.ucRefs τ sig) (W5 H0 H1 m ρ c) ∗ R c)
  post c := iprop(StableHlo.held (c : Thread nD τ) (Pipeline.ucRefs τ sig) (W6 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 H0 H1 m ρ c)
  hentry c := by
    rw [Pipeline.ownSems0_none]
    have hsplit := Pipeline.arrays_of_unscopedBufs (p := 2) (pcfgs (F := F)) adm (pdats H0 H1 H2 H3 H4 H5 H6 m ρ) launch2.win launch2.arr_whole c
      ((pdats H0 H1 H2 H3 H4 H5 H6 m ρ 2 c).share_full fun w => H2.q_full (V5 H0 H1 m ρ) c w) (V5 H0 H1 m ρ c) fun w => H2.A_eq (V5 H0 H1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 2 c).owed 0 = 0 from H2.owed_zero (V5 H0 H1 m ρ) c 0]
      icases HO with ⟨%W, HO⟩; iexists W; isplitr
      · ipureintro
        exact fun _ _ => Or.inl (by
          rw [show (pdats H0 H1 H2 H3 H4 H5 H6 m ρ 2 c).recorded 0 = Set.univ from H2.recorded_univ (V5 H0 H1 m ρ) c 0]; exact Set.mem_univ _)
      iexact HO
    isplitl [Hp]; · iexact Hp
    iexact Hrest
  hin c := by
    refine BIBase.Entails.trans ?_ (H2.hin (V5 H0 H1 m ρ) c)
    unfold Pipeline.ΦA
    iintro ⟨Hp, -, Hr⟩
    isplitl [Hr]; · iexact Hr
    iexact Hp
  hout c := by
    rw [Pipeline.ownSems0_none]
    refine BIBase.Entails.trans (H2.hout (V5 H0 H1 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 2 c).arrAt w cfg2.N = V6 H0 H1 H2 m ρ c (Pipeline.arrRef spec2 w) := fun w => by
      show (H2.dat (V5 H0 H1 m ρ) c).arrAt w cfg2.N = W6 H0 H1 H2 m ρ c (Proc.devRef .tc (Pipeline.arrRef spec2 w))
      unfold W6; exact (Pipeline.withArrays_arr spec2 launch2.win.arr_inj c (W5 H0 H1 m ρ c) (fun w => (H2.dat (V5 H0 H1 m ρ) c).arrAt w cfg2.N) w).symm
    have hrest : ∀ b, b ∉ Finset.univ.image (Pipeline.arrRef spec2) → V6 H0 H1 H2 m ρ c b = V5 H0 H1 m ρ c b := fun b hb => by
      show W6 H0 H1 H2 m ρ c (Proc.devRef .tc b) = _
      unfold W6; exact Pipeline.withArrays_of_ne spec2 c _ _ b fun w e => hb (Finset.mem_image.mpr ⟨w, Finset.mem_univ _, e⟩)
    have hjoin := Pipeline.unscopedBufs_of_arrays (p := 2) (pcfgs (F := F)) adm (Ix := Unit) (Name := ℕ) (U := UR sig nD τ) (Lvl := ℕ)
      launch2.win launch2.arr_whole c (pdats H0 H1 H2 H3 H4 H5 H6 m ρ) ((pdats H0 H1 H2 H3 H4 H5 H6 m ρ 2 c).share_full fun w => H2.q_full (V5 H0 H1 m ρ) c w)
      (V5 H0 H1 m ρ c) (V6 H0 H1 H2 m ρ c) ((pdats H0 H1 H2 H3 H4 H5 H6 m ρ 2 c).arrAt · cfg2.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 2 c).owed (Fin.last _) = 0 from H2.owed_zero (V5 H0 H1 m ρ) c _]
    icases HO with ⟨%W, -, HO⟩; iexists W; iexact HO

set_option backward.isDefEq.respectTransparency.types false in
/-- Region 3 over the segment states: entered from every unscoped buffer at `W7`, left at `W8`. -/
def reg3 : Pipeline.RegionSeg (pcfgs (F := F)) adm (pdats H0 H1 H2 H3 H4 H5 H6 m ρ) () defs₀ 𝒱₀ L lv 3 where
  win := launch3.win.to₀
  block_pos := launch3.block_pos
  stage_whole := launch3.stage_whole
  K := PEmpty
  osem k := k.elim
  ho := Pipeline.OwnSemFacts.none _
  hbody c := (H3.body (V7 H0 H1 H2 m ρ) c).loose
  hwaits := Pipeline.hwaits_of_owed_zero _ _ _ _ L lv 3 fun c t => H3.owed_zero (V7 H0 H1 H2 m ρ) c t
  pre c := iprop(StableHlo.held (c : Thread nD τ) (Pipeline.ucRefs τ sig) (W7 H0 H1 H2 m ρ c) ∗ R c)
  post c := iprop(StableHlo.held (c : Thread nD τ) (Pipeline.ucRefs τ sig) (W8 H0 H1 H2 H3 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 H0 H1 H2 m ρ c)
  hentry c := by
    rw [Pipeline.ownSems0_none]
    have hsplit := Pipeline.arrays_of_unscopedBufs (p := 3) (pcfgs (F := F)) adm (pdats H0 H1 H2 H3 H4 H5 H6 m ρ) launch3.win launch3.arr_whole c
      ((pdats H0 H1 H2 H3 H4 H5 H6 m ρ 3 c).share_full fun w => H3.q_full (V7 H0 H1 H2 m ρ) c w) (V7 H0 H1 H2 m ρ c) fun w => H3.A_eq (V7 H0 H1 H2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 3 c).owed 0 = 0 from H3.owed_zero (V7 H0 H1 H2 m ρ) c 0]
      icases HO with ⟨%W, HO⟩; iexists W; isplitr
      · ipureintro
        exact fun _ _ => Or.inl (by
          rw [show (pdats H0 H1 H2 H3 H4 H5 H6 m ρ 3 c).recorded 0 = Set.univ from H3.recorded_univ (V7 H0 H1 H2 m ρ) c 0]; exact Set.mem_univ _)
      iexact HO
    isplitl [Hp]; · iexact Hp
    iexact Hrest
  hin c := by
    refine BIBase.Entails.trans ?_ (H3.hin (V7 H0 H1 H2 m ρ) c)
    unfold Pipeline.ΦA
    iintro ⟨Hp, -, Hr⟩
    isplitl [Hr]; · iexact Hr
    iexact Hp
  hout c := by
    rw [Pipeline.ownSems0_none]
    refine BIBase.Entails.trans (H3.hout (V7 H0 H1 H2 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 3 c).arrAt w cfg3.N = V8 H0 H1 H2 H3 m ρ c (Pipeline.arrRef spec3 w) := fun w => by
      show (H3.dat (V7 H0 H1 H2 m ρ) c).arrAt w cfg3.N = W8 H0 H1 H2 H3 m ρ c (Proc.devRef .tc (Pipeline.arrRef spec3 w))
      unfold W8; exact (Pipeline.withArrays_arr spec3 launch3.win.arr_inj c (W7 H0 H1 H2 m ρ c) (fun w => (H3.dat (V7 H0 H1 H2 m ρ) c).arrAt w cfg3.N) w).symm
    have hrest : ∀ b, b ∉ Finset.univ.image (Pipeline.arrRef spec3) → V8 H0 H1 H2 H3 m ρ c b = V7 H0 H1 H2 m ρ c b := fun b hb => by
      show W8 H0 H1 H2 H3 m ρ c (Proc.devRef .tc b) = _
      unfold W8; exact Pipeline.withArrays_of_ne spec3 c _ _ b fun w e => hb (Finset.mem_image.mpr ⟨w, Finset.mem_univ _, e⟩)
    have hjoin := Pipeline.unscopedBufs_of_arrays (p := 3) (pcfgs (F := F)) adm (Ix := Unit) (Name := ℕ) (U := UR sig nD τ) (Lvl := ℕ)
      launch3.win launch3.arr_whole c (pdats H0 H1 H2 H3 H4 H5 H6 m ρ) ((pdats H0 H1 H2 H3 H4 H5 H6 m ρ 3 c).share_full fun w => H3.q_full (V7 H0 H1 H2 m ρ) c w)
      (V7 H0 H1 H2 m ρ c) (V8 H0 H1 H2 H3 m ρ c) ((pdats H0 H1 H2 H3 H4 H5 H6 m ρ 3 c).arrAt · cfg3.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 3 c).owed (Fin.last _) = 0 from H3.owed_zero (V7 H0 H1 H2 m ρ) c _]
    icases HO with ⟨%W, -, HO⟩; iexists W; iexact HO

set_option backward.isDefEq.respectTransparency.types false in
/-- Region 4 over the segment states: entered from every unscoped buffer at `W9`, left at `W10`. -/
def reg4 : Pipeline.RegionSeg (pcfgs (F := F)) adm (pdats H0 H1 H2 H3 H4 H5 H6 m ρ) () defs₀ 𝒱₀ L lv 4 where
  win := launch4.win.to₀
  block_pos := launch4.block_pos
  stage_whole := launch4.stage_whole
  K := PEmpty
  osem k := k.elim
  ho := Pipeline.OwnSemFacts.none _
  hbody c := (H4.body (V9 H0 H1 H2 H3 m ρ) c).loose
  hwaits := Pipeline.hwaits_of_owed_zero _ _ _ _ L lv 4 fun c t => H4.owed_zero (V9 H0 H1 H2 H3 m ρ) c t
  pre c := iprop(StableHlo.held (c : Thread nD τ) (Pipeline.ucRefs τ sig) (W9 H0 H1 H2 H3 m ρ c) ∗ R c)
  post c := iprop(StableHlo.held (c : Thread nD τ) (Pipeline.ucRefs τ sig) (W10 H0 H1 H2 H3 H4 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 H0 H1 H2 H3 m ρ c)
  hentry c := by
    rw [Pipeline.ownSems0_none]
    have hsplit := Pipeline.arrays_of_unscopedBufs (p := 4) (pcfgs (F := F)) adm (pdats H0 H1 H2 H3 H4 H5 H6 m ρ) launch4.win launch4.arr_whole c
      ((pdats H0 H1 H2 H3 H4 H5 H6 m ρ 4 c).share_full fun w => H4.q_full (V9 H0 H1 H2 H3 m ρ) c w) (V9 H0 H1 H2 H3 m ρ c) fun w => H4.A_eq (V9 H0 H1 H2 H3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 4 c).owed 0 = 0 from H4.owed_zero (V9 H0 H1 H2 H3 m ρ) c 0]
      icases HO with ⟨%W, HO⟩; iexists W; isplitr
      · ipureintro
        exact fun _ _ => Or.inl (by
          rw [show (pdats H0 H1 H2 H3 H4 H5 H6 m ρ 4 c).recorded 0 = Set.univ from H4.recorded_univ (V9 H0 H1 H2 H3 m ρ) c 0]; exact Set.mem_univ _)
      iexact HO
    isplitl [Hp]; · iexact Hp
    iexact Hrest
  hin c := by
    refine BIBase.Entails.trans ?_ (H4.hin (V9 H0 H1 H2 H3 m ρ) c)
    unfold Pipeline.ΦA
    iintro ⟨Hp, -, Hr⟩
    isplitl [Hr]; · iexact Hr
    iexact Hp
  hout c := by
    rw [Pipeline.ownSems0_none]
    refine BIBase.Entails.trans (H4.hout (V9 H0 H1 H2 H3 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 4 c).arrAt w cfg4.N = V10 H0 H1 H2 H3 H4 m ρ c (Pipeline.arrRef spec4 w) := fun w => by
      show (H4.dat (V9 H0 H1 H2 H3 m ρ) c).arrAt w cfg4.N = W10 H0 H1 H2 H3 H4 m ρ c (Proc.devRef .tc (Pipeline.arrRef spec4 w))
      unfold W10; exact (Pipeline.withArrays_arr spec4 launch4.win.arr_inj c (W9 H0 H1 H2 H3 m ρ c) (fun w => (H4.dat (V9 H0 H1 H2 H3 m ρ) c).arrAt w cfg4.N) w).symm
    have hrest : ∀ b, b ∉ Finset.univ.image (Pipeline.arrRef spec4) → V10 H0 H1 H2 H3 H4 m ρ c b = V9 H0 H1 H2 H3 m ρ c b := fun b hb => by
      show W10 H0 H1 H2 H3 H4 m ρ c (Proc.devRef .tc b) = _
      unfold W10; exact Pipeline.withArrays_of_ne spec4 c _ _ b fun w e => hb (Finset.mem_image.mpr ⟨w, Finset.mem_univ _, e⟩)
    have hjoin := Pipeline.unscopedBufs_of_arrays (p := 4) (pcfgs (F := F)) adm (Ix := Unit) (Name := ℕ) (U := UR sig nD τ) (Lvl := ℕ)
      launch4.win launch4.arr_whole c (pdats H0 H1 H2 H3 H4 H5 H6 m ρ) ((pdats H0 H1 H2 H3 H4 H5 H6 m ρ 4 c).share_full fun w => H4.q_full (V9 H0 H1 H2 H3 m ρ) c w)
      (V9 H0 H1 H2 H3 m ρ c) (V10 H0 H1 H2 H3 H4 m ρ c) ((pdats H0 H1 H2 H3 H4 H5 H6 m ρ 4 c).arrAt · cfg4.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 4 c).owed (Fin.last _) = 0 from H4.owed_zero (V9 H0 H1 H2 H3 m ρ) c _]
    icases HO with ⟨%W, -, HO⟩; iexists W; iexact HO

set_option backward.isDefEq.respectTransparency.types false in
/-- Region 5 over the segment states: entered from every unscoped buffer at `W11`, left at `W12`. -/
def reg5 : Pipeline.RegionSeg (pcfgs (F := F)) adm (pdats H0 H1 H2 H3 H4 H5 H6 m ρ) () defs₀ 𝒱₀ L lv 5 where
  win := launch5.win.to₀
  block_pos := launch5.block_pos
  stage_whole := launch5.stage_whole
  K := PEmpty
  osem k := k.elim
  ho := Pipeline.OwnSemFacts.none _
  hbody c := (H5.body (V11 H0 H1 H2 H3 H4 m ρ) c).loose
  hwaits := Pipeline.hwaits_of_owed_zero _ _ _ _ L lv 5 fun c t => H5.owed_zero (V11 H0 H1 H2 H3 H4 m ρ) c t
  pre c := iprop(StableHlo.held (c : Thread nD τ) (Pipeline.ucRefs τ sig) (W11 H0 H1 H2 H3 H4 m ρ c) ∗ R c)
  post c := iprop(StableHlo.held (c : Thread nD τ) (Pipeline.ucRefs τ sig) (W12 H0 H1 H2 H3 H4 H5 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 H0 H1 H2 H3 H4 m ρ c)
  hentry c := by
    rw [Pipeline.ownSems0_none]
    have hsplit := Pipeline.arrays_of_unscopedBufs (p := 5) (pcfgs (F := F)) adm (pdats H0 H1 H2 H3 H4 H5 H6 m ρ) launch5.win launch5.arr_whole c
      ((pdats H0 H1 H2 H3 H4 H5 H6 m ρ 5 c).share_full fun w => H5.q_full (V11 H0 H1 H2 H3 H4 m ρ) c w) (V11 H0 H1 H2 H3 H4 m ρ c) fun w => H5.A_eq (V11 H0 H1 H2 H3 H4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 5 c).owed 0 = 0 from H5.owed_zero (V11 H0 H1 H2 H3 H4 m ρ) c 0]
      icases HO with ⟨%W, HO⟩; iexists W; isplitr
      · ipureintro
        exact fun _ _ => Or.inl (by
          rw [show (pdats H0 H1 H2 H3 H4 H5 H6 m ρ 5 c).recorded 0 = Set.univ from H5.recorded_univ (V11 H0 H1 H2 H3 H4 m ρ) c 0]; exact Set.mem_univ _)
      iexact HO
    isplitl [Hp]; · iexact Hp
    iexact Hrest
  hin c := by
    refine BIBase.Entails.trans ?_ (H5.hin (V11 H0 H1 H2 H3 H4 m ρ) c)
    unfold Pipeline.ΦA
    iintro ⟨Hp, -, Hr⟩
    isplitl [Hr]; · iexact Hr
    iexact Hp
  hout c := by
    rw [Pipeline.ownSems0_none]
    refine BIBase.Entails.trans (H5.hout (V11 H0 H1 H2 H3 H4 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 5 c).arrAt w cfg5.N = V12 H0 H1 H2 H3 H4 H5 m ρ c (Pipeline.arrRef spec5 w) := fun w => by
      show (H5.dat (V11 H0 H1 H2 H3 H4 m ρ) c).arrAt w cfg5.N = W12 H0 H1 H2 H3 H4 H5 m ρ c (Proc.devRef .tc (Pipeline.arrRef spec5 w))
      unfold W12; exact (Pipeline.withArrays_arr spec5 launch5.win.arr_inj c (W11 H0 H1 H2 H3 H4 m ρ c) (fun w => (H5.dat (V11 H0 H1 H2 H3 H4 m ρ) c).arrAt w cfg5.N) w).symm
    have hrest : ∀ b, b ∉ Finset.univ.image (Pipeline.arrRef spec5) → V12 H0 H1 H2 H3 H4 H5 m ρ c b = V11 H0 H1 H2 H3 H4 m ρ c b := fun b hb => by
      show W12 H0 H1 H2 H3 H4 H5 m ρ c (Proc.devRef .tc b) = _
      unfold W12; exact Pipeline.withArrays_of_ne spec5 c _ _ b fun w e => hb (Finset.mem_image.mpr ⟨w, Finset.mem_univ _, e⟩)
    have hjoin := Pipeline.unscopedBufs_of_arrays (p := 5) (pcfgs (F := F)) adm (Ix := Unit) (Name := ℕ) (U := UR sig nD τ) (Lvl := ℕ)
      launch5.win launch5.arr_whole c (pdats H0 H1 H2 H3 H4 H5 H6 m ρ) ((pdats H0 H1 H2 H3 H4 H5 H6 m ρ 5 c).share_full fun w => H5.q_full (V11 H0 H1 H2 H3 H4 m ρ) c w)
      (V11 H0 H1 H2 H3 H4 m ρ c) (V12 H0 H1 H2 H3 H4 H5 m ρ c) ((pdats H0 H1 H2 H3 H4 H5 H6 m ρ 5 c).arrAt · cfg5.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 5 c).owed (Fin.last _) = 0 from H5.owed_zero (V11 H0 H1 H2 H3 H4 m ρ) c _]
    icases HO with ⟨%W, -, HO⟩; iexists W; iexact HO

set_option backward.isDefEq.respectTransparency.types false in
/-- Region 6 over the segment states: entered from every unscoped buffer at `W13`, left at `W14`. -/
def reg6 : Pipeline.RegionSeg (pcfgs (F := F)) adm (pdats H0 H1 H2 H3 H4 H5 H6 m ρ) () defs₀ 𝒱₀ L lv 6 where
  win := launch6.win.to₀
  block_pos := launch6.block_pos
  stage_whole := launch6.stage_whole
  K := PEmpty
  osem k := k.elim
  ho := Pipeline.OwnSemFacts.none _
  hbody c := (H6.body (V13 H0 H1 H2 H3 H4 H5 m ρ) c).loose
  hwaits := Pipeline.hwaits_of_owed_zero _ _ _ _ L lv 6 fun c t => H6.owed_zero (V13 H0 H1 H2 H3 H4 H5 m ρ) c t
  pre c := iprop(StableHlo.held (c : Thread nD τ) (Pipeline.ucRefs τ sig) (W13 H0 H1 H2 H3 H4 H5 m ρ c) ∗ R c)
  post c := iprop(Tₙ H0 H1 H2 H3 H4 H5 H6 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 H0 H1 H2 H3 H4 H5 m ρ c)
  hentry c := by
    rw [Pipeline.ownSems0_none]
    have hsplit := Pipeline.arrays_of_unscopedBufs (p := 6) (pcfgs (F := F)) adm (pdats H0 H1 H2 H3 H4 H5 H6 m ρ) launch6.win launch6.arr_whole c
      ((pdats H0 H1 H2 H3 H4 H5 H6 m ρ 6 c).share_full fun w => H6.q_full (V13 H0 H1 H2 H3 H4 H5 m ρ) c w) (V13 H0 H1 H2 H3 H4 H5 m ρ c) fun w => H6.A_eq (V13 H0 H1 H2 H3 H4 H5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 6 c).owed 0 = 0 from H6.owed_zero (V13 H0 H1 H2 H3 H4 H5 m ρ) c 0]
      icases HO with ⟨%W, HO⟩; iexists W; isplitr
      · ipureintro
        exact fun _ _ => Or.inl (by
          rw [show (pdats H0 H1 H2 H3 H4 H5 H6 m ρ 6 c).recorded 0 = Set.univ from H6.recorded_univ (V13 H0 H1 H2 H3 H4 H5 m ρ) c 0]; exact Set.mem_univ _)
      iexact HO
    isplitl [Hp]; · iexact Hp
    iexact Hrest
  hin c := by
    refine BIBase.Entails.trans ?_ (H6.hin (V13 H0 H1 H2 H3 H4 H5 m ρ) c)
    unfold Pipeline.ΦA
    iintro ⟨Hp, -, Hr⟩
    isplitl [Hr]; · iexact Hr
    iexact Hp
  hout c := by
    rw [Pipeline.ownSems0_none]
    refine BIBase.Entails.trans (H6.hout (V13 H0 H1 H2 H3 H4 H5 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 6 c).arrAt w cfg6.N = V14 H0 H1 H2 H3 H4 H5 H6 m ρ c (Pipeline.arrRef spec6 w) := fun w => by
      show (H6.dat (V13 H0 H1 H2 H3 H4 H5 m ρ) c).arrAt w cfg6.N = W14 H0 H1 H2 H3 H4 H5 H6 m ρ c (Proc.devRef .tc (Pipeline.arrRef spec6 w))
      unfold W14; exact (Pipeline.withArrays_arr spec6 launch6.win.arr_inj c (W13 H0 H1 H2 H3 H4 H5 m ρ c) (fun w => (H6.dat (V13 H0 H1 H2 H3 H4 H5 m ρ) c).arrAt w cfg6.N) w).symm
    have hrest : ∀ b, b ∉ Finset.univ.image (Pipeline.arrRef spec6) → V14 H0 H1 H2 H3 H4 H5 H6 m ρ c b = V13 H0 H1 H2 H3 H4 H5 m ρ c b := fun b hb => by
      show W14 H0 H1 H2 H3 H4 H5 H6 m ρ c (Proc.devRef .tc b) = _
      unfold W14; exact Pipeline.withArrays_of_ne spec6 c _ _ b fun w e => hb (Finset.mem_image.mpr ⟨w, Finset.mem_univ _, e⟩)
    have hjoin := Pipeline.unscopedBufs_of_arrays (p := 6) (pcfgs (F := F)) adm (Ix := Unit) (Name := ℕ) (U := UR sig nD τ) (Lvl := ℕ)
      launch6.win launch6.arr_whole c (pdats H0 H1 H2 H3 H4 H5 H6 m ρ) ((pdats H0 H1 H2 H3 H4 H5 H6 m ρ 6 c).share_full fun w => H6.q_full (V13 H0 H1 H2 H3 H4 H5 m ρ) c w)
      (V13 H0 H1 H2 H3 H4 H5 m ρ c) (V14 H0 H1 H2 H3 H4 H5 H6 m ρ c) ((pdats H0 H1 H2 H3 H4 H5 H6 m ρ 6 c).arrAt · cfg6.N) hF hrest
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats H0 H1 H2 H3 H4 H5 H6 m ρ 6 c).owed (Fin.last _) = 0 from H6.owed_zero (V13 H0 H1 H2 H3 H4 H5 m ρ) c _]
    icases HO with ⟨%W, -, HO⟩; iexists W; iexact HO

end Cert.Kernel.Hand

end
-- ==== Proof.KRun.lean ====
/-
  The run of @main: the fourteen segments from the launch to the return.

  @main is its seven stretches of host operations and seven kernel regions in order. Launched from memory `m` with zero
  counters, every weakly fair execution terminates, and at the end every unscoped TensorCore buffer holds the last
  boundary's contents `W14`: the launch gives each core its buffers at `m`, its generator register and nothing owed;
  each segment's exit state is the next one's entry state; the last state is read against the final memory.
-/
import proofs.«140440_j51049981280319_1_alg».proof.Proof.KRunSegs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- @main's fourteen segments in order. -/
abbrev segs : List (Pipeline.Seg (pcfgs (F := F)) adm (pdats H0 H1 H2 H3 H4 H5 H6 m ρ) () defs₀ 𝒱₀ L lv) :=
  [
    .host (hseg hostOps0 hostOps0_sub hostOps0_fresh (W0 m ρ)),
    .region (reg0 H0 H1 H2 H3 H4 H5 H6 m ρ),
    .host (hseg hostOps1 hostOps1_sub hostOps1_fresh (W2 H0 m ρ)),
    .region (reg1 H0 H1 H2 H3 H4 H5 H6 m ρ),
    .host (hseg hostOps2 hostOps2_sub hostOps2_fresh (W4 H0 H1 m ρ)),
    .region (reg2 H0 H1 H2 H3 H4 H5 H6 m ρ),
    .host (hseg hostOps3 hostOps3_sub hostOps3_fresh (W6 H0 H1 H2 m ρ)),
    .region (reg3 H0 H1 H2 H3 H4 H5 H6 m ρ),
    .host (hseg hostOps4 hostOps4_sub hostOps4_fresh (W8 H0 H1 H2 H3 m ρ)),
    .region (reg4 H0 H1 H2 H3 H4 H5 H6 m ρ),
    .host (hseg hostOps5 hostOps5_sub hostOps5_fresh (W10 H0 H1 H2 H3 H4 m ρ)),
    .region (reg5 H0 H1 H2 H3 H4 H5 H6 m ρ),
    .host (hseg hostOps6 hostOps6_sub hostOps6_fresh (W12 H0 H1 H2 H3 H4 H5 m ρ)),
    .region (reg6 H0 H1 H2 H3 H4 H5 H6 m ρ) ]

/-- @main is the run of its segments. -/
theorem main_run (c : Dev nD) : main (F := F) c = Pipeline.Seg.run (segs H0 H1 H2 H3 H4 H5 H6 m ρ) :=
  (main_chain c).trans (by chain_rfl)

set_option backward.isDefEq.respectTransparency.types false in
/-- Every weakly fair execution of @main from `m` with zero counters terminates, and every unscoped TensorCore buffer
    ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W14 H0 H1 H2 H3 H4 H5 H6 m ρ c (Proc.devRef .tc b)) :=
  Pipeline.θ_run_regions_kit (pcfgs (F := F)) adm (pdats H0 H1 H2 H3 H4 H5 H6 m ρ) () cellOf_inj emb₁ defs₀ 𝒱₀ L lv m ρ main
    (segs H0 H1 H2 H3 H4 H5 H6 m ρ)
    (fun c Q => by rw [main_run H0 H1 H2 H3 H4 H5 H6 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := Tₙ H0 H1 H2 H3 H4 H5 H6 m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 H0 H1 H2 H3 H4 H5 H6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 H0 H1 H2 H3 H4 H5 H6 m ρ c) s')
      isplitl [Hh] <;> iassumption)
    (hQ := fun s h c b hb => h c _ (mem_uc b hb))

end Cert.Kernel.Hand

end
-- ==== Proof.KRegion0Base.lean ====
/-
  Region 0 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window not fetched
    at a point has the block index it had at the point before), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window not fetched
    at a point has the block index it had at the point before), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window not fetched
    at a point has the block index it had at the point before), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window not fetched
    at a point has the block index it had at the point before), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window not fetched
    at a point has the block index it had at the point before), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first condition (the tile is the first one), as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only: checked at each of the ten points. -/
theorem hcond0_0 : ∀ t : Fin cfg0.N, cond0_0 (grid0.coords t) ↔ t.val % 10 = 0 :=
  (by decide +kernel : ∀ t : Fin grid0.N, cond0_0 (grid0.coords t) ↔ t.val % 10 = 0)

/-- The second condition (the tile is the last one). -/
abbrev cond0_1 (i : grid0.Coords) : Prop := k0_cond2 i = 1#1
/-- It holds at point 9 only: checked at each of the ten points. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Where the second condition fails the statistics output is idle (the body stores nothing into it there), -/
theorem idleAt0_6 : ∀ t : Fin cfg0.N, ¬cond0_1 (grid0.coords t) → cfg0.idle 6 (grid0.coords t) = true := by decide +kernel
/-- and is not written back; -/
theorem noFlush0_6 : ∀ t : Fin cfg0.N, ¬cond0_1 (grid0.coords t) → (cfg0.win 6).flush t = false := by decide +kernel
/-- where it holds the output is live. -/
theorem liveAt0_6 : ∀ t : Fin cfg0.N, cond0_1 (grid0.coords t) → cfg0.idle 6 (grid0.coords t) = false := by decide +kernel

/-! ## The memrefs the body is called with -/

/-- One staging buffer of each output window, through which its contents are stated (for pieces that cover the buffer the
    choice does not matter). -/
abbrev VO0_5 : View sig .tc .vmem S5000x128 .f32 := (Memref.whole cc0_stg5_0 : Memref sig .tc .vmem S5000x128 .f32).view
abbrev VO0_6 : View sig .tc .vmem S2x128 .f32 := (Memref.whole cc0_stg6_0 : Memref sig .tc .vmem S2x128 .f32).view

/-- Window 0's current staging memref at point `t` is whole. -/
abbrev hs0_0 (t : Fin cfg0.N) : (st0_0 t).IsWhole := hstage0_0 ((cfg0.slots t 0).cast nbuf0_0)
/-- Window 1's current staging memref at point `t` is whole. -/
abbrev hs0_1 (t : Fin cfg0.N) : (st0_1 t).IsWhole := hstage0_1 ((cfg0.slots t 1).cast nbuf0_1)
/-- Window 2's current staging memref at point `t` is whole. -/
abbrev hs0_2 (t : Fin cfg0.N) : (st0_2 t).IsWhole := hstage0_2 ((cfg0.slots t 2).cast nbuf0_2)
/-- Window 3's current staging memref at point `t` is whole. -/
abbrev hs0_3 (t : Fin cfg0.N) : (st0_3 t).IsWhole := hstage0_3 ((cfg0.slots t 3).cast nbuf0_3)
/-- Window 4's current staging memref at point `t` is whole. -/
abbrev hs0_4 (t : Fin cfg0.N) : (st0_4 t).IsWhole := hstage0_4 ((cfg0.slots t 4).cast nbuf0_4)
/-- Window 5's current staging memref at point `t` is whole. -/
abbrev hs0_5 (t : Fin cfg0.N) : (st0_5 t).IsWhole := hstage0_5 ((cfg0.slots t 5).cast nbuf0_5)
/-- Window 6's current staging memref at point `t` is whole. -/
abbrev hs0_6 (t : Fin cfg0.N) : (st0_6 t).IsWhole := hstage0_6 ((cfg0.slots t 6).cast nbuf0_6)

/-- The two rows the body carries between tiles: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- The other scoped buffers of the core: not the region's staging buffers, not the two carried rows. The body never
    touches them. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two carried rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

end Cert.Kernel.Hand

end
-- ==== Proof.KRegion0RunA.lean ====
/-
  Region 0: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KRegion0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion0RunB.lean ====
/-
  Region 0: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KRegion0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion0RunC.lean ====
/-
  Region 0: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KRegion0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Hand

end
-- ==== Proof.KRegion0.lean ====
/-
  Region 0 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KRegion0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms0_0 (t : Fin cfg0.N) : Memref sig .tc .vmem S5000x128 .f32 := win0_0.stage (cfg0.slots t 0)
abbrev hm0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hm0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hm0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hm0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hm0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hm0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hm0_6 (t : Fin cfg0.N) : (ms0_6 t).IsWhole := hstage0_6 ((cfg0.slots t 6).cast nbuf0_6)

/-! ## What each case leaves -/

/-- Case A's stores into the tile output cover its buffer (one store of the whole tile). -/
theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S2x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S2x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S2x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S2x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt0 (c : Dev nD) : (n : ℕ) → n < cfg0.N → Vec F S5000x128 .f32 × Vec F S2x128 .f32 × Vec F S1x128 .f32 × Vec F S1x128 .f32
  | 0, hn => (out0_A_5 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 10 = 9 then
      (out0_C_5 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)
    else
      (out0_B_5 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)

/-- `outsAt0` at the first tile: case A's contents. -/
theorem outsAt0_A (c : Dev nD) (t : Fin cfg0.N) (h0 : t.val % 10 = 0) (h1 : ¬t.val % 10 = 9) :
    outsAt0 V c t.val t.isLt = (out0_A_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exfalso; have hN : n + 1 < 10 := lt_of_lt_of_eq hn (show cfg0.N = 10 from N_0); (try dsimp only at h0); omega

/-- `outsAt0` at a tile between: case B's contents, over the rows the tile before left. -/
theorem outsAt0_B (c : Dev nD) (t : Fin cfg0.N) (h0 : ¬t.val % 10 = 0) (h1 : ¬t.val % 10 = 9) :
    outsAt0 V c t.val t.isLt = (out0_B_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt0` at the last tile: case C's contents, over the rows the tile before left. -/
theorem outsAt0_C (c : Dev nD) (t : Fin cfg0.N) (h0 : ¬t.val % 10 = 0) (h1 : t.val % 10 = 9) :
    outsAt0 V c t.val t.isLt = (out0_C_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After tile `n` (before tile `n + 1`): the carried rows at that tile's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl

/-- Before a tile that is not the first: the carried rows at what the tile before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a tile's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 10 = 0
  · have h1 : ¬t.val % 10 = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0 sout0_A_1; (try dsimp only)
    have hz : t.val = 0 := by omega
    rw [PhiS0_castSucc V c t, PhiS0_zero V c _ _ hz, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _)
    iexists _; iexact H6
  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0 sout0_C_1; (try dsimp only)
      have hz : t.val ≠ 0 := by omega
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0 sout0_B_1; (try dsimp only)
      have hz : t.val ≠ 0 := by omega
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _)
      iexists _; iexact H6

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any tile the invariant gives the class's back: the carried rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.KRegion1.lean ====
/- Region 1 of @main (custom_call 1, `cc1_kernel`, pipeline 1): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the point before, so the block left there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000,128] staging buffer. -/
abbrev r1_0 : Rect S5000x128 := Rect.unit (s := S5000x128) ![0, 0] S5000x128.size inb_S5000x128_S5000x128_0_0
/-- The whole [1,128] staging buffer. -/
abbrev r1_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- The one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2Base.lean ====
/-
  Region 2 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window not fetched
    at a point has the block index it had at the point before), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window not fetched
    at a point has the block index it had at the point before), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window not fetched
    at a point has the block index it had at the point before), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window not fetched
    at a point has the block index it had at the point before), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window not fetched
    at a point has the block index it had at the point before), for any proof data whose array is `V`'s and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The first condition (the tile is the first one), as the body computes it from the grid coordinate. -/
abbrev cond2_0 (i : grid2.Coords) : Prop := (Scalar.cmpi .ne (Scalar.extui (Scalar.cmpi .eq (BitVec.ofNat 32 (i 0).val) 0#32)) 0#32) = 1#1
/-- It holds at point 0 only: checked at each of the ten points. -/
theorem hcond2_0 : ∀ t : Fin cfg2.N, cond2_0 (grid2.coords t) ↔ t.val % 10 = 0 :=
  (by decide +kernel : ∀ t : Fin grid2.N, cond2_0 (grid2.coords t) ↔ t.val % 10 = 0)

/-- The second condition (the tile is the last one). -/
abbrev cond2_1 (i : grid2.Coords) : Prop := k2_cond2 i = 1#1
/-- It holds at point 9 only: checked at each of the ten points. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Where the second condition fails the statistics output is idle (the body stores nothing into it there), -/
theorem idleAt2_6 : ∀ t : Fin cfg2.N, ¬cond2_1 (grid2.coords t) → cfg2.idle 6 (grid2.coords t) = true := by decide +kernel
/-- and is not written back; -/
theorem noFlush2_6 : ∀ t : Fin cfg2.N, ¬cond2_1 (grid2.coords t) → (cfg2.win 6).flush t = false := by decide +kernel
/-- where it holds the output is live. -/
theorem liveAt2_6 : ∀ t : Fin cfg2.N, cond2_1 (grid2.coords t) → cfg2.idle 6 (grid2.coords t) = false := by decide +kernel

/-! ## The memrefs the body is called with -/

/-- One staging buffer of each output window, through which its contents are stated (for pieces that cover the buffer the
    choice does not matter). -/
abbrev VO2_5 : View sig .tc .vmem S5000x128 .f32 := (Memref.whole cc2_stg5_0 : Memref sig .tc .vmem S5000x128 .f32).view
abbrev VO2_6 : View sig .tc .vmem S2x128 .f32 := (Memref.whole cc2_stg6_0 : Memref sig .tc .vmem S2x128 .f32).view

/-- Window 0's current staging memref at point `t` is whole. -/
abbrev hs2_0 (t : Fin cfg2.N) : (st2_0 t).IsWhole := hstage2_0 ((cfg2.slots t 0).cast nbuf2_0)
/-- Window 1's current staging memref at point `t` is whole. -/
abbrev hs2_1 (t : Fin cfg2.N) : (st2_1 t).IsWhole := hstage2_1 ((cfg2.slots t 1).cast nbuf2_1)
/-- Window 2's current staging memref at point `t` is whole. -/
abbrev hs2_2 (t : Fin cfg2.N) : (st2_2 t).IsWhole := hstage2_2 ((cfg2.slots t 2).cast nbuf2_2)
/-- Window 3's current staging memref at point `t` is whole. -/
abbrev hs2_3 (t : Fin cfg2.N) : (st2_3 t).IsWhole := hstage2_3 ((cfg2.slots t 3).cast nbuf2_3)
/-- Window 4's current staging memref at point `t` is whole. -/
abbrev hs2_4 (t : Fin cfg2.N) : (st2_4 t).IsWhole := hstage2_4 ((cfg2.slots t 4).cast nbuf2_4)
/-- Window 5's current staging memref at point `t` is whole. -/
abbrev hs2_5 (t : Fin cfg2.N) : (st2_5 t).IsWhole := hstage2_5 ((cfg2.slots t 5).cast nbuf2_5)
/-- Window 6's current staging memref at point `t` is whole. -/
abbrev hs2_6 (t : Fin cfg2.N) : (st2_6 t).IsWhole := hstage2_6 ((cfg2.slots t 6).cast nbuf2_6)

/-- The two rows the body carries between tiles: whole scoped buffers of the kernel's own, passed beside the windows. -/
abbrev scM2_0 : Memref sig .tc .vmem S1x128 .f32 := Memref.whole cc2_scratch0
abbrev scM2_1 : Memref sig .tc .vmem S1x128 .f32 := Memref.whole cc2_scratch1
/-- The same as views: what they hold is stated through these. -/
abbrev VS2_0 : View sig .tc .vmem S1x128 .f32 := scM2_0.view
abbrev VS2_1 : View sig .tc .vmem S1x128 .f32 := scM2_1.view

/-- The other scoped buffers of the core: not the region's staging buffers, not the two carried rows. The body never
    touches them. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The class's invariant with the two carried rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

end Cert.Kernel.Hand

end
-- ==== Proof.KRegion2RunA.lean ====
/-
  Region 2: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KRegion2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion2RunB.lean ====
/-
  Region 2: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KRegion2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion2RunC.lean ====
/-
  Region 2: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KRegion2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Hand

end
-- ==== Proof.KRegion2.lean ====
/-
  Region 2 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KRegion2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms2_0 (t : Fin cfg2.N) : Memref sig .tc .vmem S5000x128 .f32 := win2_0.stage (cfg2.slots t 0)
abbrev hm2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hm2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hm2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hm2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hm2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hm2_5 (t : Fin cfg2.N) : (ms2_5 t).IsWhole := hstage2_5 ((cfg2.slots t 5).cast nbuf2_5)
abbrev ms2_6 (t : Fin cfg2.N) : Memref sig .tc .vmem S2x128 .f32 := win2_6.stage (cfg2.slots t 6)
abbrev hm2_6 (t : Fin cfg2.N) : (ms2_6 t).IsWhole := hstage2_6 ((cfg2.slots t 6).cast nbuf2_6)

/-! ## What each case leaves -/

/-- Case A's stores into the tile output cover its buffer (one store of the whole tile). -/
theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S2x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S2x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S2x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S2x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt2 (c : Dev nD) : (n : ℕ) → n < cfg2.N → Vec F S5000x128 .f32 × Vec F S2x128 .f32 × Vec F S1x128 .f32 × Vec F S1x128 .f32
  | 0, hn => (out2_A_5 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 10 = 9 then
      (out2_C_5 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, out2_C_6 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2)
    else
      (out2_B_5 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, out2_B_6 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2)

/-- `outsAt2` at the first tile: case A's contents. -/
theorem outsAt2_A (c : Dev nD) (t : Fin cfg2.N) (h0 : t.val % 10 = 0) (h1 : ¬t.val % 10 = 9) :
    outsAt2 V c t.val t.isLt = (out2_A_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exfalso; have hN : n + 1 < 10 := lt_of_lt_of_eq hn (show cfg2.N = 10 from N_2); (try dsimp only at h0); omega

/-- `outsAt2` at a tile between: case B's contents, over the rows the tile before left. -/
theorem outsAt2_B (c : Dev nD) (t : Fin cfg2.N) (h0 : ¬t.val % 10 = 0) (h1 : ¬t.val % 10 = 9) :
    outsAt2 V c t.val t.isLt = (out2_B_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last tile: case C's contents, over the rows the tile before left. -/
theorem outsAt2_C (c : Dev nD) (t : Fin cfg2.N) (h0 : ¬t.val % 10 = 0) (h1 : t.val % 10 = 9) :
    outsAt2 V c t.val t.isLt = (out2_C_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After tile `n` (before tile `n + 1`): the carried rows at that tile's contents. -/
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 (F := F) c) ∗ (∃ r, prngReg c r)) := rfl

/-- Before a tile that is not the first: the carried rows at what the tile before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a tile's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

/-- Each input's current staging buffer holds its block at every tile, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · have h1 : ¬t.val % 10 = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6 t (fun h => h1 ((hcond2_1 t).mp h))) (noFlush2_6 t (fun h => h1 ((hcond2_1 t).mp h)))]
    rw [outsAt2_A V c t h0 h1]
    unfold out2_A_5 sout2_A_0 sout2_A_1; (try dsimp only)
    have hz : t.val = 0 := by omega
    rw [PhiS2_castSucc V c t, PhiS2_zero V c _ _ hz, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _)
    iexists _; iexact H6
  · by_cases h1 : t.val % 10 = 9
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_5 out2_C_6 sout2_C_0 sout2_C_1; (try dsimp only)
      have hz : t.val ≠ 0 := by omega
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold out2_B_5 sout2_B_0 sout2_B_1; (try dsimp only)
      have hz : t.val ≠ 0 := by omega
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _)
      iexists _; iexact H6

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the class's back: the carried rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.KRegion3.lean ====
/- Region 3 of @main (custom_call 3, `cc3_kernel`, pipeline 3): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: where the window is not fetched its block
    index has not moved since the point before, so the block left there is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000,128] staging buffer. -/
abbrev r3_0 : Rect S5000x128 := Rect.unit (s := S5000x128) ![0, 0] S5000x128.size inb_S5000x128_S5000x128_0_0
/-- The whole [1,128] staging buffer. -/
abbrev r3_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out3_3 (x0 : Vec F S5000x128 .f32) (x1 : Vec F S1x128 .f32) (x2 : Vec F S1x128 .f32) : Vec F S5000x128 .f32 :=
  View.canon [⟨r3_0, k3_pay1 (View.ld x0 r3_0) (View.ld x1 r3_1) (View.ld x2 r3_1)⟩]

/-- The one store is of the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out3_3` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion4Base.lean ====
/-
  Region 4 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window not fetched
    at a point has the block index it had at the point before), for any proof data whose array is `V`'s and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a window not fetched
    at a point has the block index it had at the point before), for any proof data whose array is `V`'s and whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a window not fetched
    at a point has the block index it had at the point before), for any proof data whose array is `V`'s and whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a window not fetched
    at a point has the block index it had at the point before), for any proof data whose array is `V`'s and whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a window not fetched
    at a point has the block index it had at the point before), for any proof data whose array is `V`'s and whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions -/

/-- The first condition (the tile is the first one), as the body computes it from the grid coordinate. -/
abbrev cond4_0 (i : grid4.Coords) : Prop := (Scalar.cmpi .ne (Scalar.extui (Scalar.cmpi .eq (BitVec.ofNat 32 (i 0).val) 0#32)) 0#32) = 1#1
/-- It holds at point 0 only: checked at each of the ten points. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second condition (the tile is the last one). -/
abbrev cond4_1 (i : grid4.Coords) : Prop := k4_cond2 i = 1#1
/-- It holds at point 9 only: checked at each of the ten points. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Where the second condition fails the statistics output is idle (the body stores nothing into it there), -/
theorem idleAt4_6 : ∀ t : Fin cfg4.N, ¬cond4_1 (grid4.coords t) → cfg4.idle 6 (grid4.coords t) = true := by decide +kernel
/-- and is not written back; -/
theorem noFlush4_6 : ∀ t : Fin cfg4.N, ¬cond4_1 (grid4.coords t) → (cfg4.win 6).flush t = false := by decide +kernel
/-- where it holds the output is live. -/
theorem liveAt4_6 : ∀ t : Fin cfg4.N, cond4_1 (grid4.coords t) → cfg4.idle 6 (grid4.coords t) = false := by decide +kernel

/-! ## The memrefs the body is called with -/

/-- One staging buffer of each output window, through which its contents are stated (for pieces that cover the buffer the
    choice does not matter). -/
abbrev VO4_5 : View sig .tc .vmem S5000x128 .f32 := (Memref.whole cc4_stg5_0 : Memref sig .tc .vmem S5000x128 .f32).view
abbrev VO4_6 : View sig .tc .vmem S2x128 .f32 := (Memref.whole cc4_stg6_0 : Memref sig .tc .vmem S2x128 .f32).view

/-- Window 0's current staging memref at point `t` is whole. -/
abbrev hs4_0 (t : Fin cfg4.N) : (st4_0 t).IsWhole := hstage4_0 ((cfg4.slots t 0).cast nbuf4_0)
/-- Window 1's current staging memref at point `t` is whole. -/
abbrev hs4_1 (t : Fin cfg4.N) : (st4_1 t).IsWhole := hstage4_1 ((cfg4.slots t 1).cast nbuf4_1)
/-- Window 2's current staging memref at point `t` is whole. -/
abbrev hs4_2 (t : Fin cfg4.N) : (st4_2 t).IsWhole := hstage4_2 ((cfg4.slots t 2).cast nbuf4_2)
/-- Window 3's current staging memref at point `t` is whole. -/
abbrev hs4_3 (t : Fin cfg4.N) : (st4_3 t).IsWhole := hstage4_3 ((cfg4.slots t 3).cast nbuf4_3)
/-- Window 4's current staging memref at point `t` is whole. -/
abbrev hs4_4 (t : Fin cfg4.N) : (st4_4 t).IsWhole := hstage4_4 ((cfg4.slots t 4).cast nbuf4_4)
/-- Window 5's current staging memref at point `t` is whole. -/
abbrev hs4_5 (t : Fin cfg4.N) : (st4_5 t).IsWhole := hstage4_5 ((cfg4.slots t 5).cast nbuf4_5)
/-- Window 6's current staging memref at point `t` is whole. -/
abbrev hs4_6 (t : Fin cfg4.N) : (st4_6 t).IsWhole := hstage4_6 ((cfg4.slots t 6).cast nbuf4_6)

/-- The two rows the body carries between tiles: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

/-- The other scoped buffers of the core: not the region's staging buffers, not the two carried rows. The body never
    touches them. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two carried rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

end Cert.Kernel.Hand

end
-- ==== Proof.KRegion4RunA.lean ====
/-
  Region 4: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KRegion4Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion4RunB.lean ====
/-
  Region 4: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KRegion4RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.Kernel.Hand

end
-- ==== Proof.KRegion4RunC.lean ====
/-
  Region 4: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KRegion4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Hand

end
-- ==== Proof.KRegion4.lean ====
/-
  Region 4 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KRegion4RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms4_0 (t : Fin cfg4.N) : Memref sig .tc .vmem S5000x128 .f32 := win4_0.stage (cfg4.slots t 0)
abbrev hm4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hm4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hm4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hm4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hm4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hm4_5 (t : Fin cfg4.N) : (ms4_5 t).IsWhole := hstage4_5 ((cfg4.slots t 5).cast nbuf4_5)
abbrev ms4_6 (t : Fin cfg4.N) : Memref sig .tc .vmem S2x128 .f32 := win4_6.stage (cfg4.slots t 6)
abbrev hm4_6 (t : Fin cfg4.N) : (ms4_6 t).IsWhole := hstage4_6 ((cfg4.slots t 6).cast nbuf4_6)

/-! ## What each case leaves -/

/-- Case A's stores into the tile output cover its buffer (one store of the whole tile). -/
theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S2x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S2x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S2x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S2x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt4 (c : Dev nD) : (n : ℕ) → n < cfg4.N → Vec F S5000x128 .f32 × Vec F S2x128 .f32 × Vec F S1x128 .f32 × Vec F S1x128 .f32
  | 0, hn => (out4_A_5 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 10 = 9 then
      (out4_C_5 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, out4_C_6 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2)
    else
      (out4_B_5 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, out4_B_6 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2)

/-- `outsAt4` at the first tile: case A's contents. -/
theorem outsAt4_A (c : Dev nD) (t : Fin cfg4.N) (h0 : t.val % 10 = 0) (h1 : ¬t.val % 10 = 9) :
    outsAt4 V c t.val t.isLt = (out4_A_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), out4_A_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exfalso; have hN : n + 1 < 10 := lt_of_lt_of_eq hn (show cfg4.N = 10 from N_4); (try dsimp only at h0); omega

/-- `outsAt4` at a tile between: case B's contents, over the rows the tile before left. -/
theorem outsAt4_B (c : Dev nD) (t : Fin cfg4.N) (h0 : ¬t.val % 10 = 0) (h1 : ¬t.val % 10 = 9) :
    outsAt4 V c t.val t.isLt = (out4_B_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt4` at the last tile: case C's contents, over the rows the tile before left. -/
theorem outsAt4_C (c : Dev nD) (t : Fin cfg4.N) (h0 : ¬t.val % 10 = 0) (h1 : t.val % 10 = 9) :
    outsAt4 V c t.val t.isLt = (out4_C_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After tile `n` (before tile `n + 1`): the carried rows at that tile's contents. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r)) := rfl

/-- Before a tile that is not the first: the carried rows at what the tile before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a tile's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]

/-- Each input's current staging buffer holds its block at every tile, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic tile -/

/-- What the body is called with at tile `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val % 10 = 0
  · have h1 : ¬t.val % 10 = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_5 sout4_A_0 sout4_A_1; (try dsimp only)
    have hz : t.val = 0 := by omega
    rw [PhiS4_castSucc V c t, PhiS4_zero V c _ _ hz, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ _ _)
    iexists _; iexact H6
  · by_cases h1 : t.val % 10 = 9
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_5 out4_C_6 sout4_C_0 sout4_C_1; (try dsimp only)
      have hz : t.val ≠ 0 := by omega
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_5 sout4_B_0 sout4_B_1; (try dsimp only)
      have hz : t.val ≠ 0 := by omega
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _)
      iexists _; iexact H6

/-- The library's body obligation, at every tile. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first tile. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any tile the invariant gives the class's back: the carried rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.KRegion5.lean ====
/- Region 5 of @main (custom_call 5, `cc5_kernel`, pipeline 5): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: where the window is not fetched its block
    index has not moved since the point before, so the block left there is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000,128] staging buffer. -/
abbrev r5_0 : Rect S5000x128 := Rect.unit (s := S5000x128) ![0, 0] S5000x128.size inb_S5000x128_S5000x128_0_0
/-- The whole [1,128] staging buffer. -/
abbrev r5_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out5_3 (x0 : Vec F S5000x128 .f32) (x1 : Vec F S1x128 .f32) (x2 : Vec F S1x128 .f32) : Vec F S5000x128 .f32 :=
  View.canon [⟨r5_0, k5_pay1 (View.ld x0 r5_0) (View.ld x1 r5_1) (View.ld x2 r5_1)⟩]

/-- The one store is of the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out5_3` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegion6.lean ====
/- Region 6 of @main (custom_call 6, `cc6__classifier_kernel`, pipeline 6): the kernel's half of the region's frame, at
   the TensorCore's buffer contents `V` when the region is entered. One grid point and four windows, each its whole
   array: 0 the pooled [1024,128] array, 1 the [128,10] weights, 2 the [1,10] bias row, 3 the [1024,10] output. The
   body reads the three input buffers whole and writes the output buffer whole. -/
import proofs.«140440_j51049981280319_1_alg».proof.Proof.Gen.Kernel.Launch
import proofs.«140440_j51049981280319_1_alg».proof.Proof.Gen.Kernel.Skeleton
import proofs.«140440_j51049981280319_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: where the window is not fetched its block
    index has not moved since the point before, so the block left there is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [1024,128] staging buffer. -/
abbrev r6_0 : Rect S1024x128 := Rect.unit (s := S1024x128) ![0, 0] S1024x128.size inb_S1024x128_S1024x128_0_0
/-- The whole [128,10] staging buffer. -/
abbrev r6_1 : Rect S128x10 := Rect.unit (s := S128x10) ![0, 0] S128x10.size inb_S128x10_S128x10_0_0
/-- The whole [1,10] staging buffer. -/
abbrev r6_2 : Rect S1x10 := Rect.unit (s := S1x10) ![0, 0] S1x10.size inb_S1x10_S1x10_0_0
/-- The whole [1024,10] staging buffer. -/
abbrev r6_3 : Rect S1024x10 := Rect.unit (s := S1024x10) ![0, 0] S1024x10.size inb_S1024x10_S1024x10_0_0

/-! ## What the body leaves in the output window's buffer -/

/-- Window 3's staging buffer after the body, from the input windows' blocks: its one store, of the payload of
    the three whole-buffer loads. -/
def out6_3 (x0 : Vec F S1024x128 .f32) (x1 : Vec F S128x10 .f32) (x2 : Vec F S1x10 .f32) : Vec F S1024x10 .f32 :=
  View.canon [⟨r6_3, k6_pay1 (View.ld x0 r6_0) (View.ld x1 r6_1) (View.ld x2 r6_2)⟩]

/-- The one store is of the whole buffer, so it covers it. -/
theorem cover6_3 (p0 : Vec F S1024x10 .f32) (y : S1024x10.Idx) :
    ∃ pc ∈ ([⟨r6_3, p0⟩] : List (View.Piece (Elt F) S1024x10 .f32)), y ∈ pc.1.set :=
  View.cover_of_tiled [⟨r6_3, p0⟩] S1024x10.size (by rfl) y

/-! ## The body's triple -/

set_option maxHeartbeats 1000000 in
/-- The kernel body on whole staging memrefs, the inputs' at read contents `x0 x1 x2` and the output's at anything,
    runs to the continuation holding the inputs' as they were and the output's at `out6_3` of the inputs'. -/
theorem sound_kernel6 (c : Dev nD) (E : Set ℕ) (i : grid6.Coords) (arg1 : Memref sig .tc .vmem S1024x128 .f32) (harg1 : arg1.IsWhole) (arg2 : Memref sig .tc .vmem S128x10 .f32) (harg2 : arg2.IsWhole) (arg3 : Memref sig .tc .vmem S1x10 .f32) (harg3 : arg3.IsWhole) (arg4 : Memref sig .tc .vmem S1024x10 .f32) (harg4 : arg4.IsWhole)
    (x0 : Vec F S1024x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__classifier_kernel i arg1 harg1 arg2 harg2 arg3 harg3 arg4 harg4) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point
    `t` each input's buffer at its block and the output's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KFrame.lean ====
/-
  The kernel's run with its seven regions' kernels in place, and its frame.

  Each region's kernel half is taken from its own module. The run then holds outright: every unscoped buffer ends at the
  last boundary's contents. No stretch of host operations writes an argument and no region has an argument as an output
  window's array, so each argument ends as launched.
-/
import proofs.«140440_j51049981280319_1_alg».proof.Proof.KRun
import proofs.«140440_j51049981280319_1_alg».proof.Proof.KRegion0
import proofs.«140440_j51049981280319_1_alg».proof.Proof.KRegion1
import proofs.«140440_j51049981280319_1_alg».proof.Proof.KRegion2
import proofs.«140440_j51049981280319_1_alg».proof.Proof.KRegion3
import proofs.«140440_j51049981280319_1_alg».proof.Proof.KRegion4
import proofs.«140440_j51049981280319_1_alg».proof.Proof.KRegion5
import proofs.«140440_j51049981280319_1_alg».proof.Proof.KRegion6

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Region 0's kernel carries its two scratch rows in the invariant between the first and the last point. -/
def half0 : Half (F := F) cfg0 where
  dat := fun V c => dat0 V c
  A_eq := fun V c w => A_eq0 V c w
  q_full := fun _ _ _ => rfl
  owed_zero := fun _ _ _ => rfl
  recorded_univ := fun _ _ _ => rfl
  body := fun V c => body_obligation0 V c
  hin := fun V c => hin0 V c
  hout := fun V c => hout0 V c

/-- Region 1's kernel keeps the class's invariant throughout. -/
def half1 : Half (F := F) cfg1 where
  dat := fun V c => dat1 V c
  A_eq := fun V c w => A_eq1 V c w
  q_full := fun _ _ _ => rfl
  owed_zero := fun _ _ _ => rfl
  recorded_univ := fun _ _ _ => rfl
  body := fun V c => body_obligation1 V c
  hin := fun _ _ => BI.Entails.refl _
  hout := fun _ _ => BI.Entails.refl _

/-- Region 2's kernel carries its two scratch rows in the invariant between the first and the last point. -/
def half2 : Half (F := F) cfg2 where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

/-- Region 3's kernel keeps the class's invariant throughout. -/
def half3 : Half (F := F) cfg3 where
  dat := fun V c => dat3 V c
  A_eq := fun V c w => A_eq3 V c w
  q_full := fun _ _ _ => rfl
  owed_zero := fun _ _ _ => rfl
  recorded_univ := fun _ _ _ => rfl
  body := fun V c => body_obligation3 V c
  hin := fun _ _ => BI.Entails.refl _
  hout := fun _ _ => BI.Entails.refl _

/-- Region 4's kernel carries its two scratch rows in the invariant between the first and the last point. -/
def half4 : Half (F := F) cfg4 where
  dat := fun V c => dat4 V c
  A_eq := fun V c w => A_eq4 V c w
  q_full := fun _ _ _ => rfl
  owed_zero := fun _ _ _ => rfl
  recorded_univ := fun _ _ _ => rfl
  body := fun V c => body_obligation4 V c
  hin := fun V c => hin4 V c
  hout := fun V c => hout4 V c

/-- Region 5's kernel keeps the class's invariant throughout. -/
def half5 : Half (F := F) cfg5 where
  dat := fun V c => dat5 V c
  A_eq := fun V c w => A_eq5 V c w
  q_full := fun _ _ _ => rfl
  owed_zero := fun _ _ _ => rfl
  recorded_univ := fun _ _ _ => rfl
  body := fun V c => body_obligation5 V c
  hin := fun _ _ => BI.Entails.refl _
  hout := fun _ _ => BI.Entails.refl _

/-- Region 6's kernel keeps the class's invariant throughout. -/
def half6 : Half (F := F) cfg6 where
  dat := fun V c => dat6 V c
  A_eq := fun V c w => A_eq6 V c w
  q_full := fun _ _ _ => rfl
  owed_zero := fun _ _ _ => rfl
  recorded_univ := fun _ _ _ => rfl
  body := fun V c => body_obligation6 V c
  hin := fun _ _ => BI.Entails.refl _
  hout := fun _ _ => BI.Entails.refl _

variable (m : (ℓ : Loc nD τ sig) → Buf (Elt F) ℓ) (ρ : Dev nD → PrngReg)

/-- The last boundary's contents, with the regions' kernels in place. -/
abbrev Wend (c : Dev nD) : Valuation τ sig (Elt F) := W14 half0 half1 half2 half3 half4 half5 half6 m ρ c

/-- THE RUN: every weakly fair execution of @main terminates and every unscoped TensorCore buffer ends at `Wend`. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wend m ρ c (Proc.devRef .tc b)) :=
  run_all half0 half1 half2 half3 half4 half5 half6 m ρ

/-- @main's arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- An argument ends as launched: no stretch writes it and it is no region's output array. -/
theorem arg_kept (b : Ref sig .tc) (hb : b ∈ args) (c : Dev nD) :
    Wend m ρ c (Proc.devRef .tc b) = m ((c : Thread nD τ).loc b) :=
  kept half0 half1 half2 half3 half4 half5 half6 m ρ c b
    ((by decide : ∀ b ∈ args, b ∉ hostOps0_W) b hb)
    ((by decide : ∀ b ∈ args, ∀ w, (cfg0.win w).isOut = true → Pipeline.arrRef cfg0.spec w ≠ b) b hb)
    ((by decide : ∀ b ∈ args, b ∉ hostOps1_W) b hb)
    ((by decide : ∀ b ∈ args, ∀ w, (cfg1.win w).isOut = true → Pipeline.arrRef cfg1.spec w ≠ b) b hb)
    ((by decide : ∀ b ∈ args, b ∉ hostOps2_W) b hb)
    ((by decide : ∀ b ∈ args, ∀ w, (cfg2.win w).isOut = true → Pipeline.arrRef cfg2.spec w ≠ b) b hb)
    ((by decide : ∀ b ∈ args, b ∉ hostOps3_W) b hb)
    ((by decide : ∀ b ∈ args, ∀ w, (cfg3.win w).isOut = true → Pipeline.arrRef cfg3.spec w ≠ b) b hb)
    ((by decide : ∀ b ∈ args, b ∉ hostOps4_W) b hb)
    ((by decide : ∀ b ∈ args, ∀ w, (cfg4.win w).isOut = true → Pipeline.arrRef cfg4.spec w ≠ b) b hb)
    ((by decide : ∀ b ∈ args, b ∉ hostOps5_W) b hb)
    ((by decide : ∀ b ∈ args, ∀ w, (cfg5.win w).isOut = true → Pipeline.arrRef cfg5.spec w ≠ b) b hb)
    ((by decide : ∀ b ∈ args, b ∉ hostOps6_W) b hb)
    ((by decide : ∀ b ∈ args, ∀ w, (cfg6.win w).isOut = true → Pipeline.arrRef cfg6.spec w ≠ b) b hb)

/-- THE FRAME: every weakly fair execution of @main terminates and each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_arg0 (by decide)).trans (arg_kept m ρ main_arg0 (by decide) c),
      (h c main_arg1 (by decide)).trans (arg_kept m ρ main_arg1 (by decide) c),
      (h c main_arg2 (by decide)).trans (arg_kept m ρ main_arg2 (by decide) c),
      (h c main_arg3 (by decide)).trans (arg_kept m ρ main_arg3 (by decide) c),
      (h c main_arg4 (by decide)).trans (arg_kept m ρ main_arg4 (by decide) c),
      (h c main_arg5 (by decide)).trans (arg_kept m ρ main_arg5 (by decide) c),
      (h c main_arg6 (by decide)).trans (arg_kept m ρ main_arg6 (by decide) c),
      (h c main_arg7 (by decide)).trans (arg_kept m ρ main_arg7 (by decide) c),
      (h c main_arg8 (by decide)).trans (arg_kept m ρ main_arg8 (by decide) c),
      (h c main_arg9 (by decide)).trans (arg_kept m ρ main_arg9 (by decide) c),
      (h c main_arg10 (by decide)).trans (arg_kept m ρ main_arg10 (by decide) c),
      (h c main_arg11 (by decide)).trans (arg_kept m ρ main_arg11 (by decide) c),
      (h c main_arg12 (by decide)).trans (arg_kept m ρ main_arg12 (by decide) c),
      (h c main_arg13 (by decide)).trans (arg_kept m ρ main_arg13 (by decide) c),
      (h c main_arg14 (by decide)).trans (arg_kept m ρ main_arg14 (by decide) c),
      (h c main_arg15 (by decide)).trans (arg_kept m ρ main_arg15 (by decide) c),
      (h c main_arg16 (by decide)).trans (arg_kept m ρ main_arg16 (by decide) c),
      (h c main_arg17 (by decide)).trans (arg_kept m ρ main_arg17 (by decide) c),
      (h c main_arg18 (by decide)).trans (arg_kept m ρ main_arg18 (by decide) c),
      (h c main_arg19 (by decide)).trans (arg_kept m ρ main_arg19 (by decide) c)⟩) (run m ρ)

end Cert.Kernel.Hand

end
-- ==== Proof.KIRunFold.lean ====
/-
  The contents of the TensorCore's buffers at every boundary of @main: a fold through its seven stretches of host
  operations and its seven kernel regions.

  A stretch of host operations takes contents `W` to `StableHlo.after ops W`; it changes only the buffers its operations
  write. A region takes `W` to `W` with each of its windows' arrays at what the pipeline leaves there — an input
  window's array as it was, an output window's at its folded write-backs — and changes no other buffer. So a buffer
  that no stretch writes and that is no region's output array holds at the end what it held at launch: the arguments.
  What a region's kernel does is taken here as given data per region (`Half`): its proof data at any entry contents,
  the body obligation, and how the invariant starts from and returns to the class's.
-/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import proofs.«140440_j51049981280319_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents of the TensorCore's buffers on every core, read at references. -/
abbrev Contents : Type :=
  (c : Dev nD) → (b : Ref sig .tc) → Buf (Elt F) ((c : Thread nD τ).loc b)

/-- What a region's kernel contributes: the pipeline's proof data at any entry contents `V` — arrays read off `V`,
    full shares, nothing owed —, the body obligation at every point, and the invariant's ends against the class's
    (the scoped rest and the generator register). -/
structure Half (cfg : Cfg sig Λ₀) where
  dat : Contents (F := F) → (c : Dev nD) → Dat τ (Elt F) Unit ℕ (UR sig nD τ) ℕ cfg c
  A_eq : ∀ V c w, (dat V c).A w = V c (Pipeline.arrRef cfg.spec w)
  q_full : ∀ V c w, (dat V c).q w = fullShare
  owed_zero : ∀ V c t, (dat V c).owed t = 0
  recorded_univ : ∀ V c t, (dat V c).recorded t = Set.univ
  body : ∀ V c, BodyObligation (dat V c) (defs₀ (F := F)) Variants.none () Set.univ
  hin : ∀ V c, (Pipeline.ΦA (U := UR sig nD τ) (Val := Elt F) cfg.spec c : sProp 𝕄) ⊢ (dat V c).Φ 0
  hout : ∀ V c, (dat V c).Φ (Fin.last cfg.N) ⊢ (Pipeline.ΦA (U := UR sig nD τ) (Val := Elt F) cfg.spec c : sProp 𝕄)

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-! ## The fold -/

/-- At launch. -/
abbrev W0 : Dev nD → Valuation τ sig (Elt F) := fun c b => (s₀ m ρ).mem ((c : Dev nD), b)
/-- After the first stretch: region 0's entry. -/
abbrev W1 : Dev nD → Valuation τ sig (Elt F) := fun c => StableHlo.after hostOps0 (W0 m ρ c)
abbrev V1 : Contents (F := F) := fun c b => W1 m ρ c b
/-- At region 0's exit. -/
def W2 (c : Dev nD) : Valuation τ sig (Elt F) :=
  Pipeline.withArrays spec0 c (W1 m ρ c) fun w => (H0.dat (V1 m ρ) c).arrAt w cfg0.N
abbrev V2 : Contents (F := F) := fun c b => W2 H0 m ρ c b
abbrev W3 : Dev nD → Valuation τ sig (Elt F) := fun c => StableHlo.after hostOps1 (W2 H0 m ρ c)
abbrev V3 : Contents (F := F) := fun c b => W3 H0 m ρ c b
def W4 (c : Dev nD) : Valuation τ sig (Elt F) :=
  Pipeline.withArrays spec1 c (W3 H0 m ρ c) fun w => (H1.dat (V3 H0 m ρ) c).arrAt w cfg1.N
abbrev V4 : Contents (F := F) := fun c b => W4 H0 H1 m ρ c b
abbrev W5 : Dev nD → Valuation τ sig (Elt F) := fun c => StableHlo.after hostOps2 (W4 H0 H1 m ρ c)
abbrev V5 : Contents (F := F) := fun c b => W5 H0 H1 m ρ c b
def W6 (c : Dev nD) : Valuation τ sig (Elt F) :=
  Pipeline.withArrays spec2 c (W5 H0 H1 m ρ c) fun w => (H2.dat (V5 H0 H1 m ρ) c).arrAt w cfg2.N
abbrev V6 : Contents (F := F) := fun c b => W6 H0 H1 H2 m ρ c b
abbrev W7 : Dev nD → Valuation τ sig (Elt F) := fun c => StableHlo.after hostOps3 (W6 H0 H1 H2 m ρ c)
abbrev V7 : Contents (F := F) := fun c b => W7 H0 H1 H2 m ρ c b
def W8 (c : Dev nD) : Valuation τ sig (Elt F) :=
  Pipeline.withArrays spec3 c (W7 H0 H1 H2 m ρ c) fun w => (H3.dat (V7 H0 H1 H2 m ρ) c).arrAt w cfg3.N
abbrev V8 : Contents (F := F) := fun c b => W8 H0 H1 H2 H3 m ρ c b
abbrev W9 : Dev nD → Valuation τ sig (Elt F) := fun c => StableHlo.after hostOps4 (W8 H0 H1 H2 H3 m ρ c)
abbrev V9 : Contents (F := F) := fun c b => W9 H0 H1 H2 H3 m ρ c b
def W10 (c : Dev nD) : Valuation τ sig (Elt F) :=
  Pipeline.withArrays spec4 c (W9 H0 H1 H2 H3 m ρ c) fun w => (H4.dat (V9 H0 H1 H2 H3 m ρ) c).arrAt w cfg4.N
abbrev V10 : Contents (F := F) := fun c b => W10 H0 H1 H2 H3 H4 m ρ c b
abbrev W11 : Dev nD → Valuation τ sig (Elt F) := fun c => StableHlo.after hostOps5 (W10 H0 H1 H2 H3 H4 m ρ c)
abbrev V11 : Contents (F := F) := fun c b => W11 H0 H1 H2 H3 H4 m ρ c b
def W12 (c : Dev nD) : Valuation τ sig (Elt F) :=
  Pipeline.withArrays spec5 c (W11 H0 H1 H2 H3 H4 m ρ c) fun w => (H5.dat (V11 H0 H1 H2 H3 H4 m ρ) c).arrAt w cfg5.N
abbrev V12 : Contents (F := F) := fun c b => W12 H0 H1 H2 H3 H4 H5 m ρ c b
abbrev W13 : Dev nD → Valuation τ sig (Elt F) := fun c => StableHlo.after hostOps6 (W12 H0 H1 H2 H3 H4 H5 m ρ c)
abbrev V13 : Contents (F := F) := fun c b => W13 H0 H1 H2 H3 H4 H5 m ρ c b
def W14 (c : Dev nD) : Valuation τ sig (Elt F) :=
  Pipeline.withArrays spec6 c (W13 H0 H1 H2 H3 H4 H5 m ρ c) fun w => (H6.dat (V13 H0 H1 H2 H3 H4 H5 m ρ) c).arrAt w cfg6.N
abbrev V14 : Contents (F := F) := fun c b => W14 H0 H1 H2 H3 H4 H5 H6 m ρ c b

end Cert.KernelIdeal.Hand

end
-- ==== Proof.KIRunKept.lean ====
/-
  What a region leaves unchanged, and what no step changes.

  At a region's exit every window's array holds what the pipeline leaves there and every other buffer what it held at
  entry. An input window's array is never written back, so whatever the kernel does, a region changes only its output
  windows' arrays: one statement for any region. A stretch of host operations changes only the buffers its operations
  write. Chaining the fourteen steps, a buffer outside all of those holds at the end what memory held at launch.
-/
import proofs.«140440_j51049981280319_1_alg».proof.Proof.KIRunFold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- ANY REGION changes no buffer but its output windows' arrays: at the exit contents (the entry contents `W` with each
    window's array at what the pipeline leaves) a buffer that is no output window's array holds what it held in `W` —
    if it is an input window's array because that array is never written back and was read off `W`, otherwise because
    the region does not touch it. -/
theorem region_keeps {cfg : Cfg sig Λ₀} (hinj : Function.Injective (Pipeline.arrRef cfg.spec)) (H : Half (F := F) cfg)
    (Vin : Contents (F := F)) (c : Dev nD) (W : Valuation τ sig (Elt F))
    (hV : ∀ b : Ref sig .tc, Vin c b = W (Proc.devRef .tc b)) (b : Ref sig .tc)
    (hb : ∀ w, (cfg.win w).isOut = true → Pipeline.arrRef cfg.spec w ≠ b) :
    Pipeline.withArrays cfg.spec c W (fun w => (H.dat Vin c).arrAt w cfg.N) (Proc.devRef .tc b)
      = W (Proc.devRef .tc b) := by
  by_cases h : ∃ w, Pipeline.arrRef cfg.spec w = b
  · obtain ⟨w, rfl⟩ := h
    rw [Pipeline.withArrays_arr cfg.spec hinj]
    have hin : (cfg.win w).isOut = false := by
      cases hw : (cfg.win w).isOut with
      | false => rfl
      | true => exact absurd rfl (hb w hw)
    exact ((H.dat Vin c).arrAt_in w hin _).trans ((H.A_eq Vin c w).trans (hV _))
  · exact Pipeline.withArrays_of_ne cfg.spec c _ _ b fun w e => h ⟨w, e⟩

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- A buffer that no stretch of host operations writes and that is no region's output array holds at the last boundary
    what memory held at launch: the seven regions by `region_keeps`, the seven stretches by what they write. -/
theorem kept (c : Dev nD) (b : Ref sig .tc)
    (n0 : b ∉ hostOps0_W) (o0 : ∀ w, (cfg0.win w).isOut = true → Pipeline.arrRef cfg0.spec w ≠ b)
    (n1 : b ∉ hostOps1_W) (o1 : ∀ w, (cfg1.win w).isOut = true → Pipeline.arrRef cfg1.spec w ≠ b)
    (n2 : b ∉ hostOps2_W) (o2 : ∀ w, (cfg2.win w).isOut = true → Pipeline.arrRef cfg2.spec w ≠ b)
    (n3 : b ∉ hostOps3_W) (o3 : ∀ w, (cfg3.win w).isOut = true → Pipeline.arrRef cfg3.spec w ≠ b)
    (n4 : b ∉ hostOps4_W) (o4 : ∀ w, (cfg4.win w).isOut = true → Pipeline.arrRef cfg4.spec w ≠ b)
    (n5 : b ∉ hostOps5_W) (o5 : ∀ w, (cfg5.win w).isOut = true → Pipeline.arrRef cfg5.spec w ≠ b)
    (n6 : b ∉ hostOps6_W) (o6 : ∀ w, (cfg6.win w).isOut = true → Pipeline.arrRef cfg6.spec w ≠ b) :
    W14 H0 H1 H2 H3 H4 H5 H6 m ρ c (Proc.devRef .tc b) = m ((c : Thread nD τ).loc b) :=
  (region_keeps launch6.win.arr_inj H6 _ c (W13 H0 H1 H2 H3 H4 H5 m ρ c) (fun _ => rfl) b o6).trans <|
  (StableHlo.after_of_writes_sub hostOps6 _ hostOps6_writes n6).trans <|
  (region_keeps launch5.win.arr_inj H5 _ c (W11 H0 H1 H2 H3 H4 m ρ c) (fun _ => rfl) b o5).trans <|
  (StableHlo.after_of_writes_sub hostOps5 _ hostOps5_writes n5).trans <|
  (region_keeps launch4.win.arr_inj H4 _ c (W9 H0 H1 H2 H3 m ρ c) (fun _ => rfl) b o4).trans <|
  (StableHlo.after_of_writes_sub hostOps4 _ hostOps4_writes n4).trans <|
  (region_keeps launch3.win.arr_inj H3 _ c (W7 H0 H1 H2 m ρ c) (fun _ => rfl) b o3).trans <|
  (StableHlo.after_of_writes_sub hostOps3 _ hostOps3_writes n3).trans <|
  (region_keeps launch2.win.arr_inj H2 _ c (W5 H0 H1 m ρ c) (fun _ => rfl) b o2).trans <|
  (StableHlo.after_of_writes_sub hostOps2 _ hostOps2_writes n2).trans <|
  (region_keeps launch1.win.arr_inj H1 _ c (W3 H0 m ρ c) (fun _ => rfl) b o1).trans <|
  (StableHlo.after_of_writes_sub hostOps1 _ hostOps1_writes n1).trans <|
  (region_keeps launch0.win.arr_inj H0 _ c (W1 m ρ c) (fun _ => rfl) b o0).trans <|
  (StableHlo.after_of_writes_sub hostOps0 _ hostOps0_writes n0)

end Cert.KernelIdeal.Hand

end
-- ==== Proof.KIRunSegs.lean ====
/-
  @main's regions as segments of the run.

  Every pipeline's proof data is taken at its region's entry contents. Between segments a core holds every unscoped buffer
  whole at the boundary's contents, its generator register at some state, and owes nothing. A region is entered by
  splitting its windows' arrays out of the unscoped buffers, hands the generator register and the scoped rest to the
  kernel's invariant and takes them back, and is left by putting the arrays back at the exit contents.
-/
import proofs.«140440_j51049981280319_1_alg».proof.Proof.KIRunKept

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- No pipeline has a prefetched table. -/
abbrev adm : (p : Fin 7) → (pcfgs (F := F) p).Adm := fun p => (cfgs p).toPCfg_adm

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => H0.dat (V1 m ρ) c
  | ⟨1, _⟩ => fun c => H1.dat (V3 H0 m ρ) c
  | ⟨2, _⟩ => fun c => H2.dat (V5 H0 H1 m ρ) c
  | ⟨3, _⟩ => fun c => H3.dat (V7 H0 H1 H2 m ρ) c
  | ⟨4, _⟩ => fun c => H4.dat (V9 H0 H1 H2 H3 m ρ) c
  | ⟨5, _⟩ => fun c => H5.dat (V11 H0 H1 H2 H3 H4 m ρ) c
  | ⟨6, _⟩ => fun c => H6.dat (V13 H0 H1 H2 H3 H4 H5 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those a segment's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 :=
  iprop(StableHlo.held (c : Thread nD τ) (Pipeline.ucRefs τ sig) (W14 H0 H1 H2 H3 H4 H5 H6 m ρ c) ∗ ∃ r, prngReg c r)

set_option backward.isDefEq.respectTransparency.types false in
/-- Region 0 over the segment states: entered from every unscoped buffer at `W1`, left at `W2`. -/
def reg0 : Pipeline.RegionSeg (pcfgs (F := F)) adm (pdats H0 H1 H2 H3 H4 H5 H6 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed_zero (V1 m ρ) c t
  pre c := iprop(StableHlo.held (c : Thread nD τ) (Pipeline.ucRefs τ sig) (W1 m ρ c) ∗ R c)
  post c := iprop(StableHlo.held (c : Thread nD τ) (Pipeline.ucRefs τ sig) (W2 H0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H0 H1 H2 H3 H4 H5 H6 m ρ) launch0.win launch0.arr_whole c
      ((pdats H0 H1 H2 H3 H4 H5 H6 m ρ 0 c).share_full fun w => H0.q_full (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 0 c).owed 0 = 0 from H0.owed_zero (V1 m ρ) c 0]
      icases HO with ⟨%W, HO⟩; iexists W; isplitr
      · ipureintro
        exact fun _ _ => Or.inl (by
          rw [show (pdats H0 H1 H2 H3 H4 H5 H6 m ρ 0 c).recorded 0 = Set.univ from H0.recorded_univ (V1 m ρ) c 0]; exact Set.mem_univ _)
      iexact HO
    isplitl [Hp]; · iexact Hp
    iexact Hrest
  hin c := by
    refine BIBase.Entails.trans ?_ (H0.hin (V1 m ρ) c)
    unfold Pipeline.ΦA
    iintro ⟨Hp, -, Hr⟩
    isplitl [Hr]; · iexact Hr
    iexact Hp
  hout c := by
    rw [Pipeline.ownSems0_none]
    refine BIBase.Entails.trans (H0.hout (V1 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 0 c).arrAt w cfg0.N = V2 H0 m ρ c (Pipeline.arrRef spec0 w) := fun w => by
      show (H0.dat (V1 m ρ) c).arrAt w cfg0.N = W2 H0 m ρ c (Proc.devRef .tc (Pipeline.arrRef spec0 w))
      unfold W2; exact (Pipeline.withArrays_arr spec0 launch0.win.arr_inj c (W1 m ρ c) (fun w => (H0.dat (V1 m ρ) c).arrAt w cfg0.N) w).symm
    have hrest : ∀ b, b ∉ Finset.univ.image (Pipeline.arrRef spec0) → V2 H0 m ρ c b = V1 m ρ c b := fun b hb => by
      show W2 H0 m ρ c (Proc.devRef .tc b) = _
      unfold W2; exact Pipeline.withArrays_of_ne spec0 c _ _ b fun w e => hb (Finset.mem_image.mpr ⟨w, Finset.mem_univ _, e⟩)
    have hjoin := Pipeline.unscopedBufs_of_arrays (p := 0) (pcfgs (F := F)) adm (Ix := Unit) (Name := ℕ) (U := UR sig nD τ) (Lvl := ℕ)
      launch0.win launch0.arr_whole c (pdats H0 H1 H2 H3 H4 H5 H6 m ρ) ((pdats H0 H1 H2 H3 H4 H5 H6 m ρ 0 c).share_full fun w => H0.q_full (V1 m ρ) c w)
      (V1 m ρ c) (V2 H0 m ρ c) ((pdats H0 H1 H2 H3 H4 H5 H6 m ρ 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 0 c).owed (Fin.last _) = 0 from H0.owed_zero (V1 m ρ) c _]
    icases HO with ⟨%W, -, HO⟩; iexists W; iexact HO

set_option backward.isDefEq.respectTransparency.types false in
/-- Region 1 over the segment states: entered from every unscoped buffer at `W3`, left at `W4`. -/
def reg1 : Pipeline.RegionSeg (pcfgs (F := F)) adm (pdats H0 H1 H2 H3 H4 H5 H6 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (V3 H0 m ρ) c).loose
  hwaits := Pipeline.hwaits_of_owed_zero _ _ _ _ L lv 1 fun c t => H1.owed_zero (V3 H0 m ρ) c t
  pre c := iprop(StableHlo.held (c : Thread nD τ) (Pipeline.ucRefs τ sig) (W3 H0 m ρ c) ∗ R c)
  post c := iprop(StableHlo.held (c : Thread nD τ) (Pipeline.ucRefs τ sig) (W4 H0 H1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 H0 m ρ c)
  hentry c := by
    rw [Pipeline.ownSems0_none]
    have hsplit := Pipeline.arrays_of_unscopedBufs (p := 1) (pcfgs (F := F)) adm (pdats H0 H1 H2 H3 H4 H5 H6 m ρ) launch1.win launch1.arr_whole c
      ((pdats H0 H1 H2 H3 H4 H5 H6 m ρ 1 c).share_full fun w => H1.q_full (V3 H0 m ρ) c w) (V3 H0 m ρ c) fun w => H1.A_eq (V3 H0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 1 c).owed 0 = 0 from H1.owed_zero (V3 H0 m ρ) c 0]
      icases HO with ⟨%W, HO⟩; iexists W; isplitr
      · ipureintro
        exact fun _ _ => Or.inl (by
          rw [show (pdats H0 H1 H2 H3 H4 H5 H6 m ρ 1 c).recorded 0 = Set.univ from H1.recorded_univ (V3 H0 m ρ) c 0]; exact Set.mem_univ _)
      iexact HO
    isplitl [Hp]; · iexact Hp
    iexact Hrest
  hin c := by
    refine BIBase.Entails.trans ?_ (H1.hin (V3 H0 m ρ) c)
    unfold Pipeline.ΦA
    iintro ⟨Hp, -, Hr⟩
    isplitl [Hr]; · iexact Hr
    iexact Hp
  hout c := by
    rw [Pipeline.ownSems0_none]
    refine BIBase.Entails.trans (H1.hout (V3 H0 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 1 c).arrAt w cfg1.N = V4 H0 H1 m ρ c (Pipeline.arrRef spec1 w) := fun w => by
      show (H1.dat (V3 H0 m ρ) c).arrAt w cfg1.N = W4 H0 H1 m ρ c (Proc.devRef .tc (Pipeline.arrRef spec1 w))
      unfold W4; exact (Pipeline.withArrays_arr spec1 launch1.win.arr_inj c (W3 H0 m ρ c) (fun w => (H1.dat (V3 H0 m ρ) c).arrAt w cfg1.N) w).symm
    have hrest : ∀ b, b ∉ Finset.univ.image (Pipeline.arrRef spec1) → V4 H0 H1 m ρ c b = V3 H0 m ρ c b := fun b hb => by
      show W4 H0 H1 m ρ c (Proc.devRef .tc b) = _
      unfold W4; exact Pipeline.withArrays_of_ne spec1 c _ _ b fun w e => hb (Finset.mem_image.mpr ⟨w, Finset.mem_univ _, e⟩)
    have hjoin := Pipeline.unscopedBufs_of_arrays (p := 1) (pcfgs (F := F)) adm (Ix := Unit) (Name := ℕ) (U := UR sig nD τ) (Lvl := ℕ)
      launch1.win launch1.arr_whole c (pdats H0 H1 H2 H3 H4 H5 H6 m ρ) ((pdats H0 H1 H2 H3 H4 H5 H6 m ρ 1 c).share_full fun w => H1.q_full (V3 H0 m ρ) c w)
      (V3 H0 m ρ c) (V4 H0 H1 m ρ c) ((pdats H0 H1 H2 H3 H4 H5 H6 m ρ 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 1 c).owed (Fin.last _) = 0 from H1.owed_zero (V3 H0 m ρ) c _]
    icases HO with ⟨%W, -, HO⟩; iexists W; iexact HO

set_option backward.isDefEq.respectTransparency.types false in
/-- Region 2 over the segment states: entered from every unscoped buffer at `W5`, left at `W6`. -/
def reg2 : Pipeline.RegionSeg (pcfgs (F := F)) adm (pdats H0 H1 H2 H3 H4 H5 H6 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (V5 H0 H1 m ρ) c).loose
  hwaits := Pipeline.hwaits_of_owed_zero _ _ _ _ L lv 2 fun c t => H2.owed_zero (V5 H0 H1 m ρ) c t
  pre c := iprop(StableHlo.held (c : Thread nD τ) (Pipeline.ucRefs τ sig) (W5 H0 H1 m ρ c) ∗ R c)
  post c := iprop(StableHlo.held (c : Thread nD τ) (Pipeline.ucRefs τ sig) (W6 H0 H1 H2 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 H0 H1 m ρ c)
  hentry c := by
    rw [Pipeline.ownSems0_none]
    have hsplit := Pipeline.arrays_of_unscopedBufs (p := 2) (pcfgs (F := F)) adm (pdats H0 H1 H2 H3 H4 H5 H6 m ρ) launch2.win launch2.arr_whole c
      ((pdats H0 H1 H2 H3 H4 H5 H6 m ρ 2 c).share_full fun w => H2.q_full (V5 H0 H1 m ρ) c w) (V5 H0 H1 m ρ c) fun w => H2.A_eq (V5 H0 H1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 2 c).owed 0 = 0 from H2.owed_zero (V5 H0 H1 m ρ) c 0]
      icases HO with ⟨%W, HO⟩; iexists W; isplitr
      · ipureintro
        exact fun _ _ => Or.inl (by
          rw [show (pdats H0 H1 H2 H3 H4 H5 H6 m ρ 2 c).recorded 0 = Set.univ from H2.recorded_univ (V5 H0 H1 m ρ) c 0]; exact Set.mem_univ _)
      iexact HO
    isplitl [Hp]; · iexact Hp
    iexact Hrest
  hin c := by
    refine BIBase.Entails.trans ?_ (H2.hin (V5 H0 H1 m ρ) c)
    unfold Pipeline.ΦA
    iintro ⟨Hp, -, Hr⟩
    isplitl [Hr]; · iexact Hr
    iexact Hp
  hout c := by
    rw [Pipeline.ownSems0_none]
    refine BIBase.Entails.trans (H2.hout (V5 H0 H1 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 2 c).arrAt w cfg2.N = V6 H0 H1 H2 m ρ c (Pipeline.arrRef spec2 w) := fun w => by
      show (H2.dat (V5 H0 H1 m ρ) c).arrAt w cfg2.N = W6 H0 H1 H2 m ρ c (Proc.devRef .tc (Pipeline.arrRef spec2 w))
      unfold W6; exact (Pipeline.withArrays_arr spec2 launch2.win.arr_inj c (W5 H0 H1 m ρ c) (fun w => (H2.dat (V5 H0 H1 m ρ) c).arrAt w cfg2.N) w).symm
    have hrest : ∀ b, b ∉ Finset.univ.image (Pipeline.arrRef spec2) → V6 H0 H1 H2 m ρ c b = V5 H0 H1 m ρ c b := fun b hb => by
      show W6 H0 H1 H2 m ρ c (Proc.devRef .tc b) = _
      unfold W6; exact Pipeline.withArrays_of_ne spec2 c _ _ b fun w e => hb (Finset.mem_image.mpr ⟨w, Finset.mem_univ _, e⟩)
    have hjoin := Pipeline.unscopedBufs_of_arrays (p := 2) (pcfgs (F := F)) adm (Ix := Unit) (Name := ℕ) (U := UR sig nD τ) (Lvl := ℕ)
      launch2.win launch2.arr_whole c (pdats H0 H1 H2 H3 H4 H5 H6 m ρ) ((pdats H0 H1 H2 H3 H4 H5 H6 m ρ 2 c).share_full fun w => H2.q_full (V5 H0 H1 m ρ) c w)
      (V5 H0 H1 m ρ c) (V6 H0 H1 H2 m ρ c) ((pdats H0 H1 H2 H3 H4 H5 H6 m ρ 2 c).arrAt · cfg2.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 2 c).owed (Fin.last _) = 0 from H2.owed_zero (V5 H0 H1 m ρ) c _]
    icases HO with ⟨%W, -, HO⟩; iexists W; iexact HO

set_option backward.isDefEq.respectTransparency.types false in
/-- Region 3 over the segment states: entered from every unscoped buffer at `W7`, left at `W8`. -/
def reg3 : Pipeline.RegionSeg (pcfgs (F := F)) adm (pdats H0 H1 H2 H3 H4 H5 H6 m ρ) () defs₀ 𝒱₀ L lv 3 where
  win := launch3.win.to₀
  block_pos := launch3.block_pos
  stage_whole := launch3.stage_whole
  K := PEmpty
  osem k := k.elim
  ho := Pipeline.OwnSemFacts.none _
  hbody c := (H3.body (V7 H0 H1 H2 m ρ) c).loose
  hwaits := Pipeline.hwaits_of_owed_zero _ _ _ _ L lv 3 fun c t => H3.owed_zero (V7 H0 H1 H2 m ρ) c t
  pre c := iprop(StableHlo.held (c : Thread nD τ) (Pipeline.ucRefs τ sig) (W7 H0 H1 H2 m ρ c) ∗ R c)
  post c := iprop(StableHlo.held (c : Thread nD τ) (Pipeline.ucRefs τ sig) (W8 H0 H1 H2 H3 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 H0 H1 H2 m ρ c)
  hentry c := by
    rw [Pipeline.ownSems0_none]
    have hsplit := Pipeline.arrays_of_unscopedBufs (p := 3) (pcfgs (F := F)) adm (pdats H0 H1 H2 H3 H4 H5 H6 m ρ) launch3.win launch3.arr_whole c
      ((pdats H0 H1 H2 H3 H4 H5 H6 m ρ 3 c).share_full fun w => H3.q_full (V7 H0 H1 H2 m ρ) c w) (V7 H0 H1 H2 m ρ c) fun w => H3.A_eq (V7 H0 H1 H2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 3 c).owed 0 = 0 from H3.owed_zero (V7 H0 H1 H2 m ρ) c 0]
      icases HO with ⟨%W, HO⟩; iexists W; isplitr
      · ipureintro
        exact fun _ _ => Or.inl (by
          rw [show (pdats H0 H1 H2 H3 H4 H5 H6 m ρ 3 c).recorded 0 = Set.univ from H3.recorded_univ (V7 H0 H1 H2 m ρ) c 0]; exact Set.mem_univ _)
      iexact HO
    isplitl [Hp]; · iexact Hp
    iexact Hrest
  hin c := by
    refine BIBase.Entails.trans ?_ (H3.hin (V7 H0 H1 H2 m ρ) c)
    unfold Pipeline.ΦA
    iintro ⟨Hp, -, Hr⟩
    isplitl [Hr]; · iexact Hr
    iexact Hp
  hout c := by
    rw [Pipeline.ownSems0_none]
    refine BIBase.Entails.trans (H3.hout (V7 H0 H1 H2 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 3 c).arrAt w cfg3.N = V8 H0 H1 H2 H3 m ρ c (Pipeline.arrRef spec3 w) := fun w => by
      show (H3.dat (V7 H0 H1 H2 m ρ) c).arrAt w cfg3.N = W8 H0 H1 H2 H3 m ρ c (Proc.devRef .tc (Pipeline.arrRef spec3 w))
      unfold W8; exact (Pipeline.withArrays_arr spec3 launch3.win.arr_inj c (W7 H0 H1 H2 m ρ c) (fun w => (H3.dat (V7 H0 H1 H2 m ρ) c).arrAt w cfg3.N) w).symm
    have hrest : ∀ b, b ∉ Finset.univ.image (Pipeline.arrRef spec3) → V8 H0 H1 H2 H3 m ρ c b = V7 H0 H1 H2 m ρ c b := fun b hb => by
      show W8 H0 H1 H2 H3 m ρ c (Proc.devRef .tc b) = _
      unfold W8; exact Pipeline.withArrays_of_ne spec3 c _ _ b fun w e => hb (Finset.mem_image.mpr ⟨w, Finset.mem_univ _, e⟩)
    have hjoin := Pipeline.unscopedBufs_of_arrays (p := 3) (pcfgs (F := F)) adm (Ix := Unit) (Name := ℕ) (U := UR sig nD τ) (Lvl := ℕ)
      launch3.win launch3.arr_whole c (pdats H0 H1 H2 H3 H4 H5 H6 m ρ) ((pdats H0 H1 H2 H3 H4 H5 H6 m ρ 3 c).share_full fun w => H3.q_full (V7 H0 H1 H2 m ρ) c w)
      (V7 H0 H1 H2 m ρ c) (V8 H0 H1 H2 H3 m ρ c) ((pdats H0 H1 H2 H3 H4 H5 H6 m ρ 3 c).arrAt · cfg3.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 3 c).owed (Fin.last _) = 0 from H3.owed_zero (V7 H0 H1 H2 m ρ) c _]
    icases HO with ⟨%W, -, HO⟩; iexists W; iexact HO

set_option backward.isDefEq.respectTransparency.types false in
/-- Region 4 over the segment states: entered from every unscoped buffer at `W9`, left at `W10`. -/
def reg4 : Pipeline.RegionSeg (pcfgs (F := F)) adm (pdats H0 H1 H2 H3 H4 H5 H6 m ρ) () defs₀ 𝒱₀ L lv 4 where
  win := launch4.win.to₀
  block_pos := launch4.block_pos
  stage_whole := launch4.stage_whole
  K := PEmpty
  osem k := k.elim
  ho := Pipeline.OwnSemFacts.none _
  hbody c := (H4.body (V9 H0 H1 H2 H3 m ρ) c).loose
  hwaits := Pipeline.hwaits_of_owed_zero _ _ _ _ L lv 4 fun c t => H4.owed_zero (V9 H0 H1 H2 H3 m ρ) c t
  pre c := iprop(StableHlo.held (c : Thread nD τ) (Pipeline.ucRefs τ sig) (W9 H0 H1 H2 H3 m ρ c) ∗ R c)
  post c := iprop(StableHlo.held (c : Thread nD τ) (Pipeline.ucRefs τ sig) (W10 H0 H1 H2 H3 H4 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 H0 H1 H2 H3 m ρ c)
  hentry c := by
    rw [Pipeline.ownSems0_none]
    have hsplit := Pipeline.arrays_of_unscopedBufs (p := 4) (pcfgs (F := F)) adm (pdats H0 H1 H2 H3 H4 H5 H6 m ρ) launch4.win launch4.arr_whole c
      ((pdats H0 H1 H2 H3 H4 H5 H6 m ρ 4 c).share_full fun w => H4.q_full (V9 H0 H1 H2 H3 m ρ) c w) (V9 H0 H1 H2 H3 m ρ c) fun w => H4.A_eq (V9 H0 H1 H2 H3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 4 c).owed 0 = 0 from H4.owed_zero (V9 H0 H1 H2 H3 m ρ) c 0]
      icases HO with ⟨%W, HO⟩; iexists W; isplitr
      · ipureintro
        exact fun _ _ => Or.inl (by
          rw [show (pdats H0 H1 H2 H3 H4 H5 H6 m ρ 4 c).recorded 0 = Set.univ from H4.recorded_univ (V9 H0 H1 H2 H3 m ρ) c 0]; exact Set.mem_univ _)
      iexact HO
    isplitl [Hp]; · iexact Hp
    iexact Hrest
  hin c := by
    refine BIBase.Entails.trans ?_ (H4.hin (V9 H0 H1 H2 H3 m ρ) c)
    unfold Pipeline.ΦA
    iintro ⟨Hp, -, Hr⟩
    isplitl [Hr]; · iexact Hr
    iexact Hp
  hout c := by
    rw [Pipeline.ownSems0_none]
    refine BIBase.Entails.trans (H4.hout (V9 H0 H1 H2 H3 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 4 c).arrAt w cfg4.N = V10 H0 H1 H2 H3 H4 m ρ c (Pipeline.arrRef spec4 w) := fun w => by
      show (H4.dat (V9 H0 H1 H2 H3 m ρ) c).arrAt w cfg4.N = W10 H0 H1 H2 H3 H4 m ρ c (Proc.devRef .tc (Pipeline.arrRef spec4 w))
      unfold W10; exact (Pipeline.withArrays_arr spec4 launch4.win.arr_inj c (W9 H0 H1 H2 H3 m ρ c) (fun w => (H4.dat (V9 H0 H1 H2 H3 m ρ) c).arrAt w cfg4.N) w).symm
    have hrest : ∀ b, b ∉ Finset.univ.image (Pipeline.arrRef spec4) → V10 H0 H1 H2 H3 H4 m ρ c b = V9 H0 H1 H2 H3 m ρ c b := fun b hb => by
      show W10 H0 H1 H2 H3 H4 m ρ c (Proc.devRef .tc b) = _
      unfold W10; exact Pipeline.withArrays_of_ne spec4 c _ _ b fun w e => hb (Finset.mem_image.mpr ⟨w, Finset.mem_univ _, e⟩)
    have hjoin := Pipeline.unscopedBufs_of_arrays (p := 4) (pcfgs (F := F)) adm (Ix := Unit) (Name := ℕ) (U := UR sig nD τ) (Lvl := ℕ)
      launch4.win launch4.arr_whole c (pdats H0 H1 H2 H3 H4 H5 H6 m ρ) ((pdats H0 H1 H2 H3 H4 H5 H6 m ρ 4 c).share_full fun w => H4.q_full (V9 H0 H1 H2 H3 m ρ) c w)
      (V9 H0 H1 H2 H3 m ρ c) (V10 H0 H1 H2 H3 H4 m ρ c) ((pdats H0 H1 H2 H3 H4 H5 H6 m ρ 4 c).arrAt · cfg4.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 4 c).owed (Fin.last _) = 0 from H4.owed_zero (V9 H0 H1 H2 H3 m ρ) c _]
    icases HO with ⟨%W, -, HO⟩; iexists W; iexact HO

set_option backward.isDefEq.respectTransparency.types false in
/-- Region 5 over the segment states: entered from every unscoped buffer at `W11`, left at `W12`. -/
def reg5 : Pipeline.RegionSeg (pcfgs (F := F)) adm (pdats H0 H1 H2 H3 H4 H5 H6 m ρ) () defs₀ 𝒱₀ L lv 5 where
  win := launch5.win.to₀
  block_pos := launch5.block_pos
  stage_whole := launch5.stage_whole
  K := PEmpty
  osem k := k.elim
  ho := Pipeline.OwnSemFacts.none _
  hbody c := (H5.body (V11 H0 H1 H2 H3 H4 m ρ) c).loose
  hwaits := Pipeline.hwaits_of_owed_zero _ _ _ _ L lv 5 fun c t => H5.owed_zero (V11 H0 H1 H2 H3 H4 m ρ) c t
  pre c := iprop(StableHlo.held (c : Thread nD τ) (Pipeline.ucRefs τ sig) (W11 H0 H1 H2 H3 H4 m ρ c) ∗ R c)
  post c := iprop(StableHlo.held (c : Thread nD τ) (Pipeline.ucRefs τ sig) (W12 H0 H1 H2 H3 H4 H5 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 H0 H1 H2 H3 H4 m ρ c)
  hentry c := by
    rw [Pipeline.ownSems0_none]
    have hsplit := Pipeline.arrays_of_unscopedBufs (p := 5) (pcfgs (F := F)) adm (pdats H0 H1 H2 H3 H4 H5 H6 m ρ) launch5.win launch5.arr_whole c
      ((pdats H0 H1 H2 H3 H4 H5 H6 m ρ 5 c).share_full fun w => H5.q_full (V11 H0 H1 H2 H3 H4 m ρ) c w) (V11 H0 H1 H2 H3 H4 m ρ c) fun w => H5.A_eq (V11 H0 H1 H2 H3 H4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 5 c).owed 0 = 0 from H5.owed_zero (V11 H0 H1 H2 H3 H4 m ρ) c 0]
      icases HO with ⟨%W, HO⟩; iexists W; isplitr
      · ipureintro
        exact fun _ _ => Or.inl (by
          rw [show (pdats H0 H1 H2 H3 H4 H5 H6 m ρ 5 c).recorded 0 = Set.univ from H5.recorded_univ (V11 H0 H1 H2 H3 H4 m ρ) c 0]; exact Set.mem_univ _)
      iexact HO
    isplitl [Hp]; · iexact Hp
    iexact Hrest
  hin c := by
    refine BIBase.Entails.trans ?_ (H5.hin (V11 H0 H1 H2 H3 H4 m ρ) c)
    unfold Pipeline.ΦA
    iintro ⟨Hp, -, Hr⟩
    isplitl [Hr]; · iexact Hr
    iexact Hp
  hout c := by
    rw [Pipeline.ownSems0_none]
    refine BIBase.Entails.trans (H5.hout (V11 H0 H1 H2 H3 H4 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 5 c).arrAt w cfg5.N = V12 H0 H1 H2 H3 H4 H5 m ρ c (Pipeline.arrRef spec5 w) := fun w => by
      show (H5.dat (V11 H0 H1 H2 H3 H4 m ρ) c).arrAt w cfg5.N = W12 H0 H1 H2 H3 H4 H5 m ρ c (Proc.devRef .tc (Pipeline.arrRef spec5 w))
      unfold W12; exact (Pipeline.withArrays_arr spec5 launch5.win.arr_inj c (W11 H0 H1 H2 H3 H4 m ρ c) (fun w => (H5.dat (V11 H0 H1 H2 H3 H4 m ρ) c).arrAt w cfg5.N) w).symm
    have hrest : ∀ b, b ∉ Finset.univ.image (Pipeline.arrRef spec5) → V12 H0 H1 H2 H3 H4 H5 m ρ c b = V11 H0 H1 H2 H3 H4 m ρ c b := fun b hb => by
      show W12 H0 H1 H2 H3 H4 H5 m ρ c (Proc.devRef .tc b) = _
      unfold W12; exact Pipeline.withArrays_of_ne spec5 c _ _ b fun w e => hb (Finset.mem_image.mpr ⟨w, Finset.mem_univ _, e⟩)
    have hjoin := Pipeline.unscopedBufs_of_arrays (p := 5) (pcfgs (F := F)) adm (Ix := Unit) (Name := ℕ) (U := UR sig nD τ) (Lvl := ℕ)
      launch5.win launch5.arr_whole c (pdats H0 H1 H2 H3 H4 H5 H6 m ρ) ((pdats H0 H1 H2 H3 H4 H5 H6 m ρ 5 c).share_full fun w => H5.q_full (V11 H0 H1 H2 H3 H4 m ρ) c w)
      (V11 H0 H1 H2 H3 H4 m ρ c) (V12 H0 H1 H2 H3 H4 H5 m ρ c) ((pdats H0 H1 H2 H3 H4 H5 H6 m ρ 5 c).arrAt · cfg5.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H0 H1 H2 H3 H4 H5 H6 m ρ 5 c).owed (Fin.last _) = 0 from H5.owed_zero (V11 H0 H1 H2 H3 H4 m ρ) c _]
    icases HO with ⟨%W, -, HO⟩; iexists W; iexact HO

set_option backward.isDefEq.respectTransparency.types false in
/-- Region 6 over the segment states: entered from every unscoped buffer at `W13`, left at `W14`. -/
def reg6 : Pipeline.RegionSeg (pcfgs (F := F)) adm (pdats H0 H1 H2 H3 H4 H5 H6 m ρ) () defs₀ 𝒱₀ L lv 6 where
  win := launch6.win.to₀
  block_pos := launch6.block_pos
  stage_whole := launch6.stage_whole
  K := PEmpty
  osem k := k.elim
  ho := Pipeline.OwnSemFacts.none _
  hbody c := (H6.body (V13 H0 H1 H2 H3 H4 H5 m ρ) c).loose
  hwaits := Pipeline.hwaits_of_owed_zero _ _ _ _ L lv 6 fun c t => H6.owed_zero (V13 H0 H1 H2 H3 H4 H5 m ρ) c t
  pre c := iprop(StableHlo.held (c : Thread nD τ) (Pipeline.ucRefs τ sig) (W13 H0 H1 H2 H3 H4 H5 m ρ c) ∗ R c)
  post c := iprop(Tₙ H0 H1 H2 H3 H4 H5 H6 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 H0 H1 H2 H3 H4 H5 m ρ c)
  hentry c := by
    rw [Pipeline.ownSems0_none]
    have hsplit := Pipeline.arrays_of_unscopedBufs (p := 6) (pcfgs (F := F)) adm (pdats H0 H1 H2 H3 H4 H5 H6 m ρ) launch6.win launch6.arr_whole c
      ((pdats H0 H1 H2 H3 H4 H5 H6 m ρ 6 c).share_full fun w => H6.q_full (V13 H0 H1 H2 H3 H4 H5 m ρ) c w) (V13 H0 H1 H2 H3 H4 H5 m ρ c) fun w => H6.A_eq (V13 H0 H1 H2 H3 H4 H5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H0 H1 H2 H3 H4 H5 H6 m ρ 6 c).owed 0 = 0 from H6.owed_zero (V13 H0 H1 H2 H3 H4 H5 m ρ) c 0]
      icases HO with ⟨%W, HO⟩; iexists W; isplitr
      · ipureintro
        exact fun _ _ => Or.inl (by
          rw [show (pdats H0 H1 H2 H3 H4 H5 H6 m ρ 6 c).recorded 0 = Set.univ from H6.recorded_univ (V13 H0 H1 H2 H3 H4 H5 m ρ) c 0]; exact Set.mem_univ _)
      iexact HO
    isplitl [Hp]; · iexact Hp
    iexact Hrest
  hin c := by
    refine BIBase.Entails.trans ?_ (H6.hin (V13 H0 H1 H2 H3 H4 H5 m ρ) c)
    unfold Pipeline.ΦA
    iintro ⟨Hp, -, Hr⟩
    isplitl [Hr]; · iexact Hr
    iexact Hp
  hout c := by
    rw [Pipeline.ownSems0_none]
    refine BIBase.Entails.trans (H6.hout (V13 H0 H1 H2 H3 H4 H5 m ρ) c) ?_
    unfold Pipeline.ΦA
    iintro ⟨Hr, Hp⟩
    isplitl [Hp]; · iexact Hp
    isplitr; · iempintro
    iexact Hr
  hexit c := by
    have hF : ∀ w, (pdats H0 H1 H2 H3 H4 H5 H6 m ρ 6 c).arrAt w cfg6.N = V14 H0 H1 H2 H3 H4 H5 H6 m ρ c (Pipeline.arrRef spec6 w) := fun w => by
      show (H6.dat (V13 H0 H1 H2 H3 H4 H5 m ρ) c).arrAt w cfg6.N = W14 H0 H1 H2 H3 H4 H5 H6 m ρ c (Proc.devRef .tc (Pipeline.arrRef spec6 w))
      unfold W14; exact (Pipeline.withArrays_arr spec6 launch6.win.arr_inj c (W13 H0 H1 H2 H3 H4 H5 m ρ c) (fun w => (H6.dat (V13 H0 H1 H2 H3 H4 H5 m ρ) c).arrAt w cfg6.N) w).symm
    have hrest : ∀ b, b ∉ Finset.univ.image (Pipeline.arrRef spec6) → V14 H0 H1 H2 H3 H4 H5 H6 m ρ c b = V13 H0 H1 H2 H3 H4 H5 m ρ c b := fun b hb => by
      show W14 H0 H1 H2 H3 H4 H5 H6 m ρ c (Proc.devRef .tc b) = _
      unfold W14; exact Pipeline.withArrays_of_ne spec6 c _ _ b fun w e => hb (Finset.mem_image.mpr ⟨w, Finset.mem_univ _, e⟩)
    have hjoin := Pipeline.unscopedBufs_of_arrays (p := 6) (pcfgs (F := F)) adm (Ix := Unit) (Name := ℕ) (U := UR sig nD τ) (Lvl := ℕ)
      launch6.win launch6.arr_whole c (pdats H0 H1 H2 H3 H4 H5 H6 m ρ) ((pdats H0 H1 H2 H3 H4 H5 H6 m ρ 6 c).share_full fun w => H6.q_full (V13 H0 H1 H2 H3 H4 H5 m ρ) c w)
      (V13 H0 H1 H2 H3 H4 H5 m ρ c) (V14 H0 H1 H2 H3 H4 H5 H6 m ρ c) ((pdats H0 H1 H2 H3 H4 H5 H6 m ρ 6 c).arrAt · cfg6.N) hF hrest
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats H0 H1 H2 H3 H4 H5 H6 m ρ 6 c).owed (Fin.last _) = 0 from H6.owed_zero (V13 H0 H1 H2 H3 H4 H5 m ρ) c _]
    icases HO with ⟨%W, -, HO⟩; iexists W; iexact HO

end Cert.KernelIdeal.Hand

end
-- ==== Proof.KIRun.lean ====
/-
  The run of @main: the fourteen segments from the launch to the return.

  @main is its seven stretches of host operations and seven kernel regions in order. Launched from memory `m` with zero
  counters, every weakly fair execution terminates, and at the end every unscoped TensorCore buffer holds the last
  boundary's contents `W14`: the launch gives each core its buffers at `m`, its generator register and nothing owed;
  each segment's exit state is the next one's entry state; the last state is read against the final memory.
-/
import proofs.«140440_j51049981280319_1_alg».proof.Proof.KIRunSegs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- @main's fourteen segments in order. -/
abbrev segs : List (Pipeline.Seg (pcfgs (F := F)) adm (pdats H0 H1 H2 H3 H4 H5 H6 m ρ) () defs₀ 𝒱₀ L lv) :=
  [
    .host (hseg hostOps0 hostOps0_sub hostOps0_fresh (W0 m ρ)),
    .region (reg0 H0 H1 H2 H3 H4 H5 H6 m ρ),
    .host (hseg hostOps1 hostOps1_sub hostOps1_fresh (W2 H0 m ρ)),
    .region (reg1 H0 H1 H2 H3 H4 H5 H6 m ρ),
    .host (hseg hostOps2 hostOps2_sub hostOps2_fresh (W4 H0 H1 m ρ)),
    .region (reg2 H0 H1 H2 H3 H4 H5 H6 m ρ),
    .host (hseg hostOps3 hostOps3_sub hostOps3_fresh (W6 H0 H1 H2 m ρ)),
    .region (reg3 H0 H1 H2 H3 H4 H5 H6 m ρ),
    .host (hseg hostOps4 hostOps4_sub hostOps4_fresh (W8 H0 H1 H2 H3 m ρ)),
    .region (reg4 H0 H1 H2 H3 H4 H5 H6 m ρ),
    .host (hseg hostOps5 hostOps5_sub hostOps5_fresh (W10 H0 H1 H2 H3 H4 m ρ)),
    .region (reg5 H0 H1 H2 H3 H4 H5 H6 m ρ),
    .host (hseg hostOps6 hostOps6_sub hostOps6_fresh (W12 H0 H1 H2 H3 H4 H5 m ρ)),
    .region (reg6 H0 H1 H2 H3 H4 H5 H6 m ρ) ]

/-- @main is the run of its segments. -/
theorem main_run (c : Dev nD) : main (F := F) c = Pipeline.Seg.run (segs H0 H1 H2 H3 H4 H5 H6 m ρ) :=
  (main_chain c).trans (by chain_rfl)

set_option backward.isDefEq.respectTransparency.types false in
/-- Every weakly fair execution of @main from `m` with zero counters terminates, and every unscoped TensorCore buffer
    ends at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W14 H0 H1 H2 H3 H4 H5 H6 m ρ c (Proc.devRef .tc b)) :=
  Pipeline.θ_run_regions_kit (pcfgs (F := F)) adm (pdats H0 H1 H2 H3 H4 H5 H6 m ρ) () cellOf_inj emb₁ defs₀ 𝒱₀ L lv m ρ main
    (segs H0 H1 H2 H3 H4 H5 H6 m ρ)
    (fun c Q => by rw [main_run H0 H1 H2 H3 H4 H5 H6 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := Tₙ H0 H1 H2 H3 H4 H5 H6 m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 H0 H1 H2 H3 H4 H5 H6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 H0 H1 H2 H3 H4 H5 H6 m ρ c) s')
      isplitl [Hh] <;> iassumption)
    (hQ := fun s h c b hb => h c _ (mem_uc b hb))

end Cert.KernelIdeal.Hand

end
-- ==== Proof.KIRegion0Base.lean ====
/-
  Region 0 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window not fetched
    at a point has the block index it had at the point before), for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window not fetched
    at a point has the block index it had at the point before), for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window not fetched
    at a point has the block index it had at the point before), for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window not fetched
    at a point has the block index it had at the point before), for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window not fetched
    at a point has the block index it had at the point before), for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first condition (the tile is the first one), as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only: checked at each of the ten points. -/
theorem hcond0_0 : ∀ t : Fin cfg0.N, cond0_0 (grid0.coords t) ↔ t.val % 10 = 0 :=
  (by decide +kernel : ∀ t : Fin grid0.N, cond0_0 (grid0.coords t) ↔ t.val % 10 = 0)

/-- The second condition (the tile is the last one). -/
abbrev cond0_1 (i : grid0.Coords) : Prop := k0_cond2 i = 1#1
/-- It holds at point 9 only: checked at each of the ten points. -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Where the second condition fails the statistics output is idle (the body stores nothing into it there), -/
theorem idleAt0_6 : ∀ t : Fin cfg0.N, ¬cond0_1 (grid0.coords t) → cfg0.idle 6 (grid0.coords t) = true := by decide +kernel
/-- and is not written back; -/
theorem noFlush0_6 : ∀ t : Fin cfg0.N, ¬cond0_1 (grid0.coords t) → (cfg0.win 6).flush t = false := by decide +kernel
/-- where it holds the output is live. -/
theorem liveAt0_6 : ∀ t : Fin cfg0.N, cond0_1 (grid0.coords t) → cfg0.idle 6 (grid0.coords t) = false := by decide +kernel

/-! ## The memrefs the body is called with -/

/-- One staging buffer of each output window, through which its contents are stated (for pieces that cover the buffer the
    choice does not matter). -/
abbrev VO0_5 : View sig .tc .vmem S5000x128 .f32 := (Memref.whole cc0_stg5_0 : Memref sig .tc .vmem S5000x128 .f32).view
abbrev VO0_6 : View sig .tc .vmem S2x128 .f32 := (Memref.whole cc0_stg6_0 : Memref sig .tc .vmem S2x128 .f32).view

/-- Window 0's current staging memref at point `t` is whole. -/
abbrev hs0_0 (t : Fin cfg0.N) : (st0_0 t).IsWhole := hstage0_0 ((cfg0.slots t 0).cast nbuf0_0)
/-- Window 1's current staging memref at point `t` is whole. -/
abbrev hs0_1 (t : Fin cfg0.N) : (st0_1 t).IsWhole := hstage0_1 ((cfg0.slots t 1).cast nbuf0_1)
/-- Window 2's current staging memref at point `t` is whole. -/
abbrev hs0_2 (t : Fin cfg0.N) : (st0_2 t).IsWhole := hstage0_2 ((cfg0.slots t 2).cast nbuf0_2)
/-- Window 3's current staging memref at point `t` is whole. -/
abbrev hs0_3 (t : Fin cfg0.N) : (st0_3 t).IsWhole := hstage0_3 ((cfg0.slots t 3).cast nbuf0_3)
/-- Window 4's current staging memref at point `t` is whole. -/
abbrev hs0_4 (t : Fin cfg0.N) : (st0_4 t).IsWhole := hstage0_4 ((cfg0.slots t 4).cast nbuf0_4)
/-- Window 5's current staging memref at point `t` is whole. -/
abbrev hs0_5 (t : Fin cfg0.N) : (st0_5 t).IsWhole := hstage0_5 ((cfg0.slots t 5).cast nbuf0_5)
/-- Window 6's current staging memref at point `t` is whole. -/
abbrev hs0_6 (t : Fin cfg0.N) : (st0_6 t).IsWhole := hstage0_6 ((cfg0.slots t 6).cast nbuf0_6)

/-- The two rows the body carries between tiles: whole scoped buffers of the kernel's own, passed beside the windows. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- The other scoped buffers of the core: not the region's staging buffers, not the two carried rows. The body never
    touches them. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two carried rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

end Cert.KernelIdeal.Hand

end
-- ==== Proof.KIRegion0RunA.lean ====
/-
  Region 0: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KIRegion0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion0RunB.lean ====
/-
  Region 0: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KIRegion0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion0RunC.lean ====
/-
  Region 0: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KIRegion0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__linear_stats_kernel_eq_skeleton]; unfold cc0__linear_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Hand

end
-- ==== Proof.KIRegion0.lean ====
/-
  Region 0 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KIRegion0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms0_0 (t : Fin cfg0.N) : Memref sig .tc .vmem S5000x128 .f32 := win0_0.stage (cfg0.slots t 0)
abbrev hm0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hm0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hm0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hm0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hm0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hm0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hm0_6 (t : Fin cfg0.N) : (ms0_6 t).IsWhole := hstage0_6 ((cfg0.slots t 6).cast nbuf0_6)

/-! ## What each case leaves -/

/-- Case A's stores into the tile output cover its buffer (one store of the whole tile). -/
theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S2x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S2x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S2x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S2x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt0 (c : Dev nD) : (n : ℕ) → n < cfg0.N → Vec F S5000x128 .f32 × Vec F S2x128 .f32 × Vec F S1x128 .f32 × Vec F S1x128 .f32
  | 0, hn => (out0_A_5 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hm0_0 ⟨0, hn⟩) (ms0_1 ⟨0, hn⟩) (hm0_1 ⟨0, hn⟩) (ms0_2 ⟨0, hn⟩) (hm0_2 ⟨0, hn⟩) (ms0_3 ⟨0, hn⟩) (hm0_3 ⟨0, hn⟩) (ms0_4 ⟨0, hn⟩) (hm0_4 ⟨0, hn⟩) (ms0_5 ⟨0, hn⟩) (hm0_5 ⟨0, hn⟩) (ms0_6 ⟨0, hn⟩) (hm0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 10 = 9 then
      (out0_C_5 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)
    else
      (out0_B_5 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hm0_0 ⟨n + 1, hn⟩) (ms0_1 ⟨n + 1, hn⟩) (hm0_1 ⟨n + 1, hn⟩) (ms0_2 ⟨n + 1, hn⟩) (hm0_2 ⟨n + 1, hn⟩) (ms0_3 ⟨n + 1, hn⟩) (hm0_3 ⟨n + 1, hn⟩) (ms0_4 ⟨n + 1, hn⟩) (hm0_4 ⟨n + 1, hn⟩) (ms0_5 ⟨n + 1, hn⟩) (hm0_5 ⟨n + 1, hn⟩) (ms0_6 ⟨n + 1, hn⟩) (hm0_6 ⟨n + 1, hn⟩) scM0_0 (Memref.isWhole_whole _) scM0_1 (Memref.isWhole_whole _) (fun h => absurd ((hcond0_0 ⟨n + 1, hn⟩).mp h) (by have hN : n + 1 < 10 := lt_of_lt_of_eq hn (show cfg0.N = 10 from N_0); (try dsimp only); omega)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.1 (outsAt0 c n (Nat.lt_of_succ_lt hn)).2.2.2)

/-- `outsAt0` at the first tile: case A's contents. -/
theorem outsAt0_A (c : Dev nD) (t : Fin cfg0.N) (h0 : t.val % 10 = 0) (h1 : ¬t.val % 10 = 9) :
    outsAt0 V c t.val t.isLt = (out0_A_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exfalso; have hN : n + 1 < 10 := lt_of_lt_of_eq hn (show cfg0.N = 10 from N_0); (try dsimp only at h0); omega

/-- `outsAt0` at a tile between: case B's contents, over the rows the tile before left. -/
theorem outsAt0_B (c : Dev nD) (t : Fin cfg0.N) (h0 : ¬t.val % 10 = 0) (h1 : ¬t.val % 10 = 9) :
    outsAt0 V c t.val t.isLt = (out0_B_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt0` at the last tile: case C's contents, over the rows the tile before left. -/
theorem outsAt0_C (c : Dev nD) (t : Fin cfg0.N) (h0 : ¬t.val % 10 = 0) (h1 : t.val % 10 = 9) :
    outsAt0 V c t.val t.isLt = (out0_C_5 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_6 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hm0_0 t) (ms0_1 t) (hm0_1 t) (ms0_2 t) (hm0_2 t) (ms0_3 t) (hm0_3 t) (ms0_4 t) (hm0_4 t) (ms0_5 t) (hm0_5 t) (ms0_6 t) (hm0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After tile `n` (before tile `n + 1`): the carried rows at that tile's contents. -/
theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl

/-- Before a tile that is not the first: the carried rows at what the tile before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a tile's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 10 = 0
  · have h1 : ¬t.val % 10 = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_5 sout0_A_0 sout0_A_1; (try dsimp only)
    have hz : t.val = 0 := by omega
    rw [PhiS0_castSucc V c t, PhiS0_zero V c _ _ hz, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _)
    iexists _; iexact H6
  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      unfold out0_C_5 out0_C_6 sout0_C_0 sout0_C_1; (try dsimp only)
      have hz : t.val ≠ 0 := by omega
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _)
      unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      unfold out0_B_5 sout0_B_0 sout0_B_1; (try dsimp only)
      have hz : t.val ≠ 0 := by omega
      rw [PhiS0_castSucc V c t, PhiS0_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _)
      iexists _; iexact H6

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any tile the invariant gives the class's back: the carried rows' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KIRegion1.lean ====
/- Region 1 of @main (custom_call 1, `cc1_kernel`, pipeline 1): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the point before, so the block left there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole [5000,128] staging buffer. -/
abbrev r1_0 : Rect S5000x128 := Rect.unit (s := S5000x128) ![0, 0] S5000x128.size inb_S5000x128_S5000x128_0_0
/-- The whole [1,128] staging buffer. -/
abbrev r1_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- The one store is of the whole buffer, so it covers it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2Base.lean ====
/-
  Region 2 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window not fetched
    at a point has the block index it had at the point before), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window not fetched
    at a point has the block index it had at the point before), for any proof data whose array is `V`'s and whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window not fetched
    at a point has the block index it had at the point before), for any proof data whose array is `V`'s and whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window not fetched
    at a point has the block index it had at the point before), for any proof data whose array is `V`'s and whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window not fetched
    at a point has the block index it had at the point before), for any proof data whose array is `V`'s and whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The first condition (the tile is the first one), as the body computes it from the grid coordinate. -/
abbrev cond2_0 (i : grid2.Coords) : Prop := (Scalar.cmpi .ne (Scalar.extui (Scalar.cmpi .eq (BitVec.ofNat 32 (i 0).val) 0#32)) 0#32) = 1#1
/-- It holds at point 0 only: checked at each of the ten points. -/
theorem hcond2_0 : ∀ t : Fin cfg2.N, cond2_0 (grid2.coords t) ↔ t.val % 10 = 0 :=
  (by decide +kernel : ∀ t : Fin grid2.N, cond2_0 (grid2.coords t) ↔ t.val % 10 = 0)

/-- The second condition (the tile is the last one). -/
abbrev cond2_1 (i : grid2.Coords) : Prop := k2_cond2 i = 1#1
/-- It holds at point 9 only: checked at each of the ten points. -/
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Where the second condition fails the statistics output is idle (the body stores nothing into it there), -/
theorem idleAt2_6 : ∀ t : Fin cfg2.N, ¬cond2_1 (grid2.coords t) → cfg2.idle 6 (grid2.coords t) = true := by decide +kernel
/-- and is not written back; -/
theorem noFlush2_6 : ∀ t : Fin cfg2.N, ¬cond2_1 (grid2.coords t) → (cfg2.win 6).flush t = false := by decide +kernel
/-- where it holds the output is live. -/
theorem liveAt2_6 : ∀ t : Fin cfg2.N, cond2_1 (grid2.coords t) → cfg2.idle 6 (grid2.coords t) = false := by decide +kernel

/-! ## The memrefs the body is called with -/

/-- One staging buffer of each output window, through which its contents are stated (for pieces that cover the buffer the
    choice does not matter). -/
abbrev VO2_5 : View sig .tc .vmem S5000x128 .f32 := (Memref.whole cc2_stg5_0 : Memref sig .tc .vmem S5000x128 .f32).view
abbrev VO2_6 : View sig .tc .vmem S2x128 .f32 := (Memref.whole cc2_stg6_0 : Memref sig .tc .vmem S2x128 .f32).view

/-- Window 0's current staging memref at point `t` is whole. -/
abbrev hs2_0 (t : Fin cfg2.N) : (st2_0 t).IsWhole := hstage2_0 ((cfg2.slots t 0).cast nbuf2_0)
/-- Window 1's current staging memref at point `t` is whole. -/
abbrev hs2_1 (t : Fin cfg2.N) : (st2_1 t).IsWhole := hstage2_1 ((cfg2.slots t 1).cast nbuf2_1)
/-- Window 2's current staging memref at point `t` is whole. -/
abbrev hs2_2 (t : Fin cfg2.N) : (st2_2 t).IsWhole := hstage2_2 ((cfg2.slots t 2).cast nbuf2_2)
/-- Window 3's current staging memref at point `t` is whole. -/
abbrev hs2_3 (t : Fin cfg2.N) : (st2_3 t).IsWhole := hstage2_3 ((cfg2.slots t 3).cast nbuf2_3)
/-- Window 4's current staging memref at point `t` is whole. -/
abbrev hs2_4 (t : Fin cfg2.N) : (st2_4 t).IsWhole := hstage2_4 ((cfg2.slots t 4).cast nbuf2_4)
/-- Window 5's current staging memref at point `t` is whole. -/
abbrev hs2_5 (t : Fin cfg2.N) : (st2_5 t).IsWhole := hstage2_5 ((cfg2.slots t 5).cast nbuf2_5)
/-- Window 6's current staging memref at point `t` is whole. -/
abbrev hs2_6 (t : Fin cfg2.N) : (st2_6 t).IsWhole := hstage2_6 ((cfg2.slots t 6).cast nbuf2_6)

/-- The two rows the body carries between tiles: whole scoped buffers of the kernel's own, passed beside the windows. -/
abbrev scM2_0 : Memref sig .tc .vmem S1x128 .f32 := Memref.whole cc2_scratch0
abbrev scM2_1 : Memref sig .tc .vmem S1x128 .f32 := Memref.whole cc2_scratch1
/-- The same as views: what they hold is stated through these. -/
abbrev VS2_0 : View sig .tc .vmem S1x128 .f32 := scM2_0.view
abbrev VS2_1 : View sig .tc .vmem S1x128 .f32 := scM2_1.view

/-- The other scoped buffers of the core: not the region's staging buffers, not the two carried rows. The body never
    touches them. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The class's invariant with the two carried rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

end Cert.KernelIdeal.Hand

end
-- ==== Proof.KIRegion2RunA.lean ====
/-
  Region 2: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KIRegion2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion2RunB.lean ====
/-
  Region 2: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KIRegion2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion2RunC.lean ====
/-
  Region 2: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KIRegion2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__linear_stats_kernel_eq_skeleton]; unfold cc2__linear_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Hand

end
-- ==== Proof.KIRegion2.lean ====
/-
  Region 2 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KIRegion2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms2_0 (t : Fin cfg2.N) : Memref sig .tc .vmem S5000x128 .f32 := win2_0.stage (cfg2.slots t 0)
abbrev hm2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hm2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hm2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hm2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hm2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hm2_5 (t : Fin cfg2.N) : (ms2_5 t).IsWhole := hstage2_5 ((cfg2.slots t 5).cast nbuf2_5)
abbrev ms2_6 (t : Fin cfg2.N) : Memref sig .tc .vmem S2x128 .f32 := win2_6.stage (cfg2.slots t 6)
abbrev hm2_6 (t : Fin cfg2.N) : (ms2_6 t).IsWhole := hstage2_6 ((cfg2.slots t 6).cast nbuf2_6)

/-! ## What each case leaves -/

/-- Case A's stores into the tile output cover its buffer (one store of the whole tile). -/
theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S2x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S2x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S2x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S2x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt2 (c : Dev nD) : (n : ℕ) → n < cfg2.N → Vec F S5000x128 .f32 × Vec F S2x128 .f32 × Vec F S1x128 .f32 × Vec F S1x128 .f32
  | 0, hn => (out2_A_5 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hm2_0 ⟨0, hn⟩) (ms2_1 ⟨0, hn⟩) (hm2_1 ⟨0, hn⟩) (ms2_2 ⟨0, hn⟩) (hm2_2 ⟨0, hn⟩) (ms2_3 ⟨0, hn⟩) (hm2_3 ⟨0, hn⟩) (ms2_4 ⟨0, hn⟩) (hm2_4 ⟨0, hn⟩) (ms2_5 ⟨0, hn⟩) (hm2_5 ⟨0, hn⟩) (ms2_6 ⟨0, hn⟩) (hm2_6 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 10 = 9 then
      (out2_C_5 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, out2_C_6 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_C_0 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_C_1 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2)
    else
      (out2_B_5 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, out2_B_6 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_B_0 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2, sout2_B_1 c (grid2.coords ⟨n + 1, hn⟩) (ms2_0 ⟨n + 1, hn⟩) (hm2_0 ⟨n + 1, hn⟩) (ms2_1 ⟨n + 1, hn⟩) (hm2_1 ⟨n + 1, hn⟩) (ms2_2 ⟨n + 1, hn⟩) (hm2_2 ⟨n + 1, hn⟩) (ms2_3 ⟨n + 1, hn⟩) (hm2_3 ⟨n + 1, hn⟩) (ms2_4 ⟨n + 1, hn⟩) (hm2_4 ⟨n + 1, hn⟩) (ms2_5 ⟨n + 1, hn⟩) (hm2_5 ⟨n + 1, hn⟩) (ms2_6 ⟨n + 1, hn⟩) (hm2_6 ⟨n + 1, hn⟩) scM2_0 (Memref.isWhole_whole _) scM2_1 (Memref.isWhole_whole _) (fun h => absurd ((hcond2_0 ⟨n + 1, hn⟩).mp h) (by have hN : n + 1 < 10 := lt_of_lt_of_eq hn (show cfg2.N = 10 from N_2); (try dsimp only); omega)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.1 (outsAt2 c n (Nat.lt_of_succ_lt hn)).2.2.2)

/-- `outsAt2` at the first tile: case A's contents. -/
theorem outsAt2_A (c : Dev nD) (t : Fin cfg2.N) (h0 : t.val % 10 = 0) (h1 : ¬t.val % 10 = 9) :
    outsAt2 V c t.val t.isLt = (out2_A_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exfalso; have hN : n + 1 < 10 := lt_of_lt_of_eq hn (show cfg2.N = 10 from N_2); (try dsimp only at h0); omega

/-- `outsAt2` at a tile between: case B's contents, over the rows the tile before left. -/
theorem outsAt2_B (c : Dev nD) (t : Fin cfg2.N) (h0 : ¬t.val % 10 = 0) (h1 : ¬t.val % 10 = 9) :
    outsAt2 V c t.val t.isLt = (out2_B_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_B_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt2` at the last tile: case C's contents, over the rows the tile before left. -/
theorem outsAt2_C (c : Dev nD) (t : Fin cfg2.N) (h0 : ¬t.val % 10 = 0) (h1 : t.val % 10 = 9) :
    outsAt2 V c t.val t.isLt = (out2_C_5 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, out2_C_6 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_0 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2, sout2_C_1 c (grid2.coords t) (ms2_0 t) (hm2_0 t) (ms2_1 t) (hm2_1 t) (ms2_2 t) (hm2_2 t) (ms2_3 t) (hm2_3 t) (ms2_4 t) (hm2_4 t) (ms2_5 t) (hm2_5 t) (ms2_6 t) (hm2_6 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After tile `n` (before tile `n + 1`): the carried rows at that tile's contents. -/
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ rest2 (F := F) c) ∗ (∃ r, prngReg c r)) := rfl

/-- Before a tile that is not the first: the carried rows at what the tile before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ rest2 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a tile's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

/-- Each input's current staging buffer holds its block at every tile, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val % 10 = 0
  · have h1 : ¬t.val % 10 = 9 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6 t (fun h => h1 ((hcond2_1 t).mp h))) (noFlush2_6 t (fun h => h1 ((hcond2_1 t).mp h)))]
    rw [outsAt2_A V c t h0 h1]
    unfold out2_A_5 sout2_A_0 sout2_A_1; (try dsimp only)
    have hz : t.val = 0 := by omega
    rw [PhiS2_castSucc V c t, PhiS2_zero V c _ _ hz, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _)
    iexists _; iexact H6
  · by_cases h1 : t.val % 10 = 9
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_5 out2_C_6 sout2_C_0 sout2_C_1; (try dsimp only)
      have hz : t.val ≠ 0 := by omega
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _)
      unfold owns; iexists _; isplitr
      swap; · iexact H6
      ipureintro; exact View.read_writes_of_cover _ _ _ _ _ (cover2_C_6 c _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      unfold out2_B_5 sout2_B_0 sout2_B_1; (try dsimp only)
      have hz : t.val ≠ 0 := by omega
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _)
      iexists _; iexact H6

/-- The library's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the class's back: the carried rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KIRegion3.lean ====
/- Region 3 of @main (custom_call 3, `cc3_kernel`, pipeline 3): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: where the window is not fetched its block
    index has not moved since the point before, so the block left there is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [5000,128] staging buffer. -/
abbrev r3_0 : Rect S5000x128 := Rect.unit (s := S5000x128) ![0, 0] S5000x128.size inb_S5000x128_S5000x128_0_0
/-- The whole [1,128] staging buffer. -/
abbrev r3_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out3_3 (x0 : Vec F S5000x128 .f32) (x1 : Vec F S1x128 .f32) (x2 : Vec F S1x128 .f32) : Vec F S5000x128 .f32 :=
  View.canon [⟨r3_0, k3_pay1 (View.ld x0 r3_0) (View.ld x1 r3_1) (View.ld x2 r3_1)⟩]

/-- The one store is of the whole buffer, so it covers it. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out3_3` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRegion4Base.lean ====
/-
  Region 4 (a layer's linear map with its column statistics, ten tiles of 5000 rows): what the runs of its body share.

  The body visits the tiles in order. It keeps two rows between tiles — the column sums of the linear map and of its
  square so far — which it sets to zero at the first tile, adds to at every tile, and copies into the two rows of the
  statistics output at the last tile only. So there are three control cases: the first tile (the rows reset, the
  statistics output untouched), the tiles between (the rows carried, the statistics output untouched), the last tile
  (the rows carried and copied out). Here: each window's block at a tile, each input's buffer at its block whether it
  was fetched at the tile or not, the two conditions in closed form, where the statistics output is idle, and the
  region's invariant with the two carried rows as memrefs.
-/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window not fetched
    at a point has the block index it had at the point before), for any proof data whose array is `V`'s and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a window not fetched
    at a point has the block index it had at the point before), for any proof data whose array is `V`'s and whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a window not fetched
    at a point has the block index it had at the point before), for any proof data whose array is `V`'s and whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a window not fetched
    at a point has the block index it had at the point before), for any proof data whose array is `V`'s and whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a window not fetched
    at a point has the block index it had at the point before), for any proof data whose array is `V`'s and whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions -/

/-- The first condition (the tile is the first one), as the body computes it from the grid coordinate. -/
abbrev cond4_0 (i : grid4.Coords) : Prop := (Scalar.cmpi .ne (Scalar.extui (Scalar.cmpi .eq (BitVec.ofNat 32 (i 0).val) 0#32)) 0#32) = 1#1
/-- It holds at point 0 only: checked at each of the ten points. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second condition (the tile is the last one). -/
abbrev cond4_1 (i : grid4.Coords) : Prop := k4_cond2 i = 1#1
/-- It holds at point 9 only: checked at each of the ten points. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Where the second condition fails the statistics output is idle (the body stores nothing into it there), -/
theorem idleAt4_6 : ∀ t : Fin cfg4.N, ¬cond4_1 (grid4.coords t) → cfg4.idle 6 (grid4.coords t) = true := by decide +kernel
/-- and is not written back; -/
theorem noFlush4_6 : ∀ t : Fin cfg4.N, ¬cond4_1 (grid4.coords t) → (cfg4.win 6).flush t = false := by decide +kernel
/-- where it holds the output is live. -/
theorem liveAt4_6 : ∀ t : Fin cfg4.N, cond4_1 (grid4.coords t) → cfg4.idle 6 (grid4.coords t) = false := by decide +kernel

/-! ## The memrefs the body is called with -/

/-- One staging buffer of each output window, through which its contents are stated (for pieces that cover the buffer the
    choice does not matter). -/
abbrev VO4_5 : View sig .tc .vmem S5000x128 .f32 := (Memref.whole cc4_stg5_0 : Memref sig .tc .vmem S5000x128 .f32).view
abbrev VO4_6 : View sig .tc .vmem S2x128 .f32 := (Memref.whole cc4_stg6_0 : Memref sig .tc .vmem S2x128 .f32).view

/-- Window 0's current staging memref at point `t` is whole. -/
abbrev hs4_0 (t : Fin cfg4.N) : (st4_0 t).IsWhole := hstage4_0 ((cfg4.slots t 0).cast nbuf4_0)
/-- Window 1's current staging memref at point `t` is whole. -/
abbrev hs4_1 (t : Fin cfg4.N) : (st4_1 t).IsWhole := hstage4_1 ((cfg4.slots t 1).cast nbuf4_1)
/-- Window 2's current staging memref at point `t` is whole. -/
abbrev hs4_2 (t : Fin cfg4.N) : (st4_2 t).IsWhole := hstage4_2 ((cfg4.slots t 2).cast nbuf4_2)
/-- Window 3's current staging memref at point `t` is whole. -/
abbrev hs4_3 (t : Fin cfg4.N) : (st4_3 t).IsWhole := hstage4_3 ((cfg4.slots t 3).cast nbuf4_3)
/-- Window 4's current staging memref at point `t` is whole. -/
abbrev hs4_4 (t : Fin cfg4.N) : (st4_4 t).IsWhole := hstage4_4 ((cfg4.slots t 4).cast nbuf4_4)
/-- Window 5's current staging memref at point `t` is whole. -/
abbrev hs4_5 (t : Fin cfg4.N) : (st4_5 t).IsWhole := hstage4_5 ((cfg4.slots t 5).cast nbuf4_5)
/-- Window 6's current staging memref at point `t` is whole. -/
abbrev hs4_6 (t : Fin cfg4.N) : (st4_6 t).IsWhole := hstage4_6 ((cfg4.slots t 6).cast nbuf4_6)

/-- The two rows the body carries between tiles: whole scoped buffers of the kernel's own, passed beside the windows. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

/-- The other scoped buffers of the core: not the region's staging buffers, not the two carried rows. The body never
    touches them. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class's invariant with the two carried rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 (F := F) c) ∗ (∃ r, prngReg c r)) := by
  unfold Pipeline.ΦA; rw [scopedRest4_split]; simp only [scM4_0, scM4_1, owns_whole]; try rfl

end Cert.KernelIdeal.Hand

end
-- ==== Proof.KIRegion4RunA.lean ====
/-
  Region 4: the whole body run at the FIRST tile (first condition holds, second fails).

  On whole staging memrefs — the five inputs' at their contents, the tile output's at anything, the statistics output's
  at contents it hands back untouched (the body stores nothing into it here), the two carried rows at anything (the body overwrites them with zeros before reading them) — the body runs to the
  continuation holding the inputs' as they were and each buffer it stored into with its stores written, as a list of
  pieces, last store first. The pieces are found by running the body operation by operation.
-/
import proofs.«140440_j51049981280319_1_alg».proof.Proof.KIRegion4Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the FIRST tile (first condition holds, second fails): `L5` in the tile output's buffer, `L6` in the
    statistics output's (none), `LS0` and `LS1` in the two carried rows; with the proof that the body runs so. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i)
    (x1 x2 : Vec F S5000x128 .f32) (x3 x4 : Vec F S128x128 .f32) (x5 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion4RunB.lean ====
/-
  Region 4: the whole body run at a tile BETWEEN the first and the last (both conditions fail).

  On whole staging memrefs — the five inputs' at their contents, the tile output's at anything, the statistics output's
  at contents it hands back untouched (the body stores nothing into it here), the two carried rows at what the tile before left in them — the body runs to the
  continuation holding the inputs' as they were and each buffer it stored into with its stores written, as a list of
  pieces, last store first. The pieces are found by running the body operation by operation.
-/
import proofs.«140440_j51049981280319_1_alg».proof.Proof.KIRegion4RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at a tile BETWEEN the first and the last (both conditions fail): `L5` in the tile output's buffer, `L6` in the
    statistics output's (none), `LS0` and `LS1` in the two carried rows; with the proof that the body runs so. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (xi6 : Vec F S2x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]; · iexists _; iexact H8
    iexists _; iexact H9

end Cert.KernelIdeal.Hand

end
-- ==== Proof.KIRegion4RunC.lean ====
/-
  Region 4: the whole body run at the LAST tile (first condition fails, second holds).

  On whole staging memrefs — the five inputs' at their contents, the tile output's at anything, the statistics output's
  at anything, the two carried rows at what the tile before left in them — the body runs to the
  continuation holding the inputs' as they were and each buffer it stored into with its stores written, as a list of
  pieces, last store first. The pieces are found by running the body operation by operation.
-/
import proofs.«140440_j51049981280319_1_alg».proof.Proof.KIRegion4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave, as pieces (last first), at the LAST tile (first condition fails, second holds): `L5` in the tile output's buffer, `L6` in the
    statistics output's, `LS0` and `LS1` in the two carried rows; with the proof that the body runs so. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i)
    (x1 x2 : Vec F S5000x128 .f32) (x3 x4 : Vec F S128x128 .f32) (x5 : Vec F S1x128 .f32) (xs0 xs1 : Vec F S1x128 .f32) :
    Σ' (L5 : List (View.Piece (Elt F) S5000x128 .f32)) (L6 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc4__linear_stats_kernel_eq_skeleton]; unfold cc4__linear_stats_kernel_skel
    simp only [k4_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Hand

end
-- ==== Proof.KIRegion4.lean ====
/-
  Region 4 (a layer's linear map with its column statistics, ten tiles of 5000 rows): the kernel's half of the region.

  What the two outputs' staging buffers and the two carried rows hold after the body at each tile, by recursion on the
  tile: the first tile's contents from the input blocks alone, every later tile's from its input blocks and the rows the
  tile before left. The region's invariant: before the first tile the scoped buffers at anything; before every later
  tile the two carried rows at what the tile before left in them, the other scoped buffers at anything. With these as
  proof data the body meets its obligation at every tile: the inputs' buffers hold their blocks, the case's run
  applies, the pieces it leaves cover each buffer it stores into, and the statistics output — idle before the last
  tile — is handed back as found.
-/
import proofs.«140440_j51049981280319_1_alg».proof.Proof.KIRegion4RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The memrefs as the pipeline passes them -/

abbrev ms4_0 (t : Fin cfg4.N) : Memref sig .tc .vmem S5000x128 .f32 := win4_0.stage (cfg4.slots t 0)
abbrev hm4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hm4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hm4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hm4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hm4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hm4_5 (t : Fin cfg4.N) : (ms4_5 t).IsWhole := hstage4_5 ((cfg4.slots t 5).cast nbuf4_5)
abbrev ms4_6 (t : Fin cfg4.N) : Memref sig .tc .vmem S2x128 .f32 := win4_6.stage (cfg4.slots t 6)
abbrev hm4_6 (t : Fin cfg4.N) : (ms4_6 t).IsWhole := hstage4_6 ((cfg4.slots t 6).cast nbuf4_6)

/-! ## What each case leaves -/

/-- Case A's stores into the tile output cover its buffer (one store of the whole tile). -/
theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).1 S5000x128.size (by sl_kernel_rfl) y

/-- What case A leaves in the tile output's staging buffer: its pieces read back. -/
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 hc0 hc1 x1 x2 x3 x4 x5).1)

/-- Case A stores nothing into the statistics output: a placeholder nothing consults (the window is idle at the case's
    points and not written back there). -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S2x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 hc1 x1 x2 x3 x4 x5).2.1)

/-- Case A's stores into carried row 0 cover it (each is a store of the whole row). -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).2.2.1 S1x128.size (by sl_kernel_rfl) y

/-- What case A leaves in carried row 0: its pieces read back. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 hc0 hc1 x1 x2 x3 x4 x5).2.2.1)

/-- Case A's stores into carried row 1 cover it (each is a store of the whole row). -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 hc1 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 hc0 hc1 x1 x2 x3 x4 x5).2.2.2.1 S1x128.size (by sl_kernel_rfl) y

/-- What case A leaves in carried row 1: its pieces read back. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 hc0 hc1 x1 x2 x3 x4 x5).2.2.2.1)

/-- Case B's stores into the tile output cover its buffer (one store of the whole tile). -/
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case B leaves in the tile output's staging buffer: its pieces read back. -/
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 hc0 hc1 x1 x2 x3 x4 x5 xs0 xs1).1)

/-- Case B stores nothing into the statistics output: a placeholder nothing consults (the window is idle at the case's
    points and not written back there). -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S2x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 hc1 x1 x2 x3 x4 x5 xs0 xs1).2.1)

/-- Case B's stores into carried row 0 cover it (each is a store of the whole row). -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case B leaves in carried row 0: its pieces read back. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 hc0 hc1 x1 x2 x3 x4 x5 xs0 xs1).2.2.1)

/-- Case B's stores into carried row 1 cover it (each is a store of the whole row). -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case B leaves in carried row 1: its pieces read back. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 hc0 hc1 x1 x2 x3 x4 x5 xs0 xs1).2.2.2.1)

/-- Case C's stores into the tile output cover its buffer (one store of the whole tile). -/
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).1 S5000x128.size (by sl_kernel_rfl) y

/-- What case C leaves in the tile output's staging buffer: its pieces read back. -/
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 hc0 hc1 x1 x2 x3 x4 x5 xs0 xs1).1)

/-- Case C's stores into the statistics output cover its buffer (its two rows, one store each). -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S2x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.1 S1x128.size (by sl_kernel_rfl) y

/-- What case C leaves in the statistics output's staging buffer: its pieces read back. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S2x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 hc0 hc1 x1 x2 x3 x4 x5 xs0 xs1).2.1)

/-- Case C's stores into carried row 0 cover it (each is a store of the whole row). -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.2.1 S1x128.size (by sl_kernel_rfl) y

/-- What case C leaves in carried row 0: its pieces read back. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 hc0 hc1 x1 x2 x3 x4 x5 xs0 xs1).2.2.1)

/-- Case C's stores into carried row 1 cover it (each is a store of the whole row). -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 hc0 hc1 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 hc0 hc1 x1 x2 x3 x4 x5 xs0 xs1).2.2.2.1 S1x128.size (by sl_kernel_rfl) y

/-- What case C leaves in carried row 1: its pieces read back. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 hc0 hc1 x1 x2 x3 x4 x5 xs0 xs1).2.2.2.1)

/-! ## What the outputs and the carried rows hold after each tile -/

/-- THE ACCUMULATION. After the body at position `n`: the tile output's buffer, the statistics output's, carried row 0,
    carried row 1. At the first tile case A's contents from the input blocks; at every later tile the case the closed
    forms select there (the last tile: C; else: B), run at the tile's input blocks and at the rows position `n - 1` left. -/
def outsAt4 (c : Dev nD) : (n : ℕ) → n < cfg4.N → Vec F S5000x128 .f32 × Vec F S2x128 .f32 × Vec F S1x128 .f32 × Vec F S1x128 .f32
  | 0, hn => (out4_A_5 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hm4_0 ⟨0, hn⟩) (ms4_1 ⟨0, hn⟩) (hm4_1 ⟨0, hn⟩) (ms4_2 ⟨0, hn⟩) (hm4_2 ⟨0, hn⟩) (ms4_3 ⟨0, hn⟩) (hm4_3 ⟨0, hn⟩) (ms4_4 ⟨0, hn⟩) (hm4_4 ⟨0, hn⟩) (ms4_5 ⟨0, hn⟩) (hm4_5 ⟨0, hn⟩) (ms4_6 ⟨0, hn⟩) (hm4_6 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 10 = 9 then
      (out4_C_5 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, out4_C_6 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2)
    else
      (out4_B_5 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, out4_B_6 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hm4_0 ⟨n + 1, hn⟩) (ms4_1 ⟨n + 1, hn⟩) (hm4_1 ⟨n + 1, hn⟩) (ms4_2 ⟨n + 1, hn⟩) (hm4_2 ⟨n + 1, hn⟩) (ms4_3 ⟨n + 1, hn⟩) (hm4_3 ⟨n + 1, hn⟩) (ms4_4 ⟨n + 1, hn⟩) (hm4_4 ⟨n + 1, hn⟩) (ms4_5 ⟨n + 1, hn⟩) (hm4_5 ⟨n + 1, hn⟩) (ms4_6 ⟨n + 1, hn⟩) (hm4_6 ⟨n + 1, hn⟩) scM4_0 (Memref.isWhole_whole _) scM4_1 (Memref.isWhole_whole _) (fun h => absurd ((hcond4_0 ⟨n + 1, hn⟩).mp h) (by have hN : n + 1 < 10 := lt_of_lt_of_eq hn (show cfg4.N = 10 from N_4); (try dsimp only); omega)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.1 (outsAt4 c n (Nat.lt_of_succ_lt hn)).2.2.2)

/-- `outsAt4` at the first tile: case A's contents. -/
theorem outsAt4_A (c : Dev nD) (t : Fin cfg4.N) (h0 : t.val % 10 = 0) (h1 : ¬t.val % 10 = 9) :
    outsAt4 V c t.val t.isLt = (out4_A_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), out4_A_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exfalso; have hN : n + 1 < 10 := lt_of_lt_of_eq hn (show cfg4.N = 10 from N_4); (try dsimp only at h0); omega

/-- `outsAt4` at a tile between: case B's contents, over the rows the tile before left. -/
theorem outsAt4_B (c : Dev nD) (t : Fin cfg4.N) (h0 : ¬t.val % 10 = 0) (h1 : ¬t.val % 10 = 9) :
    outsAt4 V c t.val t.isLt = (out4_B_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- `outsAt4` at the last tile: case C's contents, over the rows the tile before left. -/
theorem outsAt4_C (c : Dev nD) (t : Fin cfg4.N) (h0 : ¬t.val % 10 = 0) (h1 : t.val % 10 = 9) :
    outsAt4 V c t.val t.isLt = (out4_C_5 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_6 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hm4_0 t) (ms4_1 t) (hm4_1 t) (ms4_2 t) (hm4_2 t) (ms4_3 t) (hm4_3 t) (ms4_4 t) (hm4_4 t) (ms4_5 t) (hm4_5 t) (ms4_6 t) (hm4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The region's invariant -/

/-- Before position `n`: before the first tile the class's invariant (every scoped buffer at anything); afterwards the
    two carried rows at what the tile before left in them, the other scoped buffers at anything, the generator register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After tile `n` (before tile `n + 1`): the carried rows at that tile's contents. -/
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 (F := F) c) ∗ (∃ r, prngReg c r)) := rfl

/-- Before a tile that is not the first: the carried rows at what the tile before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 (F := F) c) ∗ (∃ r, prngReg c r)) := by
  cases n with
  | zero => exact absurd rfl hz
  | succ n => rfl

/-! ## The pipeline's proof data -/

/-- The proof data of the region's pipeline on core `c`: the arrays as the region finds them (`V`); after the body at
    tile `t` each input's buffer at its block, the outputs' at `outsAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a tile's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]

/-- Each input's current staging buffer holds its block at every tile, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic tile -/

/-- What the body is called with at tile `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any tile: the inputs' memrefs hold their blocks; the closed forms say which case the tile is in; the
    invariant hands the body the carried rows at what the tile before left (at anything at the first tile) and takes
    them back at this tile's contents, each piece list covering its buffer; the statistics output, idle before the last
    tile, is handed back as found; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val % 10 = 0
  · have h1 : ¬t.val % 10 = 9 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_5 sout4_A_0 sout4_A_1; (try dsimp only)
    have hz : t.val = 0 := by omega
    rw [PhiS4_castSucc V c t, PhiS4_zero V c _ _ hz, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    iintro ⟨H0, H1, H2, H3, H4, ⟨%e5, H5⟩, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ _ _)
    iexists _; iexact H6
  · by_cases h1 : t.val % 10 = 9
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_5 out4_C_6 sout4_C_0 sout4_C_1; (try dsimp only)
      have hz : t.val ≠ 0 := by omega
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_5 sout4_B_0 sout4_B_1; (try dsimp only)
      have hz : t.val ≠ 0 := by omega
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      iintro ⟨H0, H1, H2, H3, H4, ⟨%e5, H5⟩, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _)
      iexists _; iexact H6

/-- The library's body obligation, at every tile. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first tile. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any tile the invariant gives the class's back: the carried rows' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last tile. -/
theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KIRegion5.lean ====
/- Region 5 of @main (custom_call 5, `cc5_kernel`, pipeline 5): the kernel's half of the region's frame, at the
   TensorCore's buffer contents `V` when the region is entered. Four windows: 0 the [50000,128] array in tiles of
   5000 rows, 1 and 2 the [1,128] scale and shift rows (one block, fetched once), 3 the output in tiles. The body
   reads the three staging buffers whole and writes the output buffer whole, so after the body the output buffer
   holds the payload of the three input blocks and the input buffers hold their blocks. -/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: where the window is not fetched its block
    index has not moved since the point before, so the block left there is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [5000,128] staging buffer. -/
abbrev r5_0 : Rect S5000x128 := Rect.unit (s := S5000x128) ![0, 0] S5000x128.size inb_S5000x128_S5000x128_0_0
/-- The whole [1,128] staging buffer. -/
abbrev r5_1 : Rect S1x128 := Rect.unit (s := S1x128) ![0, 0] S1x128.size inb_S1x128_S1x128_0_0

/-! ## What the body leaves in the output window's buffer -/

/-- Window 3's staging buffer after the body, from the input windows' blocks: its one store, of the payload of
    the three whole-buffer loads. -/
def out5_3 (x0 : Vec F S5000x128 .f32) (x1 : Vec F S1x128 .f32) (x2 : Vec F S1x128 .f32) : Vec F S5000x128 .f32 :=
  View.canon [⟨r5_0, k5_pay1 (View.ld x0 r5_0) (View.ld x1 r5_1) (View.ld x2 r5_1)⟩]

/-- The one store is of the whole buffer, so it covers it. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out5_3` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIRegion6.lean ====
/- Region 6 of @main (custom_call 6, `cc6__classifier_kernel`, pipeline 6): the kernel's half of the region's frame, at
   the TensorCore's buffer contents `V` when the region is entered. One grid point and four windows, each its whole
   array: 0 the pooled [1024,128] array, 1 the [128,10] weights, 2 the [1,10] bias row, 3 the [1024,10] output. The
   body reads the three input buffers whole and writes the output buffer whole. -/
import proofs.«140440_j51049981280319_1_alg».proof.Proof.Gen.KernelIdeal.Launch
import proofs.«140440_j51049981280319_1_alg».proof.Proof.Gen.KernelIdeal.Skeleton
import proofs.«140440_j51049981280319_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is `V`'s and whose body leaves the block in place: where the window is not fetched its block
    index has not moved since the point before, so the block left there is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole [1024,128] staging buffer. -/
abbrev r6_0 : Rect S1024x128 := Rect.unit (s := S1024x128) ![0, 0] S1024x128.size inb_S1024x128_S1024x128_0_0
/-- The whole [128,10] staging buffer. -/
abbrev r6_1 : Rect S128x10 := Rect.unit (s := S128x10) ![0, 0] S128x10.size inb_S128x10_S128x10_0_0
/-- The whole [1,10] staging buffer. -/
abbrev r6_2 : Rect S1x10 := Rect.unit (s := S1x10) ![0, 0] S1x10.size inb_S1x10_S1x10_0_0
/-- The whole [1024,10] staging buffer. -/
abbrev r6_3 : Rect S1024x10 := Rect.unit (s := S1024x10) ![0, 0] S1024x10.size inb_S1024x10_S1024x10_0_0

/-! ## What the body leaves in the output window's buffer -/

/-- Window 3's staging buffer after the body, from the input windows' blocks: its one store, of the payload of
    the three whole-buffer loads. -/
def out6_3 (x0 : Vec F S1024x128 .f32) (x1 : Vec F S128x10 .f32) (x2 : Vec F S1x10 .f32) : Vec F S1024x10 .f32 :=
  View.canon [⟨r6_3, k6_pay1 (View.ld x0 r6_0) (View.ld x1 r6_1) (View.ld x2 r6_2)⟩]

/-- The one store is of the whole buffer, so it covers it. -/
theorem cover6_3 (p0 : Vec F S1024x10 .f32) (y : S1024x10.Idx) :
    ∃ pc ∈ ([⟨r6_3, p0⟩] : List (View.Piece (Elt F) S1024x10 .f32)), y ∈ pc.1.set :=
  View.cover_of_tiled [⟨r6_3, p0⟩] S1024x10.size (by rfl) y

/-! ## The body's triple -/

set_option maxHeartbeats 1000000 in
/-- The kernel body on whole staging memrefs, the inputs' at read contents `x0 x1 x2` and the output's at anything,
    runs to the continuation holding the inputs' as they were and the output's at `out6_3` of the inputs'. -/
theorem sound_kernel6 (c : Dev nD) (E : Set ℕ) (i : grid6.Coords) (arg1 : Memref sig .tc .vmem S1024x128 .f32) (harg1 : arg1.IsWhole) (arg2 : Memref sig .tc .vmem S128x10 .f32) (harg2 : arg2.IsWhole) (arg3 : Memref sig .tc .vmem S1x10 .f32) (harg3 : arg3.IsWhole) (arg4 : Memref sig .tc .vmem S1024x10 .f32) (harg4 : arg4.IsWhole)
    (x0 : Vec F S1024x128 .f32) (x1 : Vec F S128x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__classifier_kernel i arg1 harg1 arg2 harg2 arg3 harg3 arg4 harg4) K := by
  simp only [cc6__classifier_kernel_eq_skeleton]; unfold cc6__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point
    `t` each input's buffer at its block and the output's at `out6_3` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KIFrame.lean ====
/-
  The kernel's run with its seven regions' kernels in place, and its frame.

  Each region's kernel half is taken from its own module. The run then holds outright: every unscoped buffer ends at the
  last boundary's contents. No stretch of host operations writes an argument and no region has an argument as an output
  window's array, so each argument ends as launched.
-/
import proofs.«140440_j51049981280319_1_alg».proof.Proof.KIRun
import proofs.«140440_j51049981280319_1_alg».proof.Proof.KIRegion0
import proofs.«140440_j51049981280319_1_alg».proof.Proof.KIRegion1
import proofs.«140440_j51049981280319_1_alg».proof.Proof.KIRegion2
import proofs.«140440_j51049981280319_1_alg».proof.Proof.KIRegion3
import proofs.«140440_j51049981280319_1_alg».proof.Proof.KIRegion4
import proofs.«140440_j51049981280319_1_alg».proof.Proof.KIRegion5
import proofs.«140440_j51049981280319_1_alg».proof.Proof.KIRegion6

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Region 0's kernel carries its two scratch rows in the invariant between the first and the last point. -/
def half0 : Half (F := F) cfg0 where
  dat := fun V c => dat0 V c
  A_eq := fun V c w => A_eq0 V c w
  q_full := fun _ _ _ => rfl
  owed_zero := fun _ _ _ => rfl
  recorded_univ := fun _ _ _ => rfl
  body := fun V c => body_obligation0 V c
  hin := fun V c => hin0 V c
  hout := fun V c => hout0 V c

/-- Region 1's kernel keeps the class's invariant throughout. -/
def half1 : Half (F := F) cfg1 where
  dat := fun V c => dat1 V c
  A_eq := fun V c w => A_eq1 V c w
  q_full := fun _ _ _ => rfl
  owed_zero := fun _ _ _ => rfl
  recorded_univ := fun _ _ _ => rfl
  body := fun V c => body_obligation1 V c
  hin := fun _ _ => BI.Entails.refl _
  hout := fun _ _ => BI.Entails.refl _

/-- Region 2's kernel carries its two scratch rows in the invariant between the first and the last point. -/
def half2 : Half (F := F) cfg2 where
  dat := fun V c => dat2 V c
  A_eq := fun V c w => A_eq2 V c w
  q_full := fun _ _ _ => rfl
  owed_zero := fun _ _ _ => rfl
  recorded_univ := fun _ _ _ => rfl
  body := fun V c => body_obligation2 V c
  hin := fun V c => hin2 V c
  hout := fun V c => hout2 V c

/-- Region 3's kernel keeps the class's invariant throughout. -/
def half3 : Half (F := F) cfg3 where
  dat := fun V c => dat3 V c
  A_eq := fun V c w => A_eq3 V c w
  q_full := fun _ _ _ => rfl
  owed_zero := fun _ _ _ => rfl
  recorded_univ := fun _ _ _ => rfl
  body := fun V c => body_obligation3 V c
  hin := fun _ _ => BI.Entails.refl _
  hout := fun _ _ => BI.Entails.refl _

/-- Region 4's kernel carries its two scratch rows in the invariant between the first and the last point. -/
def half4 : Half (F := F) cfg4 where
  dat := fun V c => dat4 V c
  A_eq := fun V c w => A_eq4 V c w
  q_full := fun _ _ _ => rfl
  owed_zero := fun _ _ _ => rfl
  recorded_univ := fun _ _ _ => rfl
  body := fun V c => body_obligation4 V c
  hin := fun V c => hin4 V c
  hout := fun V c => hout4 V c

/-- Region 5's kernel keeps the class's invariant throughout. -/
def half5 : Half (F := F) cfg5 where
  dat := fun V c => dat5 V c
  A_eq := fun V c w => A_eq5 V c w
  q_full := fun _ _ _ => rfl
  owed_zero := fun _ _ _ => rfl
  recorded_univ := fun _ _ _ => rfl
  body := fun V c => body_obligation5 V c
  hin := fun _ _ => BI.Entails.refl _
  hout := fun _ _ => BI.Entails.refl _

/-- Region 6's kernel keeps the class's invariant throughout. -/
def half6 : Half (F := F) cfg6 where
  dat := fun V c => dat6 V c
  A_eq := fun V c w => A_eq6 V c w
  q_full := fun _ _ _ => rfl
  owed_zero := fun _ _ _ => rfl
  recorded_univ := fun _ _ _ => rfl
  body := fun V c => body_obligation6 V c
  hin := fun _ _ => BI.Entails.refl _
  hout := fun _ _ => BI.Entails.refl _

variable (m : (ℓ : Loc nD τ sig) → Buf (Elt F) ℓ) (ρ : Dev nD → PrngReg)

/-- The last boundary's contents, with the regions' kernels in place. -/
abbrev Wend (c : Dev nD) : Valuation τ sig (Elt F) := W14 half0 half1 half2 half3 half4 half5 half6 m ρ c

/-- THE RUN: every weakly fair execution of @main terminates and every unscoped TensorCore buffer ends at `Wend`. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wend m ρ c (Proc.devRef .tc b)) :=
  run_all half0 half1 half2 half3 half4 half5 half6 m ρ

/-- @main's arguments. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- An argument ends as launched: no stretch writes it and it is no region's output array. -/
theorem arg_kept (b : Ref sig .tc) (hb : b ∈ args) (c : Dev nD) :
    Wend m ρ c (Proc.devRef .tc b) = m ((c : Thread nD τ).loc b) :=
  kept half0 half1 half2 half3 half4 half5 half6 m ρ c b
    ((by decide : ∀ b ∈ args, b ∉ hostOps0_W) b hb)
    ((by decide : ∀ b ∈ args, ∀ w, (cfg0.win w).isOut = true → Pipeline.arrRef cfg0.spec w ≠ b) b hb)
    ((by decide : ∀ b ∈ args, b ∉ hostOps1_W) b hb)
    ((by decide : ∀ b ∈ args, ∀ w, (cfg1.win w).isOut = true → Pipeline.arrRef cfg1.spec w ≠ b) b hb)
    ((by decide : ∀ b ∈ args, b ∉ hostOps2_W) b hb)
    ((by decide : ∀ b ∈ args, ∀ w, (cfg2.win w).isOut = true → Pipeline.arrRef cfg2.spec w ≠ b) b hb)
    ((by decide : ∀ b ∈ args, b ∉ hostOps3_W) b hb)
    ((by decide : ∀ b ∈ args, ∀ w, (cfg3.win w).isOut = true → Pipeline.arrRef cfg3.spec w ≠ b) b hb)
    ((by decide : ∀ b ∈ args, b ∉ hostOps4_W) b hb)
    ((by decide : ∀ b ∈ args, ∀ w, (cfg4.win w).isOut = true → Pipeline.arrRef cfg4.spec w ≠ b) b hb)
    ((by decide : ∀ b ∈ args, b ∉ hostOps5_W) b hb)
    ((by decide : ∀ b ∈ args, ∀ w, (cfg5.win w).isOut = true → Pipeline.arrRef cfg5.spec w ≠ b) b hb)
    ((by decide : ∀ b ∈ args, b ∉ hostOps6_W) b hb)
    ((by decide : ∀ b ∈ args, ∀ w, (cfg6.win w).isOut = true → Pipeline.arrRef cfg6.spec w ≠ b) b hb)

/-- THE FRAME: every weakly fair execution of @main terminates and each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_arg0 (by decide)).trans (arg_kept m ρ main_arg0 (by decide) c),
      (h c main_arg1 (by decide)).trans (arg_kept m ρ main_arg1 (by decide) c),
      (h c main_arg2 (by decide)).trans (arg_kept m ρ main_arg2 (by decide) c),
      (h c main_arg3 (by decide)).trans (arg_kept m ρ main_arg3 (by decide) c),
      (h c main_arg4 (by decide)).trans (arg_kept m ρ main_arg4 (by decide) c),
      (h c main_arg5 (by decide)).trans (arg_kept m ρ main_arg5 (by decide) c),
      (h c main_arg6 (by decide)).trans (arg_kept m ρ main_arg6 (by decide) c),
      (h c main_arg7 (by decide)).trans (arg_kept m ρ main_arg7 (by decide) c),
      (h c main_arg8 (by decide)).trans (arg_kept m ρ main_arg8 (by decide) c),
      (h c main_arg9 (by decide)).trans (arg_kept m ρ main_arg9 (by decide) c),
      (h c main_arg10 (by decide)).trans (arg_kept m ρ main_arg10 (by decide) c),
      (h c main_arg11 (by decide)).trans (arg_kept m ρ main_arg11 (by decide) c),
      (h c main_arg12 (by decide)).trans (arg_kept m ρ main_arg12 (by decide) c),
      (h c main_arg13 (by decide)).trans (arg_kept m ρ main_arg13 (by decide) c),
      (h c main_arg14 (by decide)).trans (arg_kept m ρ main_arg14 (by decide) c),
      (h c main_arg15 (by decide)).trans (arg_kept m ρ main_arg15 (by decide) c),
      (h c main_arg16 (by decide)).trans (arg_kept m ρ main_arg16 (by decide) c),
      (h c main_arg17 (by decide)).trans (arg_kept m ρ main_arg17 (by decide) c),
      (h c main_arg18 (by decide)).trans (arg_kept m ρ main_arg18 (by decide) c),
      (h c main_arg19 (by decide)).trans (arg_kept m ρ main_arg19 (by decide) c)⟩) (run m ρ)

end Cert.KernelIdeal.Hand

end
-- ==== Proof.KIRunKeptMore.lean ====
/-
  What is kept up to each boundary.

  The same chaining as for the last boundary, stopped at every boundary on the way: a buffer that no stretch writes and
  that is no region's output array holds at EVERY boundary what memory held at launch (the arguments); and a buffer
  written by the first stretch only holds, up to the third layer's first region, what that stretch left (the two rows
  of the edge list).
-/
import proofs.«140440_j51049981280319_1_alg».proof.Proof.KIRunKept

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (H0 : Half (F := F) cfg0) (H1 : Half (F := F) cfg1) (H2 : Half (F := F) cfg2) (H3 : Half (F := F) cfg3)
  (H4 : Half (F := F) cfg4) (H5 : Half (F := F) cfg5) (H6 : Half (F := F) cfg6)
variable (m : (ℓ : Loc nD τ sig) → Buf (Elt F) ℓ) (ρ : Dev nD → PrngReg)

/-- The buffer `b` holds, at each of the boundaries 1 to 13, what memory held at launch. -/
def KeptPrefix (c : Dev nD) (b : Ref sig .tc) : Prop :=
    W1 m ρ c (Proc.devRef .tc b) = m ((c : Thread nD τ).loc b)
    ∧ W2 H0 m ρ c (Proc.devRef .tc b) = m ((c : Thread nD τ).loc b)
    ∧ W3 H0 m ρ c (Proc.devRef .tc b) = m ((c : Thread nD τ).loc b)
    ∧ W4 H0 H1 m ρ c (Proc.devRef .tc b) = m ((c : Thread nD τ).loc b)
    ∧ W5 H0 H1 m ρ c (Proc.devRef .tc b) = m ((c : Thread nD τ).loc b)
    ∧ W6 H0 H1 H2 m ρ c (Proc.devRef .tc b) = m ((c : Thread nD τ).loc b)
    ∧ W7 H0 H1 H2 m ρ c (Proc.devRef .tc b) = m ((c : Thread nD τ).loc b)
    ∧ W8 H0 H1 H2 H3 m ρ c (Proc.devRef .tc b) = m ((c : Thread nD τ).loc b)
    ∧ W9 H0 H1 H2 H3 m ρ c (Proc.devRef .tc b) = m ((c : Thread nD τ).loc b)
    ∧ W10 H0 H1 H2 H3 H4 m ρ c (Proc.devRef .tc b) = m ((c : Thread nD τ).loc b)
    ∧ W11 H0 H1 H2 H3 H4 m ρ c (Proc.devRef .tc b) = m ((c : Thread nD τ).loc b)
    ∧ W12 H0 H1 H2 H3 H4 H5 m ρ c (Proc.devRef .tc b) = m ((c : Thread nD τ).loc b)
    ∧ W13 H0 H1 H2 H3 H4 H5 m ρ c (Proc.devRef .tc b) = m ((c : Thread nD τ).loc b)

/-- A buffer that no stretch writes and that is no region's output array holds at every boundary what memory held at
    launch. -/
theorem kept_prefix (c : Dev nD) (b : Ref sig .tc)
    (n0 : b ∉ hostOps0_W) (o0 : ∀ w, (cfg0.win w).isOut = true → Pipeline.arrRef cfg0.spec w ≠ b)
    (n1 : b ∉ hostOps1_W) (o1 : ∀ w, (cfg1.win w).isOut = true → Pipeline.arrRef cfg1.spec w ≠ b)
    (n2 : b ∉ hostOps2_W) (o2 : ∀ w, (cfg2.win w).isOut = true → Pipeline.arrRef cfg2.spec w ≠ b)
    (n3 : b ∉ hostOps3_W) (o3 : ∀ w, (cfg3.win w).isOut = true → Pipeline.arrRef cfg3.spec w ≠ b)
    (n4 : b ∉ hostOps4_W) (o4 : ∀ w, (cfg4.win w).isOut = true → Pipeline.arrRef cfg4.spec w ≠ b)
    (n5 : b ∉ hostOps5_W) (o5 : ∀ w, (cfg5.win w).isOut = true → Pipeline.arrRef cfg5.spec w ≠ b)
    (n6 : b ∉ hostOps6_W) :
    KeptPrefix H0 H1 H2 H3 H4 H5 m ρ c b := by
  have e1 : W1 m ρ c (Proc.devRef .tc b) = m ((c : Thread nD τ).loc b) :=
    StableHlo.after_of_writes_sub hostOps0 _ hostOps0_writes n0
  have e2 : W2 H0 m ρ c (Proc.devRef .tc b) = m ((c : Thread nD τ).loc b) :=
    (region_keeps launch0.win.arr_inj H0 _ c (W1 m ρ c) (fun _ => rfl) b o0).trans e1
  have e3 : W3 H0 m ρ c (Proc.devRef .tc b) = m ((c : Thread nD τ).loc b) :=
    (StableHlo.after_of_writes_sub hostOps1 _ hostOps1_writes n1).trans e2
  have e4 : W4 H0 H1 m ρ c (Proc.devRef .tc b) = m ((c : Thread nD τ).loc b) :=
    (region_keeps launch1.win.arr_inj H1 _ c (W3 H0 m ρ c) (fun _ => rfl) b o1).trans e3
  have e5 : W5 H0 H1 m ρ c (Proc.devRef .tc b) = m ((c : Thread nD τ).loc b) :=
    (StableHlo.after_of_writes_sub hostOps2 _ hostOps2_writes n2).trans e4
  have e6 : W6 H0 H1 H2 m ρ c (Proc.devRef .tc b) = m ((c : Thread nD τ).loc b) :=
    (region_keeps launch2.win.arr_inj H2 _ c (W5 H0 H1 m ρ c) (fun _ => rfl) b o2).trans e5
  have e7 : W7 H0 H1 H2 m ρ c (Proc.devRef .tc b) = m ((c : Thread nD τ).loc b) :=
    (StableHlo.after_of_writes_sub hostOps3 _ hostOps3_writes n3).trans e6
  have e8 : W8 H0 H1 H2 H3 m ρ c (Proc.devRef .tc b) = m ((c : Thread nD τ).loc b) :=
    (region_keeps launch3.win.arr_inj H3 _ c (W7 H0 H1 H2 m ρ c) (fun _ => rfl) b o3).trans e7
  have e9 : W9 H0 H1 H2 H3 m ρ c (Proc.devRef .tc b) = m ((c : Thread nD τ).loc b) :=
    (StableHlo.after_of_writes_sub hostOps4 _ hostOps4_writes n4).trans e8
  have e10 : W10 H0 H1 H2 H3 H4 m ρ c (Proc.devRef .tc b) = m ((c : Thread nD τ).loc b) :=
    (region_keeps launch4.win.arr_inj H4 _ c (W9 H0 H1 H2 H3 m ρ c) (fun _ => rfl) b o4).trans e9
  have e11 : W11 H0 H1 H2 H3 H4 m ρ c (Proc.devRef .tc b) = m ((c : Thread nD τ).loc b) :=
    (StableHlo.after_of_writes_sub hostOps5 _ hostOps5_writes n5).trans e10
  have e12 : W12 H0 H1 H2 H3 H4 H5 m ρ c (Proc.devRef .tc b) = m ((c : Thread nD τ).loc b) :=
    (region_keeps launch5.win.arr_inj H5 _ c (W11 H0 H1 H2 H3 H4 m ρ c) (fun _ => rfl) b o5).trans e11
  have e13 : W13 H0 H1 H2 H3 H4 H5 m ρ c (Proc.devRef .tc b) = m ((c : Thread nD τ).loc b) :=
    (StableHlo.after_of_writes_sub hostOps6 _ hostOps6_writes n6).trans e12
  exact ⟨e1, e2, e3, e4, e5, e6, e7, e8, e9, e10, e11, e12, e13⟩

/-- The buffer `b` holds, at the second and at the third layers' aggregations, what the first stretch left. -/
def KeptFromFirst (c : Dev nD) (b : Ref sig .tc) : Prop :=
    W4 H0 H1 m ρ c (Proc.devRef .tc b) = W1 m ρ c (Proc.devRef .tc b)
    ∧ W8 H0 H1 H2 H3 m ρ c (Proc.devRef .tc b) = W1 m ρ c (Proc.devRef .tc b)

/-- A buffer that only the first stretch writes holds, from region 0's exit up to the third layer's first region's entry,
    what the first stretch left. -/
theorem kept_from_first (c : Dev nD) (b : Ref sig .tc)
    (o0 : ∀ w, (cfg0.win w).isOut = true → Pipeline.arrRef cfg0.spec w ≠ b)
    (n1 : b ∉ hostOps1_W) (o1 : ∀ w, (cfg1.win w).isOut = true → Pipeline.arrRef cfg1.spec w ≠ b)
    (n2 : b ∉ hostOps2_W) (o2 : ∀ w, (cfg2.win w).isOut = true → Pipeline.arrRef cfg2.spec w ≠ b)
    (n3 : b ∉ hostOps3_W) (o3 : ∀ w, (cfg3.win w).isOut = true → Pipeline.arrRef cfg3.spec w ≠ b) :
    KeptFromFirst H0 H1 H2 H3 m ρ c b := by
  have e2 : W2 H0 m ρ c (Proc.devRef .tc b) = W1 m ρ c (Proc.devRef .tc b) :=
    region_keeps launch0.win.arr_inj H0 _ c (W1 m ρ c) (fun _ => rfl) b o0
  have e3 : W3 H0 m ρ c (Proc.devRef .tc b) = W1 m ρ c (Proc.devRef .tc b) :=
    (StableHlo.after_of_writes_sub hostOps1 _ hostOps1_writes n1).trans e2
  have e4 : W4 H0 H1 m ρ c (Proc.devRef .tc b) = W1 m ρ c (Proc.devRef .tc b) :=
    (region_keeps launch1.win.arr_inj H1 _ c (W3 H0 m ρ c) (fun _ => rfl) b o1).trans e3
  have e5 : W5 H0 H1 m ρ c (Proc.devRef .tc b) = W1 m ρ c (Proc.devRef .tc b) :=
    (StableHlo.after_of_writes_sub hostOps2 _ hostOps2_writes n2).trans e4
  have e6 : W6 H0 H1 H2 m ρ c (Proc.devRef .tc b) = W1 m ρ c (Proc.devRef .tc b) :=
    (region_keeps launch2.win.arr_inj H2 _ c (W5 H0 H1 m ρ c) (fun _ => rfl) b o2).trans e5
  have e7 : W7 H0 H1 H2 m ρ c (Proc.devRef .tc b) = W1 m ρ c (Proc.devRef .tc b) :=
    (StableHlo.after_of_writes_sub hostOps3 _ hostOps3_writes n3).trans e6
  have e8 : W8 H0 H1 H2 H3 m ρ c (Proc.devRef .tc b) = W1 m ρ c (Proc.devRef .tc b) :=
    (region_keeps launch3.win.arr_inj H3 _ c (W7 H0 H1 H2 m ρ c) (fun _ => rfl) b o3).trans e7
  exact ⟨e4, e8⟩

end Cert.KernelIdeal.Hand

end
-- ==== Proof.KIHost.lean ====
/-
  What the host computes between the kernel's regions, stretch by stretch, as functions of the buffers it reads.

  Between a layer's two regions the host reads the `[2, 128]` statistics and the layer's `γ`, `β` and leaves the scale and
  the shift as one-row arrays (`Cert.KernelIdeal.Norm`); before a layer's first region it gathers and adds up the
  neighbourhood sums and casts the bias to a row; before the last region it pools and casts the classifier's bias.
  Each statement holds from any contents `W` of the buffers: the stretch's operations applied in order.
-/
import proofs.«140440_j51049981280319_1_alg».proof.Proof.Gen.KernelIdeal.Launch
import proofs.«140440_j51049981280319_1_alg».proof.Proof.KerNorm
import proofs.«140440_j51049981280319_1_alg».proof.Proof.Network
import Idealize.ShloMosaic.Lib.StableHlo.Run

noncomputable section

namespace Cert.KernelIdeal.Hand

open Idealize.ShloMosaic Idealize.ShloMosaic.TcCoe Idealize.ShloMosaic.StableHlo
open Cert.KernelIdeal Cert.KernelIdeal.Gen Cert.KernelIdeal.Facts₀

variable (W : Valuation τ sig (Elt Ideal))

set_option maxRecDepth 8192 in
set_option maxHeartbeats 2000000 in
/-- After the stretch between the first layer's regions: the scale row. -/
theorem host1_scale :
    StableHlo.after hostOps1 W (Proc.devRef .tc main_v32)
      = Norm.asRow (Norm.scale (Norm.sums (W (Proc.devRef .tc main_v15_1))) (Norm.sumsq (W (Proc.devRef .tc main_v15_1)))
          (W (Proc.devRef .tc main_arg12))) := by
  simp only [hostOps1]
  after_results_simp
  rfl

set_option maxRecDepth 8192 in
set_option maxHeartbeats 2000000 in
/-- After the stretch between the first layer's regions: the shift row. -/
theorem host1_shift :
    StableHlo.after hostOps1 W (Proc.devRef .tc main_v33)
      = Norm.asRow (Norm.shift (Norm.sums (W (Proc.devRef .tc main_v15_1))) (Norm.sumsq (W (Proc.devRef .tc main_v15_1)))
          (W (Proc.devRef .tc main_arg12)) (W (Proc.devRef .tc main_arg13))) := by
  simp only [hostOps1]
  after_results_simp
  rfl

/-! ## The neighbourhood sums from the two edge rows -/

/-- The neighbourhood sums from the sources and destinations as vectors: `Cert.Network.aggregate` with the two rows of
    the edge list already taken. -/
def aggOf (src dst : IVec S800000 32) (h : FVec Ideal S50000x128 .f32) : FVec Ideal S50000x128 .f32 :=
  Host.scatterAdd (F := Ideal) scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 dst)
    (Host.gather gather_S50000x128_S800000x1_S800000x128_1_0_n_n_0_1_1128 h
      (broadcastInDim S800000x1 ![0] Facts₀.bcast_S800000_S800000x1_0
        (select (cmpi .slt src (broadcastInDim S800000 ![] Facts₀.bcast_S_S800000 (constantI S_ 32 0#32)))
          (addi src (broadcastInDim S800000 ![] Facts₀.bcast_S_S800000 (constantI S_ 32 50000#32))) src)))

theorem aggregate_eq_aggOf [Cert.ReferenceIdeal.Facts] (ei : IVec S2x800000 32) (h : FVec Ideal S50000x128 .f32) :
    Cert.Network.aggregate ei h = aggOf (Cert.Network.edgeRow0 ei) (Cert.Network.edgeRow1 ei) h := rfl

/-! ## The first stretch -/

set_option maxRecDepth 8192 in
set_option maxHeartbeats 2000000 in
/-- The sources' row of the edge list. -/
theorem host0_src [Cert.ReferenceIdeal.Facts] :
    StableHlo.after hostOps0 W (Proc.devRef .tc main_v1) = Cert.Network.edgeRow0 (W (Proc.devRef .tc main_arg1)) := by
  simp only [hostOps0]
  after_results_simp
  rfl

set_option maxRecDepth 8192 in
set_option maxHeartbeats 2000000 in
/-- The destinations' row of the edge list. -/
theorem host0_dst [Cert.ReferenceIdeal.Facts] :
    StableHlo.after hostOps0 W (Proc.devRef .tc main_v3) = Cert.Network.edgeRow1 (W (Proc.devRef .tc main_arg1)) := by
  simp only [hostOps0]
  after_results_simp
  rfl

set_option maxRecDepth 8192 in
set_option maxHeartbeats 2000000 in
/-- The first layer's neighbourhood sums. -/
theorem host0_agg [Cert.ReferenceIdeal.Facts] :
    StableHlo.after hostOps0 W (Proc.devRef .tc main_v13)
      = Cert.Network.aggregate (W (Proc.devRef .tc main_arg1)) (W (Proc.devRef .tc main_arg0)) := by
  simp only [hostOps0]
  after_results_simp
  rfl

set_option maxRecDepth 8192 in
set_option maxHeartbeats 2000000 in
/-- The first layer's bias as a row. -/
theorem host0_bias :
    StableHlo.after hostOps0 W (Proc.devRef .tc main_v14) = Norm.asRow (W (Proc.devRef .tc main_arg5)) := by
  simp only [hostOps0]
  after_results_simp
  rfl

/-! ## Before the second and third layers' first regions -/

set_option maxRecDepth 8192 in
set_option maxHeartbeats 2000000 in
theorem host2_agg :
    StableHlo.after hostOps2 W (Proc.devRef .tc main_v44)
      = aggOf (W (Proc.devRef .tc main_v1)) (W (Proc.devRef .tc main_v3)) (W (Proc.devRef .tc main_v34)) := by
  simp only [hostOps2]
  after_results_simp
  rfl

set_option maxRecDepth 8192 in
set_option maxHeartbeats 2000000 in
theorem host2_bias :
    StableHlo.after hostOps2 W (Proc.devRef .tc main_v45) = Norm.asRow (W (Proc.devRef .tc main_arg8)) := by
  simp only [hostOps2]
  after_results_simp
  rfl

set_option maxRecDepth 8192 in
set_option maxHeartbeats 2000000 in
theorem host4_agg :
    StableHlo.after hostOps4 W (Proc.devRef .tc main_v75)
      = aggOf (W (Proc.devRef .tc main_v1)) (W (Proc.devRef .tc main_v3)) (W (Proc.devRef .tc main_v65)) := by
  simp only [hostOps4]
  after_results_simp
  rfl

set_option maxRecDepth 8192 in
set_option maxHeartbeats 2000000 in
theorem host4_bias :
    StableHlo.after hostOps4 W (Proc.devRef .tc main_v76) = Norm.asRow (W (Proc.devRef .tc main_arg11)) := by
  simp only [hostOps4]
  after_results_simp
  rfl

/-! ## Between the second and the third layers' regions -/

set_option maxRecDepth 8192 in
set_option maxHeartbeats 2000000 in
theorem host3_scale :
    StableHlo.after hostOps3 W (Proc.devRef .tc main_v63)
      = Norm.asRow (Norm.scale (Norm.sums (W (Proc.devRef .tc main_v46_1))) (Norm.sumsq (W (Proc.devRef .tc main_v46_1)))
          (W (Proc.devRef .tc main_arg14))) := by
  simp only [hostOps3]
  after_results_simp
  rfl

set_option maxRecDepth 8192 in
set_option maxHeartbeats 2000000 in
theorem host3_shift :
    StableHlo.after hostOps3 W (Proc.devRef .tc main_v64)
      = Norm.asRow (Norm.shift (Norm.sums (W (Proc.devRef .tc main_v46_1))) (Norm.sumsq (W (Proc.devRef .tc main_v46_1)))
          (W (Proc.devRef .tc main_arg14)) (W (Proc.devRef .tc main_arg15))) := by
  simp only [hostOps3]
  after_results_simp
  rfl

set_option maxRecDepth 8192 in
set_option maxHeartbeats 2000000 in
theorem host5_scale :
    StableHlo.after hostOps5 W (Proc.devRef .tc main_v94)
      = Norm.asRow (Norm.scale (Norm.sums (W (Proc.devRef .tc main_v77_1))) (Norm.sumsq (W (Proc.devRef .tc main_v77_1)))
          (W (Proc.devRef .tc main_arg16))) := by
  simp only [hostOps5]
  after_results_simp
  rfl

set_option maxRecDepth 8192 in
set_option maxHeartbeats 2000000 in
theorem host5_shift :
    StableHlo.after hostOps5 W (Proc.devRef .tc main_v95)
      = Norm.asRow (Norm.shift (Norm.sums (W (Proc.devRef .tc main_v77_1))) (Norm.sumsq (W (Proc.devRef .tc main_v77_1)))
          (W (Proc.devRef .tc main_arg16)) (W (Proc.devRef .tc main_arg17))) := by
  simp only [hostOps5]
  after_results_simp
  rfl

/-! ## Before the classifier -/

set_option maxRecDepth 8192 in
set_option maxHeartbeats 2000000 in
/-- The pooled array. -/
theorem host6_pool [Cert.ReferenceIdeal.Facts] :
    StableHlo.after hostOps6 W (Proc.devRef .tc main_v108)
      = Cert.Network.pool (W (Proc.devRef .tc main_arg2)) (W (Proc.devRef .tc main_v96)) := by
  simp only [hostOps6]
  after_results_simp
  rfl

set_option maxRecDepth 8192 in
set_option maxHeartbeats 2000000 in
/-- The classifier's bias as a row. -/
theorem host6_bias :
    StableHlo.after hostOps6 W (Proc.devRef .tc main_v109)
      = shapeCast S1x10 (W (Proc.devRef .tc main_arg19)) Facts₀.shapeCasts_S10_S1x10 := by
  simp only [hostOps6]
  after_results_simp
  rfl

end Cert.KernelIdeal.Hand

end
-- ==== Proof.KIValue1.lean ====
/- Region 1 of @main at the ideal reading: what the output array holds when the region is left. Every one of the
   ten grid points writes back its tile of 5000 rows, the tiles cover the [50000,128] array, and a tile's entry is the
   payload of the input tile's entry and of the scale and shift rows' entries in its column; so the array ends
   holding, at row `p` and column `q`, the positive part of `x[p,q] · scale[0,q] + shift[0,q]` of the arrays the region found. -/
import proofs.«140440_j51049981280319_1_alg».proof.Proof.KIRegion1
import proofs.«140440_j51049981280319_1_alg».proof.Proof.KerNorm
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- What the output array ends holding, as one function of the three arrays the region reads. -/
def G1 (x : FVec Ideal S50000x128 .f32) (sc sh : FVec Ideal S1x128 .f32) : FVec Ideal S50000x128 .f32 :=
  fun i => max (x i * sc (ix2 (0 : Fin 1) (i 1 : Fin 128)) + sh (ix2 (0 : Fin 1) (i 1 : Fin 128))) 0

/-- The payload at an entry of a tile, the tile's entry being the array's at `i` in the same column. -/
theorem pay1_point (x : FVec Ideal S50000x128 .f32) (sc sh : FVec Ideal S1x128 .f32) (blk : Vec Ideal S5000x128 .f32)
    (j : S5000x128.Idx) (i : S50000x128.Idx) (hblk : blk j = x i) (hcol : (i 1 : Fin 128) = (j 1 : Fin 128)) :
    Gen.k1_pay1 (F := Ideal) blk sc sh j = G1 x sc sh i := by
  obtain ⟨r, q, rfl⟩ : ∃ (r : Fin 5000) (q : Fin 128), j = ix2 r q := ⟨j 0, j 1, eq_ix2 j⟩
  rw [Cert.KernelIdeal.Norm.k1_pay1_apply, hblk]
  unfold G1
  rw [hcol]

/-- The printed index maps over the grid: the input tile moves with the output tile, the two rows stay at block 0. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- The scale row's one block is the row. -/
theorem iblk1_1_eq (c : Dev nD) (t : Fin cfg1.N) :
    (iblk1 V c 1 t : Vec Ideal S1x128 .f32) = (V c main_v32 : FVec Ideal S1x128 .f32) := by
  obtain ⟨e0, e1, e2, e3, e4, e5, e6, e7⟩ := idx_facts1 t
  funext y
  unfold iblk1
  rw [View.read_apply]
  show V c main_v32 (((cfg1.win 1).blk t).view.emb y) = V c main_v32 y
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The shift row's one block is the row. -/
theorem iblk1_2_eq (c : Dev nD) (t : Fin cfg1.N) :
    (iblk1 V c 2 t : Vec Ideal S1x128 .f32) = (V c main_v33 : FVec Ideal S1x128 .f32) := by
  obtain ⟨e0, e1, e2, e3, e4, e5, e6, e7⟩ := idx_facts1 t
  funext y
  unfold iblk1
  rw [View.read_apply]
  show V c main_v33 (((cfg1.win 2).blk t).view.emb y) = V c main_v33 y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point `t` writes back is tile `t` of `G1` of the arrays as the region finds them. -/
theorem flushed1_eq (c : Dev nD) (t : Fin cfg1.N) :
    (dat1 (F := Ideal) V c).flushed 3 t
      = ((cfg1.win 3).blk t).view.read (Elt Ideal) (G1 (V c main_v15_0) (V c main_v32) (V c main_v33)) := by
  show (cfg1.win 3).cut (grid1.coords t) ((dat1 (F := Ideal) V c).after 3 t) = _
  rw [after1_3]
  unfold out1_3
  rw [View.canon_unit_zero hz1]
  simp only [View.ld_unit_zero (S := S5000x128) hz1, View.ld_unit_zero (S := S1x128) hz1]
  obtain ⟨e0, e1, e2, e3, e4, e5, e6, e7⟩ := idx_facts1 t
  funext j
  show Gen.k1_pay1 (F := Ideal) (iblk1 V c 0 t) (iblk1 V c 1 t) (iblk1 V c 2 t) j
    = G1 (V c main_v15_0) (V c main_v32) (V c main_v33) (((cfg1.win 3).blk t).view.emb j)
  rw [iblk1_1_eq, iblk1_2_eq]
  refine pay1_point (V c main_v15_0) (V c main_v32) (V c main_v33) (iblk1 V c 0 t) j _ ?_ ?_
  · show V c main_v15_0 (((cfg1.win 0).blk t).view.emb j) = V c main_v15_0 (((cfg1.win 3).blk t).view.emb j)
    have h0 : ((cfg1.win 0).blk t).view.emb j = ((cfg1.win 3).blk t).view.emb j := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * (j 1).val = win1_3.index t (1 : Fin 2) * 128 + 1 * (j 1).val; omega
    rw [h0]
  · apply Fin.ext
    show win1_3.index t (1 : Fin 2) * 128 + 1 * (j 1).val = (j 1).val
    omega

/-- An index of the array is in point `t`'s tile iff each coordinate is in the tile's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34).slice (win1_3.rect t)).set ↔ _
  rw [View.set_slice_whole, Rect.mem_set_unit]
  exact Iff.rfl

/-- Every index of the array is in the tile of the point its row falls in. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5, e6, e7⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array when the region is left, as a whole. -/
theorem final1_fun (c : Dev nD) :
    (dat1 (F := Ideal) V c).arrAt 3 cfg1.N = G1 (V c main_v15_0) (V c main_v32) (V c main_v33) :=
  (dat1 (F := Ideal) V c).arrAt_eq_of_cover 3 (G1 (V c main_v15_0) (V c main_v32) (V c main_v33))
    (fun t _ => flushed1_eq V c t) (cover1)

/-- The whole-array function at row `p` and column `q`. -/
theorem G1_apply (x : FVec Ideal S50000x128 .f32) (sc sh : FVec Ideal S1x128 .f32) (p : Fin 50000) (q : Fin 128) :
    G1 x sc sh (ix2 p q) = max (x (ix2 p q) * sc (ix2 (0 : Fin 1) q) + sh (ix2 (0 : Fin 1) q)) 0 := rfl

/-- The output array when the region is left, at row `p` and column `q`: the extended reals' arithmetic on the
    entries of the three arrays the region found. -/
theorem final1 (c : Dev nD) (p : Fin 50000) (q : Fin 128) :
    (dat1 (F := Ideal) V c).arrAt 3 cfg1.N (ix2 p q)
      = max (HAdd.hAdd (α := EReal) (β := EReal) (γ := EReal) (HMul.hMul (α := EReal) (β := EReal) (γ := EReal) (V c main_v15_0 (ix2 p q)) (V c main_v32 (ix2 (0 : Fin 1) q))) (V c main_v33 (ix2 (0 : Fin 1) q))) (0 : EReal) := by
  rw [final1_fun]
  rfl

end Cert.KernelIdeal.Hand

end
-- ==== Proof.KIValue3.lean ====
/- Region 3 of @main at the ideal reading: what the output array holds when the region is left. Every one of the
   ten grid points writes back its tile of 5000 rows, the tiles cover the [50000,128] array, and a tile's entry is the
   payload of the input tile's entry and of the scale and shift rows' entries in its column; so the array ends
   holding, at row `p` and column `q`, the positive part of `x[p,q] · scale[0,q] + shift[0,q]` of the arrays the region found. -/
import proofs.«140440_j51049981280319_1_alg».proof.Proof.KIRegion3
import proofs.«140440_j51049981280319_1_alg».proof.Proof.KerNorm
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- What the output array ends holding, as one function of the three arrays the region reads. -/
def G3 (x : FVec Ideal S50000x128 .f32) (sc sh : FVec Ideal S1x128 .f32) : FVec Ideal S50000x128 .f32 :=
  fun i => max (x i * sc (ix2 (0 : Fin 1) (i 1 : Fin 128)) + sh (ix2 (0 : Fin 1) (i 1 : Fin 128))) 0

/-- The payload at an entry of a tile, the tile's entry being the array's at `i` in the same column. -/
theorem pay3_point (x : FVec Ideal S50000x128 .f32) (sc sh : FVec Ideal S1x128 .f32) (blk : Vec Ideal S5000x128 .f32)
    (j : S5000x128.Idx) (i : S50000x128.Idx) (hblk : blk j = x i) (hcol : (i 1 : Fin 128) = (j 1 : Fin 128)) :
    Gen.k3_pay1 (F := Ideal) blk sc sh j = G3 x sc sh i := by
  obtain ⟨r, q, rfl⟩ : ∃ (r : Fin 5000) (q : Fin 128), j = ix2 r q := ⟨j 0, j 1, eq_ix2 j⟩
  rw [Cert.KernelIdeal.Norm.k3_pay1_apply, hblk]
  unfold G3
  rw [hcol]

/-- The printed index maps over the grid: the input tile moves with the output tile, the two rows stay at block 0. -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val :=
  (by decide +kernel : ∀ t : Fin grid3.N, _)

/-- The scale row's one block is the row. -/
theorem iblk3_1_eq (c : Dev nD) (t : Fin cfg3.N) :
    (iblk3 V c 1 t : Vec Ideal S1x128 .f32) = (V c main_v63 : FVec Ideal S1x128 .f32) := by
  obtain ⟨e0, e1, e2, e3, e4, e5, e6, e7⟩ := idx_facts3 t
  funext y
  unfold iblk3
  rw [View.read_apply]
  show V c main_v63 (((cfg3.win 1).blk t).view.emb y) = V c main_v63 y
  congr 1
  funext a; apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The shift row's one block is the row. -/
theorem iblk3_2_eq (c : Dev nD) (t : Fin cfg3.N) :
    (iblk3 V c 2 t : Vec Ideal S1x128 .f32) = (V c main_v64 : FVec Ideal S1x128 .f32) := by
  obtain ⟨e0, e1, e2, e3, e4, e5, e6, e7⟩ := idx_facts3 t
  funext y
  unfold iblk3
  rw [View.read_apply]
  show V c main_v64 (((cfg3.win 2).blk t).view.emb y) = V c main_v64 y
  congr 1
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- What point `t` writes back is tile `t` of `G3` of the arrays as the region finds them. -/
theorem flushed3_eq (c : Dev nD) (t : Fin cfg3.N) :
    (dat3 (F := Ideal) V c).flushed 3 t
      = ((cfg3.win 3).blk t).view.read (Elt Ideal) (G3 (V c main_v46_0) (V c main_v63) (V c main_v64)) := by
  show (cfg3.win 3).cut (grid3.coords t) ((dat3 (F := Ideal) V c).after 3 t) = _
  rw [after3_3]
  unfold out3_3
  rw [View.canon_unit_zero hz3]
  simp only [View.ld_unit_zero (S := S5000x128) hz3, View.ld_unit_zero (S := S1x128) hz3]
  obtain ⟨e0, e1, e2, e3, e4, e5, e6, e7⟩ := idx_facts3 t
  funext j
  show Gen.k3_pay1 (F := Ideal) (iblk3 V c 0 t) (iblk3 V c 1 t) (iblk3 V c 2 t) j
    = G3 (V c main_v46_0) (V c main_v63) (V c main_v64) (((cfg3.win 3).blk t).view.emb j)
  rw [iblk3_1_eq, iblk3_2_eq]
  refine pay3_point (V c main_v46_0) (V c main_v63) (V c main_v64) (iblk3 V c 0 t) j _ ?_ ?_
  · show V c main_v46_0 (((cfg3.win 0).blk t).view.emb j) = V c main_v46_0 (((cfg3.win 3).blk t).view.emb j)
    have h0 : ((cfg3.win 0).blk t).view.emb j = ((cfg3.win 3).blk t).view.emb j := by
      funext a; apply Fin.ext
      match a with
      | ⟨0, _⟩ => show win3_0.index t (0 : Fin 2) * 5000 + 1 * (j 0).val = win3_3.index t (0 : Fin 2) * 5000 + 1 * (j 0).val; omega
      | ⟨1, _⟩ => show win3_0.index t (1 : Fin 2) * 128 + 1 * (j 1).val = win3_3.index t (1 : Fin 2) * 128 + 1 * (j 1).val; omega
    rw [h0]
  · apply Fin.ext
    show win3_3.index t (1 : Fin 2) * 128 + 1 * (j 1).val = (j 1).val
    omega

/-- An index of the array is in point `t`'s tile iff each coordinate is in the tile's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v65).slice (win3_3.rect t)).set ↔ _
  rw [View.set_slice_whole, Rect.mem_set_unit]
  exact Iff.rfl

/-- Every index of the array is in the tile of the point its row falls in. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5, e6, e7⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array when the region is left, as a whole. -/
theorem final3_fun (c : Dev nD) :
    (dat3 (F := Ideal) V c).arrAt 3 cfg3.N = G3 (V c main_v46_0) (V c main_v63) (V c main_v64) :=
  (dat3 (F := Ideal) V c).arrAt_eq_of_cover 3 (G3 (V c main_v46_0) (V c main_v63) (V c main_v64))
    (fun t _ => flushed3_eq V c t) (cover3)

/-- The whole-array function at row `p` and column `q`. -/
theorem G3_apply (x : FVec Ideal S50000x128 .f32) (sc sh : FVec Ideal S1x128 .f32) (p : Fin 50000) (q : Fin 128) :
    G3 x sc sh (ix2 p q) = max (x (ix2 p q) * sc (ix2 (0 : Fin 1) q) + sh (ix2 (0 : Fin 1) q)) 0 := rfl

/-- The output array when the region is left, at row `p` and column `q`: the extended reals' arithmetic on the
    entries of the three arrays the region found. -/
theorem final3 (c : Dev nD) (p : Fin 50000) (q : Fin 128) :
    (dat3 (F := Ideal) V c).arrAt 3 cfg3.N (ix2 p q)
      = max (HAdd.hAdd (α := EReal) (β := EReal) (γ := EReal) (HMul.hMul (α := EReal) (β := EReal) (γ := EReal) (V c main_v46_0 (ix2 p q)) (V c main_v63 (ix2 (0 : Fin 1) q))) (V c main_v64 (ix2 (0 : Fin 1) q))) (0 : EReal) := by
  rw [final3_fun]
  rfl

end Cert.KernelIdeal.Hand

end
-- ==== Proof.KIValue5.lean ====
/- Region 5 of @main at the ideal reading: what the output array holds when the region is left. Every one of the
   ten grid points writes back its tile of 5000 rows, the tiles cover the [50000,128] array, and a tile's entry is the
   payload of the input tile's entry and of the scale and shift rows' entries in its column; so the array ends
   holding, at row `p` and column `q`, `x[p,q] · scale[0,q] + shift[0,q]` of the arrays the region found. -/
import proofs.«140440_j51049981280319_1_alg».proof.Proof.KIRegion5
import proofs.«140440_j51049981280319_1_alg».proof.Proof.KerNorm
import Idealize.ShloMosaic.Lib.Pipeline.Value

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- What the output array ends holding, as one function of the three arrays the region reads. -/
def G5 (x : FVec Ideal S50000x128 .f32) (sc sh : FVec Ideal S1x128 .f32) : FVec Ideal S50000x128 .f32 :=
  fun i => x i * sc (ix2 (0 : Fin 1) (i 1 : Fin 128)) + sh (ix2 (0 : Fin 1) (i 1 : Fin 128))

/-- The payload at an entry of a tile, the tile's entry being the array's at `i` in the same column. -/
theorem pay5_point (x : FVec Ideal S50000x128 .f32) (sc sh : FVec Ideal S1x128 .f32) (blk : Vec Ideal S5000x128 .f32)
    (j : S5000x128.Idx) (i : S50000x128.Idx) (hblk : blk j = x i) (hcol : (i 1 : Fin 128) = (j 1 : Fin 128)) :
    Gen.k5_pay1 (F := Ideal) blk sc sh j = G5 x sc sh i := by
  obtain ⟨r, q, rfl⟩ : ∃ (r : Fin 5000) (q : Fin 128), j = ix2 r q := ⟨j 0, j 1, eq_ix2 j⟩
  rw [Cert.KernelIdeal.Norm.k5_pay1_apply, hblk]
  unfold G5
  rw [hcol]

/-- The printed index maps over the grid: the input tile moves with the output tile, the two rows stay at block 0. -/
theorem idx_facts5 : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val :=
  (by decide +kernel : ∀ t : Fin grid5.N, _)

/-- The scale row's one block is the row. -/
theorem iblk5_1_eq (c : Dev nD) (t : Fin cfg5.N) :
    (iblk5 V c 1 t : Vec Ideal S1x128 .f32) = (V c main_v94 : FVec Ideal S1x128 .f32) := by
  obtain ⟨e0, e1, e2, e3, e4, e5, e6, e7⟩ := idx_facts5 t
  funext y
  unfold iblk5
  rw [View.read_apply]
  show V c main_v94 (((cfg5.win 1).blk t).view.emb y) = V c main_v94 y
  congr 1
  funext a; apply Fin.ext
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The shift row's one block is the row. -/
theorem iblk5_2_eq (c : Dev nD) (t : Fin cfg5.N) :
    (iblk5 V c 2 t : Vec Ideal S1x128 .f32) = (V c main_v95 : FVec Ideal S1x128 .f32) := by
  obtain ⟨e0, e1, e2, e3, e4, e5, e6, e7⟩ := idx_facts5 t
  funext y
  unfold iblk5
  rw [View.read_apply]
  show V c main_v95 (((cfg5.win 2).blk t).view.emb y) = V c main_v95 y
  congr 1
  funext a; apply Fin.ext
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- What point `t` writes back is tile `t` of `G5` of the arrays as the region finds them. -/
theorem flushed5_eq (c : Dev nD) (t : Fin cfg5.N) :
    (dat5 (F := Ideal) V c).flushed 3 t
      = ((cfg5.win 3).blk t).view.read (Elt Ideal) (G5 (V c main_v77_0) (V c main_v94) (V c main_v95)) := by
  show (cfg5.win 3).cut (grid5.coords t) ((dat5 (F := Ideal) V c).after 3 t) = _
  rw [after5_3]
  unfold out5_3
  rw [View.canon_unit_zero hz5]
  simp only [View.ld_unit_zero (S := S5000x128) hz5, View.ld_unit_zero (S := S1x128) hz5]
  obtain ⟨e0, e1, e2, e3, e4, e5, e6, e7⟩ := idx_facts5 t
  funext j
  show Gen.k5_pay1 (F := Ideal) (iblk5 V c 0 t) (iblk5 V c 1 t) (iblk5 V c 2 t) j
    = G5 (V c main_v77_0) (V c main_v94) (V c main_v95) (((cfg5.win 3).blk t).view.emb j)
  rw [iblk5_1_eq, iblk5_2_eq]
  refine pay5_point (V c main_v77_0) (V c main_v94) (V c main_v95) (iblk5 V c 0 t) j _ ?_ ?_
  · show V c main_v77_0 (((cfg5.win 0).blk t).view.emb j) = V c main_v77_0 (((cfg5.win 3).blk t).view.emb j)
    have h0 : ((cfg5.win 0).blk t).view.emb j = ((cfg5.win 3).blk t).view.emb j := by
      funext a; apply Fin.ext
      match a with
      | ⟨0, _⟩ => show win5_0.index t (0 : Fin 2) * 5000 + 1 * (j 0).val = win5_3.index t (0 : Fin 2) * 5000 + 1 * (j 0).val; omega
      | ⟨1, _⟩ => show win5_0.index t (1 : Fin 2) * 128 + 1 * (j 1).val = win5_3.index t (1 : Fin 2) * 128 + 1 * (j 1).val; omega
    rw [h0]
  · apply Fin.ext
    show win5_3.index t (1 : Fin 2) * 128 + 1 * (j 1).val = (j 1).val
    omega

/-- An index of the array is in point `t`'s tile iff each coordinate is in the tile's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v96).slice (win5_3.rect t)).set ↔ _
  rw [View.set_slice_whole, Rect.mem_set_unit]
  exact Iff.rfl

/-- Every index of the array is in the tile of the point its row falls in. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5, e6, e7⟩ := idx_facts5 t
  have ht : t.val = (i 0).val / 5000 := rfl
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array when the region is left, as a whole. -/
theorem final5_fun (c : Dev nD) :
    (dat5 (F := Ideal) V c).arrAt 3 cfg5.N = G5 (V c main_v77_0) (V c main_v94) (V c main_v95) :=
  (dat5 (F := Ideal) V c).arrAt_eq_of_cover 3 (G5 (V c main_v77_0) (V c main_v94) (V c main_v95))
    (fun t _ => flushed5_eq V c t) (cover5)

/-- The whole-array function at row `p` and column `q`. -/
theorem G5_apply (x : FVec Ideal S50000x128 .f32) (sc sh : FVec Ideal S1x128 .f32) (p : Fin 50000) (q : Fin 128) :
    G5 x sc sh (ix2 p q) = x (ix2 p q) * sc (ix2 (0 : Fin 1) q) + sh (ix2 (0 : Fin 1) q) := rfl

/-- The output array when the region is left, at row `p` and column `q`: the extended reals' arithmetic on the
    entries of the three arrays the region found. -/
theorem final5 (c : Dev nD) (p : Fin 50000) (q : Fin 128) :
    (dat5 (F := Ideal) V c).arrAt 3 cfg5.N (ix2 p q)
      = HAdd.hAdd (α := EReal) (β := EReal) (γ := EReal) (HMul.hMul (α := EReal) (β := EReal) (γ := EReal) (V c main_v77_0 (ix2 p q)) (V c main_v94 (ix2 (0 : Fin 1) q))) (V c main_v95 (ix2 (0 : Fin 1) q)) := by
  rw [final5_fun]
  rfl

end Cert.KernelIdeal.Hand

end
-- ==== Proof.KILayerPure.lean ====
/-
  The regions' finals as the network's functions.

  A normalising region leaves `max (x · scale_row + shift_row) 0` entry by entry (the last layer's without the maximum). With
  `x` the layer's linear map, the two rows the host's scale and shift formed from a statistics array whose rows are the
  column sums and sums of squares of `x`, that is the positive part of `Cert.Network.kerNorm` (the last layer's:
  `kerNorm` itself). And an array that reads, entry by entry, `∑_k h · w_root + ∑_k agg · w_rel + bias_row` with
  `agg` the neighbourhood sums and the bias cast to a row is the layer's linear map `Cert.Network.lin`.
-/
import proofs.«140440_j51049981280319_1_alg».proof.Proof.Network
import proofs.«140440_j51049981280319_1_alg».proof.Proof.KIValue1
import proofs.«140440_j51049981280319_1_alg».proof.Proof.KIValue3
import proofs.«140440_j51049981280319_1_alg».proof.Proof.KIValue5

noncomputable section

namespace Cert.KernelIdeal.Hand

open Idealize.ShloMosaic Idealize.ShloMosaic.ValueIdx
open Cert.KernelIdeal Cert.Network

variable [Cert.ReferenceIdeal.Facts]

/-- The statistics' two rows are the column sums and sums of squares of `y`. -/
def StatsOf (st : FVec Ideal S2x128 .f32) (y : FVec Ideal S50000x128 .f32) : Prop :=
  Norm.sums st = colSums y ∧ Norm.sumsq st = colSumSq y

theorem statsOf_of_rows (st : FVec Ideal S2x128 .f32) (y : FVec Ideal S50000x128 .f32)
    (h0 : ∀ q : Fin 128, st (ix2 (0 : Fin 2) q) = ∑ p : Fin 50000, y (ix2 p q))
    (h1 : ∀ q : Fin 128, st (ix2 (1 : Fin 2) q) = ∑ p : Fin 50000, y (ix2 p q) * y (ix2 p q)) : StatsOf st y := by
  refine ⟨funext fun j => ?_, funext fun j => ?_⟩
  · obtain ⟨q, rfl⟩ : ∃ q : Fin 128, j = ix1 q := ⟨j 0, eq_ix1 j⟩
    rw [Norm.sums_apply, h0]; rfl
  · obtain ⟨q, rfl⟩ : ∃ q : Fin 128, j = ix1 q := ⟨j 0, eq_ix1 j⟩
    rw [Norm.sumsq_apply, h1]; rfl

/-- A layer's normalising region with the positive part leaves the positive part of `kerNorm`. -/
theorem G1_eq (ei : IVec S2x800000 32) (h : FVec Ideal S50000x128 .f32) (θ : Params) (st : FVec Ideal S2x128 .f32)
    (hst : StatsOf st (lin ei h θ)) :
    G1 (lin ei h θ) (Norm.asRow (Norm.scale (Norm.sums st) (Norm.sumsq st) θ.γ))
        (Norm.asRow (Norm.shift (Norm.sums st) (Norm.sumsq st) θ.γ θ.β))
      = positive (kerNorm ei h θ) := by
  rw [hst.1, hst.2]
  funext i
  obtain ⟨p, q, rfl⟩ : ∃ (p : Fin 50000) (q : Fin 128), i = ix2 p q := ⟨i 0, i 1, eq_ix2 i⟩
  show max (lin ei h θ (ix2 p q) * Norm.asRow _ (ix2 (0 : Fin 1) q) + Norm.asRow _ (ix2 (0 : Fin 1) q)) 0 = _
  rw [Norm.asRow_apply, Norm.asRow_apply]
  rfl

theorem G3_eq (ei : IVec S2x800000 32) (h : FVec Ideal S50000x128 .f32) (θ : Params) (st : FVec Ideal S2x128 .f32)
    (hst : StatsOf st (lin ei h θ)) :
    G3 (lin ei h θ) (Norm.asRow (Norm.scale (Norm.sums st) (Norm.sumsq st) θ.γ))
        (Norm.asRow (Norm.shift (Norm.sums st) (Norm.sumsq st) θ.γ θ.β))
      = positive (kerNorm ei h θ) := by
  rw [hst.1, hst.2]
  funext i
  obtain ⟨p, q, rfl⟩ : ∃ (p : Fin 50000) (q : Fin 128), i = ix2 p q := ⟨i 0, i 1, eq_ix2 i⟩
  show max (lin ei h θ (ix2 p q) * Norm.asRow _ (ix2 (0 : Fin 1) q) + Norm.asRow _ (ix2 (0 : Fin 1) q)) 0 = _
  rw [Norm.asRow_apply, Norm.asRow_apply]
  rfl

/-- The last layer's normalising region leaves `kerNorm`. -/
theorem G5_eq (ei : IVec S2x800000 32) (h : FVec Ideal S50000x128 .f32) (θ : Params) (st : FVec Ideal S2x128 .f32)
    (hst : StatsOf st (lin ei h θ)) :
    G5 (lin ei h θ) (Norm.asRow (Norm.scale (Norm.sums st) (Norm.sumsq st) θ.γ))
        (Norm.asRow (Norm.shift (Norm.sums st) (Norm.sumsq st) θ.γ θ.β))
      = kerNorm ei h θ := by
  rw [hst.1, hst.2]
  funext i
  obtain ⟨p, q, rfl⟩ : ∃ (p : Fin 50000) (q : Fin 128), i = ix2 p q := ⟨i 0, i 1, eq_ix2 i⟩
  show lin ei h θ (ix2 p q) * Norm.asRow _ (ix2 (0 : Fin 1) q) + Norm.asRow _ (ix2 (0 : Fin 1) q) = _
  rw [Norm.asRow_apply, Norm.asRow_apply]
  rfl

/-- An array that reads entry by entry as the two products plus the bias row is the layer's linear map. -/
theorem lin_of_entries (ei : IVec S2x800000 32) (h : FVec Ideal S50000x128 .f32) (θ : Params)
    (y : FVec Ideal S50000x128 .f32)
    (hy : ∀ (p : Fin 50000) (q : Fin 128), y (ix2 p q)
      = (∑ k : Fin 128, h (ix2 p k) * θ.wr (ix2 k q)) + (∑ k : Fin 128, aggregate ei h (ix2 p k) * θ.wl (ix2 k q))
          + Norm.asRow θ.b (ix2 (0 : Fin 1) q)) :
    y = lin ei h θ := by
  funext i
  obtain ⟨p, q, rfl⟩ : ∃ (p : Fin 50000) (q : Fin 128), i = ix2 p q := ⟨i 0, i 1, eq_ix2 i⟩
  rw [hy, Norm.asRow_apply]
  exact (Cert.ReferenceIdeal.Linear.linear_apply h (aggregate ei h) θ.wr θ.wl θ.b p q).symm

end Cert.KernelIdeal.Hand

end
-- ==== Proof.KIValue0Cases.lean ====
/-
  Region 0: what each control case leaves, in closed form.

  Every load of the body reads a whole buffer and every store writes a whole buffer or a whole row, so what a case leaves
  in a buffer is the payload of its last store there, with each loaded value replaced by the contents it was loaded from:
  the tile output holds the linear map of the five input blocks; carried row 0 holds what it held (zero at the first tile)
  plus the tile's column sums of the linear map; carried row 1 the same with the squares; and at the last tile the two
  rows of the statistics output hold the two carried rows as that tile leaves them.
-/
import proofs.«140440_j51049981280319_1_alg».proof.Proof.KIRegion0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz0 : (![0, 0] : Fin 2 → Nat) = fun _ => 0 := funext fun a => by fin_cases a <;> rfl

/-- In case A the tile output's buffer ends holding the linear map of the five input blocks: its one store covers the
    buffer, and every load reads a whole buffer. -/
theorem out5_0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : out0_A_5 c i arg1 harg1 arg2 harg2 arg3 harg3 arg4 harg4 arg5 harg5 arg6 harg6 arg7 harg7 arg8 harg8 arg9 harg9 hc0 hc1 x1 x2 x3 x4 x5 = k0_pay4 x1 x2 x3 x4 x5 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x1 x2 x3 x4 x5)]
  unfold kernelRun0_A
  dsimp only
  rw [View.canon_unit_zero hz0]
  simp only [View.readAt_eq_ld, harg1.read_unread, harg2.read_unread, harg3.read_unread, harg4.read_unread, harg5.read_unread,
    View.ld_unit_zero (S := S5000x128) hz0, View.ld_unit_zero (S := S128x128) hz0, View.ld_unit_zero (S := S1x128) hz0]

/-- In case B the tile output's buffer ends holding the linear map of the five input blocks: its one store covers the
    buffer, and every load reads a whole buffer. -/
theorem out5_0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : out0_B_5 c i arg1 harg1 arg2 harg2 arg3 harg3 arg4 harg4 arg5 harg5 arg6 harg6 arg7 harg7 arg8 harg8 arg9 harg9 hc0 hc1 x1 x2 x3 x4 x5 xs0 xs1 = k0_pay4 x1 x2 x3 x4 x5 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x1 x2 x3 x4 x5 xs0 xs1)]
  unfold kernelRun0_B
  dsimp only
  rw [View.canon_unit_zero hz0]
  simp only [View.readAt_eq_ld, harg1.read_unread, harg2.read_unread, harg3.read_unread, harg4.read_unread, harg5.read_unread,
    View.ld_unit_zero (S := S5000x128) hz0, View.ld_unit_zero (S := S128x128) hz0, View.ld_unit_zero (S := S1x128) hz0]

/-- In case C the tile output's buffer ends holding the linear map of the five input blocks: its one store covers the
    buffer, and every load reads a whole buffer. -/
theorem out5_0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : out0_C_5 c i arg1 harg1 arg2 harg2 arg3 harg3 arg4 harg4 arg5 harg5 arg6 harg6 arg7 harg7 arg8 harg8 arg9 harg9 hc0 hc1 x1 x2 x3 x4 x5 xs0 xs1 = k0_pay4 x1 x2 x3 x4 x5 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x1 x2 x3 x4 x5 xs0 xs1)]
  unfold kernelRun0_C
  dsimp only
  rw [View.canon_unit_zero hz0]
  simp only [View.readAt_eq_ld, harg1.read_unread, harg2.read_unread, harg3.read_unread, harg4.read_unread, harg5.read_unread,
    View.ld_unit_zero (S := S5000x128) hz0, View.ld_unit_zero (S := S128x128) hz0, View.ld_unit_zero (S := S1x128) hz0]

/-- In case B carried row 0 ends holding what the tile before left plus this tile's column sums. -/
theorem row0_0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : sout0_B_0 c i arg1 harg1 arg2 harg2 arg3 harg3 arg4 harg4 arg5 harg5 arg6 harg6 arg7 harg7 arg8 harg8 arg9 harg9 hc0 hc1 x1 x2 x3 x4 x5 xs0 xs1 = k0_pay5 x1 x2 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x1 x2 x3 x4 x5 xs0 xs1)]
  unfold kernelRun0_B
  dsimp only
  rw [View.canon_unit_zero hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]

/-- In case B carried row 1 ends holding what the tile before left plus this tile's column sums of squares. -/
theorem row1_0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i) (x1 x2 : Vec F S5000x128 .f32) (x3 x4 : Vec F S128x128 .f32) (x5 : Vec F S1x128 .f32) (xs0 xs1 : Vec F S1x128 .f32) : sout0_B_1 c i arg1 harg1 arg2 harg2 arg3 harg3 arg4 harg4 arg5 harg5 arg6 harg6 arg7 harg7 arg8 harg8 arg9 harg9 hc0 hc1 x1 x2 x3 x4 x5 xs0 xs1 = k0_pay1 (k0_pay6 x1 x2 x3 x4 x5 xs1) := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x1 x2 x3 x4 x5 xs0 xs1)]
  unfold kernelRun0_B
  dsimp only
  sl_unfold_words
  rw [View.canon_unit_zero hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]

/-- In case C carried row 0 ends holding what the tile before left plus this tile's column sums. -/
theorem row0_0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : sout0_C_0 c i arg1 harg1 arg2 harg2 arg3 harg3 arg4 harg4 arg5 harg5 arg6 harg6 arg7 harg7 arg8 harg8 arg9 harg9 hc0 hc1 x1 x2 x3 x4 x5 xs0 xs1 = k0_pay5 x1 x2 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x1 x2 x3 x4 x5 xs0 xs1)]
  unfold kernelRun0_C
  dsimp only
  sl_unfold_words
  rw [View.canon_unit_zero hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]

/-- In case C carried row 1 ends holding what the tile before left plus this tile's column sums of squares. -/
theorem row1_0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) : sout0_C_1 c i arg1 harg1 arg2 harg2 arg3 harg3 arg4 harg4 arg5 harg5 arg6 harg6 arg7 harg7 arg8 harg8 arg9 harg9 hc0 hc1 x1 x2 x3 x4 x5 xs0 xs1 = k0_pay1 (k0_pay6 x1 x2 x3 x4 x5 xs1) := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x1 x2 x3 x4 x5 xs0 xs1)]
  unfold kernelRun0_C
  dsimp only
  sl_unfold_words
  rw [View.canon_unit_zero hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]

/-- At the first tile carried row 0 ends holding the zero row plus the tile's column sums: the row is zeroed, read back,
    and added to. -/
theorem row0_0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : sout0_A_0 c i arg1 harg1 arg2 harg2 arg3 harg3 arg4 harg4 arg5 harg5 arg6 harg6 arg7 harg7 arg8 harg8 arg9 harg9 hc0 hc1 x1 x2 x3 x4 x5 = k0_pay5 x1 x2 x3 x4 x5 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x1 x2 x3 x4 x5)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread,
    View.ld_unit_zero (S := S5000x128) hz0, View.ld_unit_zero (S := S128x128) hz0, View.ld_unit_zero (S := S1x128) hz0]

/-- At the first tile carried row 1 ends holding the zero row plus the tile's column sums of squares. -/
theorem row1_0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i) (x1 x2 : Vec F S5000x128 .f32) (x3 x4 : Vec F S128x128 .f32) (x5 : Vec F S1x128 .f32) : sout0_A_1 c i arg1 harg1 arg2 harg2 arg3 harg3 arg4 harg4 arg5 harg5 arg6 harg6 arg7 harg7 arg8 harg8 arg9 harg9 hc0 hc1 x1 x2 x3 x4 x5 = k0_pay1 (k0_pay6 x1 x2 x3 x4 x5 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x1 x2 x3 x4 x5)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread,
    View.ld_unit_zero (S := S5000x128) hz0, View.ld_unit_zero (S := S128x128) hz0, View.ld_unit_zero (S := S1x128) hz0]

/-- At the last tile row 0 of the statistics output holds carried row 0 as the tile leaves it: the second row's store does
    not reach row 0, and the first row's store is the carried row just written, read back. -/
theorem out6_0_C_row0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (q : Fin 128) :
    out0_C_6 c i arg1 harg1 arg2 harg2 arg3 harg3 arg4 harg4 arg5 harg5 arg6 harg6 arg7 harg7 arg8 harg8 arg9 harg9 hc0 hc1 x1 x2 x3 x4 x5 xs0 xs1 (ValueIdx.ix2 (0 : Fin 2) q) = k0_pay5 x1 x2 x3 x4 x5 xs0 (ValueIdx.ix2 (0 : Fin 1) q) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x1 x2 x3 x4 x5 xs0 xs1)]
  unfold kernelRun0_C
  dsimp only
  sl_unfold_words
  rw [View.readCov_unit_zero (S := S1x128) _ hz0, View.readCov_unit_zero (S := S1x128) _ hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]
  rw [View.canon_cons_of_not_mem _ _ (by
    rw [Rect.mem_set_unit]; intro h; have h0 : (1 : ℕ) ≤ 0 := (h 0).1; omega)]
  have e : (ValueIdx.ix2 (0 : Fin 2) q : S2x128.Idx) = (Rect.unit (s := S2x128) ![0, 0] S1x128.size inb_S2x128_S1x128_0_0).emb (ValueIdx.ix2 (0 : Fin 1) q) := by
    funext a; apply Fin.ext
    match a with
    | ⟨0, _⟩ => rfl
    | ⟨1, _⟩ => show q.val = 0 + 1 * q.val; omega
  rw [e, View.canon_cons_emb]

/-- At the last tile row 1 of the statistics output holds carried row 1 as the tile leaves it. -/
theorem out6_0_C_row1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i) (x1 x2 : Vec F S5000x128 .f32) (x3 x4 : Vec F S128x128 .f32) (x5 : Vec F S1x128 .f32) (xs0 xs1 : Vec F S1x128 .f32) (q : Fin 128) :
    out0_C_6 c i arg1 harg1 arg2 harg2 arg3 harg3 arg4 harg4 arg5 harg5 arg6 harg6 arg7 harg7 arg8 harg8 arg9 harg9 hc0 hc1 x1 x2 x3 x4 x5 xs0 xs1 (ValueIdx.ix2 (1 : Fin 2) q) = k0_pay1 (k0_pay6 x1 x2 x3 x4 x5 xs1) (ValueIdx.ix2 (0 : Fin 1) q) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x1 x2 x3 x4 x5 xs0 xs1)]
  unfold kernelRun0_C
  dsimp only
  sl_unfold_words
  rw [View.readCov_unit_zero (S := S1x128) _ hz0, View.readCov_unit_zero (S := S1x128) _ hz0]
  simp only [View.readAt_eq_ld, harg1.read_unread, harg2.read_unread, harg3.read_unread, harg4.read_unread, harg5.read_unread, harg8.read_unread, harg9.read_unread,
    View.ld_unit_zero (S := S5000x128) hz0, View.ld_unit_zero (S := S128x128) hz0, View.ld_unit_zero (S := S1x128) hz0]
  have e : (ValueIdx.ix2 (1 : Fin 2) q : S2x128.Idx) = (Rect.unit (s := S2x128) ![1, 0] S1x128.size inb_S2x128_S1x128_1_0).emb (ValueIdx.ix2 (0 : Fin 1) q) := by
    funext a; apply Fin.ext
    match a with
    | ⟨0, _⟩ => rfl
    | ⟨1, _⟩ => show q.val = 0 + 1 * q.val; omega
  rw [e, View.canon_cons_emb]

end Cert.KernelIdeal.Hand

end
-- ==== Proof.KIValue0Lin.lean ====
/-
  Region 0 at the ideal values: the tile output after the region is the layer's linear map of the arrays the region finds.

  Row `r` of the tile at point `t` is row `r + 5000 · t` of the row-tiled arrays; the weights and the bias are whole at every
  point. So what point `t` writes back is block `t` of one function of the arrays — at row `p` and column `q`, the sum over
  `k` of input times root weight, plus the sum over `k` of neighbourhood sum times relation weight, plus the bias — and the
  ten blocks cover the array.
-/
import proofs.«140440_j51049981280319_1_alg».proof.Proof.KIValue0Cases
import proofs.«140440_j51049981280319_1_alg».proof.Proof.KerLinear
import proofs.«140440_j51049981280319_1_alg».proof.Proof.Tiles
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The index maps, and the input blocks read at an index -/

/-- The tile a point visits. -/
def tile0 (t : Fin cfg0.N) : Fin 10 := ⟨t.val, lt_of_lt_of_eq t.isLt (show cfg0.N = 10 from N_0)⟩

/-- The printed index maps, decided over the ten points: the row-tiled windows are at block `t` along the rows, every
    other block index is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- Row `r` of the layer input's tile at point `t` is row `r + 5000 · t` of the array. -/
theorem iblk0_0_apply (c : Dev nD) (t : Fin cfg0.N) (r : Fin 5000) (k : Fin 128) :
    iblk0 V c 0 t (ix2 r k) = V c main_arg0 (ix2 (Cert.Tiles.row (tile0 t) r) k) := by
  obtain ⟨e00, e01, -⟩ := idx_facts0 t
  show V c main_arg0 (((cfg0.win 0).blk t).view.emb (ix2 r k)) = _
  refine congrArg (V c main_arg0) ?_
  funext a; apply Fin.ext
  match a with
  | ⟨0, _⟩ => show win0_0.index t (0 : Fin 2) * 5000 + 1 * r.val = r.val + 5000 * t.val; omega
  | ⟨1, _⟩ => show win0_0.index t (1 : Fin 2) * 128 + 1 * k.val = k.val; omega

/-- The same of the neighbourhood sums' tile. -/
theorem iblk0_1_apply (c : Dev nD) (t : Fin cfg0.N) (r : Fin 5000) (k : Fin 128) :
    iblk0 V c 1 t (ix2 r k) = V c main_v13 (ix2 (Cert.Tiles.row (tile0 t) r) k) := by
  obtain ⟨-, -, e10, e11, -⟩ := idx_facts0 t
  show V c main_v13 (((cfg0.win 1).blk t).view.emb (ix2 r k)) = _
  refine congrArg (V c main_v13) ?_
  funext a; apply Fin.ext
  match a with
  | ⟨0, _⟩ => show win0_1.index t (0 : Fin 2) * 5000 + 1 * r.val = r.val + 5000 * t.val; omega
  | ⟨1, _⟩ => show win0_1.index t (1 : Fin 2) * 128 + 1 * k.val = k.val; omega

/-- The two weight blocks and the bias block are the whole arrays at every point. -/
theorem iblk0_2_apply (c : Dev nD) (t : Fin cfg0.N) (k : Fin 128) (q : Fin 128) :
    iblk0 V c 2 t (ix2 k q) = V c main_arg3 (ix2 k q) := by
  obtain ⟨-, -, -, -, e20, e21, -⟩ := idx_facts0 t
  show V c main_arg3 (((cfg0.win 2).blk t).view.emb (ix2 k q)) = _
  refine congrArg (V c main_arg3) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem iblk0_3_apply (c : Dev nD) (t : Fin cfg0.N) (k : Fin 128) (q : Fin 128) :
    iblk0 V c 3 t (ix2 k q) = V c main_arg4 (ix2 k q) := by
  obtain ⟨-, -, -, -, -, -, e30, e31, -⟩ := idx_facts0 t
  show V c main_arg4 (((cfg0.win 3).blk t).view.emb (ix2 k q)) = _
  refine congrArg (V c main_arg4) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem iblk0_4_apply (c : Dev nD) (t : Fin cfg0.N) (z : Fin 1) (q : Fin 128) :
    iblk0 V c 4 t (ix2 z q) = V c main_v14 (ix2 z q) := by
  obtain ⟨-, -, -, -, -, -, -, -, e40, e41, -⟩ := idx_facts0 t
  show V c main_v14 (((cfg0.win 4).blk t).view.emb (ix2 z q)) = _
  refine congrArg (V c main_v14) ?_
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-! ## The linear map -/

/-- The region's five input arrays as it finds them, read as extended reals: the layer input, the neighbourhood sums, the two
    weights, the bias row. -/
abbrev rdH0 (c : Dev nD) : S50000x128.Idx → EReal := V c main_arg0
abbrev rdAgg0 (c : Dev nD) : S50000x128.Idx → EReal := V c main_v13
abbrev rdWr0 (c : Dev nD) : S128x128.Idx → EReal := V c main_arg3
abbrev rdWl0 (c : Dev nD) : S128x128.Idx → EReal := V c main_arg4
abbrev rdB0 (c : Dev nD) : S1x128.Idx → EReal := V c main_v14

/-- The region's linear map of the arrays as it finds them, at row `p` and column `q`. -/
def lin0 (c : Dev nD) (p : Fin 50000) (q : Fin 128) : EReal :=
  (∑ k : Fin 128, rdH0 V c (ix2 p k) * rdWr0 V c (ix2 k q)) + (∑ k : Fin 128, rdAgg0 V c (ix2 p k) * rdWl0 V c (ix2 k q))
    + rdB0 V c (ix2 (0 : Fin 1) q)

/-- The same as contents of the tile output's array. -/
abbrev linArr0 (c : Dev nD) : S50000x128.Idx → EReal := fun i => lin0 V c (i 0) (i 1)

/-- The two output arrays after the region, read as extended reals. -/
abbrev linOut0 (c : Dev nD) : S50000x128.Idx → EReal := (dat0 (F := Ideal) V c).arrAt 5 cfg0.N
abbrev statsOut0 (c : Dev nD) : S2x128.Idx → EReal := (dat0 (F := Ideal) V c).arrAt 6 cfg0.N

/-- The body's linear map of the blocks at point `t`, at row `r` of the tile, is the region's at row `r + 5000 · t`. -/
theorem tile_lin0 (c : Dev nD) (t : Fin cfg0.N) (r : Fin 5000) (q : Fin 128) :
    k0_pay4 (F := Ideal) (iblk0 V c 0 t) (iblk0 V c 1 t) (iblk0 V c 2 t) (iblk0 V c 3 t) (iblk0 V c 4 t) (ix2 r q) = lin0 V c (Cert.Tiles.row (tile0 t) r) q := by
  rw [Cert.KernelIdeal.Linear.k0_pay4_apply]
  unfold lin0
  simp only [iblk0_0_apply, iblk0_1_apply, iblk0_2_apply, iblk0_3_apply, iblk0_4_apply]
  first | done | rfl

/-- After every tile the tile output's buffer holds the body's linear map of the tile's blocks. -/
theorem outs5_eq0 (c : Dev nD) (t : Fin cfg0.N) :
    (outsAt0 V c t.val t.isLt).1 = k0_pay4 (F := Ideal) (iblk0 V c 0 t) (iblk0 V c 1 t) (iblk0 V c 2 t) (iblk0 V c 3 t) (iblk0 V c 4 t) := by
  have hN : t.val < 10 := lt_of_lt_of_eq t.isLt (show cfg0.N = 10 from N_0)
  by_cases h0 : t.val % 10 = 0
  · have h1 : ¬t.val % 10 = 9 := by omega
    rw [outsAt0_A V c t h0 h1]; dsimp only; rw [out5_0_A]
  · by_cases h1 : t.val % 10 = 9
    · rw [outsAt0_C V c t h0 h1]; dsimp only; rw [out5_0_C]
    · rw [outsAt0_B V c t h0 h1]; dsimp only; rw [out5_0_B]

/-! ## The tile output's array after the region -/

/-- What point `t` writes back is block `t` of the region's linear map. -/
theorem flushed5_eq0 (c : Dev nD) (t : Fin cfg0.N) :
    (dat0 V c).flushed 5 t = ((cfg0.win 5).blk t).view.read (Elt Ideal) (linArr0 V c) := by
  show (cfg0.win 5).cut (grid0.coords t) ((dat0 V c).after 5 t) = _
  rw [after0_5, outs5_eq0]
  obtain ⟨-, -, -, -, -, -, -, -, -, -, e50, e51, -⟩ := idx_facts0 t
  funext j
  obtain ⟨r, q, rfl⟩ : ∃ (r : Fin 5000) (q : Fin 128), j = ix2 r q := ⟨j 0, j 1, eq_ix2 j⟩
  show k0_pay4 (F := Ideal) (iblk0 V c 0 t) (iblk0 V c 1 t) (iblk0 V c 2 t) (iblk0 V c 3 t) (iblk0 V c 4 t) (ix2 r q) = lin0 V c ((((cfg0.win 5).blk t).view.emb (ix2 r q)) 0) ((((cfg0.win 5).blk t).view.emb (ix2 r q)) 1)
  rw [tile_lin0]
  have e0 : (((cfg0.win 5).blk t).view.emb (ix2 r q)) 0 = Cert.Tiles.row (tile0 t) r :=
    Fin.ext (by show win0_5.index t (0 : Fin 2) * 5000 + 1 * r.val = r.val + 5000 * t.val; omega)
  have e1 : (((cfg0.win 5).blk t).view.emb (ix2 r q)) 1 = q :=
    Fin.ext (by show win0_5.index t (1 : Fin 2) * 128 + 1 * q.val = q.val; omega)
  rw [e0, e1]

/-- An index of the array is in point `t`'s block iff each coordinate is in the block's range on its axis. -/
theorem mem_blk5_0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15_0).slice (win0_5.rect t)).set ↔ _
  rw [View.set_slice_whole, Rect.mem_set_unit]
  exact Iff.rfl

/-- The ten tiles cover the array (row `p` is in tile `p / 5000`), so it ends holding the region's linear map. -/
theorem final5_0 (c : Dev nD) : (dat0 V c).arrAt 5 cfg0.N = linArr0 V c :=
  (dat0 V c).arrAt_eq_of_cover 5 (linArr0 V c) (fun t _ => flushed5_eq0 V c t) fun i => by
    have hi0 : (i 0).val < 50000 := (i 0).isLt
    have hi1 : (i 1).val < 128 := (i 1).isLt
    have ht : (i 0).val / 5000 < cfg0.N := by rw [show cfg0.N = 10 from N_0]; omega
    obtain ⟨-, -, -, -, -, -, -, -, -, -, e50, e51, -⟩ := idx_facts0 ⟨(i 0).val / 5000, ht⟩
    refine ⟨⟨(i 0).val / 5000, ht⟩, flush0_5 _, ?_⟩
    rw [mem_blk5_0]
    intro a
    match a with
    | ⟨0, _⟩ => show win0_5.index ⟨(i 0).val / 5000, ht⟩ (0 : Fin 2) * 5000 ≤ (i 0).val ∧ (i 0).val < win0_5.index ⟨(i 0).val / 5000, ht⟩ (0 : Fin 2) * 5000 + 5000
                dsimp only at e50; omega
    | ⟨1, _⟩ => show win0_5.index ⟨(i 0).val / 5000, ht⟩ (1 : Fin 2) * 128 ≤ (i 1).val ∧ (i 1).val < win0_5.index ⟨(i 0).val / 5000, ht⟩ (1 : Fin 2) * 128 + 128
                omega

/-- THE TILE OUTPUT after the region: the linear map of the arrays the region finds, at every row and column. -/
theorem final0_lin (c : Dev nD) (p : Fin 50000) (q : Fin 128) :
    linOut0 V c (ix2 p q)
      = (∑ k : Fin 128, rdH0 V c (ix2 p k) * rdWr0 V c (ix2 k q)) + (∑ k : Fin 128, rdAgg0 V c (ix2 p k) * rdWl0 V c (ix2 k q))
          + rdB0 V c (ix2 (0 : Fin 1) q) := by
  show (dat0 (F := Ideal) V c).arrAt 5 cfg0.N (ix2 p q) = _
  rw [final5_0]; rfl

end Cert.KernelIdeal.Hand

end
-- ==== Proof.KIValue0.lean ====
/-
  Region 0 at the ideal values: the statistics output after the region holds, per column, the sum and the sum of squares
  of the tile output over all 50000 rows.

  The two carried rows start at zero at the first tile and each tile adds its own column sums of the linear map and of its
  square: by induction on the tile, after tile `n` they hold the sums over the tiles up to `n`. The last tile copies them
  into the two rows of the statistics output, which is written back once, there. The sum over the ten tiles of a tile's
  column sum is the column sum over all rows.
-/
import proofs.«140440_j51049981280319_1_alg».proof.Proof.KIValue0Lin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The carried rows are running column sums -/

/-- The zero rows the first tile stores. -/
theorem pay2_zero0 (q : Fin 128) : k0_pay2 (F := Ideal) (ix2 (0 : Fin 1) q) = 0 := by
  unfold k0_pay2; simp only [shapeCast_self]; exact Ideal.ofBits_zero_f32
theorem pay3_zero0 (q : Fin 128) : k0_pay3 (F := Ideal) (ix2 (0 : Fin 1) q) = 0 := by
  unfold k0_pay3; simp only [shapeCast_self]; exact Ideal.ofBits_zero_f32

/-- Tile `t`'s column sum of the linear map, and of its square (zero past the ten tiles). -/
def tsum0 (c : Dev nD) (q : Fin 128) : ℕ → EReal := fun t =>
  if h : t < 10 then ∑ r : Fin 5000, linArr0 V c (ix2 (Cert.Tiles.row ⟨t, h⟩ r) q) else 0
def tsq0 (c : Dev nD) (q : Fin 128) : ℕ → EReal := fun t =>
  if h : t < 10 then ∑ r : Fin 5000, (fun i => linArr0 V c i * linArr0 V c i : S50000x128.Idx → EReal) (ix2 (Cert.Tiles.row ⟨t, h⟩ r) q) else 0

/-- One tile adds its column sum to carried row 0, -/
theorem row0_step0 (c : Dev nD) (t : Fin cfg0.N) (acc : Vec Ideal S1x128 .f32) (q : Fin 128) :
    k0_pay5 (F := Ideal) (iblk0 V c 0 t) (iblk0 V c 1 t) (iblk0 V c 2 t) (iblk0 V c 3 t) (iblk0 V c 4 t) acc (ix2 (0 : Fin 1) q) = acc (ix2 (0 : Fin 1) q) + tsum0 V c q t.val := by
  rw [Cert.KernelIdeal.Linear.k0_pay5_apply]
  unfold tsum0
  rw [dif_pos (lt_of_lt_of_eq t.isLt (show cfg0.N = 10 from N_0))]
  exact congrArg (acc (ix2 (0 : Fin 1) q) + ·) (Finset.sum_congr rfl fun r _ => tile_lin0 V c t r q)

/-- and its column sum of squares to carried row 1. -/
theorem row1_step0 (c : Dev nD) (t : Fin cfg0.N) (acc : Vec Ideal S1x128 .f32) (q : Fin 128) :
    k0_pay1 (F := Ideal) (k0_pay6 (F := Ideal) (iblk0 V c 0 t) (iblk0 V c 1 t) (iblk0 V c 2 t) (iblk0 V c 3 t) (iblk0 V c 4 t) acc) (ix2 (0 : Fin 1) q) = acc (ix2 (0 : Fin 1) q) + tsq0 V c q t.val := by
  unfold k0_pay1; simp only [shapeCast_self]
  rw [Cert.KernelIdeal.Linear.k0_pay6_apply]
  unfold tsq0
  rw [dif_pos (lt_of_lt_of_eq t.isLt (show cfg0.N = 10 from N_0))]
  exact congrArg (acc (ix2 (0 : Fin 1) q) + ·) (Finset.sum_congr rfl fun r _ => by rw [tile_lin0 V c t r q]; rfl)

/-- After the first tile the rows hold that tile's sums. -/
theorem rows_first0 (c : Dev nD) (q : Fin 128) (t : Fin cfg0.N) (h0 : t.val % 10 = 0) :
    (outsAt0 V c t.val t.isLt).2.2.1 (ix2 (0 : Fin 1) q) = 0 + tsum0 V c q t.val
    ∧ (outsAt0 V c t.val t.isLt).2.2.2 (ix2 (0 : Fin 1) q) = 0 + tsq0 V c q t.val := by
  have hN : t.val < 10 := lt_of_lt_of_eq t.isLt (show cfg0.N = 10 from N_0)
  have h1 : ¬t.val % 10 = 9 := by omega
  rw [outsAt0_A V c t h0 h1]
  dsimp only
  rw [row0_0_A, row1_0_A, row0_step0, row1_step0, pay2_zero0, pay3_zero0]
  exact ⟨rfl, rfl⟩

/-- After any later tile the rows hold what the tile before left plus this tile's sums. -/
theorem rows_later0 (c : Dev nD) (q : Fin 128) (t : Fin cfg0.N) (h0 : ¬t.val % 10 = 0) :
    (outsAt0 V c t.val t.isLt).2.2.1 (ix2 (0 : Fin 1) q)
        = (outsAt0 V c (t.val - 1) (Nat.lt_of_le_of_lt (Nat.sub_le _ _) t.isLt)).2.2.1 (ix2 (0 : Fin 1) q) + tsum0 V c q t.val
    ∧ (outsAt0 V c t.val t.isLt).2.2.2 (ix2 (0 : Fin 1) q)
        = (outsAt0 V c (t.val - 1) (Nat.lt_of_le_of_lt (Nat.sub_le _ _) t.isLt)).2.2.2 (ix2 (0 : Fin 1) q) + tsq0 V c q t.val := by
  by_cases h1 : t.val % 10 = 9
  · rw [outsAt0_C V c t h0 h1]
    dsimp only
    rw [row0_0_C, row1_0_C, row0_step0, row1_step0]
    exact ⟨rfl, rfl⟩
  · rw [outsAt0_B V c t h0 h1]
    dsimp only
    rw [row0_0_B, row1_0_B, row0_step0, row1_step0]
    exact ⟨rfl, rfl⟩

/-- So after tile `n` the rows hold the sums over the tiles up to `n`: by induction on the tile. -/
theorem rows_eq0 (c : Dev nD) (q : Fin 128) : ∀ (n : ℕ) (h : n < cfg0.N),
    (outsAt0 V c n h).2.2.1 (ix2 (0 : Fin 1) q) = BatchNormAlgebra.accum (0 : EReal) (tsum0 V c q) (n + 1)
    ∧ (outsAt0 V c n h).2.2.2 (ix2 (0 : Fin 1) q) = BatchNormAlgebra.accum (0 : EReal) (tsq0 V c q) (n + 1)
  | 0, h => rows_first0 V c q ⟨0, h⟩ rfl
  | n + 1, h => by
    have hN : n + 1 < 10 := lt_of_lt_of_eq h (show cfg0.N = 10 from N_0)
    obtain ⟨s0, s1⟩ := rows_later0 V c q ⟨n + 1, h⟩ (by dsimp only; omega)
    obtain ⟨i0, i1⟩ := rows_eq0 c q n (Nat.lt_of_succ_lt h)
    exact ⟨s0.trans (congrArg (· + tsum0 V c q (n + 1)) i0), s1.trans (congrArg (· + tsq0 V c q (n + 1)) i1)⟩

/-! ## The statistics output's array after the region -/

/-- The last tile copies the two carried rows, as it leaves them, into the two rows of the statistics output. -/
theorem stats_rows0 (c : Dev nD) (q : Fin 128) (t : Fin cfg0.N) (h1 : t.val % 10 = 9) :
    (outsAt0 V c t.val t.isLt).2.1 (ix2 (0 : Fin 2) q) = (outsAt0 V c t.val t.isLt).2.2.1 (ix2 (0 : Fin 1) q)
    ∧ (outsAt0 V c t.val t.isLt).2.1 (ix2 (1 : Fin 2) q) = (outsAt0 V c t.val t.isLt).2.2.2 (ix2 (0 : Fin 1) q) := by
  have h0 : ¬t.val % 10 = 0 := by omega
  rw [outsAt0_C V c t h0 h1]
  dsimp only
  rw [out6_0_C_row0, out6_0_C_row1, row0_0_C, row1_0_C]
  exact ⟨rfl, rfl⟩

/-- What the last tile leaves in the statistics output's buffer, as contents of its array (the one block is the array). -/
abbrev stats0 (c : Dev nD) : S2x128.Idx → EReal :=
  (outsAt0 V c 9 (by rw [show cfg0.N = 10 from N_0]; decide)).2.1

/-- The one write-back, at the last point, writes it. -/
theorem flushed6_eq0 (c : Dev nD) (t : Fin cfg0.N) (hf : (cfg0.win 6).flush t = true) :
    (dat0 V c).flushed 6 t = ((cfg0.win 6).blk t).view.read (Elt Ideal) (stats0 V c) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6]
  have hz' : (fun a => win0_6.index t0_9 a * main_v15_1.ty.shape.size a) = fun _ => 0 := funext fun a => by fin_cases a <;> decide
  exact (Memref.read_access_unit_zero (Elt Ideal) main_v15_1 hz' (fun a => by rw [congrFun hz' a]; simp) (stats0 V c)).symm

/-- So the statistics array ends holding what the last tile left in the buffer. -/
theorem final6_0 (c : Dev nD) : (dat0 V c).arrAt 6 cfg0.N = stats0 V c :=
  (dat0 V c).arrAt_eq_of_cover 6 (stats0 V c) (flushed6_eq0 V c) fun i =>
    ⟨t0_9, (flush0_6 t0_9).mpr rfl, by
      show i ∈ ((View.whole main_v15_1).slice (win0_6.rect t0_9)).set
      rw [View.set_slice_whole, Rect.mem_set_unit]
      intro a
      have h0 : (i 0 : Nat) < 2 := (i 0).isLt
      have h1 : (i 1 : Nat) < 128 := (i 1).isLt
      match a with
      | ⟨0, _⟩ => show win0_6.index t0_9 0 * win0_6.size 0 ≤ (i 0 : Nat) ∧ (i 0 : Nat) < win0_6.index t0_9 0 * win0_6.size 0 + win0_6.xsize (grid0.coords t0_9) 0
                  rw [show win0_6.index t0_9 0 * win0_6.size 0 = 0 from by decide +kernel, show win0_6.xsize (grid0.coords t0_9) 0 = 2 from by decide +kernel]; omega
      | ⟨1, _⟩ => show win0_6.index t0_9 1 * win0_6.size 1 ≤ (i 1 : Nat) ∧ (i 1 : Nat) < win0_6.index t0_9 1 * win0_6.size 1 + win0_6.xsize (grid0.coords t0_9) 1
                  rw [show win0_6.index t0_9 1 * win0_6.size 1 = 0 from by decide +kernel, show win0_6.xsize (grid0.coords t0_9) 1 = 128 from by decide +kernel]; omega⟩

/-- The two output arrays after the region, named. -/
theorem statsOut_eq0 (c : Dev nD) : statsOut0 V c = stats0 V c := final6_0 V c
theorem linOut_eq0 (c : Dev nD) : linOut0 V c = linArr0 V c := final5_0 V c

/-- The last tile's copy, at the tile's number. -/
theorem stats_rows_nat0 (c : Dev nD) (q : Fin 128) (n : ℕ) (h : n < cfg0.N) (h1 : n % 10 = 9) :
    (outsAt0 V c n h).2.1 (ix2 (0 : Fin 2) q) = (outsAt0 V c n h).2.2.1 (ix2 (0 : Fin 1) q)
    ∧ (outsAt0 V c n h).2.1 (ix2 (1 : Fin 2) q) = (outsAt0 V c n h).2.2.2 (ix2 (0 : Fin 1) q) :=
  stats_rows0 V c q ⟨n, h⟩ h1

/-- The two rows of the statistics array are the running sums after the ten tiles. -/
theorem stats_row0_eq0 (c : Dev nD) (q : Fin 128) :
    stats0 V c (ix2 (0 : Fin 2) q) = BatchNormAlgebra.accum (0 : EReal) (tsum0 V c q) 10 :=
  (stats_rows_nat0 V c q 9 _ rfl).1.trans (rows_eq0 V c q 9 _).1
theorem stats_row1_eq0 (c : Dev nD) (q : Fin 128) :
    stats0 V c (ix2 (1 : Fin 2) q) = BatchNormAlgebra.accum (0 : EReal) (tsq0 V c q) 10 :=
  (stats_rows_nat0 V c q 9 _ rfl).2.trans (rows_eq0 V c q 9 _).2

/-- The sums over the ten tiles are the sums over all 50000 rows. -/
theorem tsum_total0 (c : Dev nD) (q : Fin 128) :
    BatchNormAlgebra.accum (0 : EReal) (tsum0 V c q) 10 = ∑ p : Fin 50000, linArr0 V c (ix2 p q) := by
  unfold tsum0
  exact Cert.Tiles.accum_tiles_col (linArr0 V c) q
theorem tsq_total0 (c : Dev nD) (q : Fin 128) :
    BatchNormAlgebra.accum (0 : EReal) (tsq0 V c q) 10 = ∑ p : Fin 50000, linArr0 V c (ix2 p q) * linArr0 V c (ix2 p q) := by
  unfold tsq0
  exact Cert.Tiles.accum_tiles_col (fun i => linArr0 V c i * linArr0 V c i : S50000x128.Idx → EReal) q

/-- THE STATISTICS after the region, row 0: per column, the sum over all 50000 rows of the tile output. -/
theorem final0_sum (c : Dev nD) (q : Fin 128) :
    statsOut0 V c (ix2 (0 : Fin 2) q) = ∑ p : Fin 50000, linOut0 V c (ix2 p q) := by
  rw [statsOut_eq0, linOut_eq0, stats_row0_eq0, tsum_total0]

/-- Row 1: per column, the sum over all rows of the tile output's square. -/
theorem final0_sumsq (c : Dev nD) (q : Fin 128) :
    statsOut0 V c (ix2 (1 : Fin 2) q) = ∑ p : Fin 50000, linOut0 V c (ix2 p q) * linOut0 V c (ix2 p q) := by
  rw [statsOut_eq0, linOut_eq0, stats_row1_eq0, tsq_total0]

end Cert.KernelIdeal.Hand

end
-- ==== Proof.KIValue2Cases.lean ====
/-
  Region 2: what each control case leaves, in closed form.

  Every load of the body reads a whole buffer and every store writes a whole buffer or a whole row, so what a case leaves
  in a buffer is the payload of its last store there, with each loaded value replaced by the contents it was loaded from:
  the tile output holds the linear map of the five input blocks; carried row 0 holds what it held (zero at the first tile)
  plus the tile's column sums of the linear map; carried row 1 the same with the squares; and at the last tile the two
  rows of the statistics output hold the two carried rows as that tile leaves them.
-/
import proofs.«140440_j51049981280319_1_alg».proof.Proof.KIRegion2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz2 : (![0, 0] : Fin 2 → Nat) = fun _ => 0 := funext fun a => by fin_cases a <;> rfl

/-- In case A the tile output's buffer ends holding the linear map of the five input blocks: its one store covers the
    buffer, and every load reads a whole buffer. -/
theorem out5_2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : out2_A_5 c i arg1 harg1 arg2 harg2 arg3 harg3 arg4 harg4 arg5 harg5 arg6 harg6 arg7 harg7 arg8 harg8 arg9 harg9 hc0 hc1 x1 x2 x3 x4 x5 = k2_pay4 x1 x2 x3 x4 x5 := by
  unfold out2_A_5
  rw [View.read_writes_eq_canon _ _ _ (cover2_A_5 c i arg1 harg1 arg2 harg2 arg3 harg3 arg4 harg4 arg5 harg5 arg6 harg6 arg7 harg7 arg8 harg8 arg9 harg9 hc0 hc1 x1 x2 x3 x4 x5)]
  unfold kernelRun2_A
  dsimp only
  rw [View.canon_unit_zero hz2]
  simp only [View.readAt_eq_ld, harg1.read_unread, harg2.read_unread, harg3.read_unread, harg4.read_unread, harg5.read_unread,
    View.ld_unit_zero (S := S5000x128) hz2, View.ld_unit_zero (S := S128x128) hz2, View.ld_unit_zero (S := S1x128) hz2]

/-- In case B the tile output's buffer ends holding the linear map of the five input blocks: its one store covers the
    buffer, and every load reads a whole buffer. -/
theorem out5_2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : out2_B_5 c i arg1 harg1 arg2 harg2 arg3 harg3 arg4 harg4 arg5 harg5 arg6 harg6 arg7 harg7 arg8 harg8 arg9 harg9 hc0 hc1 x1 x2 x3 x4 x5 xs0 xs1 = k2_pay4 x1 x2 x3 x4 x5 := by
  unfold out2_B_5
  rw [View.read_writes_eq_canon _ _ _ (cover2_B_5 c i arg1 harg1 arg2 harg2 arg3 harg3 arg4 harg4 arg5 harg5 arg6 harg6 arg7 harg7 arg8 harg8 arg9 harg9 hc0 hc1 x1 x2 x3 x4 x5 xs0 xs1)]
  unfold kernelRun2_B
  dsimp only
  rw [View.canon_unit_zero hz2]
  simp only [View.readAt_eq_ld, harg1.read_unread, harg2.read_unread, harg3.read_unread, harg4.read_unread, harg5.read_unread,
    View.ld_unit_zero (S := S5000x128) hz2, View.ld_unit_zero (S := S128x128) hz2, View.ld_unit_zero (S := S1x128) hz2]

/-- In case C the tile output's buffer ends holding the linear map of the five input blocks: its one store covers the
    buffer, and every load reads a whole buffer. -/
theorem out5_2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : out2_C_5 c i arg1 harg1 arg2 harg2 arg3 harg3 arg4 harg4 arg5 harg5 arg6 harg6 arg7 harg7 arg8 harg8 arg9 harg9 hc0 hc1 x1 x2 x3 x4 x5 xs0 xs1 = k2_pay4 x1 x2 x3 x4 x5 := by
  unfold out2_C_5
  rw [View.read_writes_eq_canon _ _ _ (cover2_C_5 c i arg1 harg1 arg2 harg2 arg3 harg3 arg4 harg4 arg5 harg5 arg6 harg6 arg7 harg7 arg8 harg8 arg9 harg9 hc0 hc1 x1 x2 x3 x4 x5 xs0 xs1)]
  unfold kernelRun2_C
  dsimp only
  rw [View.canon_unit_zero hz2]
  simp only [View.readAt_eq_ld, harg1.read_unread, harg2.read_unread, harg3.read_unread, harg4.read_unread, harg5.read_unread,
    View.ld_unit_zero (S := S5000x128) hz2, View.ld_unit_zero (S := S128x128) hz2, View.ld_unit_zero (S := S1x128) hz2]

/-- In case B carried row 0 ends holding what the tile before left plus this tile's column sums. -/
theorem row0_2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : sout2_B_0 c i arg1 harg1 arg2 harg2 arg3 harg3 arg4 harg4 arg5 harg5 arg6 harg6 arg7 harg7 arg8 harg8 arg9 harg9 hc0 hc1 x1 x2 x3 x4 x5 xs0 xs1 = k2_pay5 x1 x2 x3 x4 x5 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 hc0 hc1 x1 x2 x3 x4 x5 xs0 xs1)]
  unfold kernelRun2_B
  dsimp only
  rw [View.canon_unit_zero hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]

/-- In case B carried row 1 ends holding what the tile before left plus this tile's column sums of squares. -/
theorem row1_2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : ¬cond2_1 i) (x1 x2 : Vec F S5000x128 .f32) (x3 x4 : Vec F S128x128 .f32) (x5 : Vec F S1x128 .f32) (xs0 xs1 : Vec F S1x128 .f32) : sout2_B_1 c i arg1 harg1 arg2 harg2 arg3 harg3 arg4 harg4 arg5 harg5 arg6 harg6 arg7 harg7 arg8 harg8 arg9 harg9 hc0 hc1 x1 x2 x3 x4 x5 xs0 xs1 = k2_pay1 xs1 (k2_pay6 x1 x2 x3 x4 x5) := by
  unfold sout2_B_1
  rw [View.read_writes_eq_canon _ _ _ (scover2_B_1 c i arg1 harg1 arg2 harg2 arg3 harg3 arg4 harg4 arg5 harg5 arg6 harg6 arg7 harg7 arg8 harg8 arg9 harg9 hc0 hc1 x1 x2 x3 x4 x5 xs0 xs1)]
  unfold kernelRun2_B
  dsimp only
  sl_unfold_words
  rw [View.canon_unit_zero hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]

/-- In case C carried row 0 ends holding what the tile before left plus this tile's column sums. -/
theorem row0_2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : sout2_C_0 c i arg1 harg1 arg2 harg2 arg3 harg3 arg4 harg4 arg5 harg5 arg6 harg6 arg7 harg7 arg8 harg8 arg9 harg9 hc0 hc1 x1 x2 x3 x4 x5 xs0 xs1 = k2_pay5 x1 x2 x3 x4 x5 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 hc0 hc1 x1 x2 x3 x4 x5 xs0 xs1)]
  unfold kernelRun2_C
  dsimp only
  sl_unfold_words
  rw [View.canon_unit_zero hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]

/-- In case C carried row 1 ends holding what the tile before left plus this tile's column sums of squares. -/
theorem row1_2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) : sout2_C_1 c i arg1 harg1 arg2 harg2 arg3 harg3 arg4 harg4 arg5 harg5 arg6 harg6 arg7 harg7 arg8 harg8 arg9 harg9 hc0 hc1 x1 x2 x3 x4 x5 xs0 xs1 = k2_pay1 xs1 (k2_pay6 x1 x2 x3 x4 x5) := by
  unfold sout2_C_1
  rw [View.read_writes_eq_canon _ _ _ (scover2_C_1 c i arg1 harg1 arg2 harg2 arg3 harg3 arg4 harg4 arg5 harg5 arg6 harg6 arg7 harg7 arg8 harg8 arg9 harg9 hc0 hc1 x1 x2 x3 x4 x5 xs0 xs1)]
  unfold kernelRun2_C
  dsimp only
  sl_unfold_words
  rw [View.canon_unit_zero hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]

/-- At the first tile carried row 0 ends holding the zero row plus the tile's column sums: the row is zeroed, read back,
    and added to. -/
theorem row0_2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : sout2_A_0 c i arg1 harg1 arg2 harg2 arg3 harg3 arg4 harg4 arg5 harg5 arg6 harg6 arg7 harg7 arg8 harg8 arg9 harg9 hc0 hc1 x1 x2 x3 x4 x5 = k2_pay5 x1 x2 x3 x4 x5 (k2_pay2 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 hc0 hc1 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread,
    View.ld_unit_zero (S := S5000x128) hz2, View.ld_unit_zero (S := S128x128) hz2, View.ld_unit_zero (S := S1x128) hz2]

/-- At the first tile carried row 1 ends holding the zero row plus the tile's column sums of squares. -/
theorem row1_2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond2_0 i) (hc1 : ¬cond2_1 i) (x1 x2 : Vec F S5000x128 .f32) (x3 x4 : Vec F S128x128 .f32) (x5 : Vec F S1x128 .f32) : sout2_A_1 c i arg1 harg1 arg2 harg2 arg3 harg3 arg4 harg4 arg5 harg5 arg6 harg6 arg7 harg7 arg8 harg8 arg9 harg9 hc0 hc1 x1 x2 x3 x4 x5 = k2_pay1 (k2_pay3 (F := F)) (k2_pay6 x1 x2 x3 x4 x5) := by
  unfold sout2_A_1
  rw [View.read_writes_eq_canon _ _ _ (scover2_A_1 c i arg1 harg1 arg2 harg2 arg3 harg3 arg4 harg4 arg5 harg5 arg6 harg6 arg7 harg7 arg8 harg8 arg9 harg9 hc0 hc1 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread,
    View.ld_unit_zero (S := S5000x128) hz2, View.ld_unit_zero (S := S128x128) hz2, View.ld_unit_zero (S := S1x128) hz2]

/-- At the last tile row 0 of the statistics output holds carried row 0 as the tile leaves it: the second row's store does
    not reach row 0, and the first row's store is the carried row just written, read back. -/
theorem out6_2_C_row0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (q : Fin 128) :
    out2_C_6 c i arg1 harg1 arg2 harg2 arg3 harg3 arg4 harg4 arg5 harg5 arg6 harg6 arg7 harg7 arg8 harg8 arg9 harg9 hc0 hc1 x1 x2 x3 x4 x5 xs0 xs1 (ValueIdx.ix2 (0 : Fin 2) q) = k2_pay5 x1 x2 x3 x4 x5 xs0 (ValueIdx.ix2 (0 : Fin 1) q) := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x1 x2 x3 x4 x5 xs0 xs1)]
  unfold kernelRun2_C
  dsimp only
  sl_unfold_words
  rw [View.readCov_unit_zero (S := S1x128) _ hz2, View.readCov_unit_zero (S := S1x128) _ hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]
  rw [View.canon_cons_of_not_mem _ _ (by
    rw [Rect.mem_set_unit]; intro h; have h0 : (1 : ℕ) ≤ 0 := (h 0).1; omega)]
  have e : (ValueIdx.ix2 (0 : Fin 2) q : S2x128.Idx) = (Rect.unit (s := S2x128) ![0, 0] S1x128.size inb_S2x128_S1x128_0_0).emb (ValueIdx.ix2 (0 : Fin 1) q) := by
    funext a; apply Fin.ext
    match a with
    | ⟨0, _⟩ => rfl
    | ⟨1, _⟩ => show q.val = 0 + 1 * q.val; omega
  rw [e, View.canon_cons_emb]

/-- At the last tile row 1 of the statistics output holds carried row 1 as the tile leaves it. -/
theorem out6_2_C_row1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i) (hc1 : cond2_1 i) (x1 x2 : Vec F S5000x128 .f32) (x3 x4 : Vec F S128x128 .f32) (x5 : Vec F S1x128 .f32) (xs0 xs1 : Vec F S1x128 .f32) (q : Fin 128) :
    out2_C_6 c i arg1 harg1 arg2 harg2 arg3 harg3 arg4 harg4 arg5 harg5 arg6 harg6 arg7 harg7 arg8 harg8 arg9 harg9 hc0 hc1 x1 x2 x3 x4 x5 xs0 xs1 (ValueIdx.ix2 (1 : Fin 2) q) = k2_pay1 xs1 (k2_pay6 x1 x2 x3 x4 x5) (ValueIdx.ix2 (0 : Fin 1) q) := by
  unfold out2_C_6
  rw [View.read_writes_eq_canon _ _ _ (cover2_C_6 c i arg1 harg1 arg2 harg2 arg3 harg3 arg4 harg4 arg5 harg5 arg6 harg6 arg7 harg7 arg8 harg8 arg9 harg9 hc0 hc1 x1 x2 x3 x4 x5 xs0 xs1)]
  unfold kernelRun2_C
  dsimp only
  sl_unfold_words
  rw [View.readCov_unit_zero (S := S1x128) _ hz2, View.readCov_unit_zero (S := S1x128) _ hz2]
  simp only [View.readAt_eq_ld, harg1.read_unread, harg2.read_unread, harg3.read_unread, harg4.read_unread, harg5.read_unread, harg8.read_unread, harg9.read_unread,
    View.ld_unit_zero (S := S5000x128) hz2, View.ld_unit_zero (S := S128x128) hz2, View.ld_unit_zero (S := S1x128) hz2]
  have e : (ValueIdx.ix2 (1 : Fin 2) q : S2x128.Idx) = (Rect.unit (s := S2x128) ![1, 0] S1x128.size inb_S2x128_S1x128_1_0).emb (ValueIdx.ix2 (0 : Fin 1) q) := by
    funext a; apply Fin.ext
    match a with
    | ⟨0, _⟩ => rfl
    | ⟨1, _⟩ => show q.val = 0 + 1 * q.val; omega
  rw [e, View.canon_cons_emb]

end Cert.KernelIdeal.Hand

end
-- ==== Proof.KIValue2Pay.lean ====
/-
  The kernel's linear map and its column statistics on one tile, read at an index, for region 2.

  A tile is 5000 rows of the layer's input `h` and of the neighbourhood sums `agg`. The region computes on it
  `lin[r, c] = ∑_k h[r, k] · w_root[k, c] + ∑_k agg[r, k] · w_rel[k, c] + b[c]` (the two products on values whose change of
  format is the identity here), and adds the tile's column sums of `lin` and of `lin²` to two rows it carries from tile to
  tile. In this region the second row's update is spelt in two steps: the tile's column sums of `lin²` first, then their sum
  with what the row held.
-/
import proofs.«140440_j51049981280319_1_alg».proof.KernelIdeal
import proofs.«140440_j51049981280319_1_alg».proof.Proof.Gen.KernelIdeal.Skeleton
import proofs.«140440_j51049981280319_1_alg».proof.Proof.LibRowLayout
import proofs.«140440_j51049981280319_1_alg».proof.Proof.LibMatmulNN
import Idealize.ShloMosaic.Lib.ValueLayout

noncomputable section

namespace Cert.KernelIdeal.Linear

open Idealize.ShloMosaic Idealize.ShloMosaic.ValueIdx
open Cert.KernelIdeal Cert.KernelIdeal.Facts₀

variable [Cert.KernelIdeal.Facts]

/-- The linear map on a tile at `(r, c)`. -/
theorem k2_pay4_apply (hb ab : Vec Ideal S5000x128 .f32) (wr wl : Vec Ideal S128x128 .f32) (bias : Vec Ideal S1x128 .f32)
    (r : Fin 5000) (c : Fin 128) :
    Gen.k2_pay4 (F := Ideal) hb ab wr wl bias (ix2 r c)
      = (∑ k : Fin 128, hb (ix2 r k) * wr (ix2 k c)) + (∑ k : Fin 128, ab (ix2 r k) * wl (ix2 k c))
          + bias (ix2 (0 : Fin 1) c) := by
  unfold Gen.k2_pay4
  simp only [shapeCast_self, addf_apply, matmul]
  rw [Cert.LibMatmulNN.matmul_zero_apply dot_S5000x128_S128x128_S5000x128_1_0_0_1_n_n rfl,
    Cert.LibMatmulNN.matmul_zero_apply dot_S5000x128_S128x128_S5000x128_1_0_0_1_n_n rfl, broadcastTo_1b_ab_apply]
  rfl

/-- The carried row of sums after a tile: what it held plus the tile's column sums of the linear map. -/
theorem k2_pay5_apply (hb ab : Vec Ideal S5000x128 .f32) (wr wl : Vec Ideal S128x128 .f32) (bias : Vec Ideal S1x128 .f32)
    (acc : Vec Ideal S1x128 .f32) (c : Fin 128) :
    Gen.k2_pay5 (F := Ideal) hb ab wr wl bias acc (ix2 (0 : Fin 1) c)
      = acc (ix2 (0 : Fin 1) c) + ∑ r : Fin 5000, Gen.k2_pay4 (F := Ideal) hb ab wr wl bias (ix2 r c) := by
  unfold Gen.k2_pay5
  simp only [shapeCast_self]
  show acc (ix2 (0 : Fin 1) c) + shapeCast S1x128 (multiReduction .add [0] S128 (Gen.k2_pay4 (F := Ideal) hb ab wr wl bias)
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

/-- The carried row of sums of squares after a tile: what it held plus the tile's column sums of the squared linear map. -/
theorem k2_pay1_pay6_apply (hb ab : Vec Ideal S5000x128 .f32) (wr wl : Vec Ideal S128x128 .f32) (bias : Vec Ideal S1x128 .f32)
    (acc : Vec Ideal S1x128 .f32) (c : Fin 128) :
    Gen.k2_pay1 (F := Ideal) acc (Gen.k2_pay6 (F := Ideal) hb ab wr wl bias) (ix2 (0 : Fin 1) c)
      = acc (ix2 (0 : Fin 1) c) + ∑ r : Fin 5000, Gen.k2_pay4 (F := Ideal) hb ab wr wl bias (ix2 r c)
          * Gen.k2_pay4 (F := Ideal) hb ab wr wl bias (ix2 r c) := by
  unfold Gen.k2_pay1 Gen.k2_pay6
  simp only [shapeCast_self]
  show acc (ix2 (0 : Fin 1) c) + shapeCast S1x128 (multiReduction .add [0] S128
      (mulf (Gen.k2_pay4 (F := Ideal) hb ab wr wl bias) (Gen.k2_pay4 (F := Ideal) hb ab wr wl bias))
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

end Cert.KernelIdeal.Linear

end
-- ==== Proof.KIValue2Lin.lean ====
/-
  Region 2 at the ideal values: the tile output after the region is the layer's linear map of the arrays the region finds.

  Row `r` of the tile at point `t` is row `r + 5000 · t` of the row-tiled arrays; the weights and the bias are whole at every
  point. So what point `t` writes back is block `t` of one function of the arrays — at row `p` and column `q`, the sum over
  `k` of input times root weight, plus the sum over `k` of neighbourhood sum times relation weight, plus the bias — and the
  ten blocks cover the array.
-/
import proofs.«140440_j51049981280319_1_alg».proof.Proof.KIValue2Cases
import proofs.«140440_j51049981280319_1_alg».proof.Proof.KIValue2Pay
import proofs.«140440_j51049981280319_1_alg».proof.Proof.Tiles
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The index maps, and the input blocks read at an index -/

/-- The tile a point visits. -/
def tile2 (t : Fin cfg2.N) : Fin 10 := ⟨t.val, lt_of_lt_of_eq t.isLt (show cfg2.N = 10 from N_2)⟩

/-- The printed index maps, decided over the ten points: the row-tiled windows are at block `t` along the rows, every
    other block index is zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 :=
  (by decide +kernel : ∀ t : Fin grid2.N, _)

/-- Row `r` of the layer input's tile at point `t` is row `r + 5000 · t` of the array. -/
theorem iblk2_0_apply (c : Dev nD) (t : Fin cfg2.N) (r : Fin 5000) (k : Fin 128) :
    iblk2 V c 0 t (ix2 r k) = V c main_v34 (ix2 (Cert.Tiles.row (tile2 t) r) k) := by
  obtain ⟨e00, e01, -⟩ := idx_facts2 t
  show V c main_v34 (((cfg2.win 0).blk t).view.emb (ix2 r k)) = _
  refine congrArg (V c main_v34) ?_
  funext a; apply Fin.ext
  match a with
  | ⟨0, _⟩ => show win2_0.index t (0 : Fin 2) * 5000 + 1 * r.val = r.val + 5000 * t.val; omega
  | ⟨1, _⟩ => show win2_0.index t (1 : Fin 2) * 128 + 1 * k.val = k.val; omega

/-- The same of the neighbourhood sums' tile. -/
theorem iblk2_1_apply (c : Dev nD) (t : Fin cfg2.N) (r : Fin 5000) (k : Fin 128) :
    iblk2 V c 1 t (ix2 r k) = V c main_v44 (ix2 (Cert.Tiles.row (tile2 t) r) k) := by
  obtain ⟨-, -, e10, e11, -⟩ := idx_facts2 t
  show V c main_v44 (((cfg2.win 1).blk t).view.emb (ix2 r k)) = _
  refine congrArg (V c main_v44) ?_
  funext a; apply Fin.ext
  match a with
  | ⟨0, _⟩ => show win2_1.index t (0 : Fin 2) * 5000 + 1 * r.val = r.val + 5000 * t.val; omega
  | ⟨1, _⟩ => show win2_1.index t (1 : Fin 2) * 128 + 1 * k.val = k.val; omega

/-- The two weight blocks and the bias block are the whole arrays at every point. -/
theorem iblk2_2_apply (c : Dev nD) (t : Fin cfg2.N) (k : Fin 128) (q : Fin 128) :
    iblk2 V c 2 t (ix2 k q) = V c main_arg6 (ix2 k q) := by
  obtain ⟨-, -, -, -, e20, e21, -⟩ := idx_facts2 t
  show V c main_arg6 (((cfg2.win 2).blk t).view.emb (ix2 k q)) = _
  refine congrArg (V c main_arg6) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem iblk2_3_apply (c : Dev nD) (t : Fin cfg2.N) (k : Fin 128) (q : Fin 128) :
    iblk2 V c 3 t (ix2 k q) = V c main_arg7 (ix2 k q) := by
  obtain ⟨-, -, -, -, -, -, e30, e31, -⟩ := idx_facts2 t
  show V c main_arg7 (((cfg2.win 3).blk t).view.emb (ix2 k q)) = _
  refine congrArg (V c main_arg7) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem iblk2_4_apply (c : Dev nD) (t : Fin cfg2.N) (z : Fin 1) (q : Fin 128) :
    iblk2 V c 4 t (ix2 z q) = V c main_v45 (ix2 z q) := by
  obtain ⟨-, -, -, -, -, -, -, -, e40, e41, -⟩ := idx_facts2 t
  show V c main_v45 (((cfg2.win 4).blk t).view.emb (ix2 z q)) = _
  refine congrArg (V c main_v45) ?_
  funext a; apply Fin.ext
  match a with
  | ⟨0, _⟩ => show win2_4.index t (0 : Fin 2) * 1 + 1 * z.val = z.val; omega
  | ⟨1, _⟩ => show win2_4.index t (1 : Fin 2) * 128 + 1 * q.val = q.val; omega

/-! ## The linear map -/

/-- The region's five input arrays as it finds them, read as extended reals: the layer input, the neighbourhood sums, the two
    weights, the bias row. -/
abbrev rdH2 (c : Dev nD) : S50000x128.Idx → EReal := V c main_v34
abbrev rdAgg2 (c : Dev nD) : S50000x128.Idx → EReal := V c main_v44
abbrev rdWr2 (c : Dev nD) : S128x128.Idx → EReal := V c main_arg6
abbrev rdWl2 (c : Dev nD) : S128x128.Idx → EReal := V c main_arg7
abbrev rdB2 (c : Dev nD) : S1x128.Idx → EReal := V c main_v45

/-- The region's linear map of the arrays as it finds them, at row `p` and column `q`. -/
def lin2 (c : Dev nD) (p : Fin 50000) (q : Fin 128) : EReal :=
  (∑ k : Fin 128, rdH2 V c (ix2 p k) * rdWr2 V c (ix2 k q)) + (∑ k : Fin 128, rdAgg2 V c (ix2 p k) * rdWl2 V c (ix2 k q))
    + rdB2 V c (ix2 (0 : Fin 1) q)

/-- The same as contents of the tile output's array. -/
abbrev linArr2 (c : Dev nD) : S50000x128.Idx → EReal := fun i => lin2 V c (i 0) (i 1)

/-- The two output arrays after the region, read as extended reals. -/
abbrev linOut2 (c : Dev nD) : S50000x128.Idx → EReal := (dat2 (F := Ideal) V c).arrAt 5 cfg2.N
abbrev statsOut2 (c : Dev nD) : S2x128.Idx → EReal := (dat2 (F := Ideal) V c).arrAt 6 cfg2.N

/-- The body's linear map of the blocks at point `t`, at row `r` of the tile, is the region's at row `r + 5000 · t`. -/
theorem tile_lin2 (c : Dev nD) (t : Fin cfg2.N) (r : Fin 5000) (q : Fin 128) :
    k2_pay4 (F := Ideal) (iblk2 V c 0 t) (iblk2 V c 1 t) (iblk2 V c 2 t) (iblk2 V c 3 t) (iblk2 V c 4 t) (ix2 r q) = lin2 V c (Cert.Tiles.row (tile2 t) r) q := by
  rw [Cert.KernelIdeal.Linear.k2_pay4_apply]
  unfold lin2
  simp only [iblk2_0_apply, iblk2_1_apply, iblk2_2_apply, iblk2_3_apply, iblk2_4_apply]
  first | done | rfl

/-- After every tile the tile output's buffer holds the body's linear map of the tile's blocks. -/
theorem outs5_eq2 (c : Dev nD) (t : Fin cfg2.N) :
    (outsAt2 V c t.val t.isLt).1 = k2_pay4 (F := Ideal) (iblk2 V c 0 t) (iblk2 V c 1 t) (iblk2 V c 2 t) (iblk2 V c 3 t) (iblk2 V c 4 t) := by
  have hN : t.val < 10 := lt_of_lt_of_eq t.isLt (show cfg2.N = 10 from N_2)
  by_cases h0 : t.val % 10 = 0
  · have h1 : ¬t.val % 10 = 9 := by omega
    rw [outsAt2_A V c t h0 h1]; dsimp only; rw [out5_2_A]
  · by_cases h1 : t.val % 10 = 9
    · rw [outsAt2_C V c t h0 h1]; dsimp only; rw [out5_2_C]
    · rw [outsAt2_B V c t h0 h1]; dsimp only; rw [out5_2_B]

/-! ## The tile output's array after the region -/

/-- What point `t` writes back is block `t` of the region's linear map. -/
theorem flushed5_eq2 (c : Dev nD) (t : Fin cfg2.N) :
    (dat2 V c).flushed 5 t = ((cfg2.win 5).blk t).view.read (Elt Ideal) (linArr2 V c) := by
  show (cfg2.win 5).cut (grid2.coords t) ((dat2 V c).after 5 t) = _
  rw [after2_5, outs5_eq2]
  obtain ⟨-, -, -, -, -, -, -, -, -, -, e50, e51, -⟩ := idx_facts2 t
  funext j
  obtain ⟨r, q, rfl⟩ : ∃ (r : Fin 5000) (q : Fin 128), j = ix2 r q := ⟨j 0, j 1, eq_ix2 j⟩
  show k2_pay4 (F := Ideal) (iblk2 V c 0 t) (iblk2 V c 1 t) (iblk2 V c 2 t) (iblk2 V c 3 t) (iblk2 V c 4 t) (ix2 r q) = lin2 V c ((((cfg2.win 5).blk t).view.emb (ix2 r q)) 0) ((((cfg2.win 5).blk t).view.emb (ix2 r q)) 1)
  rw [tile_lin2]
  have e0 : (((cfg2.win 5).blk t).view.emb (ix2 r q)) 0 = Cert.Tiles.row (tile2 t) r :=
    Fin.ext (by show win2_5.index t (0 : Fin 2) * 5000 + 1 * r.val = r.val + 5000 * t.val; omega)
  have e1 : (((cfg2.win 5).blk t).view.emb (ix2 r q)) 1 = q :=
    Fin.ext (by show win2_5.index t (1 : Fin 2) * 128 + 1 * q.val = q.val; omega)
  rw [e0, e1]

/-- An index of the array is in point `t`'s block iff each coordinate is in the block's range on its axis. -/
theorem mem_blk5_2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v46_0).slice (win2_5.rect t)).set ↔ _
  rw [View.set_slice_whole, Rect.mem_set_unit]
  exact Iff.rfl

/-- The ten tiles cover the array (row `p` is in tile `p / 5000`), so it ends holding the region's linear map. -/
theorem final5_2 (c : Dev nD) : (dat2 V c).arrAt 5 cfg2.N = linArr2 V c :=
  (dat2 V c).arrAt_eq_of_cover 5 (linArr2 V c) (fun t _ => flushed5_eq2 V c t) fun i => by
    have hi0 : (i 0).val < 50000 := (i 0).isLt
    have hi1 : (i 1).val < 128 := (i 1).isLt
    have ht : (i 0).val / 5000 < cfg2.N := by rw [show cfg2.N = 10 from N_2]; omega
    obtain ⟨-, -, -, -, -, -, -, -, -, -, e50, e51, -⟩ := idx_facts2 ⟨(i 0).val / 5000, ht⟩
    refine ⟨⟨(i 0).val / 5000, ht⟩, flush2_5 _, ?_⟩
    rw [mem_blk5_2]
    intro a
    match a with
    | ⟨0, _⟩ => show win2_5.index ⟨(i 0).val / 5000, ht⟩ (0 : Fin 2) * 5000 ≤ (i 0).val ∧ (i 0).val < win2_5.index ⟨(i 0).val / 5000, ht⟩ (0 : Fin 2) * 5000 + 5000
                dsimp only at e50; omega
    | ⟨1, _⟩ => show win2_5.index ⟨(i 0).val / 5000, ht⟩ (1 : Fin 2) * 128 ≤ (i 1).val ∧ (i 1).val < win2_5.index ⟨(i 0).val / 5000, ht⟩ (1 : Fin 2) * 128 + 128
                omega

/-- THE TILE OUTPUT after the region: the linear map of the arrays the region finds, at every row and column. -/
theorem final2_lin (c : Dev nD) (p : Fin 50000) (q : Fin 128) :
    linOut2 V c (ix2 p q)
      = (∑ k : Fin 128, rdH2 V c (ix2 p k) * rdWr2 V c (ix2 k q)) + (∑ k : Fin 128, rdAgg2 V c (ix2 p k) * rdWl2 V c (ix2 k q))
          + rdB2 V c (ix2 (0 : Fin 1) q) := by
  show (dat2 (F := Ideal) V c).arrAt 5 cfg2.N (ix2 p q) = _
  rw [final5_2]; rfl

end Cert.KernelIdeal.Hand

end
-- ==== Proof.KIValue2.lean ====
/-
  Region 2 at the ideal values: the statistics output after the region holds, per column, the sum and the sum of squares
  of the tile output over all 50000 rows.

  The two carried rows start at zero at the first tile and each tile adds its own column sums of the linear map and of its
  square: by induction on the tile, after tile `n` they hold the sums over the tiles up to `n`. The last tile copies them
  into the two rows of the statistics output, which is written back once, there. The sum over the ten tiles of a tile's
  column sum is the column sum over all rows.
-/
import proofs.«140440_j51049981280319_1_alg».proof.Proof.KIValue2Lin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The carried rows are running column sums -/

/-- The zero rows the first tile stores. -/
theorem pay2_zero2 (q : Fin 128) : k2_pay2 (F := Ideal) (ix2 (0 : Fin 1) q) = 0 := by
  unfold k2_pay2; simp only [shapeCast_self]; exact Ideal.ofBits_zero_f32
theorem pay3_zero2 (q : Fin 128) : k2_pay3 (F := Ideal) (ix2 (0 : Fin 1) q) = 0 := by
  unfold k2_pay3; simp only [shapeCast_self]; exact Ideal.ofBits_zero_f32

/-- Tile `t`'s column sum of the linear map, and of its square (zero past the ten tiles). -/
def tsum2 (c : Dev nD) (q : Fin 128) : ℕ → EReal := fun t =>
  if h : t < 10 then ∑ r : Fin 5000, linArr2 V c (ix2 (Cert.Tiles.row ⟨t, h⟩ r) q) else 0
def tsq2 (c : Dev nD) (q : Fin 128) : ℕ → EReal := fun t =>
  if h : t < 10 then ∑ r : Fin 5000, (fun i => linArr2 V c i * linArr2 V c i : S50000x128.Idx → EReal) (ix2 (Cert.Tiles.row ⟨t, h⟩ r) q) else 0

/-- One tile adds its column sum to carried row 0, -/
theorem row0_step2 (c : Dev nD) (t : Fin cfg2.N) (acc : Vec Ideal S1x128 .f32) (q : Fin 128) :
    k2_pay5 (F := Ideal) (iblk2 V c 0 t) (iblk2 V c 1 t) (iblk2 V c 2 t) (iblk2 V c 3 t) (iblk2 V c 4 t) acc (ix2 (0 : Fin 1) q) = acc (ix2 (0 : Fin 1) q) + tsum2 V c q t.val := by
  rw [Cert.KernelIdeal.Linear.k2_pay5_apply]
  unfold tsum2
  rw [dif_pos (lt_of_lt_of_eq t.isLt (show cfg2.N = 10 from N_2))]
  exact congrArg (acc (ix2 (0 : Fin 1) q) + ·) (Finset.sum_congr rfl fun r _ => tile_lin2 V c t r q)

/-- and its column sum of squares to carried row 1. -/
theorem row1_step2 (c : Dev nD) (t : Fin cfg2.N) (acc : Vec Ideal S1x128 .f32) (q : Fin 128) :
    k2_pay1 (F := Ideal) acc (k2_pay6 (F := Ideal) (iblk2 V c 0 t) (iblk2 V c 1 t) (iblk2 V c 2 t) (iblk2 V c 3 t) (iblk2 V c 4 t)) (ix2 (0 : Fin 1) q) = acc (ix2 (0 : Fin 1) q) + tsq2 V c q t.val := by
  rw [Cert.KernelIdeal.Linear.k2_pay1_pay6_apply]
  unfold tsq2
  rw [dif_pos (lt_of_lt_of_eq t.isLt (show cfg2.N = 10 from N_2))]
  exact congrArg (acc (ix2 (0 : Fin 1) q) + ·) (Finset.sum_congr rfl fun r _ => by rw [tile_lin2 V c t r q]; rfl)

/-- After the first tile the rows hold that tile's sums. -/
theorem rows_first2 (c : Dev nD) (q : Fin 128) (t : Fin cfg2.N) (h0 : t.val % 10 = 0) :
    (outsAt2 V c t.val t.isLt).2.2.1 (ix2 (0 : Fin 1) q) = 0 + tsum2 V c q t.val
    ∧ (outsAt2 V c t.val t.isLt).2.2.2 (ix2 (0 : Fin 1) q) = 0 + tsq2 V c q t.val := by
  have hN : t.val < 10 := lt_of_lt_of_eq t.isLt (show cfg2.N = 10 from N_2)
  have h1 : ¬t.val % 10 = 9 := by omega
  rw [outsAt2_A V c t h0 h1]
  dsimp only
  rw [row0_2_A, row1_2_A, row0_step2, row1_step2, pay2_zero2, pay3_zero2]
  exact ⟨rfl, rfl⟩

/-- After any later tile the rows hold what the tile before left plus this tile's sums. -/
theorem rows_later2 (c : Dev nD) (q : Fin 128) (t : Fin cfg2.N) (h0 : ¬t.val % 10 = 0) :
    (outsAt2 V c t.val t.isLt).2.2.1 (ix2 (0 : Fin 1) q)
        = (outsAt2 V c (t.val - 1) (Nat.lt_of_le_of_lt (Nat.sub_le _ _) t.isLt)).2.2.1 (ix2 (0 : Fin 1) q) + tsum2 V c q t.val
    ∧ (outsAt2 V c t.val t.isLt).2.2.2 (ix2 (0 : Fin 1) q)
        = (outsAt2 V c (t.val - 1) (Nat.lt_of_le_of_lt (Nat.sub_le _ _) t.isLt)).2.2.2 (ix2 (0 : Fin 1) q) + tsq2 V c q t.val := by
  by_cases h1 : t.val % 10 = 9
  · rw [outsAt2_C V c t h0 h1]
    dsimp only
    rw [row0_2_C, row1_2_C, row0_step2, row1_step2]
    exact ⟨rfl, rfl⟩
  · rw [outsAt2_B V c t h0 h1]
    dsimp only
    rw [row0_2_B, row1_2_B, row0_step2, row1_step2]
    exact ⟨rfl, rfl⟩

/-- So after tile `n` the rows hold the sums over the tiles up to `n`: by induction on the tile. -/
theorem rows_eq2 (c : Dev nD) (q : Fin 128) : ∀ (n : ℕ) (h : n < cfg2.N),
    (outsAt2 V c n h).2.2.1 (ix2 (0 : Fin 1) q) = BatchNormAlgebra.accum (0 : EReal) (tsum2 V c q) (n + 1)
    ∧ (outsAt2 V c n h).2.2.2 (ix2 (0 : Fin 1) q) = BatchNormAlgebra.accum (0 : EReal) (tsq2 V c q) (n + 1)
  | 0, h => rows_first2 V c q ⟨0, h⟩ rfl
  | n + 1, h => by
    have hN : n + 1 < 10 := lt_of_lt_of_eq h (show cfg2.N = 10 from N_2)
    obtain ⟨s0, s1⟩ := rows_later2 V c q ⟨n + 1, h⟩ (by dsimp only; omega)
    obtain ⟨i0, i1⟩ := rows_eq2 c q n (Nat.lt_of_succ_lt h)
    exact ⟨s0.trans (congrArg (· + tsum2 V c q (n + 1)) i0), s1.trans (congrArg (· + tsq2 V c q (n + 1)) i1)⟩

/-! ## The statistics output's array after the region -/

/-- The last tile copies the two carried rows, as it leaves them, into the two rows of the statistics output. -/
theorem stats_rows2 (c : Dev nD) (q : Fin 128) (t : Fin cfg2.N) (h1 : t.val % 10 = 9) :
    (outsAt2 V c t.val t.isLt).2.1 (ix2 (0 : Fin 2) q) = (outsAt2 V c t.val t.isLt).2.2.1 (ix2 (0 : Fin 1) q)
    ∧ (outsAt2 V c t.val t.isLt).2.1 (ix2 (1 : Fin 2) q) = (outsAt2 V c t.val t.isLt).2.2.2 (ix2 (0 : Fin 1) q) := by
  have h0 : ¬t.val % 10 = 0 := by omega
  rw [outsAt2_C V c t h0 h1]
  dsimp only
  rw [out6_2_C_row0, out6_2_C_row1, row0_2_C, row1_2_C]
  exact ⟨rfl, rfl⟩

/-- What the last tile leaves in the statistics output's buffer, as contents of its array (the one block is the array). -/
abbrev stats2 (c : Dev nD) : S2x128.Idx → EReal :=
  (outsAt2 V c 9 (by rw [show cfg2.N = 10 from N_2]; decide)).2.1

/-- The one write-back, at the last point, writes it. -/
theorem flushed6_eq2 (c : Dev nD) (t : Fin cfg2.N) (hf : (cfg2.win 6).flush t = true) :
    (dat2 V c).flushed 6 t = ((cfg2.win 6).blk t).view.read (Elt Ideal) (stats2 V c) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6]
  have hz' : (fun a => win2_6.index t2_9 a * main_v46_1.ty.shape.size a) = fun _ => 0 := funext fun a => by fin_cases a <;> decide
  exact (Memref.read_access_unit_zero (Elt Ideal) main_v46_1 hz' (fun a => by rw [congrFun hz' a]; simp) (stats2 V c)).symm

/-- So the statistics array ends holding what the last tile left in the buffer. -/
theorem final6_2 (c : Dev nD) : (dat2 V c).arrAt 6 cfg2.N = stats2 V c :=
  (dat2 V c).arrAt_eq_of_cover 6 (stats2 V c) (flushed6_eq2 V c) fun i =>
    ⟨t2_9, (flush2_6 t2_9).mpr rfl, by
      show i ∈ ((View.whole main_v46_1).slice (win2_6.rect t2_9)).set
      rw [View.set_slice_whole, Rect.mem_set_unit]
      intro a
      have h0 : (i 0 : Nat) < 2 := (i 0).isLt
      have h1 : (i 1 : Nat) < 128 := (i 1).isLt
      match a with
      | ⟨0, _⟩ => show win2_6.index t2_9 0 * win2_6.size 0 ≤ (i 0 : Nat) ∧ (i 0 : Nat) < win2_6.index t2_9 0 * win2_6.size 0 + win2_6.xsize (grid2.coords t2_9) 0
                  rw [show win2_6.index t2_9 0 * win2_6.size 0 = 0 from by decide +kernel, show win2_6.xsize (grid2.coords t2_9) 0 = 2 from by decide +kernel]; omega
      | ⟨1, _⟩ => show win2_6.index t2_9 1 * win2_6.size 1 ≤ (i 1 : Nat) ∧ (i 1 : Nat) < win2_6.index t2_9 1 * win2_6.size 1 + win2_6.xsize (grid2.coords t2_9) 1
                  rw [show win2_6.index t2_9 1 * win2_6.size 1 = 0 from by decide +kernel, show win2_6.xsize (grid2.coords t2_9) 1 = 128 from by decide +kernel]; omega⟩

/-- The two output arrays after the region, named. -/
theorem statsOut_eq2 (c : Dev nD) : statsOut2 V c = stats2 V c := final6_2 V c
theorem linOut_eq2 (c : Dev nD) : linOut2 V c = linArr2 V c := final5_2 V c

/-- The last tile's copy, at the tile's number. -/
theorem stats_rows_nat2 (c : Dev nD) (q : Fin 128) (n : ℕ) (h : n < cfg2.N) (h1 : n % 10 = 9) :
    (outsAt2 V c n h).2.1 (ix2 (0 : Fin 2) q) = (outsAt2 V c n h).2.2.1 (ix2 (0 : Fin 1) q)
    ∧ (outsAt2 V c n h).2.1 (ix2 (1 : Fin 2) q) = (outsAt2 V c n h).2.2.2 (ix2 (0 : Fin 1) q) :=
  stats_rows2 V c q ⟨n, h⟩ h1

/-- The two rows of the statistics array are the running sums after the ten tiles. -/
theorem stats_row0_eq2 (c : Dev nD) (q : Fin 128) :
    stats2 V c (ix2 (0 : Fin 2) q) = BatchNormAlgebra.accum (0 : EReal) (tsum2 V c q) 10 :=
  (stats_rows_nat2 V c q 9 _ rfl).1.trans (rows_eq2 V c q 9 _).1
theorem stats_row1_eq2 (c : Dev nD) (q : Fin 128) :
    stats2 V c (ix2 (1 : Fin 2) q) = BatchNormAlgebra.accum (0 : EReal) (tsq2 V c q) 10 :=
  (stats_rows_nat2 V c q 9 _ rfl).2.trans (rows_eq2 V c q 9 _).2

/-- The sums over the ten tiles are the sums over all 50000 rows. -/
theorem tsum_total2 (c : Dev nD) (q : Fin 128) :
    BatchNormAlgebra.accum (0 : EReal) (tsum2 V c q) 10 = ∑ p : Fin 50000, linArr2 V c (ix2 p q) := by
  unfold tsum2
  exact Cert.Tiles.accum_tiles_col (linArr2 V c) q
theorem tsq_total2 (c : Dev nD) (q : Fin 128) :
    BatchNormAlgebra.accum (0 : EReal) (tsq2 V c q) 10 = ∑ p : Fin 50000, linArr2 V c (ix2 p q) * linArr2 V c (ix2 p q) := by
  unfold tsq2
  exact Cert.Tiles.accum_tiles_col (fun i => linArr2 V c i * linArr2 V c i : S50000x128.Idx → EReal) q

/-- THE STATISTICS after the region, row 0: per column, the sum over all 50000 rows of the tile output. -/
theorem final2_sum (c : Dev nD) (q : Fin 128) :
    statsOut2 V c (ix2 (0 : Fin 2) q) = ∑ p : Fin 50000, linOut2 V c (ix2 p q) := by
  rw [statsOut_eq2, linOut_eq2, stats_row0_eq2, tsum_total2]

/-- Row 1: per column, the sum over all rows of the tile output's square. -/
theorem final2_sumsq (c : Dev nD) (q : Fin 128) :
    statsOut2 V c (ix2 (1 : Fin 2) q) = ∑ p : Fin 50000, linOut2 V c (ix2 p q) * linOut2 V c (ix2 p q) := by
  rw [statsOut_eq2, linOut_eq2, stats_row1_eq2, tsq_total2]

end Cert.KernelIdeal.Hand

end
-- ==== Proof.KIValue4Cases.lean ====
/-
  Region 4: what each control case leaves, in closed form.

  Every load of the body reads a whole buffer and every store writes a whole buffer or a whole row, so what a case leaves
  in a buffer is the payload of its last store there, with each loaded value replaced by the contents it was loaded from:
  the tile output holds the linear map of the five input blocks; carried row 0 holds what it held (zero at the first tile)
  plus the tile's column sums of the linear map; carried row 1 the same with the squares; and at the last tile the two
  rows of the statistics output hold the two carried rows as that tile leaves them.
-/
import proofs.«140440_j51049981280319_1_alg».proof.Proof.KIRegion4
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however spelt. -/
theorem hz4 : (![0, 0] : Fin 2 → Nat) = fun _ => 0 := funext fun a => by fin_cases a <;> rfl

/-- In case A the tile output's buffer ends holding the linear map of the five input blocks: its one store covers the
    buffer, and every load reads a whole buffer. -/
theorem out5_4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : out4_A_5 c i arg1 harg1 arg2 harg2 arg3 harg3 arg4 harg4 arg5 harg5 arg6 harg6 arg7 harg7 arg8 harg8 arg9 harg9 hc0 hc1 x1 x2 x3 x4 x5 = k4_pay4 x1 x2 x3 x4 x5 := by
  unfold out4_A_5
  rw [View.read_writes_eq_canon _ _ _ (cover4_A_5 c i arg1 harg1 arg2 harg2 arg3 harg3 arg4 harg4 arg5 harg5 arg6 harg6 arg7 harg7 arg8 harg8 arg9 harg9 hc0 hc1 x1 x2 x3 x4 x5)]
  unfold kernelRun4_A
  dsimp only
  rw [View.canon_unit_zero hz4]
  simp only [View.readAt_eq_ld, harg1.read_unread, harg2.read_unread, harg3.read_unread, harg4.read_unread, harg5.read_unread,
    View.ld_unit_zero (S := S5000x128) hz4, View.ld_unit_zero (S := S128x128) hz4, View.ld_unit_zero (S := S1x128) hz4]

/-- In case B the tile output's buffer ends holding the linear map of the five input blocks: its one store covers the
    buffer, and every load reads a whole buffer. -/
theorem out5_4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : out4_B_5 c i arg1 harg1 arg2 harg2 arg3 harg3 arg4 harg4 arg5 harg5 arg6 harg6 arg7 harg7 arg8 harg8 arg9 harg9 hc0 hc1 x1 x2 x3 x4 x5 xs0 xs1 = k4_pay4 x1 x2 x3 x4 x5 := by
  unfold out4_B_5
  rw [View.read_writes_eq_canon _ _ _ (cover4_B_5 c i arg1 harg1 arg2 harg2 arg3 harg3 arg4 harg4 arg5 harg5 arg6 harg6 arg7 harg7 arg8 harg8 arg9 harg9 hc0 hc1 x1 x2 x3 x4 x5 xs0 xs1)]
  unfold kernelRun4_B
  dsimp only
  rw [View.canon_unit_zero hz4]
  simp only [View.readAt_eq_ld, harg1.read_unread, harg2.read_unread, harg3.read_unread, harg4.read_unread, harg5.read_unread,
    View.ld_unit_zero (S := S5000x128) hz4, View.ld_unit_zero (S := S128x128) hz4, View.ld_unit_zero (S := S1x128) hz4]

/-- In case C the tile output's buffer ends holding the linear map of the five input blocks: its one store covers the
    buffer, and every load reads a whole buffer. -/
theorem out5_4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : out4_C_5 c i arg1 harg1 arg2 harg2 arg3 harg3 arg4 harg4 arg5 harg5 arg6 harg6 arg7 harg7 arg8 harg8 arg9 harg9 hc0 hc1 x1 x2 x3 x4 x5 xs0 xs1 = k4_pay4 x1 x2 x3 x4 x5 := by
  unfold out4_C_5
  rw [View.read_writes_eq_canon _ _ _ (cover4_C_5 c i arg1 harg1 arg2 harg2 arg3 harg3 arg4 harg4 arg5 harg5 arg6 harg6 arg7 harg7 arg8 harg8 arg9 harg9 hc0 hc1 x1 x2 x3 x4 x5 xs0 xs1)]
  unfold kernelRun4_C
  dsimp only
  rw [View.canon_unit_zero hz4]
  simp only [View.readAt_eq_ld, harg1.read_unread, harg2.read_unread, harg3.read_unread, harg4.read_unread, harg5.read_unread,
    View.ld_unit_zero (S := S5000x128) hz4, View.ld_unit_zero (S := S128x128) hz4, View.ld_unit_zero (S := S1x128) hz4]

/-- In case B carried row 0 ends holding what the tile before left plus this tile's column sums. -/
theorem row0_4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : sout4_B_0 c i arg1 harg1 arg2 harg2 arg3 harg3 arg4 harg4 arg5 harg5 arg6 harg6 arg7 harg7 arg8 harg8 arg9 harg9 hc0 hc1 x1 x2 x3 x4 x5 xs0 xs1 = k4_pay5 x1 x2 x3 x4 x5 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 hc0 hc1 x1 x2 x3 x4 x5 xs0 xs1)]
  unfold kernelRun4_B
  dsimp only
  rw [View.canon_unit_zero hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]

/-- In case B carried row 1 ends holding what the tile before left plus this tile's column sums of squares. -/
theorem row1_4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : ¬cond4_1 i) (x1 x2 : Vec F S5000x128 .f32) (x3 x4 : Vec F S128x128 .f32) (x5 : Vec F S1x128 .f32) (xs0 xs1 : Vec F S1x128 .f32) : sout4_B_1 c i arg1 harg1 arg2 harg2 arg3 harg3 arg4 harg4 arg5 harg5 arg6 harg6 arg7 harg7 arg8 harg8 arg9 harg9 hc0 hc1 x1 x2 x3 x4 x5 xs0 xs1 = k4_pay1 xs1 (k4_pay6 x1 x2 x3 x4 x5) := by
  unfold sout4_B_1
  rw [View.read_writes_eq_canon _ _ _ (scover4_B_1 c i arg1 harg1 arg2 harg2 arg3 harg3 arg4 harg4 arg5 harg5 arg6 harg6 arg7 harg7 arg8 harg8 arg9 harg9 hc0 hc1 x1 x2 x3 x4 x5 xs0 xs1)]
  unfold kernelRun4_B
  dsimp only
  sl_unfold_words
  rw [View.canon_unit_zero hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]

/-- In case C carried row 0 ends holding what the tile before left plus this tile's column sums. -/
theorem row0_4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : sout4_C_0 c i arg1 harg1 arg2 harg2 arg3 harg3 arg4 harg4 arg5 harg5 arg6 harg6 arg7 harg7 arg8 harg8 arg9 harg9 hc0 hc1 x1 x2 x3 x4 x5 xs0 xs1 = k4_pay5 x1 x2 x3 x4 x5 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 hc0 hc1 x1 x2 x3 x4 x5 xs0 xs1)]
  unfold kernelRun4_C
  dsimp only
  sl_unfold_words
  rw [View.canon_unit_zero hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]

/-- In case C carried row 1 ends holding what the tile before left plus this tile's column sums of squares. -/
theorem row1_4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) : sout4_C_1 c i arg1 harg1 arg2 harg2 arg3 harg3 arg4 harg4 arg5 harg5 arg6 harg6 arg7 harg7 arg8 harg8 arg9 harg9 hc0 hc1 x1 x2 x3 x4 x5 xs0 xs1 = k4_pay1 xs1 (k4_pay6 x1 x2 x3 x4 x5) := by
  unfold sout4_C_1
  rw [View.read_writes_eq_canon _ _ _ (scover4_C_1 c i arg1 harg1 arg2 harg2 arg3 harg3 arg4 harg4 arg5 harg5 arg6 harg6 arg7 harg7 arg8 harg8 arg9 harg9 hc0 hc1 x1 x2 x3 x4 x5 xs0 xs1)]
  unfold kernelRun4_C
  dsimp only
  sl_unfold_words
  rw [View.canon_unit_zero hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]

/-- At the first tile carried row 0 ends holding the zero row plus the tile's column sums: the row is zeroed, read back,
    and added to. -/
theorem row0_4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : sout4_A_0 c i arg1 harg1 arg2 harg2 arg3 harg3 arg4 harg4 arg5 harg5 arg6 harg6 arg7 harg7 arg8 harg8 arg9 harg9 hc0 hc1 x1 x2 x3 x4 x5 = k4_pay5 x1 x2 x3 x4 x5 (k4_pay2 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 hc0 hc1 x1 x2 x3 x4 x5)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread,
    View.ld_unit_zero (S := S5000x128) hz4, View.ld_unit_zero (S := S128x128) hz4, View.ld_unit_zero (S := S1x128) hz4]

/-- At the first tile carried row 1 ends holding the zero row plus the tile's column sums of squares. -/
theorem row1_4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : cond4_0 i) (hc1 : ¬cond4_1 i) (x1 x2 : Vec F S5000x128 .f32) (x3 x4 : Vec F S128x128 .f32) (x5 : Vec F S1x128 .f32) : sout4_A_1 c i arg1 harg1 arg2 harg2 arg3 harg3 arg4 harg4 arg5 harg5 arg6 harg6 arg7 harg7 arg8 harg8 arg9 harg9 hc0 hc1 x1 x2 x3 x4 x5 = k4_pay1 (k4_pay3 (F := F)) (k4_pay6 x1 x2 x3 x4 x5) := by
  unfold sout4_A_1
  rw [View.read_writes_eq_canon _ _ _ (scover4_A_1 c i arg1 harg1 arg2 harg2 arg3 harg3 arg4 harg4 arg5 harg5 arg6 harg6 arg7 harg7 arg8 harg8 arg9 harg9 hc0 hc1 x1 x2 x3 x4 x5)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread,
    View.ld_unit_zero (S := S5000x128) hz4, View.ld_unit_zero (S := S128x128) hz4, View.ld_unit_zero (S := S1x128) hz4]

/-- At the last tile row 0 of the statistics output holds carried row 0 as the tile leaves it: the second row's store does
    not reach row 0, and the first row's store is the carried row just written, read back. -/
theorem out6_4_C_row0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (q : Fin 128) :
    out4_C_6 c i arg1 harg1 arg2 harg2 arg3 harg3 arg4 harg4 arg5 harg5 arg6 harg6 arg7 harg7 arg8 harg8 arg9 harg9 hc0 hc1 x1 x2 x3 x4 x5 xs0 xs1 (ValueIdx.ix2 (0 : Fin 2) q) = k4_pay5 x1 x2 x3 x4 x5 xs0 (ValueIdx.ix2 (0 : Fin 1) q) := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x1 x2 x3 x4 x5 xs0 xs1)]
  unfold kernelRun4_C
  dsimp only
  sl_unfold_words
  rw [View.readCov_unit_zero (S := S1x128) _ hz4, View.readCov_unit_zero (S := S1x128) _ hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]
  rw [View.canon_cons_of_not_mem _ _ (by
    rw [Rect.mem_set_unit]; intro h; have h0 : (1 : ℕ) ≤ 0 := (h 0).1; omega)]
  have e : (ValueIdx.ix2 (0 : Fin 2) q : S2x128.Idx) = (Rect.unit (s := S2x128) ![0, 0] S1x128.size inb_S2x128_S1x128_0_0).emb (ValueIdx.ix2 (0 : Fin 1) q) := by
    funext a; apply Fin.ext
    match a with
    | ⟨0, _⟩ => rfl
    | ⟨1, _⟩ => show q.val = 0 + 1 * q.val; omega
  rw [e, View.canon_cons_emb]

/-- At the last tile row 1 of the statistics output holds carried row 1 as the tile leaves it. -/
theorem out6_4_C_row1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i) (hc1 : cond4_1 i) (x1 x2 : Vec F S5000x128 .f32) (x3 x4 : Vec F S128x128 .f32) (x5 : Vec F S1x128 .f32) (xs0 xs1 : Vec F S1x128 .f32) (q : Fin 128) :
    out4_C_6 c i arg1 harg1 arg2 harg2 arg3 harg3 arg4 harg4 arg5 harg5 arg6 harg6 arg7 harg7 arg8 harg8 arg9 harg9 hc0 hc1 x1 x2 x3 x4 x5 xs0 xs1 (ValueIdx.ix2 (1 : Fin 2) q) = k4_pay1 xs1 (k4_pay6 x1 x2 x3 x4 x5) (ValueIdx.ix2 (0 : Fin 1) q) := by
  unfold out4_C_6
  rw [View.read_writes_eq_canon _ _ _ (cover4_C_6 c i arg1 harg1 arg2 harg2 arg3 harg3 arg4 harg4 arg5 harg5 arg6 harg6 arg7 harg7 arg8 harg8 arg9 harg9 hc0 hc1 x1 x2 x3 x4 x5 xs0 xs1)]
  unfold kernelRun4_C
  dsimp only
  sl_unfold_words
  rw [View.readCov_unit_zero (S := S1x128) _ hz4, View.readCov_unit_zero (S := S1x128) _ hz4]
  simp only [View.readAt_eq_ld, harg1.read_unread, harg2.read_unread, harg3.read_unread, harg4.read_unread, harg5.read_unread, harg8.read_unread, harg9.read_unread,
    View.ld_unit_zero (S := S5000x128) hz4, View.ld_unit_zero (S := S128x128) hz4, View.ld_unit_zero (S := S1x128) hz4]
  have e : (ValueIdx.ix2 (1 : Fin 2) q : S2x128.Idx) = (Rect.unit (s := S2x128) ![1, 0] S1x128.size inb_S2x128_S1x128_1_0).emb (ValueIdx.ix2 (0 : Fin 1) q) := by
    funext a; apply Fin.ext
    match a with
    | ⟨0, _⟩ => rfl
    | ⟨1, _⟩ => show q.val = 0 + 1 * q.val; omega
  rw [e, View.canon_cons_emb]

end Cert.KernelIdeal.Hand

end
-- ==== Proof.KIValue4Pay.lean ====
/-
  The kernel's linear map and its column statistics on one tile, read at an index, for region 4.

  A tile is 5000 rows of the layer's input `h` and of the neighbourhood sums `agg`. The region computes on it
  `lin[r, c] = ∑_k h[r, k] · w_root[k, c] + ∑_k agg[r, k] · w_rel[k, c] + b[c]` (the two products on values whose change of
  format is the identity here), and adds the tile's column sums of `lin` and of `lin²` to two rows it carries from tile to
  tile. In this region the second row's update is spelt in two steps: the tile's column sums of `lin²` first, then their sum
  with what the row held.
-/
import proofs.«140440_j51049981280319_1_alg».proof.KernelIdeal
import proofs.«140440_j51049981280319_1_alg».proof.Proof.Gen.KernelIdeal.Skeleton
import proofs.«140440_j51049981280319_1_alg».proof.Proof.LibRowLayout
import proofs.«140440_j51049981280319_1_alg».proof.Proof.LibMatmulNN
import Idealize.ShloMosaic.Lib.ValueLayout

noncomputable section

namespace Cert.KernelIdeal.Linear

open Idealize.ShloMosaic Idealize.ShloMosaic.ValueIdx
open Cert.KernelIdeal Cert.KernelIdeal.Facts₀

variable [Cert.KernelIdeal.Facts]

/-- The linear map on a tile at `(r, c)`. -/
theorem k4_pay4_apply (hb ab : Vec Ideal S5000x128 .f32) (wr wl : Vec Ideal S128x128 .f32) (bias : Vec Ideal S1x128 .f32)
    (r : Fin 5000) (c : Fin 128) :
    Gen.k4_pay4 (F := Ideal) hb ab wr wl bias (ix2 r c)
      = (∑ k : Fin 128, hb (ix2 r k) * wr (ix2 k c)) + (∑ k : Fin 128, ab (ix2 r k) * wl (ix2 k c))
          + bias (ix2 (0 : Fin 1) c) := by
  unfold Gen.k4_pay4
  simp only [shapeCast_self, addf_apply, matmul]
  rw [Cert.LibMatmulNN.matmul_zero_apply dot_S5000x128_S128x128_S5000x128_1_0_0_1_n_n rfl,
    Cert.LibMatmulNN.matmul_zero_apply dot_S5000x128_S128x128_S5000x128_1_0_0_1_n_n rfl, broadcastTo_1b_ab_apply]
  rfl

/-- The carried row of sums after a tile: what it held plus the tile's column sums of the linear map. -/
theorem k4_pay5_apply (hb ab : Vec Ideal S5000x128 .f32) (wr wl : Vec Ideal S128x128 .f32) (bias : Vec Ideal S1x128 .f32)
    (acc : Vec Ideal S1x128 .f32) (c : Fin 128) :
    Gen.k4_pay5 (F := Ideal) hb ab wr wl bias acc (ix2 (0 : Fin 1) c)
      = acc (ix2 (0 : Fin 1) c) + ∑ r : Fin 5000, Gen.k4_pay4 (F := Ideal) hb ab wr wl bias (ix2 r c) := by
  unfold Gen.k4_pay5
  simp only [shapeCast_self]
  show acc (ix2 (0 : Fin 1) c) + shapeCast S1x128 (multiReduction .add [0] S128 (Gen.k4_pay4 (F := Ideal) hb ab wr wl bias)
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

/-- The carried row of sums of squares after a tile: what it held plus the tile's column sums of the squared linear map. -/
theorem k4_pay1_pay6_apply (hb ab : Vec Ideal S5000x128 .f32) (wr wl : Vec Ideal S128x128 .f32) (bias : Vec Ideal S1x128 .f32)
    (acc : Vec Ideal S1x128 .f32) (c : Fin 128) :
    Gen.k4_pay1 (F := Ideal) acc (Gen.k4_pay6 (F := Ideal) hb ab wr wl bias) (ix2 (0 : Fin 1) c)
      = acc (ix2 (0 : Fin 1) c) + ∑ r : Fin 5000, Gen.k4_pay4 (F := Ideal) hb ab wr wl bias (ix2 r c)
          * Gen.k4_pay4 (F := Ideal) hb ab wr wl bias (ix2 r c) := by
  unfold Gen.k4_pay1 Gen.k4_pay6
  simp only [shapeCast_self]
  show acc (ix2 (0 : Fin 1) c) + shapeCast S1x128 (multiReduction .add [0] S128
      (mulf (Gen.k4_pay4 (F := Ideal) hb ab wr wl bias) (Gen.k4_pay4 (F := Ideal) hb ab wr wl bias))
      0x00000000#32 reduces_S5000x128_S128 (.inl rfl) rfl) shapeCasts_S128_S1x128 (ix2 (0 : Fin 1) c) = _
  rw [shapeCast_a_1a_apply]
  exact congrArg (acc (ix2 (0 : Fin 1) c) + ·) (RowLayout.laneColSum_apply _ _ _ _ _ c)

end Cert.KernelIdeal.Linear

end
-- ==== Proof.KIValue4Lin.lean ====
/-
  Region 4 at the ideal values: the tile output after the region is the layer's linear map of the arrays the region finds.

  Row `r` of the tile at point `t` is row `r + 5000 · t` of the row-tiled arrays; the weights and the bias are whole at every
  point. So what point `t` writes back is block `t` of one function of the arrays — at row `p` and column `q`, the sum over
  `k` of input times root weight, plus the sum over `k` of neighbourhood sum times relation weight, plus the bias — and the
  ten blocks cover the array.
-/
import proofs.«140440_j51049981280319_1_alg».proof.Proof.KIValue4Cases
import proofs.«140440_j51049981280319_1_alg».proof.Proof.KIValue4Pay
import proofs.«140440_j51049981280319_1_alg».proof.Proof.Tiles
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The index maps, and the input blocks read at an index -/

/-- The tile a point visits. -/
def tile4 (t : Fin cfg4.N) : Fin 10 := ⟨t.val, lt_of_lt_of_eq t.isLt (show cfg4.N = 10 from N_4)⟩

/-- The printed index maps, decided over the ten points: the row-tiled windows are at block `t` along the rows, every
    other block index is zero. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0 :=
  (by decide +kernel : ∀ t : Fin grid4.N, _)

/-- Row `r` of the layer input's tile at point `t` is row `r + 5000 · t` of the array. -/
theorem iblk4_0_apply (c : Dev nD) (t : Fin cfg4.N) (r : Fin 5000) (k : Fin 128) :
    iblk4 V c 0 t (ix2 r k) = V c main_v65 (ix2 (Cert.Tiles.row (tile4 t) r) k) := by
  obtain ⟨e00, e01, -⟩ := idx_facts4 t
  show V c main_v65 (((cfg4.win 0).blk t).view.emb (ix2 r k)) = _
  refine congrArg (V c main_v65) ?_
  funext a; apply Fin.ext
  match a with
  | ⟨0, _⟩ => show win4_0.index t (0 : Fin 2) * 5000 + 1 * r.val = r.val + 5000 * t.val; omega
  | ⟨1, _⟩ => show win4_0.index t (1 : Fin 2) * 128 + 1 * k.val = k.val; omega

/-- The same of the neighbourhood sums' tile. -/
theorem iblk4_1_apply (c : Dev nD) (t : Fin cfg4.N) (r : Fin 5000) (k : Fin 128) :
    iblk4 V c 1 t (ix2 r k) = V c main_v75 (ix2 (Cert.Tiles.row (tile4 t) r) k) := by
  obtain ⟨-, -, e10, e11, -⟩ := idx_facts4 t
  show V c main_v75 (((cfg4.win 1).blk t).view.emb (ix2 r k)) = _
  refine congrArg (V c main_v75) ?_
  funext a; apply Fin.ext
  match a with
  | ⟨0, _⟩ => show win4_1.index t (0 : Fin 2) * 5000 + 1 * r.val = r.val + 5000 * t.val; omega
  | ⟨1, _⟩ => show win4_1.index t (1 : Fin 2) * 128 + 1 * k.val = k.val; omega

/-- The two weight blocks and the bias block are the whole arrays at every point. -/
theorem iblk4_2_apply (c : Dev nD) (t : Fin cfg4.N) (k : Fin 128) (q : Fin 128) :
    iblk4 V c 2 t (ix2 k q) = V c main_arg9 (ix2 k q) := by
  obtain ⟨-, -, -, -, e20, e21, -⟩ := idx_facts4 t
  show V c main_arg9 (((cfg4.win 2).blk t).view.emb (ix2 k q)) = _
  refine congrArg (V c main_arg9) ?_
  funext a; apply Fin.ext
  match a with
  | ⟨0, _⟩ => show win4_2.index t (0 : Fin 2) * 128 + 1 * k.val = k.val; omega
  | ⟨1, _⟩ => show win4_2.index t (1 : Fin 2) * 128 + 1 * q.val = q.val; omega

theorem iblk4_3_apply (c : Dev nD) (t : Fin cfg4.N) (k : Fin 128) (q : Fin 128) :
    iblk4 V c 3 t (ix2 k q) = V c main_arg10 (ix2 k q) := by
  obtain ⟨-, -, -, -, -, -, e30, e31, -⟩ := idx_facts4 t
  show V c main_arg10 (((cfg4.win 3).blk t).view.emb (ix2 k q)) = _
  refine congrArg (V c main_arg10) ?_
  funext a; apply Fin.ext
  match a with
  | ⟨0, _⟩ => show win4_3.index t (0 : Fin 2) * 128 + 1 * k.val = k.val; omega
  | ⟨1, _⟩ => show win4_3.index t (1 : Fin 2) * 128 + 1 * q.val = q.val; omega

theorem iblk4_4_apply (c : Dev nD) (t : Fin cfg4.N) (z : Fin 1) (q : Fin 128) :
    iblk4 V c 4 t (ix2 z q) = V c main_v76 (ix2 z q) := by
  obtain ⟨-, -, -, -, -, -, -, -, e40, e41, -⟩ := idx_facts4 t
  show V c main_v76 (((cfg4.win 4).blk t).view.emb (ix2 z q)) = _
  refine congrArg (V c main_v76) ?_
  funext a; apply Fin.ext
  match a with
  | ⟨0, _⟩ => show win4_4.index t (0 : Fin 2) * 1 + 1 * z.val = z.val; omega
  | ⟨1, _⟩ => show win4_4.index t (1 : Fin 2) * 128 + 1 * q.val = q.val; omega

/-! ## The linear map -/

/-- The region's five input arrays as it finds them, read as extended reals: the layer input, the neighbourhood sums, the two
    weights, the bias row. -/
abbrev rdH4 (c : Dev nD) : S50000x128.Idx → EReal := V c main_v65
abbrev rdAgg4 (c : Dev nD) : S50000x128.Idx → EReal := V c main_v75
abbrev rdWr4 (c : Dev nD) : S128x128.Idx → EReal := V c main_arg9
abbrev rdWl4 (c : Dev nD) : S128x128.Idx → EReal := V c main_arg10
abbrev rdB4 (c : Dev nD) : S1x128.Idx → EReal := V c main_v76

/-- The region's linear map of the arrays as it finds them, at row `p` and column `q`. -/
def lin4 (c : Dev nD) (p : Fin 50000) (q : Fin 128) : EReal :=
  (∑ k : Fin 128, rdH4 V c (ix2 p k) * rdWr4 V c (ix2 k q)) + (∑ k : Fin 128, rdAgg4 V c (ix2 p k) * rdWl4 V c (ix2 k q))
    + rdB4 V c (ix2 (0 : Fin 1) q)

/-- The same as contents of the tile output's array. -/
abbrev linArr4 (c : Dev nD) : S50000x128.Idx → EReal := fun i => lin4 V c (i 0) (i 1)

/-- The two output arrays after the region, read as extended reals. -/
abbrev linOut4 (c : Dev nD) : S50000x128.Idx → EReal := (dat4 (F := Ideal) V c).arrAt 5 cfg4.N
abbrev statsOut4 (c : Dev nD) : S2x128.Idx → EReal := (dat4 (F := Ideal) V c).arrAt 6 cfg4.N

/-- The body's linear map of the blocks at point `t`, at row `r` of the tile, is the region's at row `r + 5000 · t`. -/
theorem tile_lin4 (c : Dev nD) (t : Fin cfg4.N) (r : Fin 5000) (q : Fin 128) :
    k4_pay4 (F := Ideal) (iblk4 V c 0 t) (iblk4 V c 1 t) (iblk4 V c 2 t) (iblk4 V c 3 t) (iblk4 V c 4 t) (ix2 r q) = lin4 V c (Cert.Tiles.row (tile4 t) r) q := by
  rw [Cert.KernelIdeal.Linear.k4_pay4_apply]
  unfold lin4
  simp only [iblk4_0_apply, iblk4_1_apply, iblk4_2_apply, iblk4_3_apply, iblk4_4_apply]
  first | done | rfl

/-- After every tile the tile output's buffer holds the body's linear map of the tile's blocks. -/
theorem outs5_eq4 (c : Dev nD) (t : Fin cfg4.N) :
    (outsAt4 V c t.val t.isLt).1 = k4_pay4 (F := Ideal) (iblk4 V c 0 t) (iblk4 V c 1 t) (iblk4 V c 2 t) (iblk4 V c 3 t) (iblk4 V c 4 t) := by
  have hN : t.val < 10 := lt_of_lt_of_eq t.isLt (show cfg4.N = 10 from N_4)
  by_cases h0 : t.val % 10 = 0
  · have h1 : ¬t.val % 10 = 9 := by omega
    rw [outsAt4_A V c t h0 h1]; dsimp only; rw [out5_4_A]
  · by_cases h1 : t.val % 10 = 9
    · rw [outsAt4_C V c t h0 h1]; dsimp only; rw [out5_4_C]
    · rw [outsAt4_B V c t h0 h1]; dsimp only; rw [out5_4_B]

/-! ## The tile output's array after the region -/

/-- What point `t` writes back is block `t` of the region's linear map. -/
theorem flushed5_eq4 (c : Dev nD) (t : Fin cfg4.N) :
    (dat4 V c).flushed 5 t = ((cfg4.win 5).blk t).view.read (Elt Ideal) (linArr4 V c) := by
  show (cfg4.win 5).cut (grid4.coords t) ((dat4 V c).after 5 t) = _
  rw [after4_5, outs5_eq4]
  obtain ⟨-, -, -, -, -, -, -, -, -, -, e50, e51, -⟩ := idx_facts4 t
  funext j
  obtain ⟨r, q, rfl⟩ : ∃ (r : Fin 5000) (q : Fin 128), j = ix2 r q := ⟨j 0, j 1, eq_ix2 j⟩
  show k4_pay4 (F := Ideal) (iblk4 V c 0 t) (iblk4 V c 1 t) (iblk4 V c 2 t) (iblk4 V c 3 t) (iblk4 V c 4 t) (ix2 r q) = lin4 V c ((((cfg4.win 5).blk t).view.emb (ix2 r q)) 0) ((((cfg4.win 5).blk t).view.emb (ix2 r q)) 1)
  rw [tile_lin4]
  have e0 : (((cfg4.win 5).blk t).view.emb (ix2 r q)) 0 = Cert.Tiles.row (tile4 t) r :=
    Fin.ext (by show win4_5.index t (0 : Fin 2) * 5000 + 1 * r.val = r.val + 5000 * t.val; omega)
  have e1 : (((cfg4.win 5).blk t).view.emb (ix2 r q)) 1 = q :=
    Fin.ext (by show win4_5.index t (1 : Fin 2) * 128 + 1 * q.val = q.val; omega)
  rw [e0, e1]

/-- An index of the array is in point `t`'s block iff each coordinate is in the block's range on its axis. -/
theorem mem_blk5_4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v77_0).slice (win4_5.rect t)).set ↔ _
  rw [View.set_slice_whole, Rect.mem_set_unit]
  exact Iff.rfl

/-- The ten tiles cover the array (row `p` is in tile `p / 5000`), so it ends holding the region's linear map. -/
theorem final5_4 (c : Dev nD) : (dat4 V c).arrAt 5 cfg4.N = linArr4 V c :=
  (dat4 V c).arrAt_eq_of_cover 5 (linArr4 V c) (fun t _ => flushed5_eq4 V c t) fun i => by
    have hi0 : (i 0).val < 50000 := (i 0).isLt
    have hi1 : (i 1).val < 128 := (i 1).isLt
    have ht : (i 0).val / 5000 < cfg4.N := by rw [show cfg4.N = 10 from N_4]; omega
    obtain ⟨-, -, -, -, -, -, -, -, -, -, e50, e51, -⟩ := idx_facts4 ⟨(i 0).val / 5000, ht⟩
    refine ⟨⟨(i 0).val / 5000, ht⟩, flush4_5 _, ?_⟩
    rw [mem_blk5_4]
    intro a
    match a with
    | ⟨0, _⟩ => show win4_5.index ⟨(i 0).val / 5000, ht⟩ (0 : Fin 2) * 5000 ≤ (i 0).val ∧ (i 0).val < win4_5.index ⟨(i 0).val / 5000, ht⟩ (0 : Fin 2) * 5000 + 5000
                dsimp only at e50; omega
    | ⟨1, _⟩ => show win4_5.index ⟨(i 0).val / 5000, ht⟩ (1 : Fin 2) * 128 ≤ (i 1).val ∧ (i 1).val < win4_5.index ⟨(i 0).val / 5000, ht⟩ (1 : Fin 2) * 128 + 128
                omega

/-- THE TILE OUTPUT after the region: the linear map of the arrays the region finds, at every row and column. -/
theorem final4_lin (c : Dev nD) (p : Fin 50000) (q : Fin 128) :
    linOut4 V c (ix2 p q)
      = (∑ k : Fin 128, rdH4 V c (ix2 p k) * rdWr4 V c (ix2 k q)) + (∑ k : Fin 128, rdAgg4 V c (ix2 p k) * rdWl4 V c (ix2 k q))
          + rdB4 V c (ix2 (0 : Fin 1) q) := by
  show (dat4 (F := Ideal) V c).arrAt 5 cfg4.N (ix2 p q) = _
  rw [final5_4]; rfl

end Cert.KernelIdeal.Hand

end
-- ==== Proof.KIValue4.lean ====
/-
  Region 4 at the ideal values: the statistics output after the region holds, per column, the sum and the sum of squares
  of the tile output over all 50000 rows.

  The two carried rows start at zero at the first tile and each tile adds its own column sums of the linear map and of its
  square: by induction on the tile, after tile `n` they hold the sums over the tiles up to `n`. The last tile copies them
  into the two rows of the statistics output, which is written back once, there. The sum over the ten tiles of a tile's
  column sum is the column sum over all rows.
-/
import proofs.«140440_j51049981280319_1_alg».proof.Proof.KIValue4Lin

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The carried rows are running column sums -/

/-- The zero rows the first tile stores. -/
theorem pay2_zero4 (q : Fin 128) : k4_pay2 (F := Ideal) (ix2 (0 : Fin 1) q) = 0 := by
  unfold k4_pay2; simp only [shapeCast_self]; exact Ideal.ofBits_zero_f32
theorem pay3_zero4 (q : Fin 128) : k4_pay3 (F := Ideal) (ix2 (0 : Fin 1) q) = 0 := by
  unfold k4_pay3; simp only [shapeCast_self]; exact Ideal.ofBits_zero_f32

/-- Tile `t`'s column sum of the linear map, and of its square (zero past the ten tiles). -/
def tsum4 (c : Dev nD) (q : Fin 128) : ℕ → EReal := fun t =>
  if h : t < 10 then ∑ r : Fin 5000, linArr4 V c (ix2 (Cert.Tiles.row ⟨t, h⟩ r) q) else 0
def tsq4 (c : Dev nD) (q : Fin 128) : ℕ → EReal := fun t =>
  if h : t < 10 then ∑ r : Fin 5000, (fun i => linArr4 V c i * linArr4 V c i : S50000x128.Idx → EReal) (ix2 (Cert.Tiles.row ⟨t, h⟩ r) q) else 0

/-- One tile adds its column sum to carried row 0, -/
theorem row0_step4 (c : Dev nD) (t : Fin cfg4.N) (acc : Vec Ideal S1x128 .f32) (q : Fin 128) :
    k4_pay5 (F := Ideal) (iblk4 V c 0 t) (iblk4 V c 1 t) (iblk4 V c 2 t) (iblk4 V c 3 t) (iblk4 V c 4 t) acc (ix2 (0 : Fin 1) q) = acc (ix2 (0 : Fin 1) q) + tsum4 V c q t.val := by
  rw [Cert.KernelIdeal.Linear.k4_pay5_apply]
  unfold tsum4
  rw [dif_pos (lt_of_lt_of_eq t.isLt (show cfg4.N = 10 from N_4))]
  exact congrArg (acc (ix2 (0 : Fin 1) q) + ·) (Finset.sum_congr rfl fun r _ => tile_lin4 V c t r q)

/-- and its column sum of squares to carried row 1. -/
theorem row1_step4 (c : Dev nD) (t : Fin cfg4.N) (acc : Vec Ideal S1x128 .f32) (q : Fin 128) :
    k4_pay1 (F := Ideal) acc (k4_pay6 (F := Ideal) (iblk4 V c 0 t) (iblk4 V c 1 t) (iblk4 V c 2 t) (iblk4 V c 3 t) (iblk4 V c 4 t)) (ix2 (0 : Fin 1) q) = acc (ix2 (0 : Fin 1) q) + tsq4 V c q t.val := by
  rw [Cert.KernelIdeal.Linear.k4_pay1_pay6_apply]
  unfold tsq4
  rw [dif_pos (lt_of_lt_of_eq t.isLt (show cfg4.N = 10 from N_4))]
  exact congrArg (acc (ix2 (0 : Fin 1) q) + ·) (Finset.sum_congr rfl fun r _ => by rw [tile_lin4 V c t r q]; rfl)

/-- After the first tile the rows hold that tile's sums. -/
theorem rows_first4 (c : Dev nD) (q : Fin 128) (t : Fin cfg4.N) (h0 : t.val % 10 = 0) :
    (outsAt4 V c t.val t.isLt).2.2.1 (ix2 (0 : Fin 1) q) = 0 + tsum4 V c q t.val
    ∧ (outsAt4 V c t.val t.isLt).2.2.2 (ix2 (0 : Fin 1) q) = 0 + tsq4 V c q t.val := by
  have hN : t.val < 10 := lt_of_lt_of_eq t.isLt (show cfg4.N = 10 from N_4)
  have h1 : ¬t.val % 10 = 9 := by omega
  rw [outsAt4_A V c t h0 h1]
  dsimp only
  rw [row0_4_A, row1_4_A, row0_step4, row1_step4, pay2_zero4, pay3_zero4]
  exact ⟨rfl, rfl⟩

/-- After any later tile the rows hold what the tile before left plus this tile's sums. -/
theorem rows_later4 (c : Dev nD) (q : Fin 128) (t : Fin cfg4.N) (h0 : ¬t.val % 10 = 0) :
    (outsAt4 V c t.val t.isLt).2.2.1 (ix2 (0 : Fin 1) q)
        = (outsAt4 V c (t.val - 1) (Nat.lt_of_le_of_lt (Nat.sub_le _ _) t.isLt)).2.2.1 (ix2 (0 : Fin 1) q) + tsum4 V c q t.val
    ∧ (outsAt4 V c t.val t.isLt).2.2.2 (ix2 (0 : Fin 1) q)
        = (outsAt4 V c (t.val - 1) (Nat.lt_of_le_of_lt (Nat.sub_le _ _) t.isLt)).2.2.2 (ix2 (0 : Fin 1) q) + tsq4 V c q t.val := by
  by_cases h1 : t.val % 10 = 9
  · rw [outsAt4_C V c t h0 h1]
    dsimp only
    rw [row0_4_C, row1_4_C, row0_step4, row1_step4]
    exact ⟨rfl, rfl⟩
  · rw [outsAt4_B V c t h0 h1]
    dsimp only
    rw [row0_4_B, row1_4_B, row0_step4, row1_step4]
    exact ⟨rfl, rfl⟩

/-- So after tile `n` the rows hold the sums over the tiles up to `n`: by induction on the tile. -/
theorem rows_eq4 (c : Dev nD) (q : Fin 128) : ∀ (n : ℕ) (h : n < cfg4.N),
    (outsAt4 V c n h).2.2.1 (ix2 (0 : Fin 1) q) = BatchNormAlgebra.accum (0 : EReal) (tsum4 V c q) (n + 1)
    ∧ (outsAt4 V c n h).2.2.2 (ix2 (0 : Fin 1) q) = BatchNormAlgebra.accum (0 : EReal) (tsq4 V c q) (n + 1)
  | 0, h => rows_first4 V c q ⟨0, h⟩ rfl
  | n + 1, h => by
    have hN : n + 1 < 10 := lt_of_lt_of_eq h (show cfg4.N = 10 from N_4)
    obtain ⟨s0, s1⟩ := rows_later4 V c q ⟨n + 1, h⟩ (by dsimp only; omega)
    obtain ⟨i0, i1⟩ := rows_eq4 c q n (Nat.lt_of_succ_lt h)
    exact ⟨s0.trans (congrArg (· + tsum4 V c q (n + 1)) i0), s1.trans (congrArg (· + tsq4 V c q (n + 1)) i1)⟩

/-! ## The statistics output's array after the region -/

/-- The last tile copies the two carried rows, as it leaves them, into the two rows of the statistics output. -/
theorem stats_rows4 (c : Dev nD) (q : Fin 128) (t : Fin cfg4.N) (h1 : t.val % 10 = 9) :
    (outsAt4 V c t.val t.isLt).2.1 (ix2 (0 : Fin 2) q) = (outsAt4 V c t.val t.isLt).2.2.1 (ix2 (0 : Fin 1) q)
    ∧ (outsAt4 V c t.val t.isLt).2.1 (ix2 (1 : Fin 2) q) = (outsAt4 V c t.val t.isLt).2.2.2 (ix2 (0 : Fin 1) q) := by
  have h0 : ¬t.val % 10 = 0 := by omega
  rw [outsAt4_C V c t h0 h1]
  dsimp only
  rw [out6_4_C_row0, out6_4_C_row1, row0_4_C, row1_4_C]
  exact ⟨rfl, rfl⟩

/-- What the last tile leaves in the statistics output's buffer, as contents of its array (the one block is the array). -/
abbrev stats4 (c : Dev nD) : S2x128.Idx → EReal :=
  (outsAt4 V c 9 (by rw [show cfg4.N = 10 from N_4]; decide)).2.1

/-- The one write-back, at the last point, writes it. -/
theorem flushed6_eq4 (c : Dev nD) (t : Fin cfg4.N) (hf : (cfg4.win 6).flush t = true) :
    (dat4 V c).flushed 6 t = ((cfg4.win 6).blk t).view.read (Elt Ideal) (stats4 V c) := by
  have hN : cfg4.N = 10 := N_4
  have h9 : t.val = 9 := by have := (flush4_6 t).mp hf; have := t.isLt; omega
  obtain rfl : t = t4_9 := Fin.ext h9
  show (cfg4.win 6).cut (grid4.coords t4_9) ((dat4 V c).after 6 t4_9) = _
  rw [after4_6]
  have hz' : (fun a => win4_6.index t4_9 a * main_v77_1.ty.shape.size a) = fun _ => 0 := funext fun a => by fin_cases a <;> decide
  exact (Memref.read_access_unit_zero (Elt Ideal) main_v77_1 hz' (fun a => by rw [congrFun hz' a]; simp) (stats4 V c)).symm

/-- So the statistics array ends holding what the last tile left in the buffer. -/
theorem final6_4 (c : Dev nD) : (dat4 V c).arrAt 6 cfg4.N = stats4 V c :=
  (dat4 V c).arrAt_eq_of_cover 6 (stats4 V c) (flushed6_eq4 V c) fun i =>
    ⟨t4_9, (flush4_6 t4_9).mpr rfl, by
      show i ∈ ((View.whole main_v77_1).slice (win4_6.rect t4_9)).set
      rw [View.set_slice_whole, Rect.mem_set_unit]
      intro a
      have h0 : (i 0 : Nat) < 2 := (i 0).isLt
      have h1 : (i 1 : Nat) < 128 := (i 1).isLt
      match a with
      | ⟨0, _⟩ => show win4_6.index t4_9 0 * win4_6.size 0 ≤ (i 0 : Nat) ∧ (i 0 : Nat) < win4_6.index t4_9 0 * win4_6.size 0 + win4_6.xsize (grid4.coords t4_9) 0
                  rw [show win4_6.index t4_9 0 * win4_6.size 0 = 0 from by decide +kernel, show win4_6.xsize (grid4.coords t4_9) 0 = 2 from by decide +kernel]; omega
      | ⟨1, _⟩ => show win4_6.index t4_9 1 * win4_6.size 1 ≤ (i 1 : Nat) ∧ (i 1 : Nat) < win4_6.index t4_9 1 * win4_6.size 1 + win4_6.xsize (grid4.coords t4_9) 1
                  rw [show win4_6.index t4_9 1 * win4_6.size 1 = 0 from by decide +kernel, show win4_6.xsize (grid4.coords t4_9) 1 = 128 from by decide +kernel]; omega⟩

/-- The two output arrays after the region, named. -/
theorem statsOut_eq4 (c : Dev nD) : statsOut4 V c = stats4 V c := final6_4 V c
theorem linOut_eq4 (c : Dev nD) : linOut4 V c = linArr4 V c := final5_4 V c

/-- The last tile's copy, at the tile's number. -/
theorem stats_rows_nat4 (c : Dev nD) (q : Fin 128) (n : ℕ) (h : n < cfg4.N) (h1 : n % 10 = 9) :
    (outsAt4 V c n h).2.1 (ix2 (0 : Fin 2) q) = (outsAt4 V c n h).2.2.1 (ix2 (0 : Fin 1) q)
    ∧ (outsAt4 V c n h).2.1 (ix2 (1 : Fin 2) q) = (outsAt4 V c n h).2.2.2 (ix2 (0 : Fin 1) q) :=
  stats_rows4 V c q ⟨n, h⟩ h1

/-- The two rows of the statistics array are the running sums after the ten tiles. -/
theorem stats_row0_eq4 (c : Dev nD) (q : Fin 128) :
    stats4 V c (ix2 (0 : Fin 2) q) = BatchNormAlgebra.accum (0 : EReal) (tsum4 V c q) 10 :=
  (stats_rows_nat4 V c q 9 _ rfl).1.trans (rows_eq4 V c q 9 _).1
theorem stats_row1_eq4 (c : Dev nD) (q : Fin 128) :
    stats4 V c (ix2 (1 : Fin 2) q) = BatchNormAlgebra.accum (0 : EReal) (tsq4 V c q) 10 :=
  (stats_rows_nat4 V c q 9 _ rfl).2.trans (rows_eq4 V c q 9 _).2

/-- The sums over the ten tiles are the sums over all 50000 rows. -/
theorem tsum_total4 (c : Dev nD) (q : Fin 128) :
    BatchNormAlgebra.accum (0 : EReal) (tsum4 V c q) 10 = ∑ p : Fin 50000, linArr4 V c (ix2 p q) := by
  unfold tsum4
  exact Cert.Tiles.accum_tiles_col (linArr4 V c) q
theorem tsq_total4 (c : Dev nD) (q : Fin 128) :
    BatchNormAlgebra.accum (0 : EReal) (tsq4 V c q) 10 = ∑ p : Fin 50000, linArr4 V c (ix2 p q) * linArr4 V c (ix2 p q) := by
  unfold tsq4
  exact Cert.Tiles.accum_tiles_col (fun i => linArr4 V c i * linArr4 V c i : S50000x128.Idx → EReal) q

/-- THE STATISTICS after the region, row 0: per column, the sum over all 50000 rows of the tile output. -/
theorem final4_sum (c : Dev nD) (q : Fin 128) :
    statsOut4 V c (ix2 (0 : Fin 2) q) = ∑ p : Fin 50000, linOut4 V c (ix2 p q) := by
  rw [statsOut_eq4, linOut_eq4, stats_row0_eq4, tsum_total4]

/-- Row 1: per column, the sum over all rows of the tile output's square. -/
theorem final4_sumsq (c : Dev nD) (q : Fin 128) :
    statsOut4 V c (ix2 (1 : Fin 2) q) = ∑ p : Fin 50000, linOut4 V c (ix2 p q) * linOut4 V c (ix2 p q) := by
  rw [statsOut_eq4, linOut_eq4, stats_row1_eq4, tsq_total4]

end Cert.KernelIdeal.Hand

end
-- ==== Proof.KIValue6.lean ====
/- Region 6 of @main at the ideal reading: what the output array holds when the region is left. The grid has one point
   and every window is its whole array, so each input block is the array the region found, and the one write-back
   leaves in the [1024,10] output array the payload of the pooled array, the weights and the bias row. -/
import proofs.«140440_j51049981280319_1_alg».proof.Proof.KIRegion6
import Idealize.ShloMosaic.Lib.Pipeline.Value
import Idealize.ShloMosaic.PureOps.Ideal

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- The printed index maps at the grid's one point: every window's block index is zero on both axes. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled array's one block is the array. -/
theorem iblk6_0_eq (c : Dev nD) (t : Fin cfg6.N) :
    (iblk6 V c 0 t : Vec Ideal S1024x128 .f32) = (V c main_v108 : FVec Ideal S1024x128 .f32) := by
  obtain ⟨e0, e1, e2, e3, e4, e5, e6, e7⟩ := idx_facts6 t
  funext y
  unfold iblk6
  rw [View.read_apply]
  show V c main_v108 (((cfg6.win 0).blk t).view.emb y) = V c main_v108 y
  have h : ((cfg6.win 0).blk t).view.emb y = y := by
    funext a; apply Fin.ext
    match a with
    | ⟨0, _⟩ => show win6_0.index t (0 : Fin 2) * 1024 + 1 * (y 0).val = (y 0).val; omega
    | ⟨1, _⟩ => show win6_0.index t (1 : Fin 2) * 128 + 1 * (y 1).val = (y 1).val; omega
  rw [h]

/-- The weights' one block is the array. -/
theorem iblk6_1_eq (c : Dev nD) (t : Fin cfg6.N) :
    (iblk6 V c 1 t : Vec Ideal S128x10 .f32) = (V c main_arg18 : FVec Ideal S128x10 .f32) := by
  obtain ⟨e0, e1, e2, e3, e4, e5, e6, e7⟩ := idx_facts6 t
  funext y
  unfold iblk6
  rw [View.read_apply]
  show V c main_arg18 (((cfg6.win 1).blk t).view.emb y) = V c main_arg18 y
  have h : ((cfg6.win 1).blk t).view.emb y = y := by
    funext a; apply Fin.ext
    match a with
    | ⟨0, _⟩ => show win6_1.index t (0 : Fin 2) * 128 + 1 * (y 0).val = (y 0).val; omega
    | ⟨1, _⟩ => show win6_1.index t (1 : Fin 2) * 10 + 1 * (y 1).val = (y 1).val; omega
  rw [h]

/-- The bias row's one block is the row. -/
theorem iblk6_2_eq (c : Dev nD) (t : Fin cfg6.N) :
    (iblk6 V c 2 t : Vec Ideal S1x10 .f32) = (V c main_v109 : FVec Ideal S1x10 .f32) := by
  obtain ⟨e0, e1, e2, e3, e4, e5, e6, e7⟩ := idx_facts6 t
  funext y
  unfold iblk6
  rw [View.read_apply]
  show V c main_v109 (((cfg6.win 2).blk t).view.emb y) = V c main_v109 y
  have h : ((cfg6.win 2).blk t).view.emb y = y := by
    funext a; apply Fin.ext
    match a with
    | ⟨0, _⟩ => show win6_2.index t (0 : Fin 2) * 1 + 1 * (y 0).val = (y 0).val; omega
    | ⟨1, _⟩ => show win6_2.index t (1 : Fin 2) * 10 + 1 * (y 1).val = (y 1).val; omega
  rw [h]

/-- What the one point writes back is the one block of the payload of the arrays as the region finds them. -/
theorem flushed6_eq (c : Dev nD) (t : Fin cfg6.N) :
    (dat6 (F := Ideal) V c).flushed 3 t
      = ((cfg6.win 3).blk t).view.read (Elt Ideal) (Gen.k6_pay1 (F := Ideal) (V c main_v108) (V c main_arg18) (V c main_v109)) := by
  show (cfg6.win 3).cut (grid6.coords t) ((dat6 (F := Ideal) V c).after 3 t) = _
  rw [after6_3]
  unfold out6_3
  rw [View.canon_unit_zero hz6]
  simp only [View.ld_unit_zero (S := S1024x128) hz6, View.ld_unit_zero (S := S128x10) hz6, View.ld_unit_zero (S := S1x10) hz6]
  rw [iblk6_0_eq, iblk6_1_eq, iblk6_2_eq]
  obtain ⟨e0, e1, e2, e3, e4, e5, e6, e7⟩ := idx_facts6 t
  funext j
  show Gen.k6_pay1 (F := Ideal) (V c main_v108) (V c main_arg18) (V c main_v109) j
    = Gen.k6_pay1 (F := Ideal) (V c main_v108) (V c main_arg18) (V c main_v109) (((cfg6.win 3).blk t).view.emb j)
  have h : ((cfg6.win 3).blk t).view.emb j = j := by
    funext a; apply Fin.ext
    match a with
    | ⟨0, _⟩ => show win6_3.index t (0 : Fin 2) * 1024 + 1 * (j 0).val = (j 0).val; omega
    | ⟨1, _⟩ => show win6_3.index t (1 : Fin 2) * 10 + 1 * (j 1).val = (j 1).val; omega
  rw [h]

/-- An index of the array is in the point's block iff each coordinate is in the block's range on its axis. -/
theorem mem_blk6 (t : Fin cfg6.N) (i : S1024x10.Idx) :
    i ∈ ((cfg6.win 3).blk t).view.set ↔ ∀ a : Fin 2, win6_3.index t a * S1024x10.size a ≤ (i a).val ∧ (i a).val < win6_3.index t a * S1024x10.size a + S1024x10.size a := by
  show i ∈ ((View.whole main_v110).slice (win6_3.rect t)).set ↔ _
  rw [View.set_slice_whole, Rect.mem_set_unit]
  exact Iff.rfl

/-- Every index of the array is in the one point's block. -/
theorem cover6 (i : S1024x10.Idx) :
    ∃ t : Fin cfg6.N, (cfg6.win 3).flush t = true ∧ i ∈ ((cfg6.win 3).blk t).view.set := by
  have hi0 : (i 0).val < 1024 := (i 0).isLt
  have hi1 : (i 1).val < 10 := (i 1).isLt
  obtain ⟨e0, e1, e2, e3, e4, e5, e6, e7⟩ := idx_facts6 t6_0
  refine ⟨t6_0, flush6_3 t6_0, ?_⟩
  rw [mem_blk6]
  intro a
  match a with
  | ⟨0, _⟩ => show win6_3.index t6_0 (0 : Fin 2) * 1024 ≤ (i 0).val ∧ (i 0).val < win6_3.index t6_0 (0 : Fin 2) * 1024 + 1024; omega
  | ⟨1, _⟩ => show win6_3.index t6_0 (1 : Fin 2) * 10 ≤ (i 1).val ∧ (i 1).val < win6_3.index t6_0 (1 : Fin 2) * 10 + 10; omega

/-- The output array when the region is left. -/
theorem final6 (c : Dev nD) :
    (dat6 (F := Ideal) V c).arrAt 3 cfg6.N
      = Gen.k6_pay1 (F := Ideal) (V c main_v108) (V c main_arg18) (V c main_v109) :=
  (dat6 (F := Ideal) V c).arrAt_eq_of_cover 3 (Gen.k6_pay1 (F := Ideal) (V c main_v108) (V c main_arg18) (V c main_v109))
    (fun t _ => flushed6_eq V c t) (cover6)

end Cert.KernelIdeal.Hand

end
-- ==== Proof.KIValue.lean ====
/-
  What the idealized kernel's result buffer holds at the end: the kernel's network of the launch arguments.

  Boundary by boundary on one core. The first stretch leaves the first layer's neighbourhood sums, the bias row and the
  edge list's two rows. A layer's first region leaves the linear map `lin` and statistics whose rows are `lin`'s column
  sums and sums of squares; the stretch after it the scale and shift rows; the layer's second region the positive part
  of `kerNorm` (the last layer's: `kerNorm`). The stretch before the next layer gathers and adds that up again with the
  same two edge rows. The last stretch pools, the last region classifies. The arguments are read as launched at every
  boundary.
-/
import proofs.«140440_j51049981280319_1_alg».proof.Proof.KIFrame
import proofs.«140440_j51049981280319_1_alg».proof.Proof.KIRunKeptMore
import proofs.«140440_j51049981280319_1_alg».proof.Proof.KIHost
import proofs.«140440_j51049981280319_1_alg».proof.Proof.KILayerPure
import proofs.«140440_j51049981280319_1_alg».proof.Proof.KIValue0
import proofs.«140440_j51049981280319_1_alg».proof.Proof.KIValue2
import proofs.«140440_j51049981280319_1_alg».proof.Proof.KIValue4
import proofs.«140440_j51049981280319_1_alg».proof.Proof.KIValue6

set_option maxRecDepth 16384

noncomputable section

namespace Cert.KernelIdeal.Hand

open Idealize.ShloMosaic Idealize.ShloMosaic.TcCoe Idealize.ShloMosaic.ValueIdx
open Idealize.ShloMosaic.Pipeline (Dat Cfg Window BodyObligation cellOf)
open Cert.KernelIdeal Cert.KernelIdeal.Gen Cert.Network

variable [Cert.ReferenceIdeal.Facts]
variable (m : (ℓ : Loc nD τ sig) → Buf (Elt Ideal) ℓ) (ρ : Dev nD → PrngReg) (c : Dev nD)

/-! ## The arguments and the layers' outputs -/

/-- An argument's launch contents on core `c`. -/
abbrev A (b : Ref sig .tc) : Buf (Elt Ideal) ((c : Thread nD τ).loc b) := m ((c : Thread nD τ).loc b)

def θ₁ : Params := ⟨A m c main_arg3, A m c main_arg4, A m c main_arg5, A m c main_arg12, A m c main_arg13⟩
def θ₂ : Params := ⟨A m c main_arg6, A m c main_arg7, A m c main_arg8, A m c main_arg14, A m c main_arg15⟩
def θ₃ : Params := ⟨A m c main_arg9, A m c main_arg10, A m c main_arg11, A m c main_arg16, A m c main_arg17⟩
/-- The first, second and third layers' outputs. -/
def y₁ : FVec Ideal S50000x128 .f32 := positive (kerNorm (A m c main_arg1) (A m c main_arg0) (θ₁ m c))
def y₂ : FVec Ideal S50000x128 .f32 := positive (kerNorm (A m c main_arg1) (y₁ m c) (θ₂ m c))
def y₃ : FVec Ideal S50000x128 .f32 := kerNorm (A m c main_arg1) (y₂ m c) (θ₃ m c)

/-- An argument holds its launch contents at every boundary. -/
theorem argAt (b : Ref sig .tc) (hb : b ∈ args) : KeptPrefix half0 half1 half2 half3 half4 half5 m ρ c b :=
  kept_prefix half0 half1 half2 half3 half4 half5 m ρ c b
    ((by decide : ∀ b ∈ args, b ∉ hostOps0_W) b hb)
    ((by decide : ∀ b ∈ args, ∀ w, (cfg0.win w).isOut = true → Pipeline.arrRef cfg0.spec w ≠ b) b hb)
    ((by decide : ∀ b ∈ args, b ∉ hostOps1_W) b hb)
    ((by decide : ∀ b ∈ args, ∀ w, (cfg1.win w).isOut = true → Pipeline.arrRef cfg1.spec w ≠ b) b hb)
    ((by decide : ∀ b ∈ args, b ∉ hostOps2_W) b hb)
    ((by decide : ∀ b ∈ args, ∀ w, (cfg2.win w).isOut = true → Pipeline.arrRef cfg2.spec w ≠ b) b hb)
    ((by decide : ∀ b ∈ args, b ∉ hostOps3_W) b hb)
    ((by decide : ∀ b ∈ args, ∀ w, (cfg3.win w).isOut = true → Pipeline.arrRef cfg3.spec w ≠ b) b hb)
    ((by decide : ∀ b ∈ args, b ∉ hostOps4_W) b hb)
    ((by decide : ∀ b ∈ args, ∀ w, (cfg4.win w).isOut = true → Pipeline.arrRef cfg4.spec w ≠ b) b hb)
    ((by decide : ∀ b ∈ args, b ∉ hostOps5_W) b hb)
    ((by decide : ∀ b ∈ args, ∀ w, (cfg5.win w).isOut = true → Pipeline.arrRef cfg5.spec w ≠ b) b hb)
    ((by decide : ∀ b ∈ args, b ∉ hostOps6_W) b hb)

/-! ## The first stretch -/

theorem w1_src : W1 m ρ c (Proc.devRef .tc main_v1) = edgeRow0 (A m c main_arg1) := host0_src (W0 m ρ c)
theorem w1_dst : W1 m ρ c (Proc.devRef .tc main_v3) = edgeRow1 (A m c main_arg1) := host0_dst (W0 m ρ c)
theorem w1_agg : W1 m ρ c (Proc.devRef .tc main_v13) = aggregate (A m c main_arg1) (A m c main_arg0) :=
  host0_agg (W0 m ρ c)
theorem w1_bias : W1 m ρ c (Proc.devRef .tc main_v14) = Norm.asRow (A m c main_arg5) := host0_bias (W0 m ρ c)

/-- The edge list's two rows are still there before the second and the third layers. -/
theorem edges_kept (b : Ref sig .tc) (hb : b ∈ [main_v1, main_v3]) : KeptFromFirst half0 half1 half2 half3 m ρ c b :=
  kept_from_first half0 half1 half2 half3 m ρ c b
    ((by decide : ∀ b ∈ [main_v1, main_v3], ∀ w, (cfg0.win w).isOut = true → Pipeline.arrRef cfg0.spec w ≠ b) b hb)
    ((by decide : ∀ b ∈ [main_v1, main_v3], b ∉ hostOps1_W) b hb)
    ((by decide : ∀ b ∈ [main_v1, main_v3], ∀ w, (cfg1.win w).isOut = true → Pipeline.arrRef cfg1.spec w ≠ b) b hb)
    ((by decide : ∀ b ∈ [main_v1, main_v3], b ∉ hostOps2_W) b hb)
    ((by decide : ∀ b ∈ [main_v1, main_v3], ∀ w, (cfg2.win w).isOut = true → Pipeline.arrRef cfg2.spec w ≠ b) b hb)
    ((by decide : ∀ b ∈ [main_v1, main_v3], b ∉ hostOps3_W) b hb)
    ((by decide : ∀ b ∈ [main_v1, main_v3], ∀ w, (cfg3.win w).isOut = true → Pipeline.arrRef cfg3.spec w ≠ b) b hb)

theorem argW1 (b : Ref sig .tc) (hb : b ∈ args) : W1 m ρ c (Proc.devRef .tc b) = A m c b := (argAt m ρ c b hb).1
theorem argW2 (b : Ref sig .tc) (hb : b ∈ args) : W2 half0 m ρ c (Proc.devRef .tc b) = A m c b := (argAt m ρ c b hb).2.1
theorem argW3 (b : Ref sig .tc) (hb : b ∈ args) : W3 half0 m ρ c (Proc.devRef .tc b) = A m c b := (argAt m ρ c b hb).2.2.1
theorem argW4 (b : Ref sig .tc) (hb : b ∈ args) : W4 half0 half1 m ρ c (Proc.devRef .tc b) = A m c b := (argAt m ρ c b hb).2.2.2.1
theorem argW5 (b : Ref sig .tc) (hb : b ∈ args) : W5 half0 half1 m ρ c (Proc.devRef .tc b) = A m c b := (argAt m ρ c b hb).2.2.2.2.1
theorem argW6 (b : Ref sig .tc) (hb : b ∈ args) : W6 half0 half1 half2 m ρ c (Proc.devRef .tc b) = A m c b := (argAt m ρ c b hb).2.2.2.2.2.1
theorem argW7 (b : Ref sig .tc) (hb : b ∈ args) : W7 half0 half1 half2 m ρ c (Proc.devRef .tc b) = A m c b := (argAt m ρ c b hb).2.2.2.2.2.2.1
theorem argW8 (b : Ref sig .tc) (hb : b ∈ args) : W8 half0 half1 half2 half3 m ρ c (Proc.devRef .tc b) = A m c b := (argAt m ρ c b hb).2.2.2.2.2.2.2.1
theorem argW9 (b : Ref sig .tc) (hb : b ∈ args) : W9 half0 half1 half2 half3 m ρ c (Proc.devRef .tc b) = A m c b := (argAt m ρ c b hb).2.2.2.2.2.2.2.2.1
theorem argW10 (b : Ref sig .tc) (hb : b ∈ args) : W10 half0 half1 half2 half3 half4 m ρ c (Proc.devRef .tc b) = A m c b := (argAt m ρ c b hb).2.2.2.2.2.2.2.2.2.1
theorem argW11 (b : Ref sig .tc) (hb : b ∈ args) : W11 half0 half1 half2 half3 half4 m ρ c (Proc.devRef .tc b) = A m c b := (argAt m ρ c b hb).2.2.2.2.2.2.2.2.2.2.1
theorem argW12 (b : Ref sig .tc) (hb : b ∈ args) : W12 half0 half1 half2 half3 half4 half5 m ρ c (Proc.devRef .tc b) = A m c b := (argAt m ρ c b hb).2.2.2.2.2.2.2.2.2.2.2.1
theorem argW13 (b : Ref sig .tc) (hb : b ∈ args) : W13 half0 half1 half2 half3 half4 half5 m ρ c (Proc.devRef .tc b) = A m c b := (argAt m ρ c b hb).2.2.2.2.2.2.2.2.2.2.2.2

/-! ## Layer 1 -/

/-- The layer's first region leaves its linear map. -/
theorem w2_lin : W2 half0 m ρ c (Proc.devRef .tc main_v15_0) = lin (A m c main_arg1) (A m c main_arg0) (θ₁ m c) := by
  have e : W2 half0 m ρ c (Proc.devRef .tc main_v15_0) = (dat0 (F := Ideal) (V1 m ρ) c).arrAt 5 cfg0.N :=
    Pipeline.withArrays_arr spec0 launch0.win.arr_inj c (W1 m ρ c) (fun w => (dat0 (V1 m ρ) c).arrAt w cfg0.N) 5
  rw [e]
  refine lin_of_entries _ _ (θ₁ m c) _ fun p q => ?_
  refine (final0_lin (V1 m ρ) c p q).trans ?_
  rw [show rdH0 (V1 m ρ) c = A m c main_arg0 from (argW1 m ρ c main_arg0 (by decide)),
    show rdWr0 (V1 m ρ) c = A m c main_arg3 from argW1 m ρ c main_arg3 (by decide),
    show rdWl0 (V1 m ρ) c = A m c main_arg4 from argW1 m ρ c main_arg4 (by decide),
    show rdAgg0 (V1 m ρ) c = aggregate (A m c main_arg1) (A m c main_arg0) from (w1_agg m ρ c),
    show rdB0 (V1 m ρ) c = Norm.asRow (A m c main_arg5) from (w1_bias m ρ c)]
  rfl

/-- … and statistics whose rows are its column sums and sums of squares. -/
theorem w2_stats : StatsOf (W2 half0 m ρ c (Proc.devRef .tc main_v15_1)) (lin (A m c main_arg1) (A m c main_arg0) (θ₁ m c)) := by
  have e : W2 half0 m ρ c (Proc.devRef .tc main_v15_1) = (dat0 (F := Ideal) (V1 m ρ) c).arrAt 6 cfg0.N :=
    Pipeline.withArrays_arr spec0 launch0.win.arr_inj c (W1 m ρ c) (fun w => (dat0 (V1 m ρ) c).arrAt w cfg0.N) 6
  have el : (dat0 (F := Ideal) (V1 m ρ) c).arrAt 5 cfg0.N = lin (A m c main_arg1) (A m c main_arg0) (θ₁ m c) :=
    (Pipeline.withArrays_arr spec0 launch0.win.arr_inj c (W1 m ρ c) (fun w => (dat0 (V1 m ρ) c).arrAt w cfg0.N) 5).symm.trans (w2_lin m ρ c)
  rw [e]
  refine statsOf_of_rows _ _ (fun q => ?_) (fun q => ?_)
  · refine (final0_sum (V1 m ρ) c q).trans ?_
    rw [show linOut0 (V1 m ρ) c = _ from el]
  · refine (final0_sumsq (V1 m ρ) c q).trans ?_
    rw [show linOut0 (V1 m ρ) c = _ from el]

/-- The stretch after it leaves the scale row, -/
theorem w3_scale : W3 half0 m ρ c (Proc.devRef .tc main_v32)
    = Norm.asRow (Norm.scale (Norm.sums (W2 half0 m ρ c (Proc.devRef .tc main_v15_1)))
        (Norm.sumsq (W2 half0 m ρ c (Proc.devRef .tc main_v15_1))) (A m c main_arg12)) := by
  have h := host1_scale (W2 half0 m ρ c)
  rw [argW2 m ρ c main_arg12 (by decide)] at h
  exact h
/-- the shift row, -/
theorem w3_shift : W3 half0 m ρ c (Proc.devRef .tc main_v33)
    = Norm.asRow (Norm.shift (Norm.sums (W2 half0 m ρ c (Proc.devRef .tc main_v15_1)))
        (Norm.sumsq (W2 half0 m ρ c (Proc.devRef .tc main_v15_1))) (A m c main_arg12) (A m c main_arg13)) := by
  have h := host1_shift (W2 half0 m ρ c)
  rw [argW2 m ρ c main_arg12 (by decide), argW2 m ρ c main_arg13 (by decide)] at h
  exact h
/-- and the linear map where it was. -/
theorem w3_lin : W3 half0 m ρ c (Proc.devRef .tc main_v15_0) = lin (A m c main_arg1) (A m c main_arg0) (θ₁ m c) :=
  (StableHlo.after_of_writes_sub hostOps1 _ hostOps1_writes (by decide)).trans (w2_lin m ρ c)

/-- The layer's second region leaves the layer's output. -/
theorem w4_out : W4 half0 half1 m ρ c (Proc.devRef .tc main_v34) = y₁ m c := by
  have e : W4 half0 half1 m ρ c (Proc.devRef .tc main_v34) = (dat1 (F := Ideal) (V3 half0 m ρ) c).arrAt 3 cfg1.N :=
    Pipeline.withArrays_arr spec1 launch1.win.arr_inj c (W3 half0 m ρ c) (fun w => (dat1 (V3 half0 m ρ) c).arrAt w cfg1.N) 3
  rw [e, final1_fun (V3 half0 m ρ) c]
  rw [show V3 half0 m ρ c main_v15_0 = lin (A m c main_arg1) (A m c main_arg0) (θ₁ m c) from w3_lin m ρ c,
    show V3 half0 m ρ c main_v32 = _ from w3_scale m ρ c,
    show V3 half0 m ρ c main_v33 = _ from w3_shift m ρ c]
  exact G1_eq _ _ (θ₁ m c) _ (w2_stats m ρ c)

/-! ## Before layer 2 -/

/-- The neighbourhood sums of the previous layer's output, with the same two edge rows. -/
theorem w5_agg : W5 half0 half1 m ρ c (Proc.devRef .tc main_v44) = aggregate (A m c main_arg1) (y₁ m c) := by
  have h := host2_agg (W4 half0 half1 m ρ c)
  rw [show W4 half0 half1 m ρ c (Proc.devRef .tc main_v1) = edgeRow0 (A m c main_arg1) from
      ((edges_kept m ρ c main_v1 (by decide)).1).trans (w1_src m ρ c),
    show W4 half0 half1 m ρ c (Proc.devRef .tc main_v3) = edgeRow1 (A m c main_arg1) from
      ((edges_kept m ρ c main_v3 (by decide)).1).trans (w1_dst m ρ c),
    show W4 half0 half1 m ρ c (Proc.devRef .tc main_v34) = y₁ m c from w4_out m ρ c] at h
  exact h.trans (aggregate_eq_aggOf _ _).symm
theorem w5_bias : W5 half0 half1 m ρ c (Proc.devRef .tc main_v45) = Norm.asRow (A m c main_arg8) := by
  have h := host2_bias (W4 half0 half1 m ρ c)
  rw [argW4 m ρ c main_arg8 (by decide)] at h
  exact h
theorem w5_h : W5 half0 half1 m ρ c (Proc.devRef .tc main_v34) = y₁ m c :=
  (StableHlo.after_of_writes_sub hostOps2 _ hostOps2_writes (by decide)).trans (w4_out m ρ c)

/-! ## Layer 2 -/

/-- The layer's first region leaves its linear map. -/
theorem w6_lin : W6 half0 half1 half2 m ρ c (Proc.devRef .tc main_v46_0) = lin (A m c main_arg1) (y₁ m c) (θ₂ m c) := by
  have e : W6 half0 half1 half2 m ρ c (Proc.devRef .tc main_v46_0) = (dat2 (F := Ideal) (V5 half0 half1 m ρ) c).arrAt 5 cfg2.N :=
    Pipeline.withArrays_arr spec2 launch2.win.arr_inj c (W5 half0 half1 m ρ c) (fun w => (dat2 (V5 half0 half1 m ρ) c).arrAt w cfg2.N) 5
  rw [e]
  refine lin_of_entries _ _ (θ₂ m c) _ fun p q => ?_
  refine (final2_lin (V5 half0 half1 m ρ) c p q).trans ?_
  rw [show rdH2 (V5 half0 half1 m ρ) c = y₁ m c from (w5_h m ρ c),
    show rdWr2 (V5 half0 half1 m ρ) c = A m c main_arg6 from argW5 m ρ c main_arg6 (by decide),
    show rdWl2 (V5 half0 half1 m ρ) c = A m c main_arg7 from argW5 m ρ c main_arg7 (by decide),
    show rdAgg2 (V5 half0 half1 m ρ) c = aggregate (A m c main_arg1) (y₁ m c) from (w5_agg m ρ c),
    show rdB2 (V5 half0 half1 m ρ) c = Norm.asRow (A m c main_arg8) from (w5_bias m ρ c)]
  rfl

/-- … and statistics whose rows are its column sums and sums of squares. -/
theorem w6_stats : StatsOf (W6 half0 half1 half2 m ρ c (Proc.devRef .tc main_v46_1)) (lin (A m c main_arg1) (y₁ m c) (θ₂ m c)) := by
  have e : W6 half0 half1 half2 m ρ c (Proc.devRef .tc main_v46_1) = (dat2 (F := Ideal) (V5 half0 half1 m ρ) c).arrAt 6 cfg2.N :=
    Pipeline.withArrays_arr spec2 launch2.win.arr_inj c (W5 half0 half1 m ρ c) (fun w => (dat2 (V5 half0 half1 m ρ) c).arrAt w cfg2.N) 6
  have el : (dat2 (F := Ideal) (V5 half0 half1 m ρ) c).arrAt 5 cfg2.N = lin (A m c main_arg1) (y₁ m c) (θ₂ m c) :=
    (Pipeline.withArrays_arr spec2 launch2.win.arr_inj c (W5 half0 half1 m ρ c) (fun w => (dat2 (V5 half0 half1 m ρ) c).arrAt w cfg2.N) 5).symm.trans (w6_lin m ρ c)
  rw [e]
  refine statsOf_of_rows _ _ (fun q => ?_) (fun q => ?_)
  · refine (final2_sum (V5 half0 half1 m ρ) c q).trans ?_
    rw [show linOut2 (V5 half0 half1 m ρ) c = _ from el]
  · refine (final2_sumsq (V5 half0 half1 m ρ) c q).trans ?_
    rw [show linOut2 (V5 half0 half1 m ρ) c = _ from el]

/-- The stretch after it leaves the scale row, -/
theorem w7_scale : W7 half0 half1 half2 m ρ c (Proc.devRef .tc main_v63)
    = Norm.asRow (Norm.scale (Norm.sums (W6 half0 half1 half2 m ρ c (Proc.devRef .tc main_v46_1)))
        (Norm.sumsq (W6 half0 half1 half2 m ρ c (Proc.devRef .tc main_v46_1))) (A m c main_arg14)) := by
  have h := host3_scale (W6 half0 half1 half2 m ρ c)
  rw [argW6 m ρ c main_arg14 (by decide)] at h
  exact h
/-- the shift row, -/
theorem w7_shift : W7 half0 half1 half2 m ρ c (Proc.devRef .tc main_v64)
    = Norm.asRow (Norm.shift (Norm.sums (W6 half0 half1 half2 m ρ c (Proc.devRef .tc main_v46_1)))
        (Norm.sumsq (W6 half0 half1 half2 m ρ c (Proc.devRef .tc main_v46_1))) (A m c main_arg14) (A m c main_arg15)) := by
  have h := host3_shift (W6 half0 half1 half2 m ρ c)
  rw [argW6 m ρ c main_arg14 (by decide), argW6 m ρ c main_arg15 (by decide)] at h
  exact h
/-- and the linear map where it was. -/
theorem w7_lin : W7 half0 half1 half2 m ρ c (Proc.devRef .tc main_v46_0) = lin (A m c main_arg1) (y₁ m c) (θ₂ m c) :=
  (StableHlo.after_of_writes_sub hostOps3 _ hostOps3_writes (by decide)).trans (w6_lin m ρ c)

/-- The layer's second region leaves the layer's output. -/
theorem w8_out : W8 half0 half1 half2 half3 m ρ c (Proc.devRef .tc main_v65) = y₂ m c := by
  have e : W8 half0 half1 half2 half3 m ρ c (Proc.devRef .tc main_v65) = (dat3 (F := Ideal) (V7 half0 half1 half2 m ρ) c).arrAt 3 cfg3.N :=
    Pipeline.withArrays_arr spec3 launch3.win.arr_inj c (W7 half0 half1 half2 m ρ c) (fun w => (dat3 (V7 half0 half1 half2 m ρ) c).arrAt w cfg3.N) 3
  rw [e, final3_fun (V7 half0 half1 half2 m ρ) c]
  rw [show V7 half0 half1 half2 m ρ c main_v46_0 = lin (A m c main_arg1) (y₁ m c) (θ₂ m c) from w7_lin m ρ c,
    show V7 half0 half1 half2 m ρ c main_v63 = _ from w7_scale m ρ c,
    show V7 half0 half1 half2 m ρ c main_v64 = _ from w7_shift m ρ c]
  exact G3_eq _ _ (θ₂ m c) _ (w6_stats m ρ c)

/-! ## Before layer 3 -/

/-- The neighbourhood sums of the previous layer's output, with the same two edge rows. -/
theorem w9_agg : W9 half0 half1 half2 half3 m ρ c (Proc.devRef .tc main_v75) = aggregate (A m c main_arg1) (y₂ m c) := by
  have h := host4_agg (W8 half0 half1 half2 half3 m ρ c)
  rw [show W8 half0 half1 half2 half3 m ρ c (Proc.devRef .tc main_v1) = edgeRow0 (A m c main_arg1) from
      ((edges_kept m ρ c main_v1 (by decide)).2).trans (w1_src m ρ c),
    show W8 half0 half1 half2 half3 m ρ c (Proc.devRef .tc main_v3) = edgeRow1 (A m c main_arg1) from
      ((edges_kept m ρ c main_v3 (by decide)).2).trans (w1_dst m ρ c),
    show W8 half0 half1 half2 half3 m ρ c (Proc.devRef .tc main_v65) = y₂ m c from w8_out m ρ c] at h
  exact h.trans (aggregate_eq_aggOf _ _).symm
theorem w9_bias : W9 half0 half1 half2 half3 m ρ c (Proc.devRef .tc main_v76) = Norm.asRow (A m c main_arg11) := by
  have h := host4_bias (W8 half0 half1 half2 half3 m ρ c)
  rw [argW8 m ρ c main_arg11 (by decide)] at h
  exact h
theorem w9_h : W9 half0 half1 half2 half3 m ρ c (Proc.devRef .tc main_v65) = y₂ m c :=
  (StableHlo.after_of_writes_sub hostOps4 _ hostOps4_writes (by decide)).trans (w8_out m ρ c)

/-! ## Layer 3 -/

/-- The layer's first region leaves its linear map. -/
theorem w10_lin : W10 half0 half1 half2 half3 half4 m ρ c (Proc.devRef .tc main_v77_0) = lin (A m c main_arg1) (y₂ m c) (θ₃ m c) := by
  have e : W10 half0 half1 half2 half3 half4 m ρ c (Proc.devRef .tc main_v77_0) = (dat4 (F := Ideal) (V9 half0 half1 half2 half3 m ρ) c).arrAt 5 cfg4.N :=
    Pipeline.withArrays_arr spec4 launch4.win.arr_inj c (W9 half0 half1 half2 half3 m ρ c) (fun w => (dat4 (V9 half0 half1 half2 half3 m ρ) c).arrAt w cfg4.N) 5
  rw [e]
  refine lin_of_entries _ _ (θ₃ m c) _ fun p q => ?_
  refine (final4_lin (V9 half0 half1 half2 half3 m ρ) c p q).trans ?_
  rw [show rdH4 (V9 half0 half1 half2 half3 m ρ) c = y₂ m c from (w9_h m ρ c),
    show rdWr4 (V9 half0 half1 half2 half3 m ρ) c = A m c main_arg9 from argW9 m ρ c main_arg9 (by decide),
    show rdWl4 (V9 half0 half1 half2 half3 m ρ) c = A m c main_arg10 from argW9 m ρ c main_arg10 (by decide),
    show rdAgg4 (V9 half0 half1 half2 half3 m ρ) c = aggregate (A m c main_arg1) (y₂ m c) from (w9_agg m ρ c),
    show rdB4 (V9 half0 half1 half2 half3 m ρ) c = Norm.asRow (A m c main_arg11) from (w9_bias m ρ c)]
  rfl

/-- … and statistics whose rows are its column sums and sums of squares. -/
theorem w10_stats : StatsOf (W10 half0 half1 half2 half3 half4 m ρ c (Proc.devRef .tc main_v77_1)) (lin (A m c main_arg1) (y₂ m c) (θ₃ m c)) := by
  have e : W10 half0 half1 half2 half3 half4 m ρ c (Proc.devRef .tc main_v77_1) = (dat4 (F := Ideal) (V9 half0 half1 half2 half3 m ρ) c).arrAt 6 cfg4.N :=
    Pipeline.withArrays_arr spec4 launch4.win.arr_inj c (W9 half0 half1 half2 half3 m ρ c) (fun w => (dat4 (V9 half0 half1 half2 half3 m ρ) c).arrAt w cfg4.N) 6
  have el : (dat4 (F := Ideal) (V9 half0 half1 half2 half3 m ρ) c).arrAt 5 cfg4.N = lin (A m c main_arg1) (y₂ m c) (θ₃ m c) :=
    (Pipeline.withArrays_arr spec4 launch4.win.arr_inj c (W9 half0 half1 half2 half3 m ρ c) (fun w => (dat4 (V9 half0 half1 half2 half3 m ρ) c).arrAt w cfg4.N) 5).symm.trans (w10_lin m ρ c)
  rw [e]
  refine statsOf_of_rows _ _ (fun q => ?_) (fun q => ?_)
  · refine (final4_sum (V9 half0 half1 half2 half3 m ρ) c q).trans ?_
    rw [show linOut4 (V9 half0 half1 half2 half3 m ρ) c = _ from el]
  · refine (final4_sumsq (V9 half0 half1 half2 half3 m ρ) c q).trans ?_
    rw [show linOut4 (V9 half0 half1 half2 half3 m ρ) c = _ from el]

/-- The stretch after it leaves the scale row, -/
theorem w11_scale : W11 half0 half1 half2 half3 half4 m ρ c (Proc.devRef .tc main_v94)
    = Norm.asRow (Norm.scale (Norm.sums (W10 half0 half1 half2 half3 half4 m ρ c (Proc.devRef .tc main_v77_1)))
        (Norm.sumsq (W10 half0 half1 half2 half3 half4 m ρ c (Proc.devRef .tc main_v77_1))) (A m c main_arg16)) := by
  have h := host5_scale (W10 half0 half1 half2 half3 half4 m ρ c)
  rw [argW10 m ρ c main_arg16 (by decide)] at h
  exact h
/-- the shift row, -/
theorem w11_shift : W11 half0 half1 half2 half3 half4 m ρ c (Proc.devRef .tc main_v95)
    = Norm.asRow (Norm.shift (Norm.sums (W10 half0 half1 half2 half3 half4 m ρ c (Proc.devRef .tc main_v77_1)))
        (Norm.sumsq (W10 half0 half1 half2 half3 half4 m ρ c (Proc.devRef .tc main_v77_1))) (A m c main_arg16) (A m c main_arg17)) := by
  have h := host5_shift (W10 half0 half1 half2 half3 half4 m ρ c)
  rw [argW10 m ρ c main_arg16 (by decide), argW10 m ρ c main_arg17 (by decide)] at h
  exact h
/-- and the linear map where it was. -/
theorem w11_lin : W11 half0 half1 half2 half3 half4 m ρ c (Proc.devRef .tc main_v77_0) = lin (A m c main_arg1) (y₂ m c) (θ₃ m c) :=
  (StableHlo.after_of_writes_sub hostOps5 _ hostOps5_writes (by decide)).trans (w10_lin m ρ c)

/-- The layer's second region leaves the layer's output. -/
theorem w12_out : W12 half0 half1 half2 half3 half4 half5 m ρ c (Proc.devRef .tc main_v96) = y₃ m c := by
  have e : W12 half0 half1 half2 half3 half4 half5 m ρ c (Proc.devRef .tc main_v96) = (dat5 (F := Ideal) (V11 half0 half1 half2 half3 half4 m ρ) c).arrAt 3 cfg5.N :=
    Pipeline.withArrays_arr spec5 launch5.win.arr_inj c (W11 half0 half1 half2 half3 half4 m ρ c) (fun w => (dat5 (V11 half0 half1 half2 half3 half4 m ρ) c).arrAt w cfg5.N) 3
  rw [e, final5_fun (V11 half0 half1 half2 half3 half4 m ρ) c]
  rw [show V11 half0 half1 half2 half3 half4 m ρ c main_v77_0 = lin (A m c main_arg1) (y₂ m c) (θ₃ m c) from w11_lin m ρ c,
    show V11 half0 half1 half2 half3 half4 m ρ c main_v94 = _ from w11_scale m ρ c,
    show V11 half0 half1 half2 half3 half4 m ρ c main_v95 = _ from w11_shift m ρ c]
  exact G5_eq _ _ (θ₃ m c) _ (w10_stats m ρ c)

/-! ## Pooling and the classifier -/

theorem w13_pool : W13 half0 half1 half2 half3 half4 half5 m ρ c (Proc.devRef .tc main_v108) = pool (A m c main_arg2) (y₃ m c) := by
  have h := host6_pool (W12 half0 half1 half2 half3 half4 half5 m ρ c)
  rw [argW12 m ρ c main_arg2 (by decide), show W12 half0 half1 half2 half3 half4 half5 m ρ c (Proc.devRef .tc main_v96) = y₃ m c from w12_out m ρ c] at h
  exact h
theorem w13_bias : W13 half0 half1 half2 half3 half4 half5 m ρ c (Proc.devRef .tc main_v109)
    = shapeCast S1x10 (A m c main_arg19) Facts₀.shapeCasts_S10_S1x10 := by
  have h := host6_bias (W12 half0 half1 half2 half3 half4 half5 m ρ c)
  rw [argW12 m ρ c main_arg19 (by decide)] at h
  exact h

/-- THE VALUE: at the end the result buffer holds the kernel's network of the launch arguments. -/
theorem wend_out : Wend m ρ c (Proc.devRef .tc main_v110)
    = kerNet (A m c main_arg0) (A m c main_arg1) (A m c main_arg2) (θ₁ m c) (θ₂ m c) (θ₃ m c) (A m c main_arg18)
        (A m c main_arg19) := by
  have e : Wend m ρ c (Proc.devRef .tc main_v110) = (dat6 (F := Ideal) (V13 half0 half1 half2 half3 half4 half5 m ρ) c).arrAt 3 cfg6.N :=
    Pipeline.withArrays_arr spec6 launch6.win.arr_inj c (W13 half0 half1 half2 half3 half4 half5 m ρ c) (fun w => (dat6 (V13 half0 half1 half2 half3 half4 half5 m ρ) c).arrAt w cfg6.N) 3
  rw [e, final6 (V13 half0 half1 half2 half3 half4 half5 m ρ) c]
  rw [show V13 half0 half1 half2 half3 half4 half5 m ρ c main_v108 = pool (A m c main_arg2) (y₃ m c) from w13_pool m ρ c,
    show V13 half0 half1 half2 half3 half4 half5 m ρ c main_arg18 = A m c main_arg18 from argW13 m ρ c main_arg18 (by decide),
    show V13 half0 half1 half2 half3 half4 half5 m ρ c main_v109 = _ from w13_bias m ρ c]
  rfl

end Cert.KernelIdeal.Hand

end
-- ==== Proof.KIRuns.lean ====
/-
  The idealized kernel's run, with its result's value.

  Every weakly fair execution ends with every unscoped buffer at the last boundary's contents; there the result buffer
  holds the kernel's network of the launch arguments, and each argument is as launched.
-/
import proofs.«140440_j51049981280319_1_alg».proof.Proof.KIValue
import proofs.«140440_j51049981280319_1_alg».proof.Proof.Reduction
import proofs.«140440_j51049981280319_1_alg».proof.Proof.Gen.KernelIdeal
import proofs.«140440_j51049981280319_1_alg».proof.Proof.Gen.ReferenceIdeal
import proofs.«140440_j51049981280319_1_alg».proof.Proof.Gen.Pre_finite_inputs

set_option maxRecDepth 16384

noncomputable section

namespace Cert.KernelIdeal.Hand

open Idealize.ShloMosaic Idealize.ShloMosaic.TcCoe Idealize.SL.Sem
open Cert.KernelIdeal Cert.KernelIdeal.Gen

/-- The idealized kernel ends with its result at the kernel's network of its arguments, the arguments as launched. -/
theorem kernel_runs : Cert.Reduction.KernelRuns := fun m g _ =>
  (θ_run (defs (F := Ideal)) _ _).mono (fun r h c =>
    ⟨(h c main_v110 (by decide)).trans (wend_out m g c),
      (h c main_arg0 (by decide)).trans (arg_kept m g main_arg0 (by decide) c),
      (h c main_arg1 (by decide)).trans (arg_kept m g main_arg1 (by decide) c),
      (h c main_arg2 (by decide)).trans (arg_kept m g main_arg2 (by decide) c),
      (h c main_arg3 (by decide)).trans (arg_kept m g main_arg3 (by decide) c),
      (h c main_arg4 (by decide)).trans (arg_kept m g main_arg4 (by decide) c),
      (h c main_arg5 (by decide)).trans (arg_kept m g main_arg5 (by decide) c),
      (h c main_arg6 (by decide)).trans (arg_kept m g main_arg6 (by decide) c),
      (h c main_arg7 (by decide)).trans (arg_kept m g main_arg7 (by decide) c),
      (h c main_arg8 (by decide)).trans (arg_kept m g main_arg8 (by decide) c),
      (h c main_arg9 (by decide)).trans (arg_kept m g main_arg9 (by decide) c),
      (h c main_arg10 (by decide)).trans (arg_kept m g main_arg10 (by decide) c),
      (h c main_arg11 (by decide)).trans (arg_kept m g main_arg11 (by decide) c),
      (h c main_arg12 (by decide)).trans (arg_kept m g main_arg12 (by decide) c),
      (h c main_arg13 (by decide)).trans (arg_kept m g main_arg13 (by decide) c),
      (h c main_arg14 (by decide)).trans (arg_kept m g main_arg14 (by decide) c),
      (h c main_arg15 (by decide)).trans (arg_kept m g main_arg15 (by decide) c),
      (h c main_arg16 (by decide)).trans (arg_kept m g main_arg16 (by decide) c),
      (h c main_arg17 (by decide)).trans (arg_kept m g main_arg17 (by decide) c),
      (h c main_arg18 (by decide)).trans (arg_kept m g main_arg18 (by decide) c),
      (h c main_arg19 (by decide)).trans (arg_kept m g main_arg19 (by decide) c)⟩) (run m g)

end Cert.KernelIdeal.Hand

end
-- ==== Proof.RefRunMain.lean ====
/-
  The reference program is the straight line of its operations, and what every execution of it leaves.

  Each window of the program is, by unfolding the three outlined functions at their calls, the sequence of the
  operations listed for it: a call is its callee's lines run over the call's own buffers, and sequencing is associative.
  The program runs its three windows in order, so it is the sequence of the whole list. Every operation touches
  references of the device only, no reference or semaphore of the signature is scoped, so the run theorem for a straight
  line applies: every weakly fair execution terminates, and each buffer ends at the fold of the operations over the
  launch contents.
-/
import proofs.«140440_j51049981280319_1_alg».proof.Proof.RefRunOps
import Idealize.ShloMosaic.Lib.Pipeline.Frame

noncomputable section

namespace Cert.RefRun

open Cert.ReferenceIdeal Cert.ReferenceIdeal.Facts₀ Idealize.ShloMosaic Idealize.ShloMosaic.TcCoe Idealize.SL.Sem
  Idealize.ShloMosaic.StableHlo

variable [Cert.ReferenceIdeal.Facts] {F : FTy → Type} [FloatOps F]

/-! ## The program as a sequence -/

-- a window is a chain of up to 104 binds once the calls are unfolded: one step of the comparison per statement
set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl

set_option maxRecDepth 8192 in
/-- The program is the sequence of all its operations: a sequence of a concatenation is the sequences in turn. -/
theorem main_eq (c : Dev nD) : main (F := F) c = seq ops := by
  simp only [ops, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- The property of one operation the run asks for: it touches references of the device only. -/
abbrev OnDevice (op : HloOp τ sig (Elt F)) : Prop := op.bufs ⊆ tcRefs τ sig

/-- A concatenation has the property when both pieces have. -/
theorem forall_append {l₁ l₂ : List (HloOp τ sig (Elt F))} {p : HloOp τ sig (Elt F) → Prop}
    (h₁ : l₁.Forall p) (h₂ : l₂.Forall p) : (l₁ ++ l₂).Forall p :=
  List.forall_iff_forall_mem.mpr fun op h =>
    (List.mem_append.mp h).elim (List.forall_iff_forall_mem.mp h₁ op) (List.forall_iff_forall_mem.mp h₂ op)

theorem seg0_sub : (seg0 : List (HloOp τ sig (Elt F))).Forall OnDevice := by
  simp only [seg0, List.Forall, OnDevice, nullary_bufs_sub, unary_bufs_sub, binary_bufs_sub, ternary_bufs_sub, reshape_bufs_sub, and_self]
theorem seg1_sub : (seg1 : List (HloOp τ sig (Elt F))).Forall OnDevice := by
  simp only [seg1, List.Forall, OnDevice, nullary_bufs_sub, unary_bufs_sub, binary_bufs_sub, ternary_bufs_sub, reshape_bufs_sub, and_self]
theorem seg2_sub : (seg2 : List (HloOp τ sig (Elt F))).Forall OnDevice := by
  simp only [seg2, List.Forall, OnDevice, nullary_bufs_sub, unary_bufs_sub, binary_bufs_sub, ternary_bufs_sub, reshape_bufs_sub, and_self]
theorem seg3_sub : (seg3 : List (HloOp τ sig (Elt F))).Forall OnDevice := by
  simp only [seg3, List.Forall, OnDevice, nullary_bufs_sub, unary_bufs_sub, binary_bufs_sub, ternary_bufs_sub, reshape_bufs_sub, and_self]
theorem seg4_sub : (seg4 : List (HloOp τ sig (Elt F))).Forall OnDevice := by
  simp only [seg4, List.Forall, OnDevice, nullary_bufs_sub, unary_bufs_sub, binary_bufs_sub, ternary_bufs_sub, reshape_bufs_sub, and_self]
theorem seg5_sub : (seg5 : List (HloOp τ sig (Elt F))).Forall OnDevice := by
  simp only [seg5, List.Forall, OnDevice, nullary_bufs_sub, unary_bufs_sub, binary_bufs_sub, ternary_bufs_sub, reshape_bufs_sub, and_self]
theorem seg6_sub : (seg6 : List (HloOp τ sig (Elt F))).Forall OnDevice := by
  simp only [seg6, List.Forall, OnDevice, nullary_bufs_sub, unary_bufs_sub, binary_bufs_sub, ternary_bufs_sub, reshape_bufs_sub, and_self]
theorem seg7_sub : (seg7 : List (HloOp τ sig (Elt F))).Forall OnDevice := by
  simp only [seg7, List.Forall, OnDevice, nullary_bufs_sub, unary_bufs_sub, binary_bufs_sub, ternary_bufs_sub, reshape_bufs_sub, and_self]
theorem seg8_sub : (seg8 : List (HloOp τ sig (Elt F))).Forall OnDevice := by
  simp only [seg8, List.Forall, OnDevice, nullary_bufs_sub, unary_bufs_sub, binary_bufs_sub, ternary_bufs_sub, reshape_bufs_sub, and_self]
theorem seg9_sub : (seg9 : List (HloOp τ sig (Elt F))).Forall OnDevice := by
  simp only [seg9, List.Forall, OnDevice, nullary_bufs_sub, unary_bufs_sub, binary_bufs_sub, ternary_bufs_sub, reshape_bufs_sub, and_self]
theorem seg10_sub : (seg10 : List (HloOp τ sig (Elt F))).Forall OnDevice := by
  simp only [seg10, List.Forall, OnDevice, nullary_bufs_sub, unary_bufs_sub, binary_bufs_sub, ternary_bufs_sub, reshape_bufs_sub, and_self]
theorem seg11_sub : (seg11 : List (HloOp τ sig (Elt F))).Forall OnDevice := by
  simp only [seg11, List.Forall, OnDevice, nullary_bufs_sub, unary_bufs_sub, binary_bufs_sub, ternary_bufs_sub, reshape_bufs_sub, and_self]

/-- Every operation of the program touches references of the device only. -/
theorem ops_sub : (ops : List (HloOp τ sig (Elt F))).Forall fun op => op.bufs ⊆ tcRefs τ sig :=
  forall_append (forall_append seg0_sub (forall_append seg1_sub (forall_append seg2_sub seg3_sub)))
    (forall_append
      (forall_append seg4_sub (forall_append seg5_sub (forall_append seg6_sub (forall_append seg7_sub
        (forall_append seg8_sub seg9_sub)))))
      (forall_append seg10_sub seg11_sub))

/-! ## The run -/

/-- On every device, from any memory with zero counters: every weakly fair execution of the program terminates, and
    each buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.RefRun

end
-- ==== Proof.RefRunKeep.lean ====
/-
  The buffer contents after each segment of the program, and what a segment leaves alone.

  The fold of the whole list of operations is the fold of its twelve segments one after the other: `val k` is the
  contents after the first `k` segments. Each segment writes only the references listed for it — an operation writes its
  result reference and nothing else —, so a reference outside a segment's list has after the segment what it had before
  it, and a reference outside the lists of the first `k` segments still has its launch contents after them. The
  program's arguments are in no list: they end as launched.
-/
import proofs.«140440_j51049981280319_1_alg».proof.Proof.RefRunMain

noncomputable section

namespace Cert.RefRun

open Cert.ReferenceIdeal Cert.ReferenceIdeal.Facts₀ Idealize.ShloMosaic Idealize.ShloMosaic.TcCoe Idealize.SL.Sem
  Idealize.ShloMosaic.StableHlo

variable [Cert.ReferenceIdeal.Facts] {F : FTy → Type} [FloatOps F]

/-! ## What each segment writes -/

/-- Every operation of the list `l` writes references of the list `W` only. For a literal segment: an operation's set of
    written references is the singleton of its result, so the claim is one membership per operation, each decided. -/
abbrev WritesIn (l : List (HloOp τ sig (Elt F))) (W : List (Ref sig .tc)) : Prop :=
  l.Forall fun op => op.writes ⊆ (W.map (Proc.devRef (τ := τ) .tc)).toFinset

set_option maxRecDepth 8192 in
theorem seg0_writes : WritesIn (F := F) seg0 seg0_W := by
  simp only [WritesIn, seg0, List.Forall, nullary_writes, unary_writes, binary_writes, ternary_writes, reshape_writes,
    Finset.singleton_subset_iff, List.mem_toFinset]
  repeat' apply And.intro
  all_goals exact List.mem_map_of_mem (by decide)
set_option maxRecDepth 8192 in
theorem seg1_writes : WritesIn (F := F) seg1 seg1_W := by
  simp only [WritesIn, seg1, List.Forall, nullary_writes, unary_writes, binary_writes, ternary_writes, reshape_writes,
    Finset.singleton_subset_iff, List.mem_toFinset]
  repeat' apply And.intro
  all_goals exact List.mem_map_of_mem (by decide)
set_option maxRecDepth 8192 in
theorem seg2_writes : WritesIn (F := F) seg2 seg2_W := by
  simp only [WritesIn, seg2, List.Forall, nullary_writes, unary_writes, binary_writes, ternary_writes, reshape_writes,
    Finset.singleton_subset_iff, List.mem_toFinset]
  repeat' apply And.intro
  all_goals exact List.mem_map_of_mem (by decide)
set_option maxRecDepth 8192 in
theorem seg3_writes : WritesIn (F := F) seg3 seg3_W := by
  simp only [WritesIn, seg3, List.Forall, nullary_writes, unary_writes, binary_writes, ternary_writes, reshape_writes,
    Finset.singleton_subset_iff, List.mem_toFinset]
  repeat' apply And.intro
  all_goals exact List.mem_map_of_mem (by decide)
set_option maxRecDepth 8192 in
theorem seg4_writes : WritesIn (F := F) seg4 seg4_W := by
  simp only [WritesIn, seg4, List.Forall, nullary_writes, unary_writes, binary_writes, ternary_writes, reshape_writes,
    Finset.singleton_subset_iff, List.mem_toFinset]
  repeat' apply And.intro
  all_goals exact List.mem_map_of_mem (by decide)
set_option maxRecDepth 8192 in
theorem seg5_writes : WritesIn (F := F) seg5 seg5_W := by
  simp only [WritesIn, seg5, List.Forall, nullary_writes, unary_writes, binary_writes, ternary_writes, reshape_writes,
    Finset.singleton_subset_iff, List.mem_toFinset]
  repeat' apply And.intro
  all_goals exact List.mem_map_of_mem (by decide)
set_option maxRecDepth 8192 in
theorem seg6_writes : WritesIn (F := F) seg6 seg6_W := by
  simp only [WritesIn, seg6, List.Forall, nullary_writes, unary_writes, binary_writes, ternary_writes, reshape_writes,
    Finset.singleton_subset_iff, List.mem_toFinset]
  repeat' apply And.intro
  all_goals exact List.mem_map_of_mem (by decide)
set_option maxRecDepth 8192 in
theorem seg7_writes : WritesIn (F := F) seg7 seg7_W := by
  simp only [WritesIn, seg7, List.Forall, nullary_writes, unary_writes, binary_writes, ternary_writes, reshape_writes,
    Finset.singleton_subset_iff, List.mem_toFinset]
  repeat' apply And.intro
  all_goals exact List.mem_map_of_mem (by decide)
set_option maxRecDepth 8192 in
theorem seg8_writes : WritesIn (F := F) seg8 seg8_W := by
  simp only [WritesIn, seg8, List.Forall, nullary_writes, unary_writes, binary_writes, ternary_writes, reshape_writes,
    Finset.singleton_subset_iff, List.mem_toFinset]
  repeat' apply And.intro
  all_goals exact List.mem_map_of_mem (by decide)
set_option maxRecDepth 8192 in
theorem seg9_writes : WritesIn (F := F) seg9 seg9_W := by
  simp only [WritesIn, seg9, List.Forall, nullary_writes, unary_writes, binary_writes, ternary_writes, reshape_writes,
    Finset.singleton_subset_iff, List.mem_toFinset]
  repeat' apply And.intro
  all_goals exact List.mem_map_of_mem (by decide)
set_option maxRecDepth 8192 in
theorem seg10_writes : WritesIn (F := F) seg10 seg10_W := by
  simp only [WritesIn, seg10, List.Forall, nullary_writes, unary_writes, binary_writes, ternary_writes, reshape_writes,
    Finset.singleton_subset_iff, List.mem_toFinset]
  repeat' apply And.intro
  all_goals exact List.mem_map_of_mem (by decide)
set_option maxRecDepth 8192 in
theorem seg11_writes : WritesIn (F := F) seg11 seg11_W := by
  simp only [WritesIn, seg11, List.Forall, nullary_writes, unary_writes, binary_writes, ternary_writes, reshape_writes,
    Finset.singleton_subset_iff, List.mem_toFinset]
  repeat' apply And.intro
  all_goals exact List.mem_map_of_mem (by decide)

/-! ## The contents after each segment -/

/-- The contents before the first segment: the launch contents. -/
def val0 (V0 : Valuation τ sig (Elt F)) : Valuation τ sig (Elt F) := V0
/-- The contents after the first segment. -/
def val1 (V0 : Valuation τ sig (Elt F)) : Valuation τ sig (Elt F) := after seg0 (val0 V0)
/-- The contents after the first 2 segments. -/
def val2 (V0 : Valuation τ sig (Elt F)) : Valuation τ sig (Elt F) := after seg1 (val1 V0)
/-- The contents after the first 3 segments. -/
def val3 (V0 : Valuation τ sig (Elt F)) : Valuation τ sig (Elt F) := after seg2 (val2 V0)
/-- The contents after the first 4 segments: after window `main_part0`. -/
def val4 (V0 : Valuation τ sig (Elt F)) : Valuation τ sig (Elt F) := after seg3 (val3 V0)
/-- The contents after the first 5 segments. -/
def val5 (V0 : Valuation τ sig (Elt F)) : Valuation τ sig (Elt F) := after seg4 (val4 V0)
/-- The contents after the first 6 segments. -/
def val6 (V0 : Valuation τ sig (Elt F)) : Valuation τ sig (Elt F) := after seg5 (val5 V0)
/-- The contents after the first 7 segments. -/
def val7 (V0 : Valuation τ sig (Elt F)) : Valuation τ sig (Elt F) := after seg6 (val6 V0)
/-- The contents after the first 8 segments. -/
def val8 (V0 : Valuation τ sig (Elt F)) : Valuation τ sig (Elt F) := after seg7 (val7 V0)
/-- The contents after the first 9 segments. -/
def val9 (V0 : Valuation τ sig (Elt F)) : Valuation τ sig (Elt F) := after seg8 (val8 V0)
/-- The contents after the first 10 segments: after window `main_part1`. -/
def val10 (V0 : Valuation τ sig (Elt F)) : Valuation τ sig (Elt F) := after seg9 (val9 V0)
/-- The contents after the first 11 segments. -/
def val11 (V0 : Valuation τ sig (Elt F)) : Valuation τ sig (Elt F) := after seg10 (val10 V0)
/-- The contents after all 12 segments. -/
def val12 (V0 : Valuation τ sig (Elt F)) : Valuation τ sig (Elt F) := after seg11 (val11 V0)

/-- The fold of the whole list is the contents after the last segment: a fold over a concatenation is the folds in turn. -/
theorem after_ops (V0 : Valuation τ sig (Elt F)) : after ops V0 = val12 V0 := by
  simp only [ops, ops_part0, ops_part1, ops_part2, after_append]
  rfl

/-! ## A segment leaves a reference it does not write as it was -/

theorem val1_keep (V0 : Valuation τ sig (Elt F)) (r : Ref sig .tc) (h : r ∉ seg0_W) :
    val1 V0 (Proc.devRef .tc r) = val0 V0 (Proc.devRef .tc r) := after_of_writes_sub seg0 _ seg0_writes h
theorem val2_keep (V0 : Valuation τ sig (Elt F)) (r : Ref sig .tc) (h : r ∉ seg1_W) :
    val2 V0 (Proc.devRef .tc r) = val1 V0 (Proc.devRef .tc r) := after_of_writes_sub seg1 _ seg1_writes h
theorem val3_keep (V0 : Valuation τ sig (Elt F)) (r : Ref sig .tc) (h : r ∉ seg2_W) :
    val3 V0 (Proc.devRef .tc r) = val2 V0 (Proc.devRef .tc r) := after_of_writes_sub seg2 _ seg2_writes h
theorem val4_keep (V0 : Valuation τ sig (Elt F)) (r : Ref sig .tc) (h : r ∉ seg3_W) :
    val4 V0 (Proc.devRef .tc r) = val3 V0 (Proc.devRef .tc r) := after_of_writes_sub seg3 _ seg3_writes h
theorem val5_keep (V0 : Valuation τ sig (Elt F)) (r : Ref sig .tc) (h : r ∉ seg4_W) :
    val5 V0 (Proc.devRef .tc r) = val4 V0 (Proc.devRef .tc r) := after_of_writes_sub seg4 _ seg4_writes h
theorem val6_keep (V0 : Valuation τ sig (Elt F)) (r : Ref sig .tc) (h : r ∉ seg5_W) :
    val6 V0 (Proc.devRef .tc r) = val5 V0 (Proc.devRef .tc r) := after_of_writes_sub seg5 _ seg5_writes h
theorem val7_keep (V0 : Valuation τ sig (Elt F)) (r : Ref sig .tc) (h : r ∉ seg6_W) :
    val7 V0 (Proc.devRef .tc r) = val6 V0 (Proc.devRef .tc r) := after_of_writes_sub seg6 _ seg6_writes h
theorem val8_keep (V0 : Valuation τ sig (Elt F)) (r : Ref sig .tc) (h : r ∉ seg7_W) :
    val8 V0 (Proc.devRef .tc r) = val7 V0 (Proc.devRef .tc r) := after_of_writes_sub seg7 _ seg7_writes h
theorem val9_keep (V0 : Valuation τ sig (Elt F)) (r : Ref sig .tc) (h : r ∉ seg8_W) :
    val9 V0 (Proc.devRef .tc r) = val8 V0 (Proc.devRef .tc r) := after_of_writes_sub seg8 _ seg8_writes h
theorem val10_keep (V0 : Valuation τ sig (Elt F)) (r : Ref sig .tc) (h : r ∉ seg9_W) :
    val10 V0 (Proc.devRef .tc r) = val9 V0 (Proc.devRef .tc r) := after_of_writes_sub seg9 _ seg9_writes h
theorem val11_keep (V0 : Valuation τ sig (Elt F)) (r : Ref sig .tc) (h : r ∉ seg10_W) :
    val11 V0 (Proc.devRef .tc r) = val10 V0 (Proc.devRef .tc r) := after_of_writes_sub seg10 _ seg10_writes h
theorem val12_keep (V0 : Valuation τ sig (Elt F)) (r : Ref sig .tc) (h : r ∉ seg11_W) :
    val12 V0 (Proc.devRef .tc r) = val11 V0 (Proc.devRef .tc r) := after_of_writes_sub seg11 _ seg11_writes h

/-! ## A reference none of the first segments writes still has its launch contents -/

/-- The references the first 1, 2, … segments write. -/
abbrev written1 : List (Ref sig .tc) := seg0_W
abbrev written2 : List (Ref sig .tc) := written1 ++ seg1_W
abbrev written3 : List (Ref sig .tc) := written2 ++ seg2_W
abbrev written4 : List (Ref sig .tc) := written3 ++ seg3_W
abbrev written5 : List (Ref sig .tc) := written4 ++ seg4_W
abbrev written6 : List (Ref sig .tc) := written5 ++ seg5_W
abbrev written7 : List (Ref sig .tc) := written6 ++ seg6_W
abbrev written8 : List (Ref sig .tc) := written7 ++ seg7_W
abbrev written9 : List (Ref sig .tc) := written8 ++ seg8_W
abbrev written10 : List (Ref sig .tc) := written9 ++ seg9_W
abbrev written11 : List (Ref sig .tc) := written10 ++ seg10_W
abbrev written12 : List (Ref sig .tc) := written11 ++ seg11_W

theorem val1_init (V0 : Valuation τ sig (Elt F)) (r : Ref sig .tc) (h : r ∉ written1) :
    val1 V0 (Proc.devRef .tc r) = V0 (Proc.devRef .tc r) := val1_keep V0 r h
theorem val2_init (V0 : Valuation τ sig (Elt F)) (r : Ref sig .tc) (h : r ∉ written2) :
    val2 V0 (Proc.devRef .tc r) = V0 (Proc.devRef .tc r) :=
  (val2_keep V0 r fun h' => h (List.mem_append_right _ h')).trans (val1_init V0 r fun h' => h (List.mem_append_left _ h'))
theorem val3_init (V0 : Valuation τ sig (Elt F)) (r : Ref sig .tc) (h : r ∉ written3) :
    val3 V0 (Proc.devRef .tc r) = V0 (Proc.devRef .tc r) :=
  (val3_keep V0 r fun h' => h (List.mem_append_right _ h')).trans (val2_init V0 r fun h' => h (List.mem_append_left _ h'))
theorem val4_init (V0 : Valuation τ sig (Elt F)) (r : Ref sig .tc) (h : r ∉ written4) :
    val4 V0 (Proc.devRef .tc r) = V0 (Proc.devRef .tc r) :=
  (val4_keep V0 r fun h' => h (List.mem_append_right _ h')).trans (val3_init V0 r fun h' => h (List.mem_append_left _ h'))
theorem val5_init (V0 : Valuation τ sig (Elt F)) (r : Ref sig .tc) (h : r ∉ written5) :
    val5 V0 (Proc.devRef .tc r) = V0 (Proc.devRef .tc r) :=
  (val5_keep V0 r fun h' => h (List.mem_append_right _ h')).trans (val4_init V0 r fun h' => h (List.mem_append_left _ h'))
theorem val6_init (V0 : Valuation τ sig (Elt F)) (r : Ref sig .tc) (h : r ∉ written6) :
    val6 V0 (Proc.devRef .tc r) = V0 (Proc.devRef .tc r) :=
  (val6_keep V0 r fun h' => h (List.mem_append_right _ h')).trans (val5_init V0 r fun h' => h (List.mem_append_left _ h'))
theorem val7_init (V0 : Valuation τ sig (Elt F)) (r : Ref sig .tc) (h : r ∉ written7) :
    val7 V0 (Proc.devRef .tc r) = V0 (Proc.devRef .tc r) :=
  (val7_keep V0 r fun h' => h (List.mem_append_right _ h')).trans (val6_init V0 r fun h' => h (List.mem_append_left _ h'))
theorem val8_init (V0 : Valuation τ sig (Elt F)) (r : Ref sig .tc) (h : r ∉ written8) :
    val8 V0 (Proc.devRef .tc r) = V0 (Proc.devRef .tc r) :=
  (val8_keep V0 r fun h' => h (List.mem_append_right _ h')).trans (val7_init V0 r fun h' => h (List.mem_append_left _ h'))
theorem val9_init (V0 : Valuation τ sig (Elt F)) (r : Ref sig .tc) (h : r ∉ written9) :
    val9 V0 (Proc.devRef .tc r) = V0 (Proc.devRef .tc r) :=
  (val9_keep V0 r fun h' => h (List.mem_append_right _ h')).trans (val8_init V0 r fun h' => h (List.mem_append_left _ h'))
theorem val10_init (V0 : Valuation τ sig (Elt F)) (r : Ref sig .tc) (h : r ∉ written10) :
    val10 V0 (Proc.devRef .tc r) = V0 (Proc.devRef .tc r) :=
  (val10_keep V0 r fun h' => h (List.mem_append_right _ h')).trans (val9_init V0 r fun h' => h (List.mem_append_left _ h'))
theorem val11_init (V0 : Valuation τ sig (Elt F)) (r : Ref sig .tc) (h : r ∉ written11) :
    val11 V0 (Proc.devRef .tc r) = V0 (Proc.devRef .tc r) :=
  (val11_keep V0 r fun h' => h (List.mem_append_right _ h')).trans (val10_init V0 r fun h' => h (List.mem_append_left _ h'))
theorem val12_init (V0 : Valuation τ sig (Elt F)) (r : Ref sig .tc) (h : r ∉ written12) :
    val12 V0 (Proc.devRef .tc r) = V0 (Proc.devRef .tc r) :=
  (val12_keep V0 r fun h' => h (List.mem_append_right _ h')).trans (val11_init V0 r fun h' => h (List.mem_append_left _ h'))

end Cert.RefRun

end
-- ==== Proof.RefRunFrame.lean ====
/-
  The reference program runs and leaves its arguments as launched.

  Every weakly fair execution terminates with each buffer at the fold of the program's operations over the launch
  contents. No operation writes an argument: an argument is in none of the twelve segments' lists of written references,
  so after the last segment it still has its launch contents. Nothing is evaluated, and the precondition is not used.
-/
import proofs.«140440_j51049981280319_1_alg».proof.Defs
import proofs.«140440_j51049981280319_1_alg».proof.Proof.RefRunKeep

noncomputable section

namespace Cert.RefRun

open Cert.ReferenceIdeal Idealize.ShloMosaic Idealize.ShloMosaic.TcCoe Idealize.SL.Sem Idealize.ShloMosaic.StableHlo

variable [Cert.ReferenceIdeal.Facts] [Cert.Pre_finite_inputs.Facts]

/-- A reference no segment writes ends, in every final state of the run, as launched. -/
theorem ends_as_launched {F : FTy → Type} [FloatOps F] (m : (ℓ : Loc nD τ sig) → Buf (Elt F) ℓ) (c : Dev nD)
    (mem : (ℓ : Loc nD τ sig) → Buf (Elt F) ℓ)
    (h : ∀ b : Ref sig .tc, mem ((c.tc : Thread nD τ).loc b) = after ops (launchContents m c) (Proc.devRef .tc b))
    (b : Ref sig .tc) (hb : b ∉ written12) :
    mem ((c.tc : Thread nD τ).loc b) = m ((c.tc : Thread nD τ).loc b) :=
  (h b).trans (by rw [after_ops]; exact val12_init (launchContents m c) b hb)

set_option maxRecDepth 8192 in
/-- Every execution of the reference program terminates and the twenty arguments end as launched. -/
theorem frame : Cert.frame_ReferenceIdeal := by
  intro m g _
  refine (θ_run (Cert.ReferenceIdeal.defs (F := Ideal)) _ _).mono (fun r h c => ?_) (run_after (F := Ideal) m g)
  have e := ends_as_launched m c r.2.mem (h c)
  exact ⟨e main_arg0 (by decide), e main_arg1 (by decide), e main_arg2 (by decide), e main_arg3 (by decide),
    e main_arg4 (by decide), e main_arg5 (by decide), e main_arg6 (by decide), e main_arg7 (by decide),
    e main_arg8 (by decide), e main_arg9 (by decide), e main_arg10 (by decide), e main_arg11 (by decide),
    e main_arg12 (by decide), e main_arg13 (by decide), e main_arg14 (by decide), e main_arg15 (by decide),
    e main_arg16 (by decide), e main_arg17 (by decide), e main_arg18 (by decide), e main_arg19 (by decide)⟩

end Cert.RefRun

end
-- ==== Proof.RefRunVal1.lean ====
/-
  The first layer of the reference network, read off the run.

  The first four segments of the program compute, from the launch contents `V0`: the two rows of the edge list; the
  neighbourhood sums of the node features and the layer's linear map of them; the column means and variances of that
  array; its normalisation and positive part, the first layer's output; and the neighbourhood sums of that output. Each
  is stated as the network's own function of the arguments, segment by segment: a segment's operations are unrolled once
  over the contents before it, the buffers it reads from earlier segments are replaced by their values already named, and
  what is left is the definition of the function, unfolded one level.
-/
import proofs.«140440_j51049981280319_1_alg».proof.Proof.RefRunKeep
import proofs.«140440_j51049981280319_1_alg».proof.Proof.Network

noncomputable section

namespace Cert.RefRun

open Cert.ReferenceIdeal Cert.ReferenceIdeal.Facts₀ Idealize.ShloMosaic Idealize.ShloMosaic.TcCoe Idealize.SL.Sem
  Idealize.ShloMosaic.StableHlo
open Cert.Network (edgeRow0 edgeRow1 aggregate lin refNorm Params)

variable [Cert.KernelIdeal.Facts] [Cert.ReferenceIdeal.Facts]

/-- The buffer contents of a device at the ideal instance. -/
abbrev Vals : Type := Valuation τ sig (Elt Ideal)

/-! ## The arguments, read off the launch contents -/

/-- The node features. -/
def x0 (V0 : Vals) : FVec Ideal S50000x128 .f32 := V0 (Proc.devRef .tc main_arg0)
/-- The edge list. -/
def ei (V0 : Vals) : IVec S2x800000 32 := V0 (Proc.devRef .tc main_arg1)
/-- The first layer's parameters. -/
def θ₁ (V0 : Vals) : Params :=
  ⟨V0 (Proc.devRef .tc main_arg3), V0 (Proc.devRef .tc main_arg4), V0 (Proc.devRef .tc main_arg5),
    V0 (Proc.devRef .tc main_arg12), V0 (Proc.devRef .tc main_arg13)⟩
/-- The first layer's linear map of the features. -/
def lin₁ (V0 : Vals) : FVec Ideal S50000x128 .f32 := lin (ei V0) (x0 V0) (θ₁ V0)
/-- The first layer's output. -/
def h₁ (V0 : Vals) : FVec Ideal S50000x128 .f32 := Linear.relu (refNorm (ei V0) (x0 V0) (θ₁ V0))

theorem val0_apply (V0 : Vals) (b : DevRef τ sig) : val0 V0 b = V0 b := rfl

/-! ## Segment 1: the edge rows, the neighbourhood sums, the linear map -/

set_option maxRecDepth 8192 in
theorem val1_main_v1 (V0 : Vals) : val1 V0 (no_index (Proc.devRef .tc main_v1)) = edgeRow0 (ei V0) := by
  unfold val1
  simp only [seg0]
  after_results_simp
  rfl

set_option maxRecDepth 8192 in
theorem val1_main_v3 (V0 : Vals) : val1 V0 (no_index (Proc.devRef .tc main_v3)) = edgeRow1 (ei V0) := by
  unfold val1
  simp only [seg0]
  after_results_simp
  rfl

set_option maxRecDepth 8192 in
set_option maxHeartbeats 2000000 in
theorem val1_main_v19 (V0 : Vals) : val1 V0 (no_index (Proc.devRef .tc main_v19)) = lin₁ V0 := by
  unfold val1
  simp only [seg0]
  after_results_simp
  rfl

/-! ## Segment 2: the column means and variances -/

theorem val2_main_v1 (V0 : Vals) : val2 V0 (no_index (Proc.devRef .tc main_v1)) = edgeRow0 (ei V0) :=
  (val2_keep V0 main_v1 (by decide)).trans (val1_main_v1 V0)
theorem val2_main_v3 (V0 : Vals) : val2 V0 (no_index (Proc.devRef .tc main_v3)) = edgeRow1 (ei V0) :=
  (val2_keep V0 main_v3 (by decide)).trans (val1_main_v3 V0)
theorem val2_main_v19 (V0 : Vals) : val2 V0 (no_index (Proc.devRef .tc main_v19)) = lin₁ V0 :=
  (val2_keep V0 main_v19 (by decide)).trans (val1_main_v19 V0)

set_option maxRecDepth 8192 in
set_option maxHeartbeats 2000000 in
theorem val2_main_v22 (V0 : Vals) : val2 V0 (no_index (Proc.devRef .tc main_v22)) = Norm.mean (lin₁ V0) := by
  unfold val2
  simp only [seg1]
  after_results_simp
  simp only [val1_main_v19]
  rfl

set_option maxRecDepth 8192 in
set_option maxHeartbeats 2000000 in
theorem val2_main_v23 (V0 : Vals) :
    val2 V0 (no_index (Proc.devRef .tc main_v23)) = Norm.variance (lin₁ V0) (constantI S_ 32 0#32) := by
  unfold val2
  simp only [seg1]
  after_results_simp
  simp only [val1_main_v19]
  rfl

/-! ## Segment 3: the normalisation and the positive part -/

theorem val3_main_v1 (V0 : Vals) : val3 V0 (no_index (Proc.devRef .tc main_v1)) = edgeRow0 (ei V0) :=
  (val3_keep V0 main_v1 (by decide)).trans (val2_main_v1 V0)
theorem val3_main_v3 (V0 : Vals) : val3 V0 (no_index (Proc.devRef .tc main_v3)) = edgeRow1 (ei V0) :=
  (val3_keep V0 main_v3 (by decide)).trans (val2_main_v3 V0)

theorem val2_main_arg12 (V0 : Vals) :
    val2 V0 (no_index (Proc.devRef .tc main_arg12)) = V0 (Proc.devRef .tc main_arg12) := val2_init V0 main_arg12 (by decide)
theorem val2_main_arg13 (V0 : Vals) :
    val2 V0 (no_index (Proc.devRef .tc main_arg13)) = V0 (Proc.devRef .tc main_arg13) := val2_init V0 main_arg13 (by decide)

set_option maxRecDepth 8192 in
set_option maxHeartbeats 2000000 in
theorem val3_main_v39 (V0 : Vals) : val3 V0 (no_index (Proc.devRef .tc main_v39)) = h₁ V0 := by
  unfold val3
  simp only [seg2]
  after_results_simp
  simp only [val2_main_v19, val2_main_v22, val2_main_v23, val2_main_arg12, val2_main_arg13]
  rfl

/-! ## Segment 4: the neighbourhood sums of the first layer's output -/

theorem val4_main_v1 (V0 : Vals) : val4 V0 (no_index (Proc.devRef .tc main_v1)) = edgeRow0 (ei V0) :=
  (val4_keep V0 main_v1 (by decide)).trans (val3_main_v1 V0)
theorem val4_main_v3 (V0 : Vals) : val4 V0 (no_index (Proc.devRef .tc main_v3)) = edgeRow1 (ei V0) :=
  (val4_keep V0 main_v3 (by decide)).trans (val3_main_v3 V0)
theorem val4_main_v39 (V0 : Vals) : val4 V0 (no_index (Proc.devRef .tc main_v39)) = h₁ V0 :=
  (val4_keep V0 main_v39 (by decide)).trans (val3_main_v39 V0)

set_option maxRecDepth 8192 in
set_option maxHeartbeats 2000000 in
theorem val4_main_v49 (V0 : Vals) : val4 V0 (no_index (Proc.devRef .tc main_v49)) = aggregate (ei V0) (h₁ V0) := by
  unfold val4
  simp only [seg3]
  after_results_simp
  simp only [val3_main_v1, val3_main_v3, val3_main_v39]
  rfl

end Cert.RefRun

end
-- ==== Proof.RefRunVal2.lean ====
/-
  The second layer of the reference network and the third layer's linear map, read off the run.

  Segments five to eight of the program compute, from the first layer's output and its neighbourhood sums: the second
  layer's linear map; its column means and variances; its normalisation and positive part, the second layer's output; the
  neighbourhood sums of that output and the third layer's linear map. Each is stated as the network's own function of the
  arguments, as for the first layer.
-/
import proofs.«140440_j51049981280319_1_alg».proof.Proof.RefRunVal1

noncomputable section

namespace Cert.RefRun

open Cert.ReferenceIdeal Cert.ReferenceIdeal.Facts₀ Idealize.ShloMosaic Idealize.ShloMosaic.TcCoe Idealize.SL.Sem
  Idealize.ShloMosaic.StableHlo
open Cert.Network (edgeRow0 edgeRow1 aggregate lin refNorm Params)

variable [Cert.KernelIdeal.Facts] [Cert.ReferenceIdeal.Facts]

/-- The second layer's parameters. -/
def θ₂ (V0 : Vals) : Params :=
  ⟨V0 (Proc.devRef .tc main_arg6), V0 (Proc.devRef .tc main_arg7), V0 (Proc.devRef .tc main_arg8),
    V0 (Proc.devRef .tc main_arg14), V0 (Proc.devRef .tc main_arg15)⟩
/-- The second layer's linear map of the first layer's output. -/
def lin₂ (V0 : Vals) : FVec Ideal S50000x128 .f32 := lin (ei V0) (h₁ V0) (θ₂ V0)
/-- The second layer's output. -/
def h₂ (V0 : Vals) : FVec Ideal S50000x128 .f32 := Linear.relu (refNorm (ei V0) (h₁ V0) (θ₂ V0))
/-- The third layer's parameters. -/
def θ₃ (V0 : Vals) : Params :=
  ⟨V0 (Proc.devRef .tc main_arg9), V0 (Proc.devRef .tc main_arg10), V0 (Proc.devRef .tc main_arg11),
    V0 (Proc.devRef .tc main_arg16), V0 (Proc.devRef .tc main_arg17)⟩
/-- The third layer's linear map of the second layer's output. -/
def lin₃ (V0 : Vals) : FVec Ideal S50000x128 .f32 := lin (ei V0) (h₂ V0) (θ₃ V0)

/-! ## Segment 5: the second layer's linear map -/

theorem val4_main_arg6 (V0 : Vals) :
    val4 V0 (no_index (Proc.devRef .tc main_arg6)) = V0 (Proc.devRef .tc main_arg6) := val4_init V0 main_arg6 (by decide)
theorem val4_main_arg7 (V0 : Vals) :
    val4 V0 (no_index (Proc.devRef .tc main_arg7)) = V0 (Proc.devRef .tc main_arg7) := val4_init V0 main_arg7 (by decide)
theorem val4_main_arg8 (V0 : Vals) :
    val4 V0 (no_index (Proc.devRef .tc main_arg8)) = V0 (Proc.devRef .tc main_arg8) := val4_init V0 main_arg8 (by decide)

set_option maxRecDepth 8192 in
set_option maxHeartbeats 2000000 in
theorem val5_main_v55 (V0 : Vals) : val5 V0 (no_index (Proc.devRef .tc main_v55)) = lin₂ V0 := by
  unfold val5
  simp only [seg4]
  after_results_simp
  simp only [val4_main_v39, val4_main_v49, val4_main_arg6, val4_main_arg7, val4_main_arg8]
  rfl

theorem val5_main_v1 (V0 : Vals) : val5 V0 (no_index (Proc.devRef .tc main_v1)) = edgeRow0 (ei V0) :=
  (val5_keep V0 main_v1 (by decide)).trans (val4_main_v1 V0)
theorem val5_main_v3 (V0 : Vals) : val5 V0 (no_index (Proc.devRef .tc main_v3)) = edgeRow1 (ei V0) :=
  (val5_keep V0 main_v3 (by decide)).trans (val4_main_v3 V0)

/-! ## Segment 6: the column means and variances -/

set_option maxRecDepth 8192 in
set_option maxHeartbeats 2000000 in
theorem val6_main_v58 (V0 : Vals) : val6 V0 (no_index (Proc.devRef .tc main_v58)) = Norm.mean (lin₂ V0) := by
  unfold val6
  simp only [seg5]
  after_results_simp
  simp only [val5_main_v55]
  rfl

set_option maxRecDepth 8192 in
set_option maxHeartbeats 2000000 in
theorem val6_main_v59 (V0 : Vals) :
    val6 V0 (no_index (Proc.devRef .tc main_v59)) = Norm.variance (lin₂ V0) (constantI S_ 32 0#32) := by
  unfold val6
  simp only [seg5]
  after_results_simp
  simp only [val5_main_v55]
  rfl

theorem val6_main_v1 (V0 : Vals) : val6 V0 (no_index (Proc.devRef .tc main_v1)) = edgeRow0 (ei V0) :=
  (val6_keep V0 main_v1 (by decide)).trans (val5_main_v1 V0)
theorem val6_main_v3 (V0 : Vals) : val6 V0 (no_index (Proc.devRef .tc main_v3)) = edgeRow1 (ei V0) :=
  (val6_keep V0 main_v3 (by decide)).trans (val5_main_v3 V0)
theorem val6_main_v55 (V0 : Vals) : val6 V0 (no_index (Proc.devRef .tc main_v55)) = lin₂ V0 :=
  (val6_keep V0 main_v55 (by decide)).trans (val5_main_v55 V0)

/-! ## Segment 7: the normalisation and the positive part -/

theorem val6_main_arg14 (V0 : Vals) :
    val6 V0 (no_index (Proc.devRef .tc main_arg14)) = V0 (Proc.devRef .tc main_arg14) := val6_init V0 main_arg14 (by decide)
theorem val6_main_arg15 (V0 : Vals) :
    val6 V0 (no_index (Proc.devRef .tc main_arg15)) = V0 (Proc.devRef .tc main_arg15) := val6_init V0 main_arg15 (by decide)

set_option maxRecDepth 8192 in
set_option maxHeartbeats 2000000 in
theorem val7_main_v75 (V0 : Vals) : val7 V0 (no_index (Proc.devRef .tc main_v75)) = h₂ V0 := by
  unfold val7
  simp only [seg6]
  after_results_simp
  simp only [val6_main_v55, val6_main_v58, val6_main_v59, val6_main_arg14, val6_main_arg15]
  rfl

theorem val7_main_v1 (V0 : Vals) : val7 V0 (no_index (Proc.devRef .tc main_v1)) = edgeRow0 (ei V0) :=
  (val7_keep V0 main_v1 (by decide)).trans (val6_main_v1 V0)
theorem val7_main_v3 (V0 : Vals) : val7 V0 (no_index (Proc.devRef .tc main_v3)) = edgeRow1 (ei V0) :=
  (val7_keep V0 main_v3 (by decide)).trans (val6_main_v3 V0)

/-! ## Segment 8: the neighbourhood sums of the second layer's output and the third layer's linear map -/

theorem val7_main_arg9 (V0 : Vals) :
    val7 V0 (no_index (Proc.devRef .tc main_arg9)) = V0 (Proc.devRef .tc main_arg9) := val7_init V0 main_arg9 (by decide)
theorem val7_main_arg10 (V0 : Vals) :
    val7 V0 (no_index (Proc.devRef .tc main_arg10)) = V0 (Proc.devRef .tc main_arg10) := val7_init V0 main_arg10 (by decide)
theorem val7_main_arg11 (V0 : Vals) :
    val7 V0 (no_index (Proc.devRef .tc main_arg11)) = V0 (Proc.devRef .tc main_arg11) := val7_init V0 main_arg11 (by decide)

set_option maxRecDepth 8192 in
set_option maxHeartbeats 2000000 in
theorem val8_main_v91 (V0 : Vals) : val8 V0 (no_index (Proc.devRef .tc main_v91)) = lin₃ V0 := by
  unfold val8
  simp only [seg7]
  after_results_simp
  simp only [val7_main_v1, val7_main_v3, val7_main_v75, val7_main_arg9, val7_main_arg10, val7_main_arg11]
  rfl

end Cert.RefRun

end
-- ==== Proof.RefRunVal3.lean ====
/-
  The third layer, the pooling and the classifier of the reference network, read off the run.

  The last four segments of the program compute, from the third layer's linear map: its column means and variances; its
  centred array and the stabiliser; its normalisation, the third layer's output; and the mean pooling of that output over
  the graphs followed by the classifier's linear map, the program's result. The result is the reference network of the
  arguments.
-/
import proofs.«140440_j51049981280319_1_alg».proof.Proof.RefRunVal2

noncomputable section

namespace Cert.RefRun

open Cert.ReferenceIdeal Cert.ReferenceIdeal.Facts₀ Idealize.ShloMosaic Idealize.ShloMosaic.TcCoe Idealize.SL.Sem
  Idealize.ShloMosaic.StableHlo
open Cert.Network (edgeRow0 edgeRow1 aggregate lin refNorm Params pool refNet)

variable [Cert.KernelIdeal.Facts] [Cert.ReferenceIdeal.Facts]

/-- The third layer's output. -/
def h₃ (V0 : Vals) : FVec Ideal S50000x128 .f32 := refNorm (ei V0) (h₂ V0) (θ₃ V0)

/-- The reference network of the arguments, read off the launch contents. -/
def netOf (V0 : Vals) : FVec Ideal S1024x10 .f32 :=
  refNet (V0 (Proc.devRef .tc main_arg0)) (V0 (Proc.devRef .tc main_arg1)) (V0 (Proc.devRef .tc main_arg2))
    ⟨V0 (Proc.devRef .tc main_arg3), V0 (Proc.devRef .tc main_arg4), V0 (Proc.devRef .tc main_arg5),
      V0 (Proc.devRef .tc main_arg12), V0 (Proc.devRef .tc main_arg13)⟩
    ⟨V0 (Proc.devRef .tc main_arg6), V0 (Proc.devRef .tc main_arg7), V0 (Proc.devRef .tc main_arg8),
      V0 (Proc.devRef .tc main_arg14), V0 (Proc.devRef .tc main_arg15)⟩
    ⟨V0 (Proc.devRef .tc main_arg9), V0 (Proc.devRef .tc main_arg10), V0 (Proc.devRef .tc main_arg11),
      V0 (Proc.devRef .tc main_arg16), V0 (Proc.devRef .tc main_arg17)⟩
    (V0 (Proc.devRef .tc main_arg18)) (V0 (Proc.devRef .tc main_arg19))

/-- The network is the classifier of the pooled third layer's output. -/
theorem netOf_eq (V0 : Vals) :
    netOf V0 = Cert.Classifier.reference (pool (V0 (Proc.devRef .tc main_arg2)) (h₃ V0))
      (V0 (Proc.devRef .tc main_arg18)) (V0 (Proc.devRef .tc main_arg19)) := rfl

/-! ## Segment 9: the column means and variances -/

set_option maxRecDepth 8192 in
set_option maxHeartbeats 2000000 in
theorem val9_main_v94 (V0 : Vals) : val9 V0 (no_index (Proc.devRef .tc main_v94)) = Norm.mean (lin₃ V0) := by
  unfold val9
  simp only [seg8]
  after_results_simp
  simp only [val8_main_v91]
  rfl

set_option maxRecDepth 8192 in
set_option maxHeartbeats 2000000 in
theorem val9_main_v95 (V0 : Vals) :
    val9 V0 (no_index (Proc.devRef .tc main_v95)) = Norm.variance (lin₃ V0) (constantI S_ 32 0#32) := by
  unfold val9
  simp only [seg8]
  after_results_simp
  simp only [val8_main_v91]
  rfl

theorem val9_main_v91 (V0 : Vals) : val9 V0 (no_index (Proc.devRef .tc main_v91)) = lin₃ V0 :=
  (val9_keep V0 main_v91 (by decide)).trans (val8_main_v91 V0)

/-! ## Segment 10: the centred array and the stabiliser -/

set_option maxRecDepth 8192 in
theorem val10_main_v98 (V0 : Vals) :
    val10 V0 (no_index (Proc.devRef .tc main_v98)) = subf (lin₃ V0) (Norm.overRows (Norm.mean (lin₃ V0))) := by
  unfold val10
  simp only [seg9]
  after_results_simp
  simp only [val9_main_v91, val9_main_v94]
  rfl

set_option maxRecDepth 8192 in
theorem val10_main_cst_18 (V0 : Vals) : val10 V0 (no_index (Proc.devRef .tc main_cst_18)) = Norm.eps0 := by
  unfold val10
  simp only [seg9]
  after_results_simp
  rfl

theorem val10_main_v95 (V0 : Vals) :
    val10 V0 (no_index (Proc.devRef .tc main_v95)) = Norm.variance (lin₃ V0) (constantI S_ 32 0#32) :=
  (val10_keep V0 main_v95 (by decide)).trans (val9_main_v95 V0)

/-! ## Segment 11: the normalisation -/

theorem val10_main_arg16 (V0 : Vals) :
    val10 V0 (no_index (Proc.devRef .tc main_arg16)) = V0 (Proc.devRef .tc main_arg16) := val10_init V0 main_arg16 (by decide)
theorem val10_main_arg17 (V0 : Vals) :
    val10 V0 (no_index (Proc.devRef .tc main_arg17)) = V0 (Proc.devRef .tc main_arg17) := val10_init V0 main_arg17 (by decide)

set_option maxRecDepth 8192 in
set_option maxHeartbeats 2000000 in
theorem val11_main_v110 (V0 : Vals) : val11 V0 (no_index (Proc.devRef .tc main_v110)) = h₃ V0 := by
  unfold val11
  simp only [seg10]
  after_results_simp
  simp only [val10_main_v98, val10_main_cst_18, val10_main_v95, val10_main_arg16, val10_main_arg17]
  rfl

/-! ## Segment 12: the pooling and the classifier -/

theorem val11_main_arg2 (V0 : Vals) :
    val11 V0 (no_index (Proc.devRef .tc main_arg2)) = V0 (Proc.devRef .tc main_arg2) := val11_init V0 main_arg2 (by decide)
theorem val11_main_arg18 (V0 : Vals) :
    val11 V0 (no_index (Proc.devRef .tc main_arg18)) = V0 (Proc.devRef .tc main_arg18) := val11_init V0 main_arg18 (by decide)
theorem val11_main_arg19 (V0 : Vals) :
    val11 V0 (no_index (Proc.devRef .tc main_arg19)) = V0 (Proc.devRef .tc main_arg19) := val11_init V0 main_arg19 (by decide)

set_option maxRecDepth 8192 in
set_option maxHeartbeats 2000000 in
/-- The program's result buffer ends at the reference network of the arguments. -/
theorem val12_main_v126 (V0 : Vals) : val12 V0 (no_index (Proc.devRef .tc main_v126)) = netOf V0 := by
  rw [netOf_eq]
  unfold val12
  simp only [seg11]
  after_results_simp
  simp only [val11_main_v110, val11_main_arg2, val11_main_arg18, val11_main_arg19]
  rfl

end Cert.RefRun

end
-- ==== Proof.RefRunRuns.lean ====
/-
  The reference program's result is the reference network of its arguments.

  Every weakly fair execution terminates with each buffer at the fold of the program's operations over the launch
  contents; the fold is the contents after the twelfth segment; there the result buffer holds the reference network of
  the arguments, and the arguments, which no segment writes, are as launched.
-/
import proofs.«140440_j51049981280319_1_alg».proof.Proof.RefRunFrame
import proofs.«140440_j51049981280319_1_alg».proof.Proof.RefRunVal3
import proofs.«140440_j51049981280319_1_alg».proof.Proof.Reduction

noncomputable section

namespace Cert.RefRun

open Cert.ReferenceIdeal Idealize.ShloMosaic Idealize.ShloMosaic.TcCoe Idealize.SL.Sem Idealize.ShloMosaic.StableHlo

variable [Cert.KernelIdeal.Facts] [Cert.ReferenceIdeal.Facts] [Cert.Pre_finite_inputs.Facts]

/-- The network read off the launch contents of a memory is the network of that memory's argument arrays. -/
theorem netOf_launch (m : (ℓ : Loc nD τ sig) → Buf (Elt Ideal) ℓ) (c : Dev nD) :
    netOf (launchContents m c) = Cert.Reduction.refOut m c := rfl

set_option maxRecDepth 8192 in
/-- Every execution of the reference program terminates with the result at the reference network of the launch
    arguments and the twenty arguments as launched. -/
theorem runs : Cert.Reduction.ReferenceRuns := by
  intro m g
  refine (θ_run (Cert.ReferenceIdeal.defs (F := Ideal)) _ _).mono (fun r h c => ?_) (run_after (F := Ideal) m g)
  have e := ends_as_launched m c r.2.mem (h c)
  refine ⟨(h c main_v126).trans ?_, e main_arg0 (by decide), e main_arg1 (by decide), e main_arg2 (by decide),
    e main_arg3 (by decide), e main_arg4 (by decide), e main_arg5 (by decide), e main_arg6 (by decide),
    e main_arg7 (by decide), e main_arg8 (by decide), e main_arg9 (by decide), e main_arg10 (by decide),
    e main_arg11 (by decide), e main_arg12 (by decide), e main_arg13 (by decide), e main_arg14 (by decide),
    e main_arg15 (by decide), e main_arg16 (by decide), e main_arg17 (by decide), e main_arg18 (by decide),
    e main_arg19 (by decide)⟩
  rw [after_ops]
  exact (val12_main_v126 (launchContents m c)).trans (netOf_launch m c)

end Cert.RefRun

end
-- ==== Proof.RefRun.lean ====
/-
  The reference program's run, assembled: it terminates on every execution and leaves its arguments as launched
  (`frame`, in RefRunFrame), and its result buffer ends at the reference network of the launch arguments (`runs`, in
  RefRunRuns, over the three layers' values of RefRunVal1, RefRunVal2, RefRunVal3).
-/
import proofs.«140440_j51049981280319_1_alg».proof.Proof.RefRunFrame
import proofs.«140440_j51049981280319_1_alg».proof.Proof.RefRunRuns
-- ==== Proof.lean ====
/-
  A three-layer graph network with batch normalisation, mean pooling and a classifier: the kernel against its reference.

  Each layer gathers the node features at the edges' sources, adds them up at the destinations, applies
  `h · w_root + agg · w_rel + b` and normalises every column over the 50000 nodes. The reference normalises by the
  textbook centred form `(x - μ) · rsqrt (v + ε) · γ + β`, `v` the mean of the squared centred values. The kernel's first
  region of a layer computes the linear map tile by tile and accumulates, over the ten tiles, each column's sum and sum
  of squares; the host turns them into the mean, the variance by moments `Q/N - μ²`, and one scale `γ · rsqrt (… + ε)`
  and one shift `β - μ · scale` per column; the second region computes `x · scale + shift`. On the extended reals the
  two agree where the data are finite: then the two variances are one nonnegative real, `rsqrt` of it plus `ε` is a
  real, and the folded and the centred forms differ by ring laws (`BatchNormAlgebra`). Finiteness is carried from layer
  to layer (`FiniteArrays`), and comes at the start from the precondition (`Cert.PreFinite`). Pooling and the classifier
  are the same functions in both programs (`Cert.Classifier`). `Cert.Network` states the two whole networks equal on
  real-valued inputs, and `Cert.Reduction.algebraic_of_runs` derives the value claim from the two programs' runs.

  The runs: the kernel's @main is seven stretches of host operations and seven regions, run as fourteen segments whose
  boundary contents are folded from the launch memory (`Cert.KernelIdeal.Hand`, `Cert.Kernel.Hand`); no step writes an
  argument, and at the end the result buffer holds `Cert.Network.kerNet` of the arguments. The reference's @main is a
  straight line of host operations whose fold at the result is `Cert.Network.refNet` of the arguments (`Cert.RefRun`).
  The ideal pass rewrote nothing, so there is nothing to preserve.
-/
import proofs.«140440_j51049981280319_1_alg».proof.Defs
import proofs.«140440_j51049981280319_1_alg».proof.Proof.Gen.Kernel
import proofs.«140440_j51049981280319_1_alg».proof.Proof.Gen.Kernel.Skeleton
import proofs.«140440_j51049981280319_1_alg».proof.Proof.Gen.Kernel.Launch
import proofs.«140440_j51049981280319_1_alg».proof.Proof.Gen.Kernel.Regions
import proofs.«140440_j51049981280319_1_alg».proof.Proof.Gen.Kernel.Points
import proofs.«140440_j51049981280319_1_alg».proof.Proof.Gen.KernelIdeal
import proofs.«140440_j51049981280319_1_alg».proof.Proof.Gen.KernelIdeal.Skeleton
import proofs.«140440_j51049981280319_1_alg».proof.Proof.Gen.KernelIdeal.Launch
import proofs.«140440_j51049981280319_1_alg».proof.Proof.Gen.KernelIdeal.Regions
import proofs.«140440_j51049981280319_1_alg».proof.Proof.Gen.KernelIdeal.Points
import proofs.«140440_j51049981280319_1_alg».proof.Proof.Gen.ReferenceIdeal
import proofs.«140440_j51049981280319_1_alg».proof.Proof.Gen.Pre_finite_inputs
import proofs.«140440_j51049981280319_1_alg».proof.Proof.Reduction
import proofs.«140440_j51049981280319_1_alg».proof.Proof.KerLinear
import proofs.«140440_j51049981280319_1_alg».proof.Proof.Tiles
import proofs.«140440_j51049981280319_1_alg».proof.Proof.KFrame
import proofs.«140440_j51049981280319_1_alg».proof.Proof.KIRuns
import proofs.«140440_j51049981280319_1_alg».proof.Proof.RefRun
import Idealize.ShloMosaic.Adequacy
import Idealize.ShloMosaic.Init

noncomputable section

namespace Cert.Proof

open Idealize.ShloMosaic Idealize.SL.Sem

/-- The ideal pass rewrote no operation of the kernel: the idealization is the kernel's own text read on the extended
    reals, and the ledger of rewrites to justify is empty. -/
theorem preserves : Cert.preserves_Kernel_KernelIdeal := trivial

/-- The kernel as printed runs to the end and leaves its arguments unchanged. -/
theorem frame_kernel : Cert.frame_Kernel := fun m ρ _ => Cert.Kernel.Hand.frame m ρ

/-- The idealized kernel runs to the end and leaves its arguments unchanged. -/
theorem frame_kernelIdeal : Cert.frame_KernelIdeal := fun m ρ _ => Cert.KernelIdeal.Hand.frame m ρ

/-- The idealized reference runs to the end and leaves its arguments unchanged. -/
theorem frame_referenceIdeal : Cert.frame_ReferenceIdeal := Cert.RefRun.frame

/-- The two idealized programs end with equal results: from the two runs, the precondition's finiteness and the
    equality of the two networks on finite data. -/
theorem algebraic : Cert.algebraic_KernelIdeal_ReferenceIdeal :=
  Cert.Reduction.algebraic_of_runs Cert.KernelIdeal.Hand.kernel_runs Cert.RefRun.runs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
